-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S2x160000 : Shape := ⟨2, ![2, 160000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg7 : FVec F S64x3 .f32) (main_arg8 : FVec F S3 .f32) (main_arg9 : IVec S2x160000 32) (main_v33 : IVec S_ 1) : IVec S_ 1 :=
  let main_v34 : FVec F S64x3 .f32 := Host.absf main_arg7
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_c_16 : IVec S_ 32 := constantI S_ 32 0#32
  let main_v44 : IVec S2x160000 32 := broadcastInDim S2x160000 ![] bcast_S_S2x160000 main_c_16
  let main_v45 : IVec S2x160000 1 := cmpi .sge main_arg9 main_v44
  let main_c_17 : IVec S_ 32 := constantI S_ 32 10000#32
  let main_v46 : IVec S2x160000 32 := broadcastInDim S2x160000 ![] bcast_S_S2x160000 main_c_17
  let main_v47 : IVec S2x160000 1 := cmpi .slt main_arg9 main_v46
  let main_v48 : IVec S2x160000 1 := andi main_v45 main_v47
  let main_c_18 : IVec S_ 1 := constantI S_ 1 1#1
  let main_v49 : IVec S_ 1 := (fun x v => Host.reduce IntOp.andi x v reducesTo_S2x160000_S_d0_1 h_S_) main_v48 main_c_18
  let main_v50 : IVec S_ 1 := andi main_v43 main_v49
  main_v50

def fn_part1 {F : FTy → Type} [FloatOps F] (main_arg4 : FVec F S256 .f32) (main_arg5 : FVec F S256x64 .f32) (main_arg6 : FVec F S64 .f32) (main_arg7 : FVec F S64x3 .f32) (main_arg8 : FVec F S3 .f32) (main_arg9 : IVec S2x160000 32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S128x512 .f32) (main_arg2 : FVec F S512 .f32) (main_arg3 : FVec F S512x256 .f32) (main_arg4 : FVec F S256 .f32) (main_arg5 : FVec F S256x64 .f32) (main_arg6 : FVec F S64 .f32) (main_arg7 : FVec F S64x3 .f32) (main_arg8 : FVec F S3 .f32) (main_arg9 : IVec S2x160000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S2x160000 : Shape := ⟨2, ![2, 160000]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S10240x128 : Shape := ⟨2, ![10240, 128]⟩
abbrev S1 : Shape := ⟨1, ![1]⟩
abbrev S10240x512 : Shape := ⟨2, ![10240, 512]⟩
abbrev S1280x128 : Shape := ⟨2, ![1280, 128]⟩
abbrev S1280x512 : Shape := ⟨2, ![1280, 512]⟩
abbrev S1x512 : Shape := ⟨2, ![1, 512]⟩
abbrev S1280x1280 : Shape := ⟨2, ![1280, 1280]⟩
abbrev S10240x256 : Shape := ⟨2, ![10240, 256]⟩
abbrev S1280x256 : Shape := ⟨2, ![1280, 256]⟩
abbrev S1x256 : Shape := ⟨2, ![1, 256]⟩
abbrev S10240x64 : Shape := ⟨2, ![10240, 64]⟩
abbrev S1280x64 : Shape := ⟨2, ![1280, 64]⟩
abbrev S1x64 : Shape := ⟨2, ![1, 64]⟩
abbrev S1x3 : Shape := ⟨2, ![1, 3]⟩
abbrev S10240x3 : Shape := ⟨2, ![10240, 3]⟩
abbrev S1280x3 : Shape := ⟨2, ![1280, 3]⟩
abbrev S10000x3 : Shape := ⟨2, ![10000, 3]⟩

abbrev nBuf : Space → Nat
  | .hbm => 88
  | .vmem => 45
  | .smem => 0
  | _ => 0

abbrev bufTy : (tb : Table) → Fin (tcTables nBuf tb) → BufTy
  | .hbm, ⟨0, _⟩ => ⟨S10000x128, .f32⟩
  | .hbm, ⟨1, _⟩ => ⟨S128x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x3, .f32⟩
  | .hbm, ⟨8, _⟩ => ⟨S3, .f32⟩
  | .hbm, ⟨9, _⟩ => ⟨S2x160000, .i32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S10000, .i32⟩
  | .hbm, ⟨15, _⟩ => ⟨S170000, .i32⟩
  | .hbm, ⟨16, _⟩ => ⟨S170000, .i32⟩
  | .hbm, ⟨17, _⟩ => ⟨S_, .f32⟩
  | .hbm, ⟨18, _⟩ => ⟨S170000, .f32⟩
  | .hbm, ⟨19, _⟩ => ⟨S_, .f32⟩
  | .hbm, ⟨20, _⟩ => ⟨S10000, .f32⟩
  | .hbm, ⟨21, _⟩ => ⟨S170000x1, .i32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .i1⟩
  | .hbm, ⟨26, _⟩ => ⟨S10000, .f32⟩
  | .hbm, ⟨27, _⟩ => ⟨S_, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .i32⟩
  | .hbm, ⟨32, _⟩ => ⟨S170000, .i32⟩
  | .hbm, ⟨33, _⟩ => ⟨S170000, .i1⟩
  | .hbm, ⟨34, _⟩ => ⟨S_, .i32⟩
  | .hbm, ⟨35, _⟩ => ⟨S170000, .i32⟩
  | .hbm, ⟨36, _⟩ => ⟨S170000, .i32⟩
  | .hbm, ⟨37, _⟩ => ⟨S170000, .i32⟩
  | .hbm, ⟨38, _⟩ => ⟨S170000x1, .i32⟩
  | .hbm, ⟨39, _⟩ => ⟨S170000, .f32⟩
  | .hbm, ⟨40, _⟩ => ⟨S_, .i32⟩
  | .hbm, ⟨41, _⟩ => ⟨S170000, .i32⟩
  | .hbm, ⟨42, _⟩ => ⟨S170000, .i1⟩
  | .hbm, ⟨43, _⟩ => ⟨S_, .i32⟩
  | .hbm, ⟨44, _⟩ => ⟨S170000, .i32⟩
  | .hbm, ⟨45, _⟩ => ⟨S170000, .i32⟩
  | .hbm, ⟨46, _⟩ => ⟨S170000, .i32⟩
  | .hbm, ⟨47, _⟩ => ⟨S170000x1, .i32⟩
  | .hbm, ⟨48, _⟩ => ⟨S170000, .f32⟩
  | .hbm, ⟨49, _⟩ => ⟨S170000, .f32⟩
  | .hbm, ⟨50, _⟩ => ⟨S_, .f32⟩
  | .hbm, ⟨51, _⟩ => ⟨S10240x10240, .f32⟩
  | .hbm, ⟨52, _⟩ => ⟨S_, .i32⟩
  | .hbm, ⟨53, _⟩ => ⟨S170000, .i32⟩
  | .hbm, ⟨54, _⟩ => ⟨S170000, .i1⟩
  | .hbm, ⟨55, _⟩ => ⟨S_, .i32⟩
  | .hbm, ⟨56, _⟩ => ⟨S170000, .i32⟩
  | .hbm, ⟨57, _⟩ => ⟨S170000, .i32⟩
  | .hbm, ⟨58, _⟩ => ⟨S170000, .i32⟩
  | .hbm, ⟨59, _⟩ => ⟨S_, .i32⟩
  | .hbm, ⟨60, _⟩ => ⟨S170000, .i32⟩
  | .hbm, ⟨61, _⟩ => ⟨S170000, .i1⟩
  | .hbm, ⟨62, _⟩ => ⟨S_, .i32⟩
  | .hbm, ⟨63, _⟩ => ⟨S170000, .i32⟩
  | .hbm, ⟨64, _⟩ => ⟨S170000, .i32⟩
  | .hbm, ⟨65, _⟩ => ⟨S170000, .i32⟩
  | .hbm, ⟨66, _⟩ => ⟨S170000x1, .i32⟩
  | .hbm, ⟨67, _⟩ => ⟨S170000x1, .i32⟩
  | .hbm, ⟨68, _⟩ => ⟨S170000x2, .i32⟩
  | .hbm, ⟨69, _⟩ => ⟨S10240x10240, .f32⟩
  | .hbm, ⟨70, _⟩ => ⟨S10240x10240, .bf16⟩
  | .hbm, ⟨71, _⟩ => ⟨S_, .f32⟩
  | .hbm, ⟨72, _⟩ => ⟨S10240x128, .f32⟩
  | .hbm, ⟨73, _⟩ => ⟨S_, .i32⟩
  | .hbm, ⟨74, _⟩ => ⟨S1, .i32⟩
  | .hbm, ⟨75, _⟩ => ⟨S10240x128, .f32⟩
  | .hbm, ⟨76, _⟩ => ⟨S10240x512, .f32⟩
  | .hbm, ⟨77, _⟩ => ⟨S1x512, .f32⟩
  | .hbm, ⟨78, _⟩ => ⟨S10240x512, .f32⟩
  | .hbm, ⟨79, _⟩ => ⟨S10240x256, .f32⟩
  | .hbm, ⟨80, _⟩ => ⟨S1x256, .f32⟩
  | .hbm, ⟨81, _⟩ => ⟨S10240x256, .f32⟩
  | .hbm, ⟨82, _⟩ => ⟨S10240x64, .f32⟩
  | .hbm, ⟨83, _⟩ => ⟨S1x64, .f32⟩
  | .hbm, ⟨84, _⟩ => ⟨S10240x64, .f32⟩
  | .hbm, ⟨85, _⟩ => ⟨S1x3, .f32⟩
  | .hbm, ⟨86, _⟩ => ⟨S10240x3, .f32⟩
  | .hbm, ⟨87, _⟩ => ⟨S10000x3, .f32⟩
  | .local _ .vmem, ⟨0, _⟩ => ⟨S1280x128, .f32⟩
  | .local _ .vmem, ⟨1, _⟩ => ⟨S1280x128, .f32⟩
  | .local _ .vmem, ⟨2, _⟩ => ⟨S128x512, .f32⟩
  | .local _ .vmem, ⟨3, _⟩ => ⟨S1280x512, .f32⟩
  | .local _ .vmem, ⟨4, _⟩ => ⟨S1280x512, .f32⟩
  | .local _ .vmem, ⟨5, _⟩ => ⟨S1280x1280, .bf16⟩
  | .local _ .vmem, ⟨6, _⟩ => ⟨S1280x1280, .bf16⟩
  | .local _ .vmem, ⟨7, _⟩ => ⟨S1280x512, .f32⟩
  | .local _ .vmem, ⟨8, _⟩ => ⟨S1280x512, .f32⟩
  | .local _ .vmem, ⟨9, _⟩ => ⟨S1x512, .f32⟩
  | .local _ .vmem, ⟨10, _⟩ => ⟨S1280x512, .f32⟩
  | .local _ .vmem, ⟨11, _⟩ => ⟨S1280x512, .f32⟩
  | .local _ .vmem, ⟨12, _⟩ => ⟨S1280x512, .f32⟩
  | .local _ .vmem, ⟨13, _⟩ => ⟨S1280x512, .f32⟩
  | .local _ .vmem, ⟨14, _⟩ => ⟨S1280x512, .f32⟩
  | .local _ .vmem, ⟨15, _⟩ => ⟨S512x256, .f32⟩
  | .local _ .vmem, ⟨16, _⟩ => ⟨S1280x256, .f32⟩
  | .local _ .vmem, ⟨17, _⟩ => ⟨S1280x256, .f32⟩
  | .local _ .vmem, ⟨18, _⟩ => ⟨S1280x1280, .bf16⟩
  | .local _ .vmem, ⟨19, _⟩ => ⟨S1280x1280, .bf16⟩
  | .local _ .vmem, ⟨20, _⟩ => ⟨S1280x256, .f32⟩
  | .local _ .vmem, ⟨21, _⟩ => ⟨S1280x256, .f32⟩
  | .local _ .vmem, ⟨22, _⟩ => ⟨S1x256, .f32⟩
  | .local _ .vmem, ⟨23, _⟩ => ⟨S1280x256, .f32⟩
  | .local _ .vmem, ⟨24, _⟩ => ⟨S1280x256, .f32⟩
  | .local _ .vmem, ⟨25, _⟩ => ⟨S1280x256, .f32⟩
  | .local _ .vmem, ⟨26, _⟩ => ⟨S1280x256, .f32⟩
  | .local _ .vmem, ⟨27, _⟩ => ⟨S1280x256, .f32⟩
  | .local _ .vmem, ⟨28, _⟩ => ⟨S256x64, .f32⟩
  | .local _ .vmem, ⟨29, _⟩ => ⟨S1280x64, .f32⟩
  | .local _ .vmem, ⟨30, _⟩ => ⟨S1280x64, .f32⟩
  | .local _ .vmem, ⟨31, _⟩ => ⟨S1280x1280, .bf16⟩
  | .local _ .vmem, ⟨32, _⟩ => ⟨S1280x1280, .bf16⟩
  | .local _ .vmem, ⟨33, _⟩ => ⟨S1280x64, .f32⟩
  | .local _ .vmem, ⟨34, _⟩ => ⟨S1280x64, .f32⟩
  | .local _ .vmem, ⟨35, _⟩ => ⟨S1x64, .f32⟩
  | .local _ .vmem, ⟨36, _⟩ => ⟨S1280x64, .f32⟩
  | .local _ .vmem, ⟨37, _⟩ => ⟨S1280x64, .f32⟩
  | .local _ .vmem, ⟨38, _⟩ => ⟨S1280x64, .f32⟩
  | .local _ .vmem, ⟨39, _⟩ => ⟨S1280x64, .f32⟩
  | .local _ .vmem, ⟨40, _⟩ => ⟨S1280x64, .f32⟩
  | .local _ .vmem, ⟨41, _⟩ => ⟨S64x3, .f32⟩
  | .local _ .vmem, ⟨42, _⟩ => ⟨S1x3, .f32⟩
  | .local _ .vmem, ⟨43, _⟩ => ⟨S1280x3, .f32⟩
  | .local _ .vmem, ⟨44, _⟩ => ⟨S1280x3, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1280x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1280x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1280x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1280x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1280x1280 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1280x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1280x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1280x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1280x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 8], ![false, false]⟩

def k5_cond2 (i : grid5.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1280x1280 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1280x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1280x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1280x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x3 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x3 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1280x3 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S_S10240x10240 : S_.BroadcastsInDim S10240x10240 (![] : Fin 0 → Fin S10240x10240.rank)
  concatenates_S170000x1_S170000x1_S170000x2_d1 : Shape.Concatenates [S170000x1, S170000x1] S170000x2 1
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S128x512_S128x512_0_0 : ∀ a, (![0, 0] : Fin 2 → Nat) a + S128x512.size a ≤ S128x512.size a
  h_S128x512 : 0 < S128x512.numel
  inb_S1280x512_S1280x512_0_0 : ∀ a, (![0, 0] : Fin 2 → Nat) a + S1280x512.size a ≤ S1280x512.size a
  h_S1280x512 : 0 < S1280x512.numel
  shapeCasts_S512_S1x512 : S512.ShapeCasts S1x512
  shapeCasts_S1280x512_S1280x512 : S1280x512.ShapeCasts S1280x512
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1280x512 : S1x512.Broadcasts S1280x512
  inb_S512x256_S512x256_0_0 : ∀ a, (![0, 0] : Fin 2 → Nat) a + S512x256.size a ≤ S512x256.size a
  h_S512x256 : 0 < S512x256.numel
  inb_S1280x256_S1280x256_0_0 : ∀ a, (![0, 0] : Fin 2 → Nat) a + S1280x256.size a ≤ S1280x256.size a
  h_S1280x256 : 0 < S1280x256.numel
  shapeCasts_S256_S1x256 : S256.ShapeCasts S1x256
  shapeCasts_S1280x256_S1280x256 : S1280x256.ShapeCasts S1280x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1280x256 : S1x256.Broadcasts S1280x256
  inb_S256x64_S256x64_0_0 : ∀ a, (![0, 0] : Fin 2 → Nat) a + S256x64.size a ≤ S256x64.size a
  h_S256x64 : 0 < S256x64.numel
  inb_S1280x64_S1280x64_0_0 : ∀ a, (![0, 0] : Fin 2 → Nat) a + S1280x64.size a ≤ S1280x64.size a
  h_S1280x64 : 0 < S1280x64.numel
  shapeCasts_S64_S1x64 : S64.ShapeCasts S1x64
  shapeCasts_S1280x64_S1280x64 : S1280x64.ShapeCasts S1280x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1280x64 : S1x64.Broadcasts S1280x64
  shapeCasts_S3_S1x3 : S3.ShapeCasts S1x3
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1280x3 : S1x3.Broadcasts S1280x3
  inb_S1280x3_S1280x3_0_0 : ∀ a, (![0, 0] : Fin 2 → Nat) a + S1280x3.size a ≤ S1280x3.size a
  h_S1280x3 : 0 < S1280x3.numel
  slices_S10240x3_S10000x3_0_0 : S10240x3.Slices ![0, 0] S10000x3
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  scatter_S10240x128_S1_S10000x128_01_n_0_0_wf : ScatterDims.WF S10240x128 S1 S10000x128 [0, 1] [] [0] 0
  dot_S1280x128_S128x512_S1280x512_1_0_0_1_n_n_wf : DotDims.WF S1280x128 S128x512 S1280x512 [1] [0] [0] [1] [] []
  dot_S1280x1280_S1280x512_S1280x512_1_0_0_1_n_n_wf : DotDims.WF S1280x1280 S1280x512 S1280x512 [1] [0] [0] [1] [] []
  dot_S1280x512_S512x256_S1280x256_1_0_0_1_n_n_wf : DotDims.WF S1280x512 S512x256 S1280x256 [1] [0] [0] [1] [] []
  dot_S1280x1280_S1280x256_S1280x256_1_0_0_1_n_n_wf : DotDims.WF S1280x1280 S1280x256 S1280x256 [1] [0] [0] [1] [] []
  dot_S1280x256_S256x64_S1280x64_1_0_0_1_n_n_wf : DotDims.WF S1280x256 S256x64 S1280x64 [1] [0] [0] [1] [] []
  dot_S1280x1280_S1280x64_S1280x64_1_0_0_1_n_n_wf : DotDims.WF S1280x1280 S1280x64 S1280x64 [1] [0] [0] [1] [] []
  dot_S1280x64_S64x3_S1280x3_1_0_0_1_n_n_wf : DotDims.WF S1280x64 S64x3 S1280x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S10240x128.size a
  hwx0_0 : ∀ i : grid0.Coords, EltTy.bits .f32 = 32 ∨ (Rect.block (s := S10240x128) S1280x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x512.size a ≤ S10240x512.size a
  hwx0_2 : ∀ i : grid0.Coords, EltTy.bits .f32 = 32 ∨ (Rect.block (s := S10240x512) S1280x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x1280.size a ≤ S10240x10240.size a
  hwx1_0 : ∀ i : grid1.Coords, EltTy.bits .bf16 = 32 ∨ (Rect.block (s := S10240x10240) S1280x1280.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x512.size a ≤ S10240x512.size a
  hwx1_1 : ∀ i : grid1.Coords, EltTy.bits .f32 = 32 ∨ (Rect.block (s := S10240x512) S1280x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x512.size a ≤ S10240x512.size a
  hwx1_3 : ∀ i : grid1.Coords, EltTy.bits .f32 = 32 ∨ (Rect.block (s := S10240x512) S1280x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x512.size a ≤ S10240x512.size a
  hwx2_0 : ∀ i : grid2.Coords, EltTy.bits .f32 = 32 ∨ (Rect.block (s := S10240x512) S1280x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1280x256.size a ≤ S10240x256.size a
  hwx2_2 : ∀ i : grid2.Coords, EltTy.bits .f32 = 32 ∨ (Rect.block (s := S10240x256) S1280x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1280x1280.size a ≤ S10240x10240.size a
  hwx3_0 : ∀ i : grid3.Coords, EltTy.bits .bf16 = 32 ∨ (Rect.block (s := S10240x10240) S1280x1280.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x256.size a ≤ S10240x256.size a
  hwx3_1 : ∀ i : grid3.Coords, EltTy.bits .f32 = 32 ∨ (Rect.block (s := S10240x256) S1280x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1280x256.size a ≤ S10240x256.size a
  hwx3_3 : ∀ i : grid3.Coords, EltTy.bits .f32 = 32 ∨ (Rect.block (s := S10240x256) S1280x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x256.size a ≤ S10240x256.size a
  hwx4_0 : ∀ i : grid4.Coords, EltTy.bits .f32 = 32 ∨ (Rect.block (s := S10240x256) S1280x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .f32 = 32 ∨ (Rect.block (s := S256x64) S256x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1280x64.size a ≤ S10240x64.size a
  hwx4_2 : ∀ i : grid4.Coords, EltTy.bits .f32 = 32 ∨ (Rect.block (s := S10240x64) S1280x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1280x1280.size a ≤ S10240x10240.size a
  hwx5_0 : ∀ i : grid5.Coords, EltTy.bits .bf16 = 32 ∨ (Rect.block (s := S10240x10240) S1280x1280.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1280x64.size a ≤ S10240x64.size a
  hwx5_1 : ∀ i : grid5.Coords, EltTy.bits .f32 = 32 ∨ (Rect.block (s := S10240x64) S1280x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1280x64.size a ≤ S10240x64.size a
  hwx5_3 : ∀ i : grid5.Coords, EltTy.bits .f32 = 32 ∨ (Rect.block (s := S10240x64) S1280x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1280x64.size a ≤ S10240x64.size a
  hwx6_0 : ∀ i : grid6.Coords, EltTy.bits .f32 = 32 ∨ (Rect.block (s := S10240x64) S1280x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x3.size a ≤ S64x3.size a
  hwx6_1 : ∀ i : grid6.Coords, EltTy.bits .f32 = 32 ∨ (Rect.block (s := S64x3) S64x3.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x3.size a ≤ S1x3.size a
  hwx6_2 : ∀ i : grid6.Coords, EltTy.bits .f32 = 32 ∨ (Rect.block (s := S1x3) S1x3.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1280x3.size a ≤ S10240x3.size a
  hwx6_3 : ∀ i : grid6.Coords, EltTy.bits .f32 = 32 ∨ (Rect.block (s := S10240x3) S1280x3.size (cc6_transform_3 i) (hinb6_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S1280x128_S128x512_S1280x512_1_0_0_1_n_n : DotDims S1280x128 S128x512 S1280x512 where
  lhsContracting := [1]
  rhsContracting := [0]
  lhsNonContracting := [0]
  rhsNonContracting := [1]
  lhsBatch := []
  rhsBatch := []
  wf := dot_S1280x128_S128x512_S1280x512_1_0_0_1_n_n_wf
def dot_S1280x1280_S1280x512_S1280x512_1_0_0_1_n_n : DotDims S1280x1280 S1280x512 S1280x512 where
  lhsContracting := [1]
  rhsContracting := [0]
  lhsNonContracting := [0]
  rhsNonContracting := [1]
  lhsBatch := []
  rhsBatch := []
  wf := dot_S1280x1280_S1280x512_S1280x512_1_0_0_1_n_n_wf
def dot_S1280x512_S512x256_S1280x256_1_0_0_1_n_n : DotDims S1280x512 S512x256 S1280x256 where
  lhsContracting := [1]
  rhsContracting := [0]
  lhsNonContracting := [0]
  rhsNonContracting := [1]
  lhsBatch := []
  rhsBatch := []
  wf := dot_S1280x512_S512x256_S1280x256_1_0_0_1_n_n_wf
def dot_S1280x1280_S1280x256_S1280x256_1_0_0_1_n_n : DotDims S1280x1280 S1280x256 S1280x256 where
  lhsContracting := [1]
  rhsContracting := [0]
  lhsNonContracting := [0]
  rhsNonContracting := [1]
  lhsBatch := []
  rhsBatch := []
  wf := dot_S1280x1280_S1280x256_S1280x256_1_0_0_1_n_n_wf
def dot_S1280x256_S256x64_S1280x64_1_0_0_1_n_n : DotDims S1280x256 S256x64 S1280x64 where
  lhsContracting := [1]
  rhsContracting := [0]
  lhsNonContracting := [0]
  rhsNonContracting := [1]
  lhsBatch := []
  rhsBatch := []
  wf := dot_S1280x256_S256x64_S1280x64_1_0_0_1_n_n_wf
def dot_S1280x1280_S1280x64_S1280x64_1_0_0_1_n_n : DotDims S1280x1280 S1280x64 S1280x64 where
  lhsContracting := [1]
  rhsContracting := [0]
  lhsNonContracting := [0]
  rhsNonContracting := [1]
  lhsBatch := []
  rhsBatch := []
  wf := dot_S1280x1280_S1280x64_S1280x64_1_0_0_1_n_n_wf
def dot_S1280x64_S64x3_S1280x3_1_0_0_1_n_n : DotDims S1280x64 S64x3 S1280x3 where
  lhsContracting := [1]
  rhsContracting := [0]
  lhsNonContracting := [0]
  rhsNonContracting := [1]
  lhsBatch := []
  rhsBatch := []
  wf := dot_S1280x64_S64x3_S1280x3_1_0_0_1_n_n_wf

abbrev win0_0 : Pipeline.Window sig grid0 :=
  Pipeline.Window.ofSpec (Memref.whole main_v48) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1280x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1280x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1280x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1280x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v51) S1280x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1280x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S1280x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1280x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1280x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v54) S1280x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1280x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S1280x1280.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S1280x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1280x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v57) S1280x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x3.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v58) S1x3.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v59) S1280x3.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S10000x128 : Shape := ⟨2, ![10000, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S2x160000 : Shape := ⟨2, ![2, 160000]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S10000x512 : Shape := ⟨2, ![10000, 512]⟩
abbrev S_ : Shape := ⟨0, ![]⟩
abbrev S170000x1 : Shape := ⟨2, ![170000, 1]⟩
abbrev S170000x512 : Shape := ⟨2, ![170000, 512]⟩
abbrev S1x512 : Shape := ⟨2, ![1, 512]⟩
abbrev S10000x256 : Shape := ⟨2, ![10000, 256]⟩
abbrev S170000x256 : Shape := ⟨2, ![170000, 256]⟩
abbrev S1x256 : Shape := ⟨2, ![1, 256]⟩
abbrev S10000x64 : Shape := ⟨2, ![10000, 64]⟩
abbrev S170000x64 : Shape := ⟨2, ![170000, 64]⟩
abbrev S1x64 : Shape := ⟨2, ![1, 64]⟩
abbrev S10000x3 : Shape := ⟨2, ![10000, 3]⟩
abbrev S1x3 : Shape := ⟨2, ![1, 3]⟩

abbrev nBuf : Space → Nat
  | .hbm => 195
  | .vmem => 0
  | .smem => 0
  | _ => 0

abbrev hbmTy0_0 (i : Nat) : BufTy := match i % 128 with
  | 0 => ⟨S10000x128, .f32⟩
  | 1 => ⟨S128x512, .f32⟩
  | 2 => ⟨S512, .f32⟩
  | 3 => ⟨S512x256, .f32⟩
  | 4 => ⟨S256, .f32⟩
  | 5 => ⟨S256x64, .f32⟩
  | 6 => ⟨S64, .f32⟩
  | 7 => ⟨S64x3, .f32⟩
  | 8 => ⟨S3, .f32⟩
  | 9 => ⟨S2x160000, .i32⟩
  | 10 => ⟨S1x160000, .i32⟩
  | 11 => ⟨S160000, .i32⟩
  | 12 => ⟨S1x160000, .i32⟩
  | 13 => ⟨S160000, .i32⟩
  | 14 => ⟨S10000, .i32⟩
  | 15 => ⟨S170000, .i32⟩
  | 16 => ⟨S170000, .i32⟩
  | 17 => ⟨S10000x512, .f32⟩
  | 18 => ⟨S_, .f32⟩
  | 19 => ⟨S170000, .f32⟩
  | 20 => ⟨S_, .f32⟩
  | 21 => ⟨S10000, .f32⟩
  | 22 => ⟨S170000x1, .i32⟩
  | 23 => ⟨S10000, .f32⟩
  | 24 => ⟨S_, .f32⟩
  | 25 => ⟨S10000, .f32⟩
  | 26 => ⟨S10000, .i1⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S170000, .i32⟩
  | 34 => ⟨S170000, .i1⟩
  | 35 => ⟨S_, .i32⟩
  | 36 => ⟨S170000, .i32⟩
  | 37 => ⟨S170000, .i32⟩
  | 38 => ⟨S170000, .i32⟩
  | 39 => ⟨S170000x1, .i32⟩
  | 40 => ⟨S170000, .f32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000, .f32⟩
  | 50 => ⟨S170000, .f32⟩
  | 51 => ⟨S_, .i32⟩
  | 52 => ⟨S170000, .i32⟩
  | 53 => ⟨S170000, .i1⟩
  | 54 => ⟨S_, .i32⟩
  | 55 => ⟨S170000, .i32⟩
  | 56 => ⟨S170000, .i32⟩
  | 57 => ⟨S170000, .i32⟩
  | 58 => ⟨S170000x1, .i32⟩
  | 59 => ⟨S170000x512, .f32⟩
  | 60 => ⟨S170000x1, .f32⟩
  | 61 => ⟨S170000x512, .f32⟩
  | 62 => ⟨S170000x512, .f32⟩
  | 63 => ⟨S_, .f32⟩
  | 64 => ⟨S10000x512, .f32⟩
  | 65 => ⟨S170000x1, .i32⟩
  | 66 => ⟨S10000x512, .f32⟩
  | 67 => ⟨S1x512, .f32⟩
  | 68 => ⟨S10000x512, .f32⟩
  | 69 => ⟨S10000x512, .f32⟩
  | 70 => ⟨S_, .f32⟩
  | 71 => ⟨S10000x512, .f32⟩
  | 72 => ⟨S10000x512, .f32⟩
  | 73 => ⟨S10000, .i32⟩
  | 74 => ⟨S170000, .i32⟩
  | 75 => ⟨S170000, .i32⟩
  | 76 => ⟨S10000x256, .f32⟩
  | 77 => ⟨S_, .f32⟩
  | 78 => ⟨S170000, .f32⟩
  | 79 => ⟨S_, .f32⟩
  | 80 => ⟨S10000, .f32⟩
  | 81 => ⟨S170000x1, .i32⟩
  | 82 => ⟨S10000, .f32⟩
  | 83 => ⟨S_, .f32⟩
  | 84 => ⟨S10000, .f32⟩
  | 85 => ⟨S10000, .i1⟩
  | 86 => ⟨S10000, .f32⟩
  | 87 => ⟨S_, .f32⟩
  | 88 => ⟨S_, .f32⟩
  | 89 => ⟨S10000, .f32⟩
  | 90 => ⟨S10000, .f32⟩
  | 91 => ⟨S_, .i32⟩
  | 92 => ⟨S170000, .i32⟩
  | 93 => ⟨S170000, .i1⟩
  | 94 => ⟨S_, .i32⟩
  | 95 => ⟨S170000, .i32⟩
  | 96 => ⟨S170000, .i32⟩
  | 97 => ⟨S170000, .i32⟩
  | 98 => ⟨S170000x1, .i32⟩
  | 99 => ⟨S170000, .f32⟩
  | 100 => ⟨S_, .i32⟩
  | 101 => ⟨S170000, .i32⟩
  | 102 => ⟨S170000, .i1⟩
  | 103 => ⟨S_, .i32⟩
  | 104 => ⟨S170000, .i32⟩
  | 105 => ⟨S170000, .i32⟩
  | 106 => ⟨S170000, .i32⟩
  | 107 => ⟨S170000x1, .i32⟩
  | 108 => ⟨S170000, .f32⟩
  | 109 => ⟨S170000, .f32⟩
  | 110 => ⟨S_, .i32⟩
  | 111 => ⟨S170000, .i32⟩
  | 112 => ⟨S170000, .i1⟩
  | 113 => ⟨S_, .i32⟩
  | 114 => ⟨S170000, .i32⟩
  | 115 => ⟨S170000, .i32⟩
  | 116 => ⟨S170000, .i32⟩
  | 117 => ⟨S170000x1, .i32⟩
  | 118 => ⟨S170000x256, .f32⟩
  | 119 => ⟨S170000x1, .f32⟩
  | 120 => ⟨S170000x256, .f32⟩
  | 121 => ⟨S170000x256, .f32⟩
  | 122 => ⟨S_, .f32⟩
  | 123 => ⟨S10000x256, .f32⟩
  | 124 => ⟨S170000x1, .i32⟩
  | 125 => ⟨S10000x256, .f32⟩
  | 126 => ⟨S1x256, .f32⟩
  | 127 => ⟨S10000x256, .f32⟩
  | _ => ⟨S10000x128, .f32⟩

abbrev hbmTy0_1 (i : Nat) : BufTy := match i % 128 with
  | 0 => ⟨S10000x256, .f32⟩
  | 1 => ⟨S_, .f32⟩
  | 2 => ⟨S10000x256, .f32⟩
  | 3 => ⟨S10000x256, .f32⟩
  | 4 => ⟨S10000, .i32⟩
  | 5 => ⟨S170000, .i32⟩
  | 6 => ⟨S170000, .i32⟩
  | 7 => ⟨S10000x64, .f32⟩
  | 8 => ⟨S_, .f32⟩
  | 9 => ⟨S170000, .f32⟩
  | 10 => ⟨S_, .f32⟩
  | 11 => ⟨S10000, .f32⟩
  | 12 => ⟨S170000x1, .i32⟩
  | 13 => ⟨S10000, .f32⟩
  | 14 => ⟨S_, .f32⟩
  | 15 => ⟨S10000, .f32⟩
  | 16 => ⟨S10000, .i1⟩
  | 17 => ⟨S10000, .f32⟩
  | 18 => ⟨S_, .f32⟩
  | 19 => ⟨S_, .f32⟩
  | 20 => ⟨S10000, .f32⟩
  | 21 => ⟨S10000, .f32⟩
  | 22 => ⟨S_, .i32⟩
  | 23 => ⟨S170000, .i32⟩
  | 24 => ⟨S170000, .i1⟩
  | 25 => ⟨S_, .i32⟩
  | 26 => ⟨S170000, .i32⟩
  | 27 => ⟨S170000, .i32⟩
  | 28 => ⟨S170000, .i32⟩
  | 29 => ⟨S170000x1, .i32⟩
  | 30 => ⟨S170000, .f32⟩
  | 31 => ⟨S_, .i32⟩
  | 32 => ⟨S170000, .i32⟩
  | 33 => ⟨S170000, .i1⟩
  | 34 => ⟨S_, .i32⟩
  | 35 => ⟨S170000, .i32⟩
  | 36 => ⟨S170000, .i32⟩
  | 37 => ⟨S170000, .i32⟩
  | 38 => ⟨S170000x1, .i32⟩
  | 39 => ⟨S170000, .f32⟩
  | 40 => ⟨S170000, .f32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000x64, .f32⟩
  | 50 => ⟨S170000x1, .f32⟩
  | 51 => ⟨S170000x64, .f32⟩
  | 52 => ⟨S170000x64, .f32⟩
  | 53 => ⟨S_, .f32⟩
  | 54 => ⟨S10000x64, .f32⟩
  | 55 => ⟨S170000x1, .i32⟩
  | 56 => ⟨S10000x64, .f32⟩
  | 57 => ⟨S1x64, .f32⟩
  | 58 => ⟨S10000x64, .f32⟩
  | 59 => ⟨S10000x64, .f32⟩
  | 60 => ⟨S_, .f32⟩
  | 61 => ⟨S10000x64, .f32⟩
  | 62 => ⟨S10000x64, .f32⟩
  | 63 => ⟨S10000x3, .f32⟩
  | 64 => ⟨S1x3, .f32⟩
  | 65 => ⟨S10000x3, .f32⟩
  | 66 => ⟨S10000x3, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_cst : Ref sig .tc := ⟨.hbm, 129, rfl⟩
abbrev main_call3_v0 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_20 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_22 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_23 : Ref sig .tc := ⟨.hbm, 146, rfl⟩
abbrev main_call4_v0 : Ref sig .tc := ⟨.hbm, 147, rfl⟩
abbrev main_call4_v1 : Ref sig .tc := ⟨.hbm, 148, rfl⟩
abbrev main_v103 : Ref sig .tc := ⟨.hbm, 149, rfl⟩
abbrev main_c_24 : Ref sig .tc := ⟨.hbm, 150, rfl⟩
abbrev main_v104 : Ref sig .tc := ⟨.hbm, 151, rfl⟩
abbrev main_v105 : Ref sig .tc := ⟨.hbm, 152, rfl⟩
abbrev main_c_25 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_c_26 : Ref sig .tc := ⟨.hbm, 159, rfl⟩
abbrev main_v111 : Ref sig .tc := ⟨.hbm, 160, rfl⟩
abbrev main_v112 : Ref sig .tc := ⟨.hbm, 161, rfl⟩
abbrev main_c_27 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_c_28 : Ref sig .tc := ⟨.hbm, 169, rfl⟩
abbrev main_v119 : Ref sig .tc := ⟨.hbm, 170, rfl⟩
abbrev main_v120 : Ref sig .tc := ⟨.hbm, 171, rfl⟩
abbrev main_c_29 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_30 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_call5_cst : Ref sig .tc := ⟨.hbm, 188, rfl⟩
abbrev main_call5_v0 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S170000x1_S170000x64_0_1 : S170000x1.BroadcastsInDim S170000x64 (![0, 1] : Fin 2 → Fin S170000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S3_S1x3_1 : S3.BroadcastsInDim S1x3 (![1] : Fin 1 → Fin S1x3.rank)
  bcast_S1x3_S10000x3_0_1 : S1x3.BroadcastsInDim S10000x3 (![0, 1] : Fin 2 → Fin S10000x3.rank)
  dot_S10000x128_S128x512_S10000x512_1_0_0_1_n_n_wf : DotDims.WF S10000x128 S128x512 S10000x512 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x256_S10000x256_1_0_0_1_n_n_wf : DotDims.WF S10000x512 S512x256 S10000x256 [1] [0] [0] [1] [] []
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1
  dot_S10000x256_S256x64_S10000x64_1_0_0_1_n_n_wf : DotDims.WF S10000x256 S256x64 S10000x64 [1] [0] [0] [1] [] []
  gather_S10000x64_S170000x1_S170000x64_1_0_n_n_0_1_164_wf : GatherDims.WF S10000x64 S170000x1 S170000x64 [1] [0] [] [0] [] 1 ![1, 64]
  scatter_S10000x64_S170000x1_S170000x64_1_0_0_1_wf : ScatterDims.WF S10000x64 S170000x1 S170000x64 [1] [0] [0] 1
  dot_S10000x64_S64x3_S10000x3_1_0_0_1_n_n_wf : DotDims.WF S10000x64 S64x3 S10000x3 [1] [0] [0] [1] [] []

variable [Facts₀]

def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S10000x64_S170000x1_S170000x64_1_0_n_n_0_1_164 : GatherDims S10000x64 S170000x1 S170000x64 where
  offsetDims := [1]
  collapsedSliceDims := [0]
  operandBatchingDims := []
  startIndicesBatchingDims := []
  startIndexMap := [0]
  indexVectorDim := 1
  sliceSizes := ![1, 64]
  wf := gather_S10000x64_S170000x1_S170000x64_1_0_n_n_0_1_164_wf
def scatter_S10000x64_S170000x1_S170000x64_1_0_0_1 : ScatterDims S10000x64 S170000x1 S170000x64 where
  updateWindowDims := [1]
  insertedWindowDims := [0]
  scatterDimsToOperandDims := [0]
  indexVectorDim := 1
  wf := scatter_S10000x64_S170000x1_S170000x64_1_0_0_1_wf
def dot_S10000x64_S64x3_S10000x3_1_0_0_1_n_n : DotDims S10000x64 S64x3 S10000x3 where
  lhsContracting := [1]
  rhsContracting := [0]
  lhsNonContracting := [0]
  rhsNonContracting := [1]
  lhsBatch := []
  rhsBatch := []
  wf := dot_S10000x64_S64x3_S10000x3_1_0_0_1_n_n_wf

class Facts : Prop extends Facts₀ where

variable [Facts]
-- ==== Proof.K.R0.lean ====
/-
  The first layer's feature transform, region 0 of the program: each grid point multiplies a block of 1280 rows of the
  zero-padded features by the whole 128×512 weight matrix. What the body leaves in its output buffer, its triple, and
  the pipeline's proof data and body obligation.
-/
import proofs.«143928_j37108517437617_1_alg».proof.Proof.Gen.Kernel.Launch
import proofs.«143928_j37108517437617_1_alg».proof.Proof.Gen.Kernel.Skeleton
import proofs.«143928_j37108517437617_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (x·W₁ by row blocks), at the buffer contents `V` it is entered from -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (a window the pipeline
    does not fetch at a point has not moved its block index since the point before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (a window the pipeline
    does not fetch at a point has not moved its block index since the point before). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1280x128 := Rect.unit (s := S1280x128) ![0, 0] S1280x128.size inb_S1280x128_S1280x128_0_0
abbrev r0_1 : Rect S128x512 := Rect.unit (s := S128x512) ![0, 0] S128x512.size inb_S128x512_S128x512_0_0
abbrev r0_2 : Rect S1280x512 := Rect.unit (s := S1280x512) ![0, 0] S1280x512.size inb_S1280x512_S1280x512_0_0

/-- What the body leaves in the output window's staging buffer: its one whole-block store, the payload computed from the
    input blocks. -/
def out0_2 (x0 : Vec F S1280x128 .f32) (x1 : Vec F S128x512 .f32) : Vec F S1280x512 .f32 :=
  View.canon [⟨r0_2, k0_pay1 (View.ld x0 r0_0) (View.ld x1 r0_1)⟩]

/-- The one store covers the block. -/
theorem cover0_2 (p0 : Vec F S1280x512 .f32) (y : S1280x512.Idx) :
    ∃ pc ∈ ([⟨r0_2, p0⟩] : List (View.Piece (Elt F) S1280x512 .f32)), y ∈ pc.1.set :=
  View.cover_of_tiled [⟨r0_2, p0⟩] S1280x512.size (by rfl) y

set_option maxHeartbeats 4000000 in
/-- The body on whole staging buffers: the inputs' at read contents `x_i`, the output's at anything. It runs to its
    continuation with the inputs' buffers as they were and the output's at `out0_2` of them. -/
theorem sound_kernel0 (c : Dev nD) (i : grid0.Coords) (E : Set ℕ) (arg0 : Memref sig .tc .vmem S1280x128 .f32) (harg0 : arg0.IsWhole) (arg1 : Memref sig .tc .vmem S128x512 .f32) (harg1 : arg1.IsWhole) (arg2 : Memref sig .tc .vmem S1280x512 .f32) (harg2 : arg2.IsWhole)
    (x0 : Vec F S1280x128 .f32) (x1 : Vec F S128x512 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ Kc ⟨⟩))
      ⊢ wp frame (wpE (defs₀ (F := F)) Variants.none c none) E (cc0__linear_kernel i arg0 harg0 arg1 harg1 arg2 harg2) Kc := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body each input's
    buffer at its block and the output's at `out0_2` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c _ Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.K.R1.lean ====
/-
  Layer 1's aggregation, region 1 of the program: over an 8×8 grid, point (i, k) multiplies block (i, k) of the dense
  normalised adjacency by block k of the transformed features and adds the product to an accumulator kept across the k axis:
  cleared at k = 0, and at k = 7 stored, plus the bias row and clamped below at zero, into row block i of the output (512 columns).
  The body's triple in each of the three cases, what the accumulator and the output hold point by point, the proof data
  and the body obligation.
-/
import proofs.«143928_j37108517437617_1_alg».proof.Proof.Gen.Kernel.Launch
import proofs.«143928_j37108517437617_1_alg».proof.Proof.Gen.Kernel.Skeleton
import proofs.«143928_j37108517437617_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (A·(x·W₁) + b₁, clamped at zero), at the buffer contents `V` it is entered from -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions over the grid: the first and the last block of the contraction axis -/

/-- The body clears its accumulator: the contraction-axis coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body writes its output block: the contraction-axis coordinate is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The staging buffers and the accumulator -/

abbrev VO1_3 : View sig .tc .vmem S1280x512 .f32 := (Memref.whole cc1_stg3_0 : Memref sig .tc .vmem S1280x512 .f32).view
abbrev ms1_0 (t : Fin cfg1.N) : Memref sig .tc .vmem S1280x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x512 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from one grid point to the next. -/
abbrev scM1_0 : Memref sig .tc .vmem S1280x512 .f32 := Memref.whole cc1_scratch0
abbrev VS1_0 : View sig .tc .vmem S1280x512 .f32 := scM1_0.view
/-- Every other scoped buffer of the program: untouched by this kernel. -/
abbrev Rest1 (c : Dev nD) : sProp 𝕄 :=
  Pipeline.scopedRestBut (Ix := Unit) (Name := ℕ) (U := UR sig nD τ) (Lvl := ℕ) (Val := Elt F) spec1 c [cc1_scratch0]

/-- What the pipeline hands the body beside the windows: the accumulator at some contents, the other scoped buffers,
    the generator register. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [scopedRest1_split]; simp only [scM1_0, owns_whole]; try rfl

/-! ## The body in its three cases -/

set_option maxHeartbeats 4000000 in
/-- First block of the contraction axis: the accumulator is cleared, then this block's product added; the output's
    buffer is handed back untouched. The pieces the accumulator ends with are found by the run. -/
noncomputable def kernelRun1_A (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : cond1_0 i) (hc1 : ¬cond1_1 i)
    (x0 : Vec F S1280x1280 .bf16) (x1 : Vec F S1280x512 .f32) (x2 : Vec F S1x512 .f32) :
    Σ' (L3 : List (View.Piece (Elt F) S1280x512 .f32)), { LS0 : List (View.Piece (Elt F) S1280x512 .f32) //
      ∀ (xi3 : Vec F S1280x512 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ (∃ d, owns (c : Thread nD τ) a4 fullShare d)
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc1__agg_kernel i a0 h0 a1 h1 a2 h2 a3 h3 a4 h4) Kc } := by
  refine ⟨[], ?_, fun xi3 E Kc => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := h0.eq_unread hf0; obtain rfl := h1.eq_unread hf1; obtain rfl := h2.eq_unread hf2; obtain rfl := h3.eq_unread hf3
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- A middle block: this block's product is added to what the accumulator held; the output's buffer is handed back
    untouched. -/
noncomputable def kernelRun1_B (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : ¬cond1_1 i)
    (x0 : Vec F S1280x1280 .bf16) (x1 : Vec F S1280x512 .f32) (x2 : Vec F S1x512 .f32) (xs0 : Vec F S1280x512 .f32) :
    Σ' (L3 : List (View.Piece (Elt F) S1280x512 .f32)), { LS0 : List (View.Piece (Elt F) S1280x512 .f32) //
      ∀ (xi3 : Vec F S1280x512 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ owns (c : Thread nD τ) a4 fullShare xs0
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc1__agg_kernel i a0 h0 a1 h1 a2 h2 a3 h3 a4 h4) Kc } := by
  refine ⟨[], ?_, fun xi3 E Kc => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := h0.eq_unread hf0; obtain rfl := h1.eq_unread hf1; obtain rfl := h2.eq_unread hf2; obtain rfl := h3.eq_unread hf3; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- Last block: this block's product is added, then the accumulator plus the bias row, clamped below at zero, is stored
    into the output's buffer. -/
noncomputable def kernelRun1_C (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i)
    (x0 : Vec F S1280x1280 .bf16) (x1 : Vec F S1280x512 .f32) (x2 : Vec F S1x512 .f32) (xs0 : Vec F S1280x512 .f32) :
    Σ' (L3 : List (View.Piece (Elt F) S1280x512 .f32)), { LS0 : List (View.Piece (Elt F) S1280x512 .f32) //
      ∀ (E : Set ℕ) (Kc : PUnit → sProp 𝕄),
        iprop(owns (c : Thread nD τ) a0 fullShare x0 ∗ owns (c : Thread nD τ) a1 fullShare x1 ∗ owns (c : Thread nD τ) a2 fullShare x2 ∗ (∃ d, owns (c : Thread nD τ) a3 fullShare d) ∗ owns (c : Thread nD τ) a4 fullShare xs0
            ∗ (iprop(owns (c : Thread nD τ) a0 fullShare x0 ∗ owns (c : Thread nD τ) a1 fullShare x1 ∗ owns (c : Thread nD τ) a2 fullShare x2 ∗ (∃ f, a3.view.loc (c : Thread nD τ) ↦[a3.view.set]{fullShare} a3.view.writes (Elt F) f L3) ∗ (∃ f, a4.view.loc (c : Thread nD τ) ↦[a4.view.set]{fullShare} a4.view.writes (Elt F) f LS0)) -∗ Kc ⟨⟩))
          ⊢ wp frame (wpE (defs₀ (F := F)) Variants.none c none) E (cc1__agg_kernel i a0 h0 a1 h1 a2 h2 a3 h3 a4 h4) Kc } := by
  refine ⟨?_, ?_, fun E Kc => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := h0.eq_unread hf0; obtain rfl := h1.eq_unread hf1; obtain rfl := h2.eq_unread hf2; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact HS0

/-! ## What each case leaves -/

theorem scover1_A_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : cond1_0 i) (hc1 : ¬cond1_1 i) (x0 : Vec F S1280x1280 .bf16) (x1 : Vec F S1280x512 .f32) (x2 : Vec F S1x512 .f32) (y : S1280x512.Idx) :
    ∃ pc ∈ (kernelRun1_A c i a0 h0 a1 h1 a2 h2 a3 h3 a4 h4 hc0 hc1 x0 x1 x2).2.1, y ∈ pc.1.set :=
  View.cover_of_tiledL (kernelRun1_A c i a0 h0 a1 h1 a2 h2 a3 h3 a4 h4 hc0 hc1 x0 x1 x2).2.1 S1280x512.size (by sl_kernel_rfl) y
def sout1_A_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : cond1_0 i) (hc1 : ¬cond1_1 i) (x0 : Vec F S1280x1280 .bf16) (x1 : Vec F S1280x512 .f32) (x2 : Vec F S1x512 .f32) : Vec F S1280x512 .f32 :=
  VS1_0.read (Elt F) (VS1_0.writes (Elt F) VS1_0.junk (kernelRun1_A c i a0 h0 a1 h1 a2 h2 a3 h3 a4 h4 hc0 hc1 x0 x1 x2).2.1)
/-- The first and the middle cases store nothing into the output: a placeholder nothing consults. -/
def out1_A_3 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : cond1_0 i) (hc1 : ¬cond1_1 i) (x0 : Vec F S1280x1280 .bf16) (x1 : Vec F S1280x512 .f32) (x2 : Vec F S1x512 .f32) : Vec F S1280x512 .f32 :=
  VO1_3.read (Elt F) (VO1_3.writes (Elt F) VO1_3.junk (kernelRun1_A c i a0 h0 a1 h1 a2 h2 a3 h3 a4 h4 hc0 hc1 x0 x1 x2).1)

theorem scover1_B_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : ¬cond1_1 i) (x0 : Vec F S1280x1280 .bf16) (x1 : Vec F S1280x512 .f32) (x2 : Vec F S1x512 .f32) (xs0 : Vec F S1280x512 .f32) (y : S1280x512.Idx) :
    ∃ pc ∈ (kernelRun1_B c i a0 h0 a1 h1 a2 h2 a3 h3 a4 h4 hc0 hc1 x0 x1 x2 xs0).2.1, y ∈ pc.1.set :=
  View.cover_of_tiledL (kernelRun1_B c i a0 h0 a1 h1 a2 h2 a3 h3 a4 h4 hc0 hc1 x0 x1 x2 xs0).2.1 S1280x512.size (by sl_kernel_rfl) y
def sout1_B_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : ¬cond1_1 i) (x0 : Vec F S1280x1280 .bf16) (x1 : Vec F S1280x512 .f32) (x2 : Vec F S1x512 .f32) (xs0 : Vec F S1280x512 .f32) : Vec F S1280x512 .f32 :=
  VS1_0.read (Elt F) (VS1_0.writes (Elt F) VS1_0.junk (kernelRun1_B c i a0 h0 a1 h1 a2 h2 a3 h3 a4 h4 hc0 hc1 x0 x1 x2 xs0).2.1)
def out1_B_3 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : ¬cond1_1 i) (x0 : Vec F S1280x1280 .bf16) (x1 : Vec F S1280x512 .f32) (x2 : Vec F S1x512 .f32) (xs0 : Vec F S1280x512 .f32) : Vec F S1280x512 .f32 :=
  VO1_3.read (Elt F) (VO1_3.writes (Elt F) VO1_3.junk (kernelRun1_B c i a0 h0 a1 h1 a2 h2 a3 h3 a4 h4 hc0 hc1 x0 x1 x2 xs0).1)

theorem cover1_C_3 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i) (x0 : Vec F S1280x1280 .bf16) (x1 : Vec F S1280x512 .f32) (x2 : Vec F S1x512 .f32) (xs0 : Vec F S1280x512 .f32) (y : S1280x512.Idx) :
    ∃ pc ∈ (kernelRun1_C c i a0 h0 a1 h1 a2 h2 a3 h3 a4 h4 hc0 hc1 x0 x1 x2 xs0).1, y ∈ pc.1.set :=
  View.cover_of_tiledL (kernelRun1_C c i a0 h0 a1 h1 a2 h2 a3 h3 a4 h4 hc0 hc1 x0 x1 x2 xs0).1 S1280x512.size (by sl_kernel_rfl) y
def out1_C_3 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i) (x0 : Vec F S1280x1280 .bf16) (x1 : Vec F S1280x512 .f32) (x2 : Vec F S1x512 .f32) (xs0 : Vec F S1280x512 .f32) : Vec F S1280x512 .f32 :=
  VO1_3.read (Elt F) (VO1_3.writes (Elt F) VO1_3.junk (kernelRun1_C c i a0 h0 a1 h1 a2 h2 a3 h3 a4 h4 hc0 hc1 x0 x1 x2 xs0).1)
theorem scover1_C_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i) (x0 : Vec F S1280x1280 .bf16) (x1 : Vec F S1280x512 .f32) (x2 : Vec F S1x512 .f32) (xs0 : Vec F S1280x512 .f32) (y : S1280x512.Idx) :
    ∃ pc ∈ (kernelRun1_C c i a0 h0 a1 h1 a2 h2 a3 h3 a4 h4 hc0 hc1 x0 x1 x2 xs0).2.1, y ∈ pc.1.set :=
  View.cover_of_tiledL (kernelRun1_C c i a0 h0 a1 h1 a2 h2 a3 h3 a4 h4 hc0 hc1 x0 x1 x2 xs0).2.1 S1280x512.size (by sl_kernel_rfl) y
def sout1_C_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i) (x0 : Vec F S1280x1280 .bf16) (x1 : Vec F S1280x512 .f32) (x2 : Vec F S1x512 .f32) (xs0 : Vec F S1280x512 .f32) : Vec F S1280x512 .f32 :=
  VS1_0.read (Elt F) (VS1_0.writes (Elt F) VS1_0.junk (kernelRun1_C c i a0 h0 a1 h1 a2 h2 a3 h3 a4 h4 hc0 hc1 x0 x1 x2 xs0).2.1)

/-! ## The accumulation, point by point -/

/-- What the output's staging buffer and the accumulator hold after the body at position `n`: the case the position is
    in, run on the position's blocks, over what the position before left in the accumulator. -/
def outsAt1 (c : Dev nD) : (n : ℕ) → n < cfg1.N → Vec F S1280x512 .f32 × Vec F S1280x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the pipeline hands over; afterwards the accumulator
    at what the point before left in it, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-- The proof data of this pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the case the point is in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the pipeline hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers and the register back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HR⟩, Hg⟩
  isplitl [HS0 HR]
  · isplitl [HS0]
    · iexists _; iexact HS0
    iexact HR
  iexact Hg

end Region1

end Cert.Kernel.Fr

end
-- ==== Proof.K.R2.lean ====
/-
  The second layer's feature transform, region 2 of the program: each grid point multiplies a block of 1280 rows of the
  first layer's output by the whole 512×256 weight matrix. What the body leaves in its output buffer, its triple, and
  the pipeline's proof data and body obligation.
-/
import proofs.«143928_j37108517437617_1_alg».proof.Proof.Gen.Kernel.Launch
import proofs.«143928_j37108517437617_1_alg».proof.Proof.Gen.Kernel.Skeleton
import proofs.«143928_j37108517437617_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (h₁·W₂ by row blocks), at the buffer contents `V` it is entered from -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (a window the pipeline
    does not fetch at a point has not moved its block index since the point before). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (a window the pipeline
    does not fetch at a point has not moved its block index since the point before). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1280x512 := Rect.unit (s := S1280x512) ![0, 0] S1280x512.size inb_S1280x512_S1280x512_0_0
abbrev r2_1 : Rect S512x256 := Rect.unit (s := S512x256) ![0, 0] S512x256.size inb_S512x256_S512x256_0_0
abbrev r2_2 : Rect S1280x256 := Rect.unit (s := S1280x256) ![0, 0] S1280x256.size inb_S1280x256_S1280x256_0_0

/-- What the body leaves in the output window's staging buffer: its one whole-block store, the payload computed from the
    input blocks. -/
def out2_2 (x0 : Vec F S1280x512 .f32) (x1 : Vec F S512x256 .f32) : Vec F S1280x256 .f32 :=
  View.canon [⟨r2_2, k2_pay1 (View.ld x0 r2_0) (View.ld x1 r2_1)⟩]

/-- The one store covers the block. -/
theorem cover2_2 (p0 : Vec F S1280x256 .f32) (y : S1280x256.Idx) :
    ∃ pc ∈ ([⟨r2_2, p0⟩] : List (View.Piece (Elt F) S1280x256 .f32)), y ∈ pc.1.set :=
  View.cover_of_tiled [⟨r2_2, p0⟩] S1280x256.size (by rfl) y

set_option maxHeartbeats 4000000 in
/-- The body on whole staging buffers: the inputs' at read contents `x_i`, the output's at anything. It runs to its
    continuation with the inputs' buffers as they were and the output's at `out2_2` of them. -/
theorem sound_kernel2 (c : Dev nD) (i : grid2.Coords) (E : Set ℕ) (arg0 : Memref sig .tc .vmem S1280x512 .f32) (harg0 : arg0.IsWhole) (arg1 : Memref sig .tc .vmem S512x256 .f32) (harg1 : arg1.IsWhole) (arg2 : Memref sig .tc .vmem S1280x256 .f32) (harg2 : arg2.IsWhole)
    (x0 : Vec F S1280x512 .f32) (x1 : Vec F S512x256 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ Kc ⟨⟩))
      ⊢ wp frame (wpE (defs₀ (F := F)) Variants.none c none) E (cc2__linear_kernel i arg0 harg0 arg1 harg1 arg2 harg2) Kc := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core `c`: the arrays as the region finds them; after the body each input's
    buffer at its block and the output's at `out2_2` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple above applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c _ Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Fr

end
-- ==== Proof.K.R3.lean ====
/-
  Layer 2's aggregation, region 3 of the program: over an 8×8 grid, point (i, k) multiplies block (i, k) of the dense
  normalised adjacency by block k of the transformed features and adds the product to an accumulator kept across the k axis:
  cleared at k = 0, and at k = 7 stored, plus the bias row and clamped below at zero, into row block i of the output (256 columns).
  The body's triple in each of the three cases, what the accumulator and the output hold point by point, the proof data
  and the body obligation.
-/
import proofs.«143928_j37108517437617_1_alg».proof.Proof.Gen.Kernel.Launch
import proofs.«143928_j37108517437617_1_alg».proof.Proof.Gen.Kernel.Skeleton
import proofs.«143928_j37108517437617_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 (A·(h₁·W₂) + b₂, clamped at zero), at the buffer contents `V` it is entered from -/

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions over the grid: the first and the last block of the contraction axis -/

/-- The body clears its accumulator: the contraction-axis coordinate is zero. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- The body writes its output block: the contraction-axis coordinate is the last. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
theorem liveAt3_3_C : ∀ t : Fin cfg3.N, ¬cond3_0 (grid3.coords t) → cond3_1 (grid3.coords t) → cfg3.idle 3 (grid3.coords t) = false := by decide +kernel

/-! ## The staging buffers and the accumulator -/

abbrev VO3_3 : View sig .tc .vmem S1280x256 .f32 := (Memref.whole cc3_stg3_0 : Memref sig .tc .vmem S1280x256 .f32).view
abbrev ms3_0 (t : Fin cfg3.N) : Memref sig .tc .vmem S1280x1280 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1280x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1280x256 .f32 := win3_3.stage (cfg3.slots t 3)
abbrev hs3_3 (t : Fin cfg3.N) : (ms3_3 t).IsWhole := hstage3_3 ((cfg3.slots t 3).cast nbuf3_3)
/-- The accumulator: a whole scoped buffer of the kernel's own, carried from one grid point to the next. -/
abbrev scM3_0 : Memref sig .tc .vmem S1280x256 .f32 := Memref.whole cc3_scratch0
abbrev VS3_0 : View sig .tc .vmem S1280x256 .f32 := scM3_0.view
/-- Every other scoped buffer of the program: untouched by this kernel. -/
abbrev Rest3 (c : Dev nD) : sProp 𝕄 :=
  Pipeline.scopedRestBut (Ix := Unit) (Name := ℕ) (U := UR sig nD τ) (Lvl := ℕ) (Val := Elt F) spec3 c [cc3_scratch0]

/-- What the pipeline hands the body beside the windows: the accumulator at some contents, the other scoped buffers,
    the generator register. -/
theorem PhiA3_eq (c : Dev nD) :
    (Pipeline.ΦA spec3 c : sProp 𝕄)
      = iprop(iprop((∃ d, owns (c : Thread nD τ) scM3_0 fullShare d) ∗ Rest3 c) ∗ (∃ r, prngReg c r)) := by
  unfold Pipeline.ΦA; rw [scopedRest3_split]; simp only [scM3_0, owns_whole]; try rfl

/-! ## The body in its three cases -/

set_option maxHeartbeats 4000000 in
/-- First block of the contraction axis: the accumulator is cleared, then this block's product added; the output's
    buffer is handed back untouched. The pieces the accumulator ends with are found by the run. -/
noncomputable def kernelRun3_A (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : cond3_0 i) (hc1 : ¬cond3_1 i)
    (x0 : Vec F S1280x1280 .bf16) (x1 : Vec F S1280x256 .f32) (x2 : Vec F S1x256 .f32) :
    Σ' (L3 : List (View.Piece (Elt F) S1280x256 .f32)), { LS0 : List (View.Piece (Elt F) S1280x256 .f32) //
      ∀ (xi3 : Vec F S1280x256 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ (∃ d, owns (c : Thread nD τ) a4 fullShare d)
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc3__agg_kernel i a0 h0 a1 h1 a2 h2 a3 h3 a4 h4) Kc } := by
  refine ⟨[], ?_, fun xi3 E Kc => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := h0.eq_unread hf0; obtain rfl := h1.eq_unread hf1; obtain rfl := h2.eq_unread hf2; obtain rfl := h3.eq_unread hf3
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- A middle block: this block's product is added to what the accumulator held; the output's buffer is handed back
    untouched. -/
noncomputable def kernelRun3_B (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : ¬cond3_1 i)
    (x0 : Vec F S1280x1280 .bf16) (x1 : Vec F S1280x256 .f32) (x2 : Vec F S1x256 .f32) (xs0 : Vec F S1280x256 .f32) :
    Σ' (L3 : List (View.Piece (Elt F) S1280x256 .f32)), { LS0 : List (View.Piece (Elt F) S1280x256 .f32) //
      ∀ (xi3 : Vec F S1280x256 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ owns (c : Thread nD τ) a4 fullShare xs0
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc3__agg_kernel i a0 h0 a1 h1 a2 h2 a3 h3 a4 h4) Kc } := by
  refine ⟨[], ?_, fun xi3 E Kc => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := h0.eq_unread hf0; obtain rfl := h1.eq_unread hf1; obtain rfl := h2.eq_unread hf2; obtain rfl := h3.eq_unread hf3; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- Last block: this block's product is added, then the accumulator plus the bias row, clamped below at zero, is stored
    into the output's buffer. -/
noncomputable def kernelRun3_C (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i)
    (x0 : Vec F S1280x1280 .bf16) (x1 : Vec F S1280x256 .f32) (x2 : Vec F S1x256 .f32) (xs0 : Vec F S1280x256 .f32) :
    Σ' (L3 : List (View.Piece (Elt F) S1280x256 .f32)), { LS0 : List (View.Piece (Elt F) S1280x256 .f32) //
      ∀ (E : Set ℕ) (Kc : PUnit → sProp 𝕄),
        iprop(owns (c : Thread nD τ) a0 fullShare x0 ∗ owns (c : Thread nD τ) a1 fullShare x1 ∗ owns (c : Thread nD τ) a2 fullShare x2 ∗ (∃ d, owns (c : Thread nD τ) a3 fullShare d) ∗ owns (c : Thread nD τ) a4 fullShare xs0
            ∗ (iprop(owns (c : Thread nD τ) a0 fullShare x0 ∗ owns (c : Thread nD τ) a1 fullShare x1 ∗ owns (c : Thread nD τ) a2 fullShare x2 ∗ (∃ f, a3.view.loc (c : Thread nD τ) ↦[a3.view.set]{fullShare} a3.view.writes (Elt F) f L3) ∗ (∃ f, a4.view.loc (c : Thread nD τ) ↦[a4.view.set]{fullShare} a4.view.writes (Elt F) f LS0)) -∗ Kc ⟨⟩))
          ⊢ wp frame (wpE (defs₀ (F := F)) Variants.none c none) E (cc3__agg_kernel i a0 h0 a1 h1 a2 h2 a3 h3 a4 h4) Kc } := by
  refine ⟨?_, ?_, fun E Kc => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := h0.eq_unread hf0; obtain rfl := h1.eq_unread hf1; obtain rfl := h2.eq_unread hf2; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact HS0

/-! ## What each case leaves -/

theorem scover3_A_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : cond3_0 i) (hc1 : ¬cond3_1 i) (x0 : Vec F S1280x1280 .bf16) (x1 : Vec F S1280x256 .f32) (x2 : Vec F S1x256 .f32) (y : S1280x256.Idx) :
    ∃ pc ∈ (kernelRun3_A c i a0 h0 a1 h1 a2 h2 a3 h3 a4 h4 hc0 hc1 x0 x1 x2).2.1, y ∈ pc.1.set :=
  View.cover_of_tiledL (kernelRun3_A c i a0 h0 a1 h1 a2 h2 a3 h3 a4 h4 hc0 hc1 x0 x1 x2).2.1 S1280x256.size (by sl_kernel_rfl) y
def sout3_A_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : cond3_0 i) (hc1 : ¬cond3_1 i) (x0 : Vec F S1280x1280 .bf16) (x1 : Vec F S1280x256 .f32) (x2 : Vec F S1x256 .f32) : Vec F S1280x256 .f32 :=
  VS3_0.read (Elt F) (VS3_0.writes (Elt F) VS3_0.junk (kernelRun3_A c i a0 h0 a1 h1 a2 h2 a3 h3 a4 h4 hc0 hc1 x0 x1 x2).2.1)
/-- The first and the middle cases store nothing into the output: a placeholder nothing consults. -/
def out3_A_3 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : cond3_0 i) (hc1 : ¬cond3_1 i) (x0 : Vec F S1280x1280 .bf16) (x1 : Vec F S1280x256 .f32) (x2 : Vec F S1x256 .f32) : Vec F S1280x256 .f32 :=
  VO3_3.read (Elt F) (VO3_3.writes (Elt F) VO3_3.junk (kernelRun3_A c i a0 h0 a1 h1 a2 h2 a3 h3 a4 h4 hc0 hc1 x0 x1 x2).1)

theorem scover3_B_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : ¬cond3_1 i) (x0 : Vec F S1280x1280 .bf16) (x1 : Vec F S1280x256 .f32) (x2 : Vec F S1x256 .f32) (xs0 : Vec F S1280x256 .f32) (y : S1280x256.Idx) :
    ∃ pc ∈ (kernelRun3_B c i a0 h0 a1 h1 a2 h2 a3 h3 a4 h4 hc0 hc1 x0 x1 x2 xs0).2.1, y ∈ pc.1.set :=
  View.cover_of_tiledL (kernelRun3_B c i a0 h0 a1 h1 a2 h2 a3 h3 a4 h4 hc0 hc1 x0 x1 x2 xs0).2.1 S1280x256.size (by sl_kernel_rfl) y
def sout3_B_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : ¬cond3_1 i) (x0 : Vec F S1280x1280 .bf16) (x1 : Vec F S1280x256 .f32) (x2 : Vec F S1x256 .f32) (xs0 : Vec F S1280x256 .f32) : Vec F S1280x256 .f32 :=
  VS3_0.read (Elt F) (VS3_0.writes (Elt F) VS3_0.junk (kernelRun3_B c i a0 h0 a1 h1 a2 h2 a3 h3 a4 h4 hc0 hc1 x0 x1 x2 xs0).2.1)
def out3_B_3 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : ¬cond3_1 i) (x0 : Vec F S1280x1280 .bf16) (x1 : Vec F S1280x256 .f32) (x2 : Vec F S1x256 .f32) (xs0 : Vec F S1280x256 .f32) : Vec F S1280x256 .f32 :=
  VO3_3.read (Elt F) (VO3_3.writes (Elt F) VO3_3.junk (kernelRun3_B c i a0 h0 a1 h1 a2 h2 a3 h3 a4 h4 hc0 hc1 x0 x1 x2 xs0).1)

theorem cover3_C_3 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i) (x0 : Vec F S1280x1280 .bf16) (x1 : Vec F S1280x256 .f32) (x2 : Vec F S1x256 .f32) (xs0 : Vec F S1280x256 .f32) (y : S1280x256.Idx) :
    ∃ pc ∈ (kernelRun3_C c i a0 h0 a1 h1 a2 h2 a3 h3 a4 h4 hc0 hc1 x0 x1 x2 xs0).1, y ∈ pc.1.set :=
  View.cover_of_tiledL (kernelRun3_C c i a0 h0 a1 h1 a2 h2 a3 h3 a4 h4 hc0 hc1 x0 x1 x2 xs0).1 S1280x256.size (by sl_kernel_rfl) y
def out3_C_3 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i) (x0 : Vec F S1280x1280 .bf16) (x1 : Vec F S1280x256 .f32) (x2 : Vec F S1x256 .f32) (xs0 : Vec F S1280x256 .f32) : Vec F S1280x256 .f32 :=
  VO3_3.read (Elt F) (VO3_3.writes (Elt F) VO3_3.junk (kernelRun3_C c i a0 h0 a1 h1 a2 h2 a3 h3 a4 h4 hc0 hc1 x0 x1 x2 xs0).1)
theorem scover3_C_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i) (x0 : Vec F S1280x1280 .bf16) (x1 : Vec F S1280x256 .f32) (x2 : Vec F S1x256 .f32) (xs0 : Vec F S1280x256 .f32) (y : S1280x256.Idx) :
    ∃ pc ∈ (kernelRun3_C c i a0 h0 a1 h1 a2 h2 a3 h3 a4 h4 hc0 hc1 x0 x1 x2 xs0).2.1, y ∈ pc.1.set :=
  View.cover_of_tiledL (kernelRun3_C c i a0 h0 a1 h1 a2 h2 a3 h3 a4 h4 hc0 hc1 x0 x1 x2 xs0).2.1 S1280x256.size (by sl_kernel_rfl) y
def sout3_C_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i) (x0 : Vec F S1280x1280 .bf16) (x1 : Vec F S1280x256 .f32) (x2 : Vec F S1x256 .f32) (xs0 : Vec F S1280x256 .f32) : Vec F S1280x256 .f32 :=
  VS3_0.read (Elt F) (VS3_0.writes (Elt F) VS3_0.junk (kernelRun3_C c i a0 h0 a1 h1 a2 h2 a3 h3 a4 h4 hc0 hc1 x0 x1 x2 xs0).2.1)

/-! ## The accumulation, point by point -/

/-- What the output's staging buffer and the accumulator hold after the body at position `n`: the case the position is
    in, run on the position's blocks, over what the position before left in the accumulator. -/
def outsAt3 (c : Dev nD) : (n : ℕ) → n < cfg3.N → Vec F S1280x256 .f32 × Vec F S1280x256 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the pipeline hands over; afterwards the accumulator
    at what the point before left in it, beside the other scoped buffers and the generator register. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Rest3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2) ∗ Rest3 c) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Rest3 c) ∗ (∃ r, prngReg c r)) := by
  cases n with
  | zero => exact absurd rfl hz
  | succ n => rfl

/-- The proof data of this pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point, by the case the point is in. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  by_cases h0 : t.val % 8 = 0
  · by_cases h1 : t.val % 8 = 7
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the pipeline hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped buffers and the register back, the accumulator's contents forgotten. -/
theorem hout3 (c : Dev nD) : (dat3 V c).Φ (Fin.last cfg3.N) ⊢ Pipeline.ΦA spec3 c := by
  have ht : (Fin.last cfg3.N).val ≠ 0 := by rw [Fin.val_last]; have : cfg3.N = 64 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, HR⟩, Hg⟩
  isplitl [HS0 HR]
  · isplitl [HS0]
    · iexists _; iexact HS0
    iexact HR
  iexact Hg

end Region3

end Cert.Kernel.Fr

end
-- ==== Proof.K.R4.lean ====
/-
  The third layer's feature transform, region 4 of the program: each grid point multiplies a block of 1280 rows of the
  second layer's output by the whole 256×64 weight matrix. What the body leaves in its output buffer, its triple, and
  the pipeline's proof data and body obligation.
-/
import proofs.«143928_j37108517437617_1_alg».proof.Proof.Gen.Kernel.Launch
import proofs.«143928_j37108517437617_1_alg».proof.Proof.Gen.Kernel.Skeleton
import proofs.«143928_j37108517437617_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (h₂·W₃ by row blocks), at the buffer contents `V` it is entered from -/

section Region4
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (a window the pipeline
    does not fetch at a point has not moved its block index since the point before). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not (a window the pipeline
    does not fetch at a point has not moved its block index since the point before). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1280x256 := Rect.unit (s := S1280x256) ![0, 0] S1280x256.size inb_S1280x256_S1280x256_0_0
abbrev r4_1 : Rect S256x64 := Rect.unit (s := S256x64) ![0, 0] S256x64.size inb_S256x64_S256x64_0_0
abbrev r4_2 : Rect S1280x64 := Rect.unit (s := S1280x64) ![0, 0] S1280x64.size inb_S1280x64_S1280x64_0_0

/-- What the body leaves in the output window's staging buffer: its one whole-block store, the payload computed from the
    input blocks. -/
def out4_2 (x0 : Vec F S1280x256 .f32) (x1 : Vec F S256x64 .f32) : Vec F S1280x64 .f32 :=
  View.canon [⟨r4_2, k4_pay1 (View.ld x0 r4_0) (View.ld x1 r4_1)⟩]

/-- The one store covers the block. -/
theorem cover4_2 (p0 : Vec F S1280x64 .f32) (y : S1280x64.Idx) :
    ∃ pc ∈ ([⟨r4_2, p0⟩] : List (View.Piece (Elt F) S1280x64 .f32)), y ∈ pc.1.set :=
  View.cover_of_tiled [⟨r4_2, p0⟩] S1280x64.size (by rfl) y

set_option maxHeartbeats 4000000 in
/-- The body on whole staging buffers: the inputs' at read contents `x_i`, the output's at anything. It runs to its
    continuation with the inputs' buffers as they were and the output's at `out4_2` of them. -/
theorem sound_kernel4 (c : Dev nD) (i : grid4.Coords) (E : Set ℕ) (arg0 : Memref sig .tc .vmem S1280x256 .f32) (harg0 : arg0.IsWhole) (arg1 : Memref sig .tc .vmem S256x64 .f32) (harg1 : arg1.IsWhole) (arg2 : Memref sig .tc .vmem S1280x64 .f32) (harg2 : arg2.IsWhole)
    (x0 : Vec F S1280x256 .f32) (x1 : Vec F S256x64 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ Kc ⟨⟩))
      ⊢ wp frame (wpE (defs₀ (F := F)) Variants.none c none) E (cc4__linear_kernel i arg0 harg0 arg1 harg1 arg2 harg2) Kc := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of this pipeline on core `c`: the arrays as the region finds them; after the body each input's
    buffer at its block and the output's at `out4_2` of the input blocks; the invariant is the scoped rest and
    the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the triple above applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c _ Set.univ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Fr

end
-- ==== Proof.K.R5.lean ====
/-
  Layer 3's aggregation, region 5 of the program: over an 8×8 grid, point (i, k) multiplies block (i, k) of the dense
  normalised adjacency by block k of the transformed features and adds the product to an accumulator kept across the k axis:
  cleared at k = 0, and at k = 7 stored, plus the bias row and clamped below at zero, into row block i of the output (64 columns).
  The body's triple in each of the three cases, what the accumulator and the output hold point by point, the proof data
  and the body obligation.
-/
import proofs.«143928_j37108517437617_1_alg».proof.Proof.Gen.Kernel.Launch
import proofs.«143928_j37108517437617_1_alg».proof.Proof.Gen.Kernel.Skeleton
import proofs.«143928_j37108517437617_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 (A·(h₂·W₃) + b₃, clamped at zero), at the buffer contents `V` it is entered from -/

section Region5
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions over the grid: the first and the last block of the contraction axis -/

/-- The body clears its accumulator: the contraction-axis coordinate is zero. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 8 = 0 :=
  (by decide +kernel : ∀ t : Fin grid5.N, cond5_0 (grid5.coords t) ↔ t.val % 8 = 0)
/-- The body writes its output block: the contraction-axis coordinate is the last. -/
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, cond5_1 (grid5.coords t) ↔ t.val % 8 = 7)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
theorem idleAt5_3_B : ∀ t : Fin cfg5.N, ¬cond5_0 (grid5.coords t) → ¬cond5_1 (grid5.coords t) → cfg5.idle 3 (grid5.coords t) = true := by decide +kernel
theorem noFlush5_3_B : ∀ t : Fin cfg5.N, ¬cond5_0 (grid5.coords t) → ¬cond5_1 (grid5.coords t) → (cfg5.win 3).flush t = false := by decide +kernel
theorem liveAt5_3_C : ∀ t : Fin cfg5.N, ¬cond5_0 (grid5.coords t) → cond5_1 (grid5.coords t) → cfg5.idle 3 (grid5.coords t) = false := by decide +kernel

/-! ## The staging buffers and the accumulator -/

abbrev VO5_3 : View sig .tc .vmem S1280x64 .f32 := (Memref.whole cc5_stg3_0 : Memref sig .tc .vmem S1280x64 .f32).view
abbrev ms5_0 (t : Fin cfg5.N) : Memref sig .tc .vmem S1280x1280 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1280x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1280x64 .f32 := win5_3.stage (cfg5.slots t 3)
abbrev hs5_3 (t : Fin cfg5.N) : (ms5_3 t).IsWhole := hstage5_3 ((cfg5.slots t 3).cast nbuf5_3)
/-- The accumulator: a whole scoped buffer of the kernel's own, carried from one grid point to the next. -/
abbrev scM5_0 : Memref sig .tc .vmem S1280x64 .f32 := Memref.whole cc5_scratch0
abbrev VS5_0 : View sig .tc .vmem S1280x64 .f32 := scM5_0.view
/-- Every other scoped buffer of the program: untouched by this kernel. -/
abbrev Rest5 (c : Dev nD) : sProp 𝕄 :=
  Pipeline.scopedRestBut (Ix := Unit) (Name := ℕ) (U := UR sig nD τ) (Lvl := ℕ) (Val := Elt F) spec5 c [cc5_scratch0]

/-- What the pipeline hands the body beside the windows: the accumulator at some contents, the other scoped buffers,
    the generator register. -/
theorem PhiA5_eq (c : Dev nD) :
    (Pipeline.ΦA spec5 c : sProp 𝕄)
      = iprop(iprop((∃ d, owns (c : Thread nD τ) scM5_0 fullShare d) ∗ Rest5 c) ∗ (∃ r, prngReg c r)) := by
  unfold Pipeline.ΦA; rw [scopedRest5_split]; simp only [scM5_0, owns_whole]; try rfl

/-! ## The body in its three cases -/

set_option maxHeartbeats 4000000 in
/-- First block of the contraction axis: the accumulator is cleared, then this block's product added; the output's
    buffer is handed back untouched. The pieces the accumulator ends with are found by the run. -/
noncomputable def kernelRun5_A (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : cond5_0 i) (hc1 : ¬cond5_1 i)
    (x0 : Vec F S1280x1280 .bf16) (x1 : Vec F S1280x64 .f32) (x2 : Vec F S1x64 .f32) :
    Σ' (L3 : List (View.Piece (Elt F) S1280x64 .f32)), { LS0 : List (View.Piece (Elt F) S1280x64 .f32) //
      ∀ (xi3 : Vec F S1280x64 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ (∃ d, owns (c : Thread nD τ) a4 fullShare d)
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc5__agg_kernel i a0 h0 a1 h1 a2 h2 a3 h3 a4 h4) Kc } := by
  refine ⟨[], ?_, fun xi3 E Kc => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := h0.eq_unread hf0; obtain rfl := h1.eq_unread hf1; obtain rfl := h2.eq_unread hf2; obtain rfl := h3.eq_unread hf3
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- A middle block: this block's product is added to what the accumulator held; the output's buffer is handed back
    untouched. -/
noncomputable def kernelRun5_B (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : ¬cond5_1 i)
    (x0 : Vec F S1280x1280 .bf16) (x1 : Vec F S1280x64 .f32) (x2 : Vec F S1x64 .f32) (xs0 : Vec F S1280x64 .f32) :
    Σ' (L3 : List (View.Piece (Elt F) S1280x64 .f32)), { LS0 : List (View.Piece (Elt F) S1280x64 .f32) //
      ∀ (xi3 : Vec F S1280x64 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ owns (c : Thread nD τ) a4 fullShare xs0
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc5__agg_kernel i a0 h0 a1 h1 a2 h2 a3 h3 a4 h4) Kc } := by
  refine ⟨[], ?_, fun xi3 E Kc => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := h0.eq_unread hf0; obtain rfl := h1.eq_unread hf1; obtain rfl := h2.eq_unread hf2; obtain rfl := h3.eq_unread hf3; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- Last block: this block's product is added, then the accumulator plus the bias row, clamped below at zero, is stored
    into the output's buffer. -/
noncomputable def kernelRun5_C (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i)
    (x0 : Vec F S1280x1280 .bf16) (x1 : Vec F S1280x64 .f32) (x2 : Vec F S1x64 .f32) (xs0 : Vec F S1280x64 .f32) :
    Σ' (L3 : List (View.Piece (Elt F) S1280x64 .f32)), { LS0 : List (View.Piece (Elt F) S1280x64 .f32) //
      ∀ (E : Set ℕ) (Kc : PUnit → sProp 𝕄),
        iprop(owns (c : Thread nD τ) a0 fullShare x0 ∗ owns (c : Thread nD τ) a1 fullShare x1 ∗ owns (c : Thread nD τ) a2 fullShare x2 ∗ (∃ d, owns (c : Thread nD τ) a3 fullShare d) ∗ owns (c : Thread nD τ) a4 fullShare xs0
            ∗ (iprop(owns (c : Thread nD τ) a0 fullShare x0 ∗ owns (c : Thread nD τ) a1 fullShare x1 ∗ owns (c : Thread nD τ) a2 fullShare x2 ∗ (∃ f, a3.view.loc (c : Thread nD τ) ↦[a3.view.set]{fullShare} a3.view.writes (Elt F) f L3) ∗ (∃ f, a4.view.loc (c : Thread nD τ) ↦[a4.view.set]{fullShare} a4.view.writes (Elt F) f LS0)) -∗ Kc ⟨⟩))
          ⊢ wp frame (wpE (defs₀ (F := F)) Variants.none c none) E (cc5__agg_kernel i a0 h0 a1 h1 a2 h2 a3 h3 a4 h4) Kc } := by
  refine ⟨?_, ?_, fun E Kc => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := h0.eq_unread hf0; obtain rfl := h1.eq_unread hf1; obtain rfl := h2.eq_unread hf2; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact HS0

/-! ## What each case leaves -/

theorem scover5_A_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : cond5_0 i) (hc1 : ¬cond5_1 i) (x0 : Vec F S1280x1280 .bf16) (x1 : Vec F S1280x64 .f32) (x2 : Vec F S1x64 .f32) (y : S1280x64.Idx) :
    ∃ pc ∈ (kernelRun5_A c i a0 h0 a1 h1 a2 h2 a3 h3 a4 h4 hc0 hc1 x0 x1 x2).2.1, y ∈ pc.1.set :=
  View.cover_of_tiledL (kernelRun5_A c i a0 h0 a1 h1 a2 h2 a3 h3 a4 h4 hc0 hc1 x0 x1 x2).2.1 S1280x64.size (by sl_kernel_rfl) y
def sout5_A_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : cond5_0 i) (hc1 : ¬cond5_1 i) (x0 : Vec F S1280x1280 .bf16) (x1 : Vec F S1280x64 .f32) (x2 : Vec F S1x64 .f32) : Vec F S1280x64 .f32 :=
  VS5_0.read (Elt F) (VS5_0.writes (Elt F) VS5_0.junk (kernelRun5_A c i a0 h0 a1 h1 a2 h2 a3 h3 a4 h4 hc0 hc1 x0 x1 x2).2.1)
/-- The first and the middle cases store nothing into the output: a placeholder nothing consults. -/
def out5_A_3 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : cond5_0 i) (hc1 : ¬cond5_1 i) (x0 : Vec F S1280x1280 .bf16) (x1 : Vec F S1280x64 .f32) (x2 : Vec F S1x64 .f32) : Vec F S1280x64 .f32 :=
  VO5_3.read (Elt F) (VO5_3.writes (Elt F) VO5_3.junk (kernelRun5_A c i a0 h0 a1 h1 a2 h2 a3 h3 a4 h4 hc0 hc1 x0 x1 x2).1)

theorem scover5_B_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : ¬cond5_1 i) (x0 : Vec F S1280x1280 .bf16) (x1 : Vec F S1280x64 .f32) (x2 : Vec F S1x64 .f32) (xs0 : Vec F S1280x64 .f32) (y : S1280x64.Idx) :
    ∃ pc ∈ (kernelRun5_B c i a0 h0 a1 h1 a2 h2 a3 h3 a4 h4 hc0 hc1 x0 x1 x2 xs0).2.1, y ∈ pc.1.set :=
  View.cover_of_tiledL (kernelRun5_B c i a0 h0 a1 h1 a2 h2 a3 h3 a4 h4 hc0 hc1 x0 x1 x2 xs0).2.1 S1280x64.size (by sl_kernel_rfl) y
def sout5_B_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : ¬cond5_1 i) (x0 : Vec F S1280x1280 .bf16) (x1 : Vec F S1280x64 .f32) (x2 : Vec F S1x64 .f32) (xs0 : Vec F S1280x64 .f32) : Vec F S1280x64 .f32 :=
  VS5_0.read (Elt F) (VS5_0.writes (Elt F) VS5_0.junk (kernelRun5_B c i a0 h0 a1 h1 a2 h2 a3 h3 a4 h4 hc0 hc1 x0 x1 x2 xs0).2.1)
def out5_B_3 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : ¬cond5_1 i) (x0 : Vec F S1280x1280 .bf16) (x1 : Vec F S1280x64 .f32) (x2 : Vec F S1x64 .f32) (xs0 : Vec F S1280x64 .f32) : Vec F S1280x64 .f32 :=
  VO5_3.read (Elt F) (VO5_3.writes (Elt F) VO5_3.junk (kernelRun5_B c i a0 h0 a1 h1 a2 h2 a3 h3 a4 h4 hc0 hc1 x0 x1 x2 xs0).1)

theorem cover5_C_3 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i) (x0 : Vec F S1280x1280 .bf16) (x1 : Vec F S1280x64 .f32) (x2 : Vec F S1x64 .f32) (xs0 : Vec F S1280x64 .f32) (y : S1280x64.Idx) :
    ∃ pc ∈ (kernelRun5_C c i a0 h0 a1 h1 a2 h2 a3 h3 a4 h4 hc0 hc1 x0 x1 x2 xs0).1, y ∈ pc.1.set :=
  View.cover_of_tiledL (kernelRun5_C c i a0 h0 a1 h1 a2 h2 a3 h3 a4 h4 hc0 hc1 x0 x1 x2 xs0).1 S1280x64.size (by sl_kernel_rfl) y
def out5_C_3 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i) (x0 : Vec F S1280x1280 .bf16) (x1 : Vec F S1280x64 .f32) (x2 : Vec F S1x64 .f32) (xs0 : Vec F S1280x64 .f32) : Vec F S1280x64 .f32 :=
  VO5_3.read (Elt F) (VO5_3.writes (Elt F) VO5_3.junk (kernelRun5_C c i a0 h0 a1 h1 a2 h2 a3 h3 a4 h4 hc0 hc1 x0 x1 x2 xs0).1)
theorem scover5_C_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i) (x0 : Vec F S1280x1280 .bf16) (x1 : Vec F S1280x64 .f32) (x2 : Vec F S1x64 .f32) (xs0 : Vec F S1280x64 .f32) (y : S1280x64.Idx) :
    ∃ pc ∈ (kernelRun5_C c i a0 h0 a1 h1 a2 h2 a3 h3 a4 h4 hc0 hc1 x0 x1 x2 xs0).2.1, y ∈ pc.1.set :=
  View.cover_of_tiledL (kernelRun5_C c i a0 h0 a1 h1 a2 h2 a3 h3 a4 h4 hc0 hc1 x0 x1 x2 xs0).2.1 S1280x64.size (by sl_kernel_rfl) y
def sout5_C_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i) (x0 : Vec F S1280x1280 .bf16) (x1 : Vec F S1280x64 .f32) (x2 : Vec F S1x64 .f32) (xs0 : Vec F S1280x64 .f32) : Vec F S1280x64 .f32 :=
  VS5_0.read (Elt F) (VS5_0.writes (Elt F) VS5_0.junk (kernelRun5_C c i a0 h0 a1 h1 a2 h2 a3 h3 a4 h4 hc0 hc1 x0 x1 x2 xs0).2.1)

/-! ## The accumulation, point by point -/

/-- What the output's staging buffer and the accumulator hold after the body at position `n`: the case the position is
    in, run on the position's blocks, over what the position before left in the accumulator. -/
def outsAt5 (c : Dev nD) : (n : ℕ) → n < cfg5.N → Vec F S1280x64 .f32 × Vec F S1280x64 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 8 = 0 then
      if h1 : (n + 1) % 8 = 7 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 8 = 7 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 8 = 0) (h1 : ¬t.val % 8 = 7) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 8 = 0) (h1 : ¬t.val % 8 = 7) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 8 = 0) (h1 : t.val % 8 = 7) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the pipeline hands over; afterwards the accumulator
    at what the point before left in it, beside the other scoped buffers and the generator register. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Rest5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5_0 fullShare ((outsAt5 V c n hn).2) ∗ Rest5 c) ∗ (∃ r, prngReg c r)) := rfl
theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Rest5 c) ∗ (∃ r, prngReg c r)) := by
  cases n with
  | zero => exact absurd rfl hz
  | succ n => rfl

/-- The proof data of this pipeline on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point, by the case the point is in. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 64 := lt_of_lt_of_eq t.isLt (show cfg5.N = 64 from N_5)
  rw [show (dat5 V c).leavesExact 0 t = owns (c : Thread nD τ) (ms5_0 t) fullShare ((dat5 V c).after 0 t) from by
      unfold Dat.leavesExact; rw [liveAt5_0 t], after5_0]
  rw [show (dat5 V c).leavesExact 1 t = owns (c : Thread nD τ) (ms5_1 t) fullShare ((dat5 V c).after 1 t) from by
      unfold Dat.leavesExact; rw [liveAt5_1 t], after5_1]
  rw [show (dat5 V c).leavesExact 2 t = owns (c : Thread nD τ) (ms5_2 t) fullShare ((dat5 V c).after 2 t) from by
      unfold Dat.leavesExact; rw [liveAt5_2 t], after5_2]
  by_cases h0 : t.val % 8 = 0
  · by_cases h1 : t.val % 8 = 7
    · exfalso; omega
    · rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩⟩
      iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_C_3 c _ _ _ _ _ _ _ _ _ _ _ _ _ _ _ _ _)
    · rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the pipeline hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the scoped buffers and the register back, the accumulator's contents forgotten. -/
theorem hout5 (c : Dev nD) : (dat5 V c).Φ (Fin.last cfg5.N) ⊢ Pipeline.ΦA spec5 c := by
  have ht : (Fin.last cfg5.N).val ≠ 0 := by rw [Fin.val_last]; have : cfg5.N = 64 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨HS0, HR⟩, Hg⟩
  isplitl [HS0 HR]
  · isplitl [HS0]
    · iexists _; iexact HS0
    iexact HR
  iexact Hg

end Region5

end Cert.Kernel.Fr

end
-- ==== Proof.K.R6.lean ====
/-
  The classifier, region 6 of the program: each grid point multiplies a block of 1280 rows of the third layer's output
  by the whole 64×3 weight matrix and adds the bias row. What the body leaves in its output buffer, its triple, and the
  pipeline's proof data and body obligation.
-/
import proofs.«143928_j37108517437617_1_alg».proof.Proof.Gen.Kernel.Launch
import proofs.«143928_j37108517437617_1_alg».proof.Proof.Gen.Kernel.Skeleton
import proofs.«143928_j37108517437617_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6 (h₃·W_c + b_c by row blocks), at the buffer contents `V` it is entered from -/

section Region6
variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not (a window the pipeline
    does not fetch at a point has not moved its block index since the point before). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not (a window the pipeline
    does not fetch at a point has not moved its block index since the point before). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not (a window the pipeline
    does not fetch at a point has not moved its block index since the point before). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S1280x64 := Rect.unit (s := S1280x64) ![0, 0] S1280x64.size inb_S1280x64_S1280x64_0_0
abbrev r6_1 : Rect S64x3 := Rect.unit (s := S64x3) ![0, 0] S64x3.size inb_S64x3_S64x3_0_0
abbrev r6_2 : Rect S1x3 := Rect.unit (s := S1x3) ![0, 0] S1x3.size inb_S1x3_S1x3_0_0
abbrev r6_3 : Rect S1280x3 := Rect.unit (s := S1280x3) ![0, 0] S1280x3.size inb_S1280x3_S1280x3_0_0

/-- What the body leaves in the output window's staging buffer: its one whole-block store, the payload computed from the
    input blocks. -/
def out6_3 (x0 : Vec F S1280x64 .f32) (x1 : Vec F S64x3 .f32) (x2 : Vec F S1x3 .f32) : Vec F S1280x3 .f32 :=
  View.canon [⟨r6_3, k6_pay1 (View.ld x0 r6_0) (View.ld x1 r6_1) (View.ld x2 r6_2)⟩]

/-- The one store covers the block. -/
theorem cover6_3 (p0 : Vec F S1280x3 .f32) (y : S1280x3.Idx) :
    ∃ pc ∈ ([⟨r6_3, p0⟩] : List (View.Piece (Elt F) S1280x3 .f32)), y ∈ pc.1.set :=
  View.cover_of_tiled [⟨r6_3, p0⟩] S1280x3.size (by rfl) y

set_option maxHeartbeats 4000000 in
/-- The body on whole staging buffers: the inputs' at read contents `x_i`, the output's at anything. It runs to its
    continuation with the inputs' buffers as they were and the output's at `out6_3` of them. -/
theorem sound_kernel6 (c : Dev nD) (i : grid6.Coords) (E : Set ℕ) (arg0 : Memref sig .tc .vmem S1280x64 .f32) (harg0 : arg0.IsWhole) (arg1 : Memref sig .tc .vmem S64x3 .f32) (harg1 : arg1.IsWhole) (arg2 : Memref sig .tc .vmem S1x3 .f32) (harg2 : arg2.IsWhole) (arg3 : Memref sig .tc .vmem S1280x3 .f32) (harg3 : arg3.IsWhole)
    (x0 : Vec F S1280x64 .f32) (x1 : Vec F S64x3 .f32) (x2 : Vec F S1x3 .f32) (Kc : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ Kc ⟨⟩))
      ⊢ wp frame (wpE (defs₀ (F := F)) Variants.none c none) E (cc6__final_kernel i arg0 harg0 arg1 harg1 arg2 harg2 arg3 harg3) Kc := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of this pipeline on core `c`: the arrays as the region finds them; after the body each input's
    buffer at its block and the output's at `out6_3` of the input blocks; the invariant is the scoped rest and
    the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the triple above applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c _ Set.univ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.Kernel.Fr

end
-- ==== Proof.K.Run.lean ====
/-
  The whole run of the program: seven kernel regions among stretches of host operations. The buffer contents at every
  boundary as a fold from the launch memory (a host stretch applies its operations; a region replaces its arrays by what
  its write-backs leave), each region as a segment over the thread state "every unscoped buffer at the boundary's
  contents", and the run: every weakly fair execution terminates with every unscoped buffer at the last boundary's contents.
-/
import proofs.«143928_j37108517437617_1_alg».proof.Proof.Gen.Kernel.Launch
import proofs.«143928_j37108517437617_1_alg».proof.Proof.Gen.Kernel.Skeleton
import proofs.«143928_j37108517437617_1_alg».proof.Proof.Gen.Kernel.Points
import proofs.«143928_j37108517437617_1_alg».proof.Proof.K.R0
import proofs.«143928_j37108517437617_1_alg».proof.Proof.K.R1
import proofs.«143928_j37108517437617_1_alg».proof.Proof.K.R2
import proofs.«143928_j37108517437617_1_alg».proof.Proof.K.R3
import proofs.«143928_j37108517437617_1_alg».proof.Proof.K.R4
import proofs.«143928_j37108517437617_1_alg».proof.Proof.K.R5
import proofs.«143928_j37108517437617_1_alg».proof.Proof.K.R6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After region 0: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After region 1: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After region 2: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- After the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
/-- After region 3: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- After region 4: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch `hostOps5`. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After region 5: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the host stretch `hostOps6`. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- After region 6: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- After the host stretch `hostOps7`. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b

/-! ## The proof data family and the thread state -/

abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 over the thread state: entered from every unscoped buffer at `W3`, left at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (V5 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V5 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 3).pre c (fun _ => fullShare) (adm (F := F) 3).1 ∗ Pipeline.scopedRest spec3 c)
        ⊢ (Pipeline.ΦA spec3 c : sProp 𝕄) := by
      unfold Pipeline.ΦA
      iintro ⟨Hp, -, Hr⟩
      isplitl [Hr]; · iexact Hr
      iexact Hp
    exact h1.trans (hin3 (V8 m ρ) c)
  hout c := by
    rw [Pipeline.ownSems0_none]
    have h2 : (Pipeline.ΦA spec3 c : sProp 𝕄) ⊢ iprop((∃ r, prngReg c r) ∗ BI.emp ∗ Pipeline.scopedRest spec3 c) := by
      unfold Pipeline.ΦA
      iintro ⟨Hr, Hp⟩
      isplitl [Hp]; · iexact Hp
      isplitr; · iempintro
      iexact Hr
    exact (hout3 (V8 m ρ) c).trans h2
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 5).pre c (fun _ => fullShare) (adm (F := F) 5).1 ∗ Pipeline.scopedRest spec5 c)
        ⊢ (Pipeline.ΦA spec5 c : sProp 𝕄) := by
      unfold Pipeline.ΦA
      iintro ⟨Hp, -, Hr⟩
      isplitl [Hr]; · iexact Hr
      iexact Hp
    exact h1.trans (hin5 (V11 m ρ) c)
  hout c := by
    rw [Pipeline.ownSems0_none]
    have h2 : (Pipeline.ΦA spec5 c : sProp 𝕄) ⊢ iprop((∃ r, prngReg c r) ∗ BI.emp ∗ Pipeline.scopedRest spec5 c) := by
      unfold Pipeline.ΦA
      iintro ⟨Hr, Hp⟩
      isplitl [Hp]; · iexact Hp
      isplitr; · iempintro
      iexact Hr
    exact (hout5 (V11 m ρ) c).trans h2
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

theorem hostOps0_fresh' : (hostOps0 : List (HloOp τ sig (Elt F))).Forall fun op => op.fresh = ∅ := by
  simp only [List.Forall]; repeat' constructor
theorem hostOps0_1_fresh' : (hostOps0_1 : List (HloOp τ sig (Elt F))).Forall fun op => op.fresh = ∅ := by
  simp only [List.Forall]; repeat' constructor
theorem hostOps0_2_fresh' : (hostOps0_2 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps5_fresh' : (hostOps5 : List (HloOp τ sig (Elt F))).Forall fun op => op.fresh = ∅ := by
  simp only [List.Forall]; repeat' constructor
theorem hostOps6_fresh' : (hostOps6 : List (HloOp τ sig (Elt F))).Forall fun op => op.fresh = ∅ := by
  simp only [List.Forall]; repeat' constructor
theorem hostOps7_fresh' : (hostOps7 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last host stretch's state regrouped: the buffers and the register, beside the core's dues at nothing. -/
theorem hlast (c : Dev nD) :
    iprop(StableHlo.held (c : Thread nD τ) (Pipeline.ucRefs τ sig) (StableHlo.after hostOps7 (W14 m ρ c)) ∗ R c)
      ⊢ (iprop(Tₙ m ρ c ∗ ∃ W, owes (c : Thread nD τ) (0 : CellTallies nD τ sig Unit) W) : sProp 𝕄) := by
  iintro ⟨Hh, Hp, Ho⟩
  isplitl [Hh Hp]
  · isplitl [Hh]; · iexact Hh
    iexact Hp
  iexact Ho

abbrev segs : List (Pipeline.Seg (pcfgs (F := F)) adm (pdats m ρ) () defs₀ 𝒱₀ L lv) :=
  [ .host (hseg hostOps0 hostOps0_sub hostOps0_fresh' (W0 m ρ)),
    .host (hseg hostOps0_1 hostOps0_1_sub hostOps0_1_fresh' (W1 m ρ)),
    .host (hseg hostOps0_2 hostOps0_2_sub hostOps0_2_fresh' (W2 m ρ)),
    .region (reg0 m ρ),
    .host (hseg hostOps1 hostOps1_sub hostOps1_fresh' (W4 m ρ)),
    .region (reg1 m ρ),
    .region (reg2 m ρ),
    .host (hseg hostOps3 hostOps3_sub hostOps3_fresh' (W7 m ρ)),
    .region (reg3 m ρ),
    .region (reg4 m ρ),
    .host (hseg hostOps5 hostOps5_sub hostOps5_fresh' (W10 m ρ)),
    .region (reg5 m ρ),
    .host (hseg hostOps6 hostOps6_sub hostOps6_fresh' (W12 m ρ)),
    .region (reg6 m ρ),
    .host (hseg hostOps7 hostOps7_sub hostOps7_fresh' (W14 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun _ h => h)

end Cert.Kernel.Fr

end
-- ==== Proof.K.Args.lean ====
/-
  No item of the program writes an argument array: a host stretch writes only its own results, a region only its
  output array; an argument a region stages through an input window comes back as it went in. So each argument's buffer
  at the last boundary holds its launch contents.
-/
import proofs.«143928_j37108517437617_1_alg».proof.Proof.Gen.Kernel.Launch
import proofs.«143928_j37108517437617_1_alg».proof.Proof.Gen.Kernel.Skeleton
import proofs.«143928_j37108517437617_1_alg».proof.Proof.Gen.Kernel.Points
import proofs.«143928_j37108517437617_1_alg».proof.Proof.K.Run
import proofs.«143928_j37108517437617_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W15_main_arg0 (c : Dev nD) : W15 m ρ c (Proc.devRef .tc main_arg0) = m ((c : Thread nD τ).loc main_arg0) :=
  (show W15 m ρ c (Proc.devRef .tc main_arg0) = W14 m ρ c (Proc.devRef .tc main_arg0) from StableHlo.after_of_writes_sub hostOps7 _ hostOps7_writes (by decide : main_arg0 ∉ hostOps7_W)).trans <|
  (show W14 m ρ c (Proc.devRef .tc main_arg0) = W13 m ρ c (Proc.devRef .tc main_arg0) from W14_of_ne m ρ c main_arg0 (by decide)).trans <|
  (show W13 m ρ c (Proc.devRef .tc main_arg0) = W12 m ρ c (Proc.devRef .tc main_arg0) from StableHlo.after_of_writes_sub hostOps6 _ hostOps6_writes (by decide : main_arg0 ∉ hostOps6_W)).trans <|
  (show W12 m ρ c (Proc.devRef .tc main_arg0) = W11 m ρ c (Proc.devRef .tc main_arg0) from W12_of_ne m ρ c main_arg0 (by decide)).trans <|
  (show W11 m ρ c (Proc.devRef .tc main_arg0) = W10 m ρ c (Proc.devRef .tc main_arg0) from StableHlo.after_of_writes_sub hostOps5 _ hostOps5_writes (by decide : main_arg0 ∉ hostOps5_W)).trans <|
  (show W10 m ρ c (Proc.devRef .tc main_arg0) = W9 m ρ c (Proc.devRef .tc main_arg0) from W10_of_ne m ρ c main_arg0 (by decide)).trans <|
  (show W9 m ρ c (Proc.devRef .tc main_arg0) = W8 m ρ c (Proc.devRef .tc main_arg0) from W9_of_ne m ρ c main_arg0 (by decide)).trans <|
  (show W8 m ρ c (Proc.devRef .tc main_arg0) = W7 m ρ c (Proc.devRef .tc main_arg0) from StableHlo.after_of_writes_sub hostOps3 _ hostOps3_writes (by decide : main_arg0 ∉ hostOps3_W)).trans <|
  (show W7 m ρ c (Proc.devRef .tc main_arg0) = W6 m ρ c (Proc.devRef .tc main_arg0) from W7_of_ne m ρ c main_arg0 (by decide)).trans <|
  (show W6 m ρ c (Proc.devRef .tc main_arg0) = W5 m ρ c (Proc.devRef .tc main_arg0) from W6_of_ne m ρ c main_arg0 (by decide)).trans <|
  (show W5 m ρ c (Proc.devRef .tc main_arg0) = W4 m ρ c (Proc.devRef .tc main_arg0) from StableHlo.after_of_writes_sub hostOps1 _ hostOps1_writes (by decide : main_arg0 ∉ hostOps1_W)).trans <|
  (show W4 m ρ c (Proc.devRef .tc main_arg0) = W3 m ρ c (Proc.devRef .tc main_arg0) from W4_of_ne m ρ c main_arg0 (by decide)).trans <|
  (show W3 m ρ c (Proc.devRef .tc main_arg0) = W2 m ρ c (Proc.devRef .tc main_arg0) from StableHlo.after_of_writes_sub hostOps0_2 _ hostOps0_2_writes (by decide : main_arg0 ∉ hostOps0_2_W)).trans <|
  (show W2 m ρ c (Proc.devRef .tc main_arg0) = W1 m ρ c (Proc.devRef .tc main_arg0) from StableHlo.after_of_writes_sub hostOps0_1 _ hostOps0_1_writes (by decide : main_arg0 ∉ hostOps0_1_W)).trans <|
  (show W1 m ρ c (Proc.devRef .tc main_arg0) = W0 m ρ c (Proc.devRef .tc main_arg0) from StableHlo.after_of_writes_sub hostOps0 _ hostOps0_writes (by decide : main_arg0 ∉ hostOps0_W)).trans <|
  rfl

theorem W15_main_arg1 (c : Dev nD) : W15 m ρ c (Proc.devRef .tc main_arg1) = m ((c : Thread nD τ).loc main_arg1) :=
  (show W15 m ρ c (Proc.devRef .tc main_arg1) = W14 m ρ c (Proc.devRef .tc main_arg1) from StableHlo.after_of_writes_sub hostOps7 _ hostOps7_writes (by decide : main_arg1 ∉ hostOps7_W)).trans <|
  (show W14 m ρ c (Proc.devRef .tc main_arg1) = W13 m ρ c (Proc.devRef .tc main_arg1) from W14_of_ne m ρ c main_arg1 (by decide)).trans <|
  (show W13 m ρ c (Proc.devRef .tc main_arg1) = W12 m ρ c (Proc.devRef .tc main_arg1) from StableHlo.after_of_writes_sub hostOps6 _ hostOps6_writes (by decide : main_arg1 ∉ hostOps6_W)).trans <|
  (show W12 m ρ c (Proc.devRef .tc main_arg1) = W11 m ρ c (Proc.devRef .tc main_arg1) from W12_of_ne m ρ c main_arg1 (by decide)).trans <|
  (show W11 m ρ c (Proc.devRef .tc main_arg1) = W10 m ρ c (Proc.devRef .tc main_arg1) from StableHlo.after_of_writes_sub hostOps5 _ hostOps5_writes (by decide : main_arg1 ∉ hostOps5_W)).trans <|
  (show W10 m ρ c (Proc.devRef .tc main_arg1) = W9 m ρ c (Proc.devRef .tc main_arg1) from W10_of_ne m ρ c main_arg1 (by decide)).trans <|
  (show W9 m ρ c (Proc.devRef .tc main_arg1) = W8 m ρ c (Proc.devRef .tc main_arg1) from W9_of_ne m ρ c main_arg1 (by decide)).trans <|
  (show W8 m ρ c (Proc.devRef .tc main_arg1) = W7 m ρ c (Proc.devRef .tc main_arg1) from StableHlo.after_of_writes_sub hostOps3 _ hostOps3_writes (by decide : main_arg1 ∉ hostOps3_W)).trans <|
  (show W7 m ρ c (Proc.devRef .tc main_arg1) = W6 m ρ c (Proc.devRef .tc main_arg1) from W7_of_ne m ρ c main_arg1 (by decide)).trans <|
  (show W6 m ρ c (Proc.devRef .tc main_arg1) = W5 m ρ c (Proc.devRef .tc main_arg1) from W6_of_ne m ρ c main_arg1 (by decide)).trans <|
  (show W5 m ρ c (Proc.devRef .tc main_arg1) = W4 m ρ c (Proc.devRef .tc main_arg1) from StableHlo.after_of_writes_sub hostOps1 _ hostOps1_writes (by decide : main_arg1 ∉ hostOps1_W)).trans <|
  (show W4 m ρ c (Proc.devRef .tc main_arg1) = W3 m ρ c (Proc.devRef .tc main_arg1) from (W4_arr m ρ c 1).trans (((dat0 (V3 m ρ) c).arrAt_in 1 rfl _).trans (A_eq0 (V3 m ρ) c 1))).trans <|
  (show W3 m ρ c (Proc.devRef .tc main_arg1) = W2 m ρ c (Proc.devRef .tc main_arg1) from StableHlo.after_of_writes_sub hostOps0_2 _ hostOps0_2_writes (by decide : main_arg1 ∉ hostOps0_2_W)).trans <|
  (show W2 m ρ c (Proc.devRef .tc main_arg1) = W1 m ρ c (Proc.devRef .tc main_arg1) from StableHlo.after_of_writes_sub hostOps0_1 _ hostOps0_1_writes (by decide : main_arg1 ∉ hostOps0_1_W)).trans <|
  (show W1 m ρ c (Proc.devRef .tc main_arg1) = W0 m ρ c (Proc.devRef .tc main_arg1) from StableHlo.after_of_writes_sub hostOps0 _ hostOps0_writes (by decide : main_arg1 ∉ hostOps0_W)).trans <|
  rfl

theorem W15_main_arg2 (c : Dev nD) : W15 m ρ c (Proc.devRef .tc main_arg2) = m ((c : Thread nD τ).loc main_arg2) :=
  (show W15 m ρ c (Proc.devRef .tc main_arg2) = W14 m ρ c (Proc.devRef .tc main_arg2) from StableHlo.after_of_writes_sub hostOps7 _ hostOps7_writes (by decide : main_arg2 ∉ hostOps7_W)).trans <|
  (show W14 m ρ c (Proc.devRef .tc main_arg2) = W13 m ρ c (Proc.devRef .tc main_arg2) from W14_of_ne m ρ c main_arg2 (by decide)).trans <|
  (show W13 m ρ c (Proc.devRef .tc main_arg2) = W12 m ρ c (Proc.devRef .tc main_arg2) from StableHlo.after_of_writes_sub hostOps6 _ hostOps6_writes (by decide : main_arg2 ∉ hostOps6_W)).trans <|
  (show W12 m ρ c (Proc.devRef .tc main_arg2) = W11 m ρ c (Proc.devRef .tc main_arg2) from W12_of_ne m ρ c main_arg2 (by decide)).trans <|
  (show W11 m ρ c (Proc.devRef .tc main_arg2) = W10 m ρ c (Proc.devRef .tc main_arg2) from StableHlo.after_of_writes_sub hostOps5 _ hostOps5_writes (by decide : main_arg2 ∉ hostOps5_W)).trans <|
  (show W10 m ρ c (Proc.devRef .tc main_arg2) = W9 m ρ c (Proc.devRef .tc main_arg2) from W10_of_ne m ρ c main_arg2 (by decide)).trans <|
  (show W9 m ρ c (Proc.devRef .tc main_arg2) = W8 m ρ c (Proc.devRef .tc main_arg2) from W9_of_ne m ρ c main_arg2 (by decide)).trans <|
  (show W8 m ρ c (Proc.devRef .tc main_arg2) = W7 m ρ c (Proc.devRef .tc main_arg2) from StableHlo.after_of_writes_sub hostOps3 _ hostOps3_writes (by decide : main_arg2 ∉ hostOps3_W)).trans <|
  (show W7 m ρ c (Proc.devRef .tc main_arg2) = W6 m ρ c (Proc.devRef .tc main_arg2) from W7_of_ne m ρ c main_arg2 (by decide)).trans <|
  (show W6 m ρ c (Proc.devRef .tc main_arg2) = W5 m ρ c (Proc.devRef .tc main_arg2) from W6_of_ne m ρ c main_arg2 (by decide)).trans <|
  (show W5 m ρ c (Proc.devRef .tc main_arg2) = W4 m ρ c (Proc.devRef .tc main_arg2) from StableHlo.after_of_writes_sub hostOps1 _ hostOps1_writes (by decide : main_arg2 ∉ hostOps1_W)).trans <|
  (show W4 m ρ c (Proc.devRef .tc main_arg2) = W3 m ρ c (Proc.devRef .tc main_arg2) from W4_of_ne m ρ c main_arg2 (by decide)).trans <|
  (show W3 m ρ c (Proc.devRef .tc main_arg2) = W2 m ρ c (Proc.devRef .tc main_arg2) from StableHlo.after_of_writes_sub hostOps0_2 _ hostOps0_2_writes (by decide : main_arg2 ∉ hostOps0_2_W)).trans <|
  (show W2 m ρ c (Proc.devRef .tc main_arg2) = W1 m ρ c (Proc.devRef .tc main_arg2) from StableHlo.after_of_writes_sub hostOps0_1 _ hostOps0_1_writes (by decide : main_arg2 ∉ hostOps0_1_W)).trans <|
  (show W1 m ρ c (Proc.devRef .tc main_arg2) = W0 m ρ c (Proc.devRef .tc main_arg2) from StableHlo.after_of_writes_sub hostOps0 _ hostOps0_writes (by decide : main_arg2 ∉ hostOps0_W)).trans <|
  rfl

theorem W15_main_arg3 (c : Dev nD) : W15 m ρ c (Proc.devRef .tc main_arg3) = m ((c : Thread nD τ).loc main_arg3) :=
  (show W15 m ρ c (Proc.devRef .tc main_arg3) = W14 m ρ c (Proc.devRef .tc main_arg3) from StableHlo.after_of_writes_sub hostOps7 _ hostOps7_writes (by decide : main_arg3 ∉ hostOps7_W)).trans <|
  (show W14 m ρ c (Proc.devRef .tc main_arg3) = W13 m ρ c (Proc.devRef .tc main_arg3) from W14_of_ne m ρ c main_arg3 (by decide)).trans <|
  (show W13 m ρ c (Proc.devRef .tc main_arg3) = W12 m ρ c (Proc.devRef .tc main_arg3) from StableHlo.after_of_writes_sub hostOps6 _ hostOps6_writes (by decide : main_arg3 ∉ hostOps6_W)).trans <|
  (show W12 m ρ c (Proc.devRef .tc main_arg3) = W11 m ρ c (Proc.devRef .tc main_arg3) from W12_of_ne m ρ c main_arg3 (by decide)).trans <|
  (show W11 m ρ c (Proc.devRef .tc main_arg3) = W10 m ρ c (Proc.devRef .tc main_arg3) from StableHlo.after_of_writes_sub hostOps5 _ hostOps5_writes (by decide : main_arg3 ∉ hostOps5_W)).trans <|
  (show W10 m ρ c (Proc.devRef .tc main_arg3) = W9 m ρ c (Proc.devRef .tc main_arg3) from W10_of_ne m ρ c main_arg3 (by decide)).trans <|
  (show W9 m ρ c (Proc.devRef .tc main_arg3) = W8 m ρ c (Proc.devRef .tc main_arg3) from W9_of_ne m ρ c main_arg3 (by decide)).trans <|
  (show W8 m ρ c (Proc.devRef .tc main_arg3) = W7 m ρ c (Proc.devRef .tc main_arg3) from StableHlo.after_of_writes_sub hostOps3 _ hostOps3_writes (by decide : main_arg3 ∉ hostOps3_W)).trans <|
  (show W7 m ρ c (Proc.devRef .tc main_arg3) = W6 m ρ c (Proc.devRef .tc main_arg3) from (W7_arr m ρ c 1).trans (((dat2 (V6 m ρ) c).arrAt_in 1 rfl _).trans (A_eq2 (V6 m ρ) c 1))).trans <|
  (show W6 m ρ c (Proc.devRef .tc main_arg3) = W5 m ρ c (Proc.devRef .tc main_arg3) from W6_of_ne m ρ c main_arg3 (by decide)).trans <|
  (show W5 m ρ c (Proc.devRef .tc main_arg3) = W4 m ρ c (Proc.devRef .tc main_arg3) from StableHlo.after_of_writes_sub hostOps1 _ hostOps1_writes (by decide : main_arg3 ∉ hostOps1_W)).trans <|
  (show W4 m ρ c (Proc.devRef .tc main_arg3) = W3 m ρ c (Proc.devRef .tc main_arg3) from W4_of_ne m ρ c main_arg3 (by decide)).trans <|
  (show W3 m ρ c (Proc.devRef .tc main_arg3) = W2 m ρ c (Proc.devRef .tc main_arg3) from StableHlo.after_of_writes_sub hostOps0_2 _ hostOps0_2_writes (by decide : main_arg3 ∉ hostOps0_2_W)).trans <|
  (show W2 m ρ c (Proc.devRef .tc main_arg3) = W1 m ρ c (Proc.devRef .tc main_arg3) from StableHlo.after_of_writes_sub hostOps0_1 _ hostOps0_1_writes (by decide : main_arg3 ∉ hostOps0_1_W)).trans <|
  (show W1 m ρ c (Proc.devRef .tc main_arg3) = W0 m ρ c (Proc.devRef .tc main_arg3) from StableHlo.after_of_writes_sub hostOps0 _ hostOps0_writes (by decide : main_arg3 ∉ hostOps0_W)).trans <|
  rfl

theorem W15_main_arg4 (c : Dev nD) : W15 m ρ c (Proc.devRef .tc main_arg4) = m ((c : Thread nD τ).loc main_arg4) :=
  (show W15 m ρ c (Proc.devRef .tc main_arg4) = W14 m ρ c (Proc.devRef .tc main_arg4) from StableHlo.after_of_writes_sub hostOps7 _ hostOps7_writes (by decide : main_arg4 ∉ hostOps7_W)).trans <|
  (show W14 m ρ c (Proc.devRef .tc main_arg4) = W13 m ρ c (Proc.devRef .tc main_arg4) from W14_of_ne m ρ c main_arg4 (by decide)).trans <|
  (show W13 m ρ c (Proc.devRef .tc main_arg4) = W12 m ρ c (Proc.devRef .tc main_arg4) from StableHlo.after_of_writes_sub hostOps6 _ hostOps6_writes (by decide : main_arg4 ∉ hostOps6_W)).trans <|
  (show W12 m ρ c (Proc.devRef .tc main_arg4) = W11 m ρ c (Proc.devRef .tc main_arg4) from W12_of_ne m ρ c main_arg4 (by decide)).trans <|
  (show W11 m ρ c (Proc.devRef .tc main_arg4) = W10 m ρ c (Proc.devRef .tc main_arg4) from StableHlo.after_of_writes_sub hostOps5 _ hostOps5_writes (by decide : main_arg4 ∉ hostOps5_W)).trans <|
  (show W10 m ρ c (Proc.devRef .tc main_arg4) = W9 m ρ c (Proc.devRef .tc main_arg4) from W10_of_ne m ρ c main_arg4 (by decide)).trans <|
  (show W9 m ρ c (Proc.devRef .tc main_arg4) = W8 m ρ c (Proc.devRef .tc main_arg4) from W9_of_ne m ρ c main_arg4 (by decide)).trans <|
  (show W8 m ρ c (Proc.devRef .tc main_arg4) = W7 m ρ c (Proc.devRef .tc main_arg4) from StableHlo.after_of_writes_sub hostOps3 _ hostOps3_writes (by decide : main_arg4 ∉ hostOps3_W)).trans <|
  (show W7 m ρ c (Proc.devRef .tc main_arg4) = W6 m ρ c (Proc.devRef .tc main_arg4) from W7_of_ne m ρ c main_arg4 (by decide)).trans <|
  (show W6 m ρ c (Proc.devRef .tc main_arg4) = W5 m ρ c (Proc.devRef .tc main_arg4) from W6_of_ne m ρ c main_arg4 (by decide)).trans <|
  (show W5 m ρ c (Proc.devRef .tc main_arg4) = W4 m ρ c (Proc.devRef .tc main_arg4) from StableHlo.after_of_writes_sub hostOps1 _ hostOps1_writes (by decide : main_arg4 ∉ hostOps1_W)).trans <|
  (show W4 m ρ c (Proc.devRef .tc main_arg4) = W3 m ρ c (Proc.devRef .tc main_arg4) from W4_of_ne m ρ c main_arg4 (by decide)).trans <|
  (show W3 m ρ c (Proc.devRef .tc main_arg4) = W2 m ρ c (Proc.devRef .tc main_arg4) from StableHlo.after_of_writes_sub hostOps0_2 _ hostOps0_2_writes (by decide : main_arg4 ∉ hostOps0_2_W)).trans <|
  (show W2 m ρ c (Proc.devRef .tc main_arg4) = W1 m ρ c (Proc.devRef .tc main_arg4) from StableHlo.after_of_writes_sub hostOps0_1 _ hostOps0_1_writes (by decide : main_arg4 ∉ hostOps0_1_W)).trans <|
  (show W1 m ρ c (Proc.devRef .tc main_arg4) = W0 m ρ c (Proc.devRef .tc main_arg4) from StableHlo.after_of_writes_sub hostOps0 _ hostOps0_writes (by decide : main_arg4 ∉ hostOps0_W)).trans <|
  rfl

theorem W15_main_arg5 (c : Dev nD) : W15 m ρ c (Proc.devRef .tc main_arg5) = m ((c : Thread nD τ).loc main_arg5) :=
  (show W15 m ρ c (Proc.devRef .tc main_arg5) = W14 m ρ c (Proc.devRef .tc main_arg5) from StableHlo.after_of_writes_sub hostOps7 _ hostOps7_writes (by decide : main_arg5 ∉ hostOps7_W)).trans <|
  (show W14 m ρ c (Proc.devRef .tc main_arg5) = W13 m ρ c (Proc.devRef .tc main_arg5) from W14_of_ne m ρ c main_arg5 (by decide)).trans <|
  (show W13 m ρ c (Proc.devRef .tc main_arg5) = W12 m ρ c (Proc.devRef .tc main_arg5) from StableHlo.after_of_writes_sub hostOps6 _ hostOps6_writes (by decide : main_arg5 ∉ hostOps6_W)).trans <|
  (show W12 m ρ c (Proc.devRef .tc main_arg5) = W11 m ρ c (Proc.devRef .tc main_arg5) from W12_of_ne m ρ c main_arg5 (by decide)).trans <|
  (show W11 m ρ c (Proc.devRef .tc main_arg5) = W10 m ρ c (Proc.devRef .tc main_arg5) from StableHlo.after_of_writes_sub hostOps5 _ hostOps5_writes (by decide : main_arg5 ∉ hostOps5_W)).trans <|
  (show W10 m ρ c (Proc.devRef .tc main_arg5) = W9 m ρ c (Proc.devRef .tc main_arg5) from (W10_arr m ρ c 1).trans (((dat4 (V9 m ρ) c).arrAt_in 1 rfl _).trans (A_eq4 (V9 m ρ) c 1))).trans <|
  (show W9 m ρ c (Proc.devRef .tc main_arg5) = W8 m ρ c (Proc.devRef .tc main_arg5) from W9_of_ne m ρ c main_arg5 (by decide)).trans <|
  (show W8 m ρ c (Proc.devRef .tc main_arg5) = W7 m ρ c (Proc.devRef .tc main_arg5) from StableHlo.after_of_writes_sub hostOps3 _ hostOps3_writes (by decide : main_arg5 ∉ hostOps3_W)).trans <|
  (show W7 m ρ c (Proc.devRef .tc main_arg5) = W6 m ρ c (Proc.devRef .tc main_arg5) from W7_of_ne m ρ c main_arg5 (by decide)).trans <|
  (show W6 m ρ c (Proc.devRef .tc main_arg5) = W5 m ρ c (Proc.devRef .tc main_arg5) from W6_of_ne m ρ c main_arg5 (by decide)).trans <|
  (show W5 m ρ c (Proc.devRef .tc main_arg5) = W4 m ρ c (Proc.devRef .tc main_arg5) from StableHlo.after_of_writes_sub hostOps1 _ hostOps1_writes (by decide : main_arg5 ∉ hostOps1_W)).trans <|
  (show W4 m ρ c (Proc.devRef .tc main_arg5) = W3 m ρ c (Proc.devRef .tc main_arg5) from W4_of_ne m ρ c main_arg5 (by decide)).trans <|
  (show W3 m ρ c (Proc.devRef .tc main_arg5) = W2 m ρ c (Proc.devRef .tc main_arg5) from StableHlo.after_of_writes_sub hostOps0_2 _ hostOps0_2_writes (by decide : main_arg5 ∉ hostOps0_2_W)).trans <|
  (show W2 m ρ c (Proc.devRef .tc main_arg5) = W1 m ρ c (Proc.devRef .tc main_arg5) from StableHlo.after_of_writes_sub hostOps0_1 _ hostOps0_1_writes (by decide : main_arg5 ∉ hostOps0_1_W)).trans <|
  (show W1 m ρ c (Proc.devRef .tc main_arg5) = W0 m ρ c (Proc.devRef .tc main_arg5) from StableHlo.after_of_writes_sub hostOps0 _ hostOps0_writes (by decide : main_arg5 ∉ hostOps0_W)).trans <|
  rfl

theorem W15_main_arg6 (c : Dev nD) : W15 m ρ c (Proc.devRef .tc main_arg6) = m ((c : Thread nD τ).loc main_arg6) :=
  (show W15 m ρ c (Proc.devRef .tc main_arg6) = W14 m ρ c (Proc.devRef .tc main_arg6) from StableHlo.after_of_writes_sub hostOps7 _ hostOps7_writes (by decide : main_arg6 ∉ hostOps7_W)).trans <|
  (show W14 m ρ c (Proc.devRef .tc main_arg6) = W13 m ρ c (Proc.devRef .tc main_arg6) from W14_of_ne m ρ c main_arg6 (by decide)).trans <|
  (show W13 m ρ c (Proc.devRef .tc main_arg6) = W12 m ρ c (Proc.devRef .tc main_arg6) from StableHlo.after_of_writes_sub hostOps6 _ hostOps6_writes (by decide : main_arg6 ∉ hostOps6_W)).trans <|
  (show W12 m ρ c (Proc.devRef .tc main_arg6) = W11 m ρ c (Proc.devRef .tc main_arg6) from W12_of_ne m ρ c main_arg6 (by decide)).trans <|
  (show W11 m ρ c (Proc.devRef .tc main_arg6) = W10 m ρ c (Proc.devRef .tc main_arg6) from StableHlo.after_of_writes_sub hostOps5 _ hostOps5_writes (by decide : main_arg6 ∉ hostOps5_W)).trans <|
  (show W10 m ρ c (Proc.devRef .tc main_arg6) = W9 m ρ c (Proc.devRef .tc main_arg6) from W10_of_ne m ρ c main_arg6 (by decide)).trans <|
  (show W9 m ρ c (Proc.devRef .tc main_arg6) = W8 m ρ c (Proc.devRef .tc main_arg6) from W9_of_ne m ρ c main_arg6 (by decide)).trans <|
  (show W8 m ρ c (Proc.devRef .tc main_arg6) = W7 m ρ c (Proc.devRef .tc main_arg6) from StableHlo.after_of_writes_sub hostOps3 _ hostOps3_writes (by decide : main_arg6 ∉ hostOps3_W)).trans <|
  (show W7 m ρ c (Proc.devRef .tc main_arg6) = W6 m ρ c (Proc.devRef .tc main_arg6) from W7_of_ne m ρ c main_arg6 (by decide)).trans <|
  (show W6 m ρ c (Proc.devRef .tc main_arg6) = W5 m ρ c (Proc.devRef .tc main_arg6) from W6_of_ne m ρ c main_arg6 (by decide)).trans <|
  (show W5 m ρ c (Proc.devRef .tc main_arg6) = W4 m ρ c (Proc.devRef .tc main_arg6) from StableHlo.after_of_writes_sub hostOps1 _ hostOps1_writes (by decide : main_arg6 ∉ hostOps1_W)).trans <|
  (show W4 m ρ c (Proc.devRef .tc main_arg6) = W3 m ρ c (Proc.devRef .tc main_arg6) from W4_of_ne m ρ c main_arg6 (by decide)).trans <|
  (show W3 m ρ c (Proc.devRef .tc main_arg6) = W2 m ρ c (Proc.devRef .tc main_arg6) from StableHlo.after_of_writes_sub hostOps0_2 _ hostOps0_2_writes (by decide : main_arg6 ∉ hostOps0_2_W)).trans <|
  (show W2 m ρ c (Proc.devRef .tc main_arg6) = W1 m ρ c (Proc.devRef .tc main_arg6) from StableHlo.after_of_writes_sub hostOps0_1 _ hostOps0_1_writes (by decide : main_arg6 ∉ hostOps0_1_W)).trans <|
  (show W1 m ρ c (Proc.devRef .tc main_arg6) = W0 m ρ c (Proc.devRef .tc main_arg6) from StableHlo.after_of_writes_sub hostOps0 _ hostOps0_writes (by decide : main_arg6 ∉ hostOps0_W)).trans <|
  rfl

theorem W15_main_arg7 (c : Dev nD) : W15 m ρ c (Proc.devRef .tc main_arg7) = m ((c : Thread nD τ).loc main_arg7) :=
  (show W15 m ρ c (Proc.devRef .tc main_arg7) = W14 m ρ c (Proc.devRef .tc main_arg7) from StableHlo.after_of_writes_sub hostOps7 _ hostOps7_writes (by decide : main_arg7 ∉ hostOps7_W)).trans <|
  (show W14 m ρ c (Proc.devRef .tc main_arg7) = W13 m ρ c (Proc.devRef .tc main_arg7) from (W14_arr m ρ c 1).trans (((dat6 (V13 m ρ) c).arrAt_in 1 rfl _).trans (A_eq6 (V13 m ρ) c 1))).trans <|
  (show W13 m ρ c (Proc.devRef .tc main_arg7) = W12 m ρ c (Proc.devRef .tc main_arg7) from StableHlo.after_of_writes_sub hostOps6 _ hostOps6_writes (by decide : main_arg7 ∉ hostOps6_W)).trans <|
  (show W12 m ρ c (Proc.devRef .tc main_arg7) = W11 m ρ c (Proc.devRef .tc main_arg7) from W12_of_ne m ρ c main_arg7 (by decide)).trans <|
  (show W11 m ρ c (Proc.devRef .tc main_arg7) = W10 m ρ c (Proc.devRef .tc main_arg7) from StableHlo.after_of_writes_sub hostOps5 _ hostOps5_writes (by decide : main_arg7 ∉ hostOps5_W)).trans <|
  (show W10 m ρ c (Proc.devRef .tc main_arg7) = W9 m ρ c (Proc.devRef .tc main_arg7) from W10_of_ne m ρ c main_arg7 (by decide)).trans <|
  (show W9 m ρ c (Proc.devRef .tc main_arg7) = W8 m ρ c (Proc.devRef .tc main_arg7) from W9_of_ne m ρ c main_arg7 (by decide)).trans <|
  (show W8 m ρ c (Proc.devRef .tc main_arg7) = W7 m ρ c (Proc.devRef .tc main_arg7) from StableHlo.after_of_writes_sub hostOps3 _ hostOps3_writes (by decide : main_arg7 ∉ hostOps3_W)).trans <|
  (show W7 m ρ c (Proc.devRef .tc main_arg7) = W6 m ρ c (Proc.devRef .tc main_arg7) from W7_of_ne m ρ c main_arg7 (by decide)).trans <|
  (show W6 m ρ c (Proc.devRef .tc main_arg7) = W5 m ρ c (Proc.devRef .tc main_arg7) from W6_of_ne m ρ c main_arg7 (by decide)).trans <|
  (show W5 m ρ c (Proc.devRef .tc main_arg7) = W4 m ρ c (Proc.devRef .tc main_arg7) from StableHlo.after_of_writes_sub hostOps1 _ hostOps1_writes (by decide : main_arg7 ∉ hostOps1_W)).trans <|
  (show W4 m ρ c (Proc.devRef .tc main_arg7) = W3 m ρ c (Proc.devRef .tc main_arg7) from W4_of_ne m ρ c main_arg7 (by decide)).trans <|
  (show W3 m ρ c (Proc.devRef .tc main_arg7) = W2 m ρ c (Proc.devRef .tc main_arg7) from StableHlo.after_of_writes_sub hostOps0_2 _ hostOps0_2_writes (by decide : main_arg7 ∉ hostOps0_2_W)).trans <|
  (show W2 m ρ c (Proc.devRef .tc main_arg7) = W1 m ρ c (Proc.devRef .tc main_arg7) from StableHlo.after_of_writes_sub hostOps0_1 _ hostOps0_1_writes (by decide : main_arg7 ∉ hostOps0_1_W)).trans <|
  (show W1 m ρ c (Proc.devRef .tc main_arg7) = W0 m ρ c (Proc.devRef .tc main_arg7) from StableHlo.after_of_writes_sub hostOps0 _ hostOps0_writes (by decide : main_arg7 ∉ hostOps0_W)).trans <|
  rfl

theorem W15_main_arg8 (c : Dev nD) : W15 m ρ c (Proc.devRef .tc main_arg8) = m ((c : Thread nD τ).loc main_arg8) :=
  (show W15 m ρ c (Proc.devRef .tc main_arg8) = W14 m ρ c (Proc.devRef .tc main_arg8) from StableHlo.after_of_writes_sub hostOps7 _ hostOps7_writes (by decide : main_arg8 ∉ hostOps7_W)).trans <|
  (show W14 m ρ c (Proc.devRef .tc main_arg8) = W13 m ρ c (Proc.devRef .tc main_arg8) from W14_of_ne m ρ c main_arg8 (by decide)).trans <|
  (show W13 m ρ c (Proc.devRef .tc main_arg8) = W12 m ρ c (Proc.devRef .tc main_arg8) from StableHlo.after_of_writes_sub hostOps6 _ hostOps6_writes (by decide : main_arg8 ∉ hostOps6_W)).trans <|
  (show W12 m ρ c (Proc.devRef .tc main_arg8) = W11 m ρ c (Proc.devRef .tc main_arg8) from W12_of_ne m ρ c main_arg8 (by decide)).trans <|
  (show W11 m ρ c (Proc.devRef .tc main_arg8) = W10 m ρ c (Proc.devRef .tc main_arg8) from StableHlo.after_of_writes_sub hostOps5 _ hostOps5_writes (by decide : main_arg8 ∉ hostOps5_W)).trans <|
  (show W10 m ρ c (Proc.devRef .tc main_arg8) = W9 m ρ c (Proc.devRef .tc main_arg8) from W10_of_ne m ρ c main_arg8 (by decide)).trans <|
  (show W9 m ρ c (Proc.devRef .tc main_arg8) = W8 m ρ c (Proc.devRef .tc main_arg8) from W9_of_ne m ρ c main_arg8 (by decide)).trans <|
  (show W8 m ρ c (Proc.devRef .tc main_arg8) = W7 m ρ c (Proc.devRef .tc main_arg8) from StableHlo.after_of_writes_sub hostOps3 _ hostOps3_writes (by decide : main_arg8 ∉ hostOps3_W)).trans <|
  (show W7 m ρ c (Proc.devRef .tc main_arg8) = W6 m ρ c (Proc.devRef .tc main_arg8) from W7_of_ne m ρ c main_arg8 (by decide)).trans <|
  (show W6 m ρ c (Proc.devRef .tc main_arg8) = W5 m ρ c (Proc.devRef .tc main_arg8) from W6_of_ne m ρ c main_arg8 (by decide)).trans <|
  (show W5 m ρ c (Proc.devRef .tc main_arg8) = W4 m ρ c (Proc.devRef .tc main_arg8) from StableHlo.after_of_writes_sub hostOps1 _ hostOps1_writes (by decide : main_arg8 ∉ hostOps1_W)).trans <|
  (show W4 m ρ c (Proc.devRef .tc main_arg8) = W3 m ρ c (Proc.devRef .tc main_arg8) from W4_of_ne m ρ c main_arg8 (by decide)).trans <|
  (show W3 m ρ c (Proc.devRef .tc main_arg8) = W2 m ρ c (Proc.devRef .tc main_arg8) from StableHlo.after_of_writes_sub hostOps0_2 _ hostOps0_2_writes (by decide : main_arg8 ∉ hostOps0_2_W)).trans <|
  (show W2 m ρ c (Proc.devRef .tc main_arg8) = W1 m ρ c (Proc.devRef .tc main_arg8) from StableHlo.after_of_writes_sub hostOps0_1 _ hostOps0_1_writes (by decide : main_arg8 ∉ hostOps0_1_W)).trans <|
  (show W1 m ρ c (Proc.devRef .tc main_arg8) = W0 m ρ c (Proc.devRef .tc main_arg8) from StableHlo.after_of_writes_sub hostOps0 _ hostOps0_writes (by decide : main_arg8 ∉ hostOps0_W)).trans <|
  rfl

theorem W15_main_arg9 (c : Dev nD) : W15 m ρ c (Proc.devRef .tc main_arg9) = m ((c : Thread nD τ).loc main_arg9) :=
  (show W15 m ρ c (Proc.devRef .tc main_arg9) = W14 m ρ c (Proc.devRef .tc main_arg9) from StableHlo.after_of_writes_sub hostOps7 _ hostOps7_writes (by decide : main_arg9 ∉ hostOps7_W)).trans <|
  (show W14 m ρ c (Proc.devRef .tc main_arg9) = W13 m ρ c (Proc.devRef .tc main_arg9) from W14_of_ne m ρ c main_arg9 (by decide)).trans <|
  (show W13 m ρ c (Proc.devRef .tc main_arg9) = W12 m ρ c (Proc.devRef .tc main_arg9) from StableHlo.after_of_writes_sub hostOps6 _ hostOps6_writes (by decide : main_arg9 ∉ hostOps6_W)).trans <|
  (show W12 m ρ c (Proc.devRef .tc main_arg9) = W11 m ρ c (Proc.devRef .tc main_arg9) from W12_of_ne m ρ c main_arg9 (by decide)).trans <|
  (show W11 m ρ c (Proc.devRef .tc main_arg9) = W10 m ρ c (Proc.devRef .tc main_arg9) from StableHlo.after_of_writes_sub hostOps5 _ hostOps5_writes (by decide : main_arg9 ∉ hostOps5_W)).trans <|
  (show W10 m ρ c (Proc.devRef .tc main_arg9) = W9 m ρ c (Proc.devRef .tc main_arg9) from W10_of_ne m ρ c main_arg9 (by decide)).trans <|
  (show W9 m ρ c (Proc.devRef .tc main_arg9) = W8 m ρ c (Proc.devRef .tc main_arg9) from W9_of_ne m ρ c main_arg9 (by decide)).trans <|
  (show W8 m ρ c (Proc.devRef .tc main_arg9) = W7 m ρ c (Proc.devRef .tc main_arg9) from StableHlo.after_of_writes_sub hostOps3 _ hostOps3_writes (by decide : main_arg9 ∉ hostOps3_W)).trans <|
  (show W7 m ρ c (Proc.devRef .tc main_arg9) = W6 m ρ c (Proc.devRef .tc main_arg9) from W7_of_ne m ρ c main_arg9 (by decide)).trans <|
  (show W6 m ρ c (Proc.devRef .tc main_arg9) = W5 m ρ c (Proc.devRef .tc main_arg9) from W6_of_ne m ρ c main_arg9 (by decide)).trans <|
  (show W5 m ρ c (Proc.devRef .tc main_arg9) = W4 m ρ c (Proc.devRef .tc main_arg9) from StableHlo.after_of_writes_sub hostOps1 _ hostOps1_writes (by decide : main_arg9 ∉ hostOps1_W)).trans <|
  (show W4 m ρ c (Proc.devRef .tc main_arg9) = W3 m ρ c (Proc.devRef .tc main_arg9) from W4_of_ne m ρ c main_arg9 (by decide)).trans <|
  (show W3 m ρ c (Proc.devRef .tc main_arg9) = W2 m ρ c (Proc.devRef .tc main_arg9) from StableHlo.after_of_writes_sub hostOps0_2 _ hostOps0_2_writes (by decide : main_arg9 ∉ hostOps0_2_W)).trans <|
  (show W2 m ρ c (Proc.devRef .tc main_arg9) = W1 m ρ c (Proc.devRef .tc main_arg9) from StableHlo.after_of_writes_sub hostOps0_1 _ hostOps0_1_writes (by decide : main_arg9 ∉ hostOps0_1_W)).trans <|
  (show W1 m ρ c (Proc.devRef .tc main_arg9) = W0 m ρ c (Proc.devRef .tc main_arg9) from StableHlo.after_of_writes_sub hostOps0 _ hostOps0_writes (by decide : main_arg9 ∉ hostOps0_W)).trans <|
  rfl

/-- The frame: every execution terminates with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W15_main_arg0 m ρ c),
    (h c _ (mem_uc main_arg1 (by decide))).trans (W15_main_arg1 m ρ c),
    (h c _ (mem_uc main_arg2 (by decide))).trans (W15_main_arg2 m ρ c),
    (h c _ (mem_uc main_arg3 (by decide))).trans (W15_main_arg3 m ρ c),
    (h c _ (mem_uc main_arg4 (by decide))).trans (W15_main_arg4 m ρ c),
    (h c _ (mem_uc main_arg5 (by decide))).trans (W15_main_arg5 m ρ c),
    (h c _ (mem_uc main_arg6 (by decide))).trans (W15_main_arg6 m ρ c),
    (h c _ (mem_uc main_arg7 (by decide))).trans (W15_main_arg7 m ρ c),
    (h c _ (mem_uc main_arg8 (by decide))).trans (W15_main_arg8 m ρ c),
    (h c _ (mem_uc main_arg9 (by decide))).trans (W15_main_arg9 m ρ c)⟩) (run_all m ρ)

end Cert.Kernel.Fr

end
-- ==== Proof.KI.R0.lean ====
/-
  The first layer's feature transform, region 0 of the program: each grid point multiplies a block of 1280 rows of the
  zero-padded features by the whole 128×512 weight matrix. What the body leaves in its output buffer, its triple, and
  the pipeline's proof data and body obligation.
-/
import proofs.«143928_j37108517437617_1_alg».proof.Proof.Gen.KernelIdeal.Launch
import proofs.«143928_j37108517437617_1_alg».proof.Proof.Gen.KernelIdeal.Skeleton
import proofs.«143928_j37108517437617_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (x·W₁ by row blocks), at the buffer contents `V` it is entered from -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (a window the pipeline
    does not fetch at a point has not moved its block index since the point before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (a window the pipeline
    does not fetch at a point has not moved its block index since the point before). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1280x128 := Rect.unit (s := S1280x128) ![0, 0] S1280x128.size inb_S1280x128_S1280x128_0_0
abbrev r0_1 : Rect S128x512 := Rect.unit (s := S128x512) ![0, 0] S128x512.size inb_S128x512_S128x512_0_0
abbrev r0_2 : Rect S1280x512 := Rect.unit (s := S1280x512) ![0, 0] S1280x512.size inb_S1280x512_S1280x512_0_0

/-- What the body leaves in the output window's staging buffer: its one whole-block store, the payload computed from the
    input blocks. -/
def out0_2 (x0 : Vec F S1280x128 .f32) (x1 : Vec F S128x512 .f32) : Vec F S1280x512 .f32 :=
  View.canon [⟨r0_2, k0_pay1 (View.ld x0 r0_0) (View.ld x1 r0_1)⟩]

/-- The one store covers the block. -/
theorem cover0_2 (p0 : Vec F S1280x512 .f32) (y : S1280x512.Idx) :
    ∃ pc ∈ ([⟨r0_2, p0⟩] : List (View.Piece (Elt F) S1280x512 .f32)), y ∈ pc.1.set :=
  View.cover_of_tiled [⟨r0_2, p0⟩] S1280x512.size (by rfl) y

set_option maxHeartbeats 4000000 in
/-- The body on whole staging buffers: the inputs' at read contents `x_i`, the output's at anything. It runs to its
    continuation with the inputs' buffers as they were and the output's at `out0_2` of them. -/
theorem sound_kernel0 (c : Dev nD) (i : grid0.Coords) (E : Set ℕ) (arg0 : Memref sig .tc .vmem S1280x128 .f32) (harg0 : arg0.IsWhole) (arg1 : Memref sig .tc .vmem S128x512 .f32) (harg1 : arg1.IsWhole) (arg2 : Memref sig .tc .vmem S1280x512 .f32) (harg2 : arg2.IsWhole)
    (x0 : Vec F S1280x128 .f32) (x1 : Vec F S128x512 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ Kc ⟨⟩))
      ⊢ wp frame (wpE (defs₀ (F := F)) Variants.none c none) E (cc0__linear_kernel i arg0 harg0 arg1 harg1 arg2 harg2) Kc := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body each input's
    buffer at its block and the output's at `out0_2` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c _ Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.R1.lean ====
/-
  Layer 1's aggregation, region 1 of the program: over an 8×8 grid, point (i, k) multiplies block (i, k) of the dense
  normalised adjacency by block k of the transformed features and adds the product to an accumulator kept across the k axis:
  cleared at k = 0, and at k = 7 stored, plus the bias row and clamped below at zero, into row block i of the output (512 columns).
  The body's triple in each of the three cases, what the accumulator and the output hold point by point, the proof data
  and the body obligation.
-/
import proofs.«143928_j37108517437617_1_alg».proof.Proof.Gen.KernelIdeal.Launch
import proofs.«143928_j37108517437617_1_alg».proof.Proof.Gen.KernelIdeal.Skeleton
import proofs.«143928_j37108517437617_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (A·(x·W₁) + b₁, clamped at zero), at the buffer contents `V` it is entered from -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions over the grid: the first and the last block of the contraction axis -/

/-- The body clears its accumulator: the contraction-axis coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body writes its output block: the contraction-axis coordinate is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The staging buffers and the accumulator -/

abbrev VO1_3 : View sig .tc .vmem S1280x512 .f32 := (Memref.whole cc1_stg3_0 : Memref sig .tc .vmem S1280x512 .f32).view
abbrev ms1_0 (t : Fin cfg1.N) : Memref sig .tc .vmem S1280x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x512 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from one grid point to the next. -/
abbrev scM1_0 : Memref sig .tc .vmem S1280x512 .f32 := Memref.whole cc1_scratch0
abbrev VS1_0 : View sig .tc .vmem S1280x512 .f32 := scM1_0.view
/-- Every other scoped buffer of the program: untouched by this kernel. -/
abbrev Rest1 (c : Dev nD) : sProp 𝕄 :=
  Pipeline.scopedRestBut (Ix := Unit) (Name := ℕ) (U := UR sig nD τ) (Lvl := ℕ) (Val := Elt F) spec1 c [cc1_scratch0]

/-- What the pipeline hands the body beside the windows: the accumulator at some contents, the other scoped buffers,
    the generator register. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [scopedRest1_split]; simp only [scM1_0, owns_whole]; try rfl

/-! ## The body in its three cases -/

set_option maxHeartbeats 4000000 in
/-- First block of the contraction axis: the accumulator is cleared, then this block's product added; the output's
    buffer is handed back untouched. The pieces the accumulator ends with are found by the run. -/
noncomputable def kernelRun1_A (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : cond1_0 i) (hc1 : ¬cond1_1 i)
    (x0 : Vec F S1280x1280 .bf16) (x1 : Vec F S1280x512 .f32) (x2 : Vec F S1x512 .f32) :
    Σ' (L3 : List (View.Piece (Elt F) S1280x512 .f32)), { LS0 : List (View.Piece (Elt F) S1280x512 .f32) //
      ∀ (xi3 : Vec F S1280x512 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ (∃ d, owns (c : Thread nD τ) a4 fullShare d)
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc1__agg_kernel i a0 h0 a1 h1 a2 h2 a3 h3 a4 h4) Kc } := by
  refine ⟨[], ?_, fun xi3 E Kc => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := h0.eq_unread hf0; obtain rfl := h1.eq_unread hf1; obtain rfl := h2.eq_unread hf2; obtain rfl := h3.eq_unread hf3
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- A middle block: this block's product is added to what the accumulator held; the output's buffer is handed back
    untouched. -/
noncomputable def kernelRun1_B (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : ¬cond1_1 i)
    (x0 : Vec F S1280x1280 .bf16) (x1 : Vec F S1280x512 .f32) (x2 : Vec F S1x512 .f32) (xs0 : Vec F S1280x512 .f32) :
    Σ' (L3 : List (View.Piece (Elt F) S1280x512 .f32)), { LS0 : List (View.Piece (Elt F) S1280x512 .f32) //
      ∀ (xi3 : Vec F S1280x512 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ owns (c : Thread nD τ) a4 fullShare xs0
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc1__agg_kernel i a0 h0 a1 h1 a2 h2 a3 h3 a4 h4) Kc } := by
  refine ⟨[], ?_, fun xi3 E Kc => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := h0.eq_unread hf0; obtain rfl := h1.eq_unread hf1; obtain rfl := h2.eq_unread hf2; obtain rfl := h3.eq_unread hf3; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- Last block: this block's product is added, then the accumulator plus the bias row, clamped below at zero, is stored
    into the output's buffer. -/
noncomputable def kernelRun1_C (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i)
    (x0 : Vec F S1280x1280 .bf16) (x1 : Vec F S1280x512 .f32) (x2 : Vec F S1x512 .f32) (xs0 : Vec F S1280x512 .f32) :
    Σ' (L3 : List (View.Piece (Elt F) S1280x512 .f32)), { LS0 : List (View.Piece (Elt F) S1280x512 .f32) //
      ∀ (E : Set ℕ) (Kc : PUnit → sProp 𝕄),
        iprop(owns (c : Thread nD τ) a0 fullShare x0 ∗ owns (c : Thread nD τ) a1 fullShare x1 ∗ owns (c : Thread nD τ) a2 fullShare x2 ∗ (∃ d, owns (c : Thread nD τ) a3 fullShare d) ∗ owns (c : Thread nD τ) a4 fullShare xs0
            ∗ (iprop(owns (c : Thread nD τ) a0 fullShare x0 ∗ owns (c : Thread nD τ) a1 fullShare x1 ∗ owns (c : Thread nD τ) a2 fullShare x2 ∗ (∃ f, a3.view.loc (c : Thread nD τ) ↦[a3.view.set]{fullShare} a3.view.writes (Elt F) f L3) ∗ (∃ f, a4.view.loc (c : Thread nD τ) ↦[a4.view.set]{fullShare} a4.view.writes (Elt F) f LS0)) -∗ Kc ⟨⟩))
          ⊢ wp frame (wpE (defs₀ (F := F)) Variants.none c none) E (cc1__agg_kernel i a0 h0 a1 h1 a2 h2 a3 h3 a4 h4) Kc } := by
  refine ⟨?_, ?_, fun E Kc => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := h0.eq_unread hf0; obtain rfl := h1.eq_unread hf1; obtain rfl := h2.eq_unread hf2; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact HS0

/-! ## What each case leaves -/

theorem scover1_A_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : cond1_0 i) (hc1 : ¬cond1_1 i) (x0 : Vec F S1280x1280 .bf16) (x1 : Vec F S1280x512 .f32) (x2 : Vec F S1x512 .f32) (y : S1280x512.Idx) :
    ∃ pc ∈ (kernelRun1_A c i a0 h0 a1 h1 a2 h2 a3 h3 a4 h4 hc0 hc1 x0 x1 x2).2.1, y ∈ pc.1.set :=
  View.cover_of_tiledL (kernelRun1_A c i a0 h0 a1 h1 a2 h2 a3 h3 a4 h4 hc0 hc1 x0 x1 x2).2.1 S1280x512.size (by sl_kernel_rfl) y
def sout1_A_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : cond1_0 i) (hc1 : ¬cond1_1 i) (x0 : Vec F S1280x1280 .bf16) (x1 : Vec F S1280x512 .f32) (x2 : Vec F S1x512 .f32) : Vec F S1280x512 .f32 :=
  VS1_0.read (Elt F) (VS1_0.writes (Elt F) VS1_0.junk (kernelRun1_A c i a0 h0 a1 h1 a2 h2 a3 h3 a4 h4 hc0 hc1 x0 x1 x2).2.1)
/-- The first and the middle cases store nothing into the output: a placeholder nothing consults. -/
def out1_A_3 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : cond1_0 i) (hc1 : ¬cond1_1 i) (x0 : Vec F S1280x1280 .bf16) (x1 : Vec F S1280x512 .f32) (x2 : Vec F S1x512 .f32) : Vec F S1280x512 .f32 :=
  VO1_3.read (Elt F) (VO1_3.writes (Elt F) VO1_3.junk (kernelRun1_A c i a0 h0 a1 h1 a2 h2 a3 h3 a4 h4 hc0 hc1 x0 x1 x2).1)

theorem scover1_B_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : ¬cond1_1 i) (x0 : Vec F S1280x1280 .bf16) (x1 : Vec F S1280x512 .f32) (x2 : Vec F S1x512 .f32) (xs0 : Vec F S1280x512 .f32) (y : S1280x512.Idx) :
    ∃ pc ∈ (kernelRun1_B c i a0 h0 a1 h1 a2 h2 a3 h3 a4 h4 hc0 hc1 x0 x1 x2 xs0).2.1, y ∈ pc.1.set :=
  View.cover_of_tiledL (kernelRun1_B c i a0 h0 a1 h1 a2 h2 a3 h3 a4 h4 hc0 hc1 x0 x1 x2 xs0).2.1 S1280x512.size (by sl_kernel_rfl) y
def sout1_B_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : ¬cond1_1 i) (x0 : Vec F S1280x1280 .bf16) (x1 : Vec F S1280x512 .f32) (x2 : Vec F S1x512 .f32) (xs0 : Vec F S1280x512 .f32) : Vec F S1280x512 .f32 :=
  VS1_0.read (Elt F) (VS1_0.writes (Elt F) VS1_0.junk (kernelRun1_B c i a0 h0 a1 h1 a2 h2 a3 h3 a4 h4 hc0 hc1 x0 x1 x2 xs0).2.1)
def out1_B_3 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : ¬cond1_1 i) (x0 : Vec F S1280x1280 .bf16) (x1 : Vec F S1280x512 .f32) (x2 : Vec F S1x512 .f32) (xs0 : Vec F S1280x512 .f32) : Vec F S1280x512 .f32 :=
  VO1_3.read (Elt F) (VO1_3.writes (Elt F) VO1_3.junk (kernelRun1_B c i a0 h0 a1 h1 a2 h2 a3 h3 a4 h4 hc0 hc1 x0 x1 x2 xs0).1)

theorem cover1_C_3 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i) (x0 : Vec F S1280x1280 .bf16) (x1 : Vec F S1280x512 .f32) (x2 : Vec F S1x512 .f32) (xs0 : Vec F S1280x512 .f32) (y : S1280x512.Idx) :
    ∃ pc ∈ (kernelRun1_C c i a0 h0 a1 h1 a2 h2 a3 h3 a4 h4 hc0 hc1 x0 x1 x2 xs0).1, y ∈ pc.1.set :=
  View.cover_of_tiledL (kernelRun1_C c i a0 h0 a1 h1 a2 h2 a3 h3 a4 h4 hc0 hc1 x0 x1 x2 xs0).1 S1280x512.size (by sl_kernel_rfl) y
def out1_C_3 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i) (x0 : Vec F S1280x1280 .bf16) (x1 : Vec F S1280x512 .f32) (x2 : Vec F S1x512 .f32) (xs0 : Vec F S1280x512 .f32) : Vec F S1280x512 .f32 :=
  VO1_3.read (Elt F) (VO1_3.writes (Elt F) VO1_3.junk (kernelRun1_C c i a0 h0 a1 h1 a2 h2 a3 h3 a4 h4 hc0 hc1 x0 x1 x2 xs0).1)
theorem scover1_C_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i) (x0 : Vec F S1280x1280 .bf16) (x1 : Vec F S1280x512 .f32) (x2 : Vec F S1x512 .f32) (xs0 : Vec F S1280x512 .f32) (y : S1280x512.Idx) :
    ∃ pc ∈ (kernelRun1_C c i a0 h0 a1 h1 a2 h2 a3 h3 a4 h4 hc0 hc1 x0 x1 x2 xs0).2.1, y ∈ pc.1.set :=
  View.cover_of_tiledL (kernelRun1_C c i a0 h0 a1 h1 a2 h2 a3 h3 a4 h4 hc0 hc1 x0 x1 x2 xs0).2.1 S1280x512.size (by sl_kernel_rfl) y
def sout1_C_0 (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i) (x0 : Vec F S1280x1280 .bf16) (x1 : Vec F S1280x512 .f32) (x2 : Vec F S1x512 .f32) (xs0 : Vec F S1280x512 .f32) : Vec F S1280x512 .f32 :=
  VS1_0.read (Elt F) (VS1_0.writes (Elt F) VS1_0.junk (kernelRun1_C c i a0 h0 a1 h1 a2 h2 a3 h3 a4 h4 hc0 hc1 x0 x1 x2 xs0).2.1)

/-! ## The accumulation, point by point -/

/-- What the output's staging buffer and the accumulator hold after the body at position `n`: the case the position is
    in, run on the position's blocks, over what the position before left in the accumulator. -/
def outsAt1 (c : Dev nD) : (n : ℕ) → n < cfg1.N → Vec F S1280x512 .f32 × Vec F S1280x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the pipeline hands over; afterwards the accumulator
    at what the point before left in it, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-- The proof data of this pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the case the point is in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the pipeline hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers and the register back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HR⟩, Hg⟩
  isplitl [HS0 HR]
  · isplitl [HS0]
    · iexists _; iexact HS0
    iexact HR
  iexact Hg

end Region1

end Cert.KernelIdeal.Fr

end
-- ==== Proof.KI.R2.lean ====
/-
  The second layer's feature transform, region 2 of the program: each grid point multiplies a block of 1280 rows of the
  first layer's output by the whole 512×256 weight matrix. What the body leaves in its output buffer, its triple, and
  the pipeline's proof data and body obligation.
-/
import proofs.«143928_j37108517437617_1_alg».proof.Proof.Gen.KernelIdeal.Launch
import proofs.«143928_j37108517437617_1_alg».proof.Proof.Gen.KernelIdeal.Skeleton
import proofs.«143928_j37108517437617_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (h₁·W₂ by row blocks), at the buffer contents `V` it is entered from -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (a window the pipeline
    does not fetch at a point has not moved its block index since the point before). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (a window the pipeline
    does not fetch at a point has not moved its block index since the point before). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1280x512 := Rect.unit (s := S1280x512) ![0, 0] S1280x512.size inb_S1280x512_S1280x512_0_0
abbrev r2_1 : Rect S512x256 := Rect.unit (s := S512x256) ![0, 0] S512x256.size inb_S512x256_S512x256_0_0
abbrev r2_2 : Rect S1280x256 := Rect.unit (s := S1280x256) ![0, 0] S1280x256.size inb_S1280x256_S1280x256_0_0

/-- What the body leaves in the output window's staging buffer: its one whole-block store, the payload computed from the
    input blocks. -/
def out2_2 (x0 : Vec F S1280x512 .f32) (x1 : Vec F S512x256 .f32) : Vec F S1280x256 .f32 :=
  View.canon [⟨r2_2, k2_pay1 (View.ld x0 r2_0) (View.ld x1 r2_1)⟩]

/-- The one store covers the block. -/
theorem cover2_2 (p0 : Vec F S1280x256 .f32) (y : S1280x256.Idx) :
    ∃ pc ∈ ([⟨r2_2, p0⟩] : List (View.Piece (Elt F) S1280x256 .f32)), y ∈ pc.1.set :=
  View.cover_of_tiled [⟨r2_2, p0⟩] S1280x256.size (by rfl) y

set_option maxHeartbeats 4000000 in
/-- The body on whole staging buffers: the inputs' at read contents `x_i`, the output's at anything. It runs to its
    continuation with the inputs' buffers as they were and the output's at `out2_2` of them. -/
theorem sound_kernel2 (c : Dev nD) (i : grid2.Coords) (E : Set ℕ) (arg0 : Memref sig .tc .vmem S1280x512 .f32) (harg0 : arg0.IsWhole) (arg1 : Memref sig .tc .vmem S512x256 .f32) (harg1 : arg1.IsWhole) (arg2 : Memref sig .tc .vmem S1280x256 .f32) (harg2 : arg2.IsWhole)
    (x0 : Vec F S1280x512 .f32) (x1 : Vec F S512x256 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ Kc ⟨⟩))
      ⊢ wp frame (wpE (defs₀ (F := F)) Variants.none c none) E (cc2__linear_kernel i arg0 harg0 arg1 harg1 arg2 harg2) Kc := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core `c`: the arrays as the region finds them; after the body each input's
    buffer at its block and the output's at `out2_2` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple above applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c _ Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Fr

end
-- ==== Proof.KI.R3.lean ====
/-
  Layer 2's aggregation, region 3 of the program: over an 8×8 grid, point (i, k) multiplies block (i, k) of the dense
  normalised adjacency by block k of the transformed features and adds the product to an accumulator kept across the k axis:
  cleared at k = 0, and at k = 7 stored, plus the bias row and clamped below at zero, into row block i of the output (256 columns).
  The body's triple in each of the three cases, what the accumulator and the output hold point by point, the proof data
  and the body obligation.
-/
import proofs.«143928_j37108517437617_1_alg».proof.Proof.Gen.KernelIdeal.Launch
import proofs.«143928_j37108517437617_1_alg».proof.Proof.Gen.KernelIdeal.Skeleton
import proofs.«143928_j37108517437617_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3 (A·(h₁·W₂) + b₂, clamped at zero), at the buffer contents `V` it is entered from -/

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions over the grid: the first and the last block of the contraction axis -/

/-- The body clears its accumulator: the contraction-axis coordinate is zero. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- The body writes its output block: the contraction-axis coordinate is the last. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
theorem liveAt3_3_C : ∀ t : Fin cfg3.N, ¬cond3_0 (grid3.coords t) → cond3_1 (grid3.coords t) → cfg3.idle 3 (grid3.coords t) = false := by decide +kernel

/-! ## The staging buffers and the accumulator -/

abbrev VO3_3 : View sig .tc .vmem S1280x256 .f32 := (Memref.whole cc3_stg3_0 : Memref sig .tc .vmem S1280x256 .f32).view
abbrev ms3_0 (t : Fin cfg3.N) : Memref sig .tc .vmem S1280x1280 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1280x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1280x256 .f32 := win3_3.stage (cfg3.slots t 3)
abbrev hs3_3 (t : Fin cfg3.N) : (ms3_3 t).IsWhole := hstage3_3 ((cfg3.slots t 3).cast nbuf3_3)
/-- The accumulator: a whole scoped buffer of the kernel's own, carried from one grid point to the next. -/
abbrev scM3_0 : Memref sig .tc .vmem S1280x256 .f32 := Memref.whole cc3_scratch0
abbrev VS3_0 : View sig .tc .vmem S1280x256 .f32 := scM3_0.view
/-- Every other scoped buffer of the program: untouched by this kernel. -/
abbrev Rest3 (c : Dev nD) : sProp 𝕄 :=
  Pipeline.scopedRestBut (Ix := Unit) (Name := ℕ) (U := UR sig nD τ) (Lvl := ℕ) (Val := Elt F) spec3 c [cc3_scratch0]

/-- What the pipeline hands the body beside the windows: the accumulator at some contents, the other scoped buffers,
    the generator register. -/
theorem PhiA3_eq (c : Dev nD) :
    (Pipeline.ΦA spec3 c : sProp 𝕄)
      = iprop(iprop((∃ d, owns (c : Thread nD τ) scM3_0 fullShare d) ∗ Rest3 c) ∗ (∃ r, prngReg c r)) := by
  unfold Pipeline.ΦA; rw [scopedRest3_split]; simp only [scM3_0, owns_whole]; try rfl

/-! ## The body in its three cases -/

set_option maxHeartbeats 4000000 in
/-- First block of the contraction axis: the accumulator is cleared, then this block's product added; the output's
    buffer is handed back untouched. The pieces the accumulator ends with are found by the run. -/
noncomputable def kernelRun3_A (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : cond3_0 i) (hc1 : ¬cond3_1 i)
    (x0 : Vec F S1280x1280 .bf16) (x1 : Vec F S1280x256 .f32) (x2 : Vec F S1x256 .f32) :
    Σ' (L3 : List (View.Piece (Elt F) S1280x256 .f32)), { LS0 : List (View.Piece (Elt F) S1280x256 .f32) //
      ∀ (xi3 : Vec F S1280x256 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ (∃ d, owns (c : Thread nD τ) a4 fullShare d)
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc3__agg_kernel i a0 h0 a1 h1 a2 h2 a3 h3 a4 h4) Kc } := by
  refine ⟨[], ?_, fun xi3 E Kc => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := h0.eq_unread hf0; obtain rfl := h1.eq_unread hf1; obtain rfl := h2.eq_unread hf2; obtain rfl := h3.eq_unread hf3
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- A middle block: this block's product is added to what the accumulator held; the output's buffer is handed back
    untouched. -/
noncomputable def kernelRun3_B (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : ¬cond3_1 i)
    (x0 : Vec F S1280x1280 .bf16) (x1 : Vec F S1280x256 .f32) (x2 : Vec F S1x256 .f32) (xs0 : Vec F S1280x256 .f32) :
    Σ' (L3 : List (View.Piece (Elt F) S1280x256 .f32)), { LS0 : List (View.Piece (Elt F) S1280x256 .f32) //
      ∀ (xi3 : Vec F S1280x256 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ owns (c : Thread nD τ) a4 fullShare xs0
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc3__agg_kernel i a0 h0 a1 h1 a2 h2 a3 h3 a4 h4) Kc } := by
  refine ⟨[], ?_, fun xi3 E Kc => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := h0.eq_unread hf0; obtain rfl := h1.eq_unread hf1; obtain rfl := h2.eq_unread hf2; obtain rfl := h3.eq_unread hf3; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- Last block: this block's product is added, then the accumulator plus the bias row, clamped below at zero, is stored
    into the output's buffer. -/
noncomputable def kernelRun3_C (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i)
    (x0 : Vec F S1280x1280 .bf16) (x1 : Vec F S1280x256 .f32) (x2 : Vec F S1x256 .f32) (xs0 : Vec F S1280x256 .f32) :
    Σ' (L3 : List (View.Piece (Elt F) S1280x256 .f32)), { LS0 : List (View.Piece (Elt F) S1280x256 .f32) //
      ∀ (E : Set ℕ) (Kc : PUnit → sProp 𝕄),
        iprop(owns (c : Thread nD τ) a0 fullShare x0 ∗ owns (c : Thread nD τ) a1 fullShare x1 ∗ owns (c : Thread nD τ) a2 fullShare x2 ∗ (∃ d, owns (c : Thread nD τ) a3 fullShare d) ∗ owns (c : Thread nD τ) a4 fullShare xs0
            ∗ (iprop(owns (c : Thread nD τ) a0 fullShare x0 ∗ owns (c : Thread nD τ) a1 fullShare x1 ∗ owns (c : Thread nD τ) a2 fullShare x2 ∗ (∃ f, a3.view.loc (c : Thread nD τ) ↦[a3.view.set]{fullShare} a3.view.writes (Elt F) f L3) ∗ (∃ f, a4.view.loc (c : Thread nD τ) ↦[a4.view.set]{fullShare} a4.view.writes (Elt F) f LS0)) -∗ Kc ⟨⟩))
          ⊢ wp frame (wpE (defs₀ (F := F)) Variants.none c none) E (cc3__agg_kernel i a0 h0 a1 h1 a2 h2 a3 h3 a4 h4) Kc } := by
  refine ⟨?_, ?_, fun E Kc => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := h0.eq_unread hf0; obtain rfl := h1.eq_unread hf1; obtain rfl := h2.eq_unread hf2; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact HS0

/-! ## What each case leaves -/

theorem scover3_A_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : cond3_0 i) (hc1 : ¬cond3_1 i) (x0 : Vec F S1280x1280 .bf16) (x1 : Vec F S1280x256 .f32) (x2 : Vec F S1x256 .f32) (y : S1280x256.Idx) :
    ∃ pc ∈ (kernelRun3_A c i a0 h0 a1 h1 a2 h2 a3 h3 a4 h4 hc0 hc1 x0 x1 x2).2.1, y ∈ pc.1.set :=
  View.cover_of_tiledL (kernelRun3_A c i a0 h0 a1 h1 a2 h2 a3 h3 a4 h4 hc0 hc1 x0 x1 x2).2.1 S1280x256.size (by sl_kernel_rfl) y
def sout3_A_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : cond3_0 i) (hc1 : ¬cond3_1 i) (x0 : Vec F S1280x1280 .bf16) (x1 : Vec F S1280x256 .f32) (x2 : Vec F S1x256 .f32) : Vec F S1280x256 .f32 :=
  VS3_0.read (Elt F) (VS3_0.writes (Elt F) VS3_0.junk (kernelRun3_A c i a0 h0 a1 h1 a2 h2 a3 h3 a4 h4 hc0 hc1 x0 x1 x2).2.1)
/-- The first and the middle cases store nothing into the output: a placeholder nothing consults. -/
def out3_A_3 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : cond3_0 i) (hc1 : ¬cond3_1 i) (x0 : Vec F S1280x1280 .bf16) (x1 : Vec F S1280x256 .f32) (x2 : Vec F S1x256 .f32) : Vec F S1280x256 .f32 :=
  VO3_3.read (Elt F) (VO3_3.writes (Elt F) VO3_3.junk (kernelRun3_A c i a0 h0 a1 h1 a2 h2 a3 h3 a4 h4 hc0 hc1 x0 x1 x2).1)

theorem scover3_B_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : ¬cond3_1 i) (x0 : Vec F S1280x1280 .bf16) (x1 : Vec F S1280x256 .f32) (x2 : Vec F S1x256 .f32) (xs0 : Vec F S1280x256 .f32) (y : S1280x256.Idx) :
    ∃ pc ∈ (kernelRun3_B c i a0 h0 a1 h1 a2 h2 a3 h3 a4 h4 hc0 hc1 x0 x1 x2 xs0).2.1, y ∈ pc.1.set :=
  View.cover_of_tiledL (kernelRun3_B c i a0 h0 a1 h1 a2 h2 a3 h3 a4 h4 hc0 hc1 x0 x1 x2 xs0).2.1 S1280x256.size (by sl_kernel_rfl) y
def sout3_B_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : ¬cond3_1 i) (x0 : Vec F S1280x1280 .bf16) (x1 : Vec F S1280x256 .f32) (x2 : Vec F S1x256 .f32) (xs0 : Vec F S1280x256 .f32) : Vec F S1280x256 .f32 :=
  VS3_0.read (Elt F) (VS3_0.writes (Elt F) VS3_0.junk (kernelRun3_B c i a0 h0 a1 h1 a2 h2 a3 h3 a4 h4 hc0 hc1 x0 x1 x2 xs0).2.1)
def out3_B_3 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : ¬cond3_1 i) (x0 : Vec F S1280x1280 .bf16) (x1 : Vec F S1280x256 .f32) (x2 : Vec F S1x256 .f32) (xs0 : Vec F S1280x256 .f32) : Vec F S1280x256 .f32 :=
  VO3_3.read (Elt F) (VO3_3.writes (Elt F) VO3_3.junk (kernelRun3_B c i a0 h0 a1 h1 a2 h2 a3 h3 a4 h4 hc0 hc1 x0 x1 x2 xs0).1)

theorem cover3_C_3 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i) (x0 : Vec F S1280x1280 .bf16) (x1 : Vec F S1280x256 .f32) (x2 : Vec F S1x256 .f32) (xs0 : Vec F S1280x256 .f32) (y : S1280x256.Idx) :
    ∃ pc ∈ (kernelRun3_C c i a0 h0 a1 h1 a2 h2 a3 h3 a4 h4 hc0 hc1 x0 x1 x2 xs0).1, y ∈ pc.1.set :=
  View.cover_of_tiledL (kernelRun3_C c i a0 h0 a1 h1 a2 h2 a3 h3 a4 h4 hc0 hc1 x0 x1 x2 xs0).1 S1280x256.size (by sl_kernel_rfl) y
def out3_C_3 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i) (x0 : Vec F S1280x1280 .bf16) (x1 : Vec F S1280x256 .f32) (x2 : Vec F S1x256 .f32) (xs0 : Vec F S1280x256 .f32) : Vec F S1280x256 .f32 :=
  VO3_3.read (Elt F) (VO3_3.writes (Elt F) VO3_3.junk (kernelRun3_C c i a0 h0 a1 h1 a2 h2 a3 h3 a4 h4 hc0 hc1 x0 x1 x2 xs0).1)
theorem scover3_C_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i) (x0 : Vec F S1280x1280 .bf16) (x1 : Vec F S1280x256 .f32) (x2 : Vec F S1x256 .f32) (xs0 : Vec F S1280x256 .f32) (y : S1280x256.Idx) :
    ∃ pc ∈ (kernelRun3_C c i a0 h0 a1 h1 a2 h2 a3 h3 a4 h4 hc0 hc1 x0 x1 x2 xs0).2.1, y ∈ pc.1.set :=
  View.cover_of_tiledL (kernelRun3_C c i a0 h0 a1 h1 a2 h2 a3 h3 a4 h4 hc0 hc1 x0 x1 x2 xs0).2.1 S1280x256.size (by sl_kernel_rfl) y
def sout3_C_0 (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i) (x0 : Vec F S1280x1280 .bf16) (x1 : Vec F S1280x256 .f32) (x2 : Vec F S1x256 .f32) (xs0 : Vec F S1280x256 .f32) : Vec F S1280x256 .f32 :=
  VS3_0.read (Elt F) (VS3_0.writes (Elt F) VS3_0.junk (kernelRun3_C c i a0 h0 a1 h1 a2 h2 a3 h3 a4 h4 hc0 hc1 x0 x1 x2 xs0).2.1)

/-! ## The accumulation, point by point -/

/-- What the output's staging buffer and the accumulator hold after the body at position `n`: the case the position is
    in, run on the position's blocks, over what the position before left in the accumulator. -/
def outsAt3 (c : Dev nD) : (n : ℕ) → n < cfg3.N → Vec F S1280x256 .f32 × Vec F S1280x256 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the pipeline hands over; afterwards the accumulator
    at what the point before left in it, beside the other scoped buffers and the generator register. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Rest3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2) ∗ Rest3 c) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Rest3 c) ∗ (∃ r, prngReg c r)) := by
  cases n with
  | zero => exact absurd rfl hz
  | succ n => rfl

/-- The proof data of this pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point, by the case the point is in. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  by_cases h0 : t.val % 8 = 0
  · by_cases h1 : t.val % 8 = 7
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the pipeline hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped buffers and the register back, the accumulator's contents forgotten. -/
theorem hout3 (c : Dev nD) : (dat3 V c).Φ (Fin.last cfg3.N) ⊢ Pipeline.ΦA spec3 c := by
  have ht : (Fin.last cfg3.N).val ≠ 0 := by rw [Fin.val_last]; have : cfg3.N = 64 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, HR⟩, Hg⟩
  isplitl [HS0 HR]
  · isplitl [HS0]
    · iexists _; iexact HS0
    iexact HR
  iexact Hg

end Region3

end Cert.KernelIdeal.Fr

end
-- ==== Proof.KI.R4.lean ====
/-
  The third layer's feature transform, region 4 of the program: each grid point multiplies a block of 1280 rows of the
  second layer's output by the whole 256×64 weight matrix. What the body leaves in its output buffer, its triple, and
  the pipeline's proof data and body obligation.
-/
import proofs.«143928_j37108517437617_1_alg».proof.Proof.Gen.KernelIdeal.Launch
import proofs.«143928_j37108517437617_1_alg».proof.Proof.Gen.KernelIdeal.Skeleton
import proofs.«143928_j37108517437617_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (h₂·W₃ by row blocks), at the buffer contents `V` it is entered from -/

section Region4
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (a window the pipeline
    does not fetch at a point has not moved its block index since the point before). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not (a window the pipeline
    does not fetch at a point has not moved its block index since the point before). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1280x256 := Rect.unit (s := S1280x256) ![0, 0] S1280x256.size inb_S1280x256_S1280x256_0_0
abbrev r4_1 : Rect S256x64 := Rect.unit (s := S256x64) ![0, 0] S256x64.size inb_S256x64_S256x64_0_0
abbrev r4_2 : Rect S1280x64 := Rect.unit (s := S1280x64) ![0, 0] S1280x64.size inb_S1280x64_S1280x64_0_0

/-- What the body leaves in the output window's staging buffer: its one whole-block store, the payload computed from the
    input blocks. -/
def out4_2 (x0 : Vec F S1280x256 .f32) (x1 : Vec F S256x64 .f32) : Vec F S1280x64 .f32 :=
  View.canon [⟨r4_2, k4_pay1 (View.ld x0 r4_0) (View.ld x1 r4_1)⟩]

/-- The one store covers the block. -/
theorem cover4_2 (p0 : Vec F S1280x64 .f32) (y : S1280x64.Idx) :
    ∃ pc ∈ ([⟨r4_2, p0⟩] : List (View.Piece (Elt F) S1280x64 .f32)), y ∈ pc.1.set :=
  View.cover_of_tiled [⟨r4_2, p0⟩] S1280x64.size (by rfl) y

set_option maxHeartbeats 4000000 in
/-- The body on whole staging buffers: the inputs' at read contents `x_i`, the output's at anything. It runs to its
    continuation with the inputs' buffers as they were and the output's at `out4_2` of them. -/
theorem sound_kernel4 (c : Dev nD) (i : grid4.Coords) (E : Set ℕ) (arg0 : Memref sig .tc .vmem S1280x256 .f32) (harg0 : arg0.IsWhole) (arg1 : Memref sig .tc .vmem S256x64 .f32) (harg1 : arg1.IsWhole) (arg2 : Memref sig .tc .vmem S1280x64 .f32) (harg2 : arg2.IsWhole)
    (x0 : Vec F S1280x256 .f32) (x1 : Vec F S256x64 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ Kc ⟨⟩))
      ⊢ wp frame (wpE (defs₀ (F := F)) Variants.none c none) E (cc4__linear_kernel i arg0 harg0 arg1 harg1 arg2 harg2) Kc := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of this pipeline on core `c`: the arrays as the region finds them; after the body each input's
    buffer at its block and the output's at `out4_2` of the input blocks; the invariant is the scoped rest and
    the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the triple above applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c _ Set.univ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Fr

end
-- ==== Proof.KI.R5.lean ====
/-
  Layer 3's aggregation, region 5 of the program: over an 8×8 grid, point (i, k) multiplies block (i, k) of the dense
  normalised adjacency by block k of the transformed features and adds the product to an accumulator kept across the k axis:
  cleared at k = 0, and at k = 7 stored, plus the bias row and clamped below at zero, into row block i of the output (64 columns).
  The body's triple in each of the three cases, what the accumulator and the output hold point by point, the proof data
  and the body obligation.
-/
import proofs.«143928_j37108517437617_1_alg».proof.Proof.Gen.KernelIdeal.Launch
import proofs.«143928_j37108517437617_1_alg».proof.Proof.Gen.KernelIdeal.Skeleton
import proofs.«143928_j37108517437617_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5 (A·(h₂·W₃) + b₃, clamped at zero), at the buffer contents `V` it is entered from -/

section Region5
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions over the grid: the first and the last block of the contraction axis -/

/-- The body clears its accumulator: the contraction-axis coordinate is zero. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 8 = 0 :=
  (by decide +kernel : ∀ t : Fin grid5.N, cond5_0 (grid5.coords t) ↔ t.val % 8 = 0)
/-- The body writes its output block: the contraction-axis coordinate is the last. -/
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, cond5_1 (grid5.coords t) ↔ t.val % 8 = 7)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
theorem idleAt5_3_B : ∀ t : Fin cfg5.N, ¬cond5_0 (grid5.coords t) → ¬cond5_1 (grid5.coords t) → cfg5.idle 3 (grid5.coords t) = true := by decide +kernel
theorem noFlush5_3_B : ∀ t : Fin cfg5.N, ¬cond5_0 (grid5.coords t) → ¬cond5_1 (grid5.coords t) → (cfg5.win 3).flush t = false := by decide +kernel
theorem liveAt5_3_C : ∀ t : Fin cfg5.N, ¬cond5_0 (grid5.coords t) → cond5_1 (grid5.coords t) → cfg5.idle 3 (grid5.coords t) = false := by decide +kernel

/-! ## The staging buffers and the accumulator -/

abbrev VO5_3 : View sig .tc .vmem S1280x64 .f32 := (Memref.whole cc5_stg3_0 : Memref sig .tc .vmem S1280x64 .f32).view
abbrev ms5_0 (t : Fin cfg5.N) : Memref sig .tc .vmem S1280x1280 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1280x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1280x64 .f32 := win5_3.stage (cfg5.slots t 3)
abbrev hs5_3 (t : Fin cfg5.N) : (ms5_3 t).IsWhole := hstage5_3 ((cfg5.slots t 3).cast nbuf5_3)
/-- The accumulator: a whole scoped buffer of the kernel's own, carried from one grid point to the next. -/
abbrev scM5_0 : Memref sig .tc .vmem S1280x64 .f32 := Memref.whole cc5_scratch0
abbrev VS5_0 : View sig .tc .vmem S1280x64 .f32 := scM5_0.view
/-- Every other scoped buffer of the program: untouched by this kernel. -/
abbrev Rest5 (c : Dev nD) : sProp 𝕄 :=
  Pipeline.scopedRestBut (Ix := Unit) (Name := ℕ) (U := UR sig nD τ) (Lvl := ℕ) (Val := Elt F) spec5 c [cc5_scratch0]

/-- What the pipeline hands the body beside the windows: the accumulator at some contents, the other scoped buffers,
    the generator register. -/
theorem PhiA5_eq (c : Dev nD) :
    (Pipeline.ΦA spec5 c : sProp 𝕄)
      = iprop(iprop((∃ d, owns (c : Thread nD τ) scM5_0 fullShare d) ∗ Rest5 c) ∗ (∃ r, prngReg c r)) := by
  unfold Pipeline.ΦA; rw [scopedRest5_split]; simp only [scM5_0, owns_whole]; try rfl

/-! ## The body in its three cases -/

set_option maxHeartbeats 4000000 in
/-- First block of the contraction axis: the accumulator is cleared, then this block's product added; the output's
    buffer is handed back untouched. The pieces the accumulator ends with are found by the run. -/
noncomputable def kernelRun5_A (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : cond5_0 i) (hc1 : ¬cond5_1 i)
    (x0 : Vec F S1280x1280 .bf16) (x1 : Vec F S1280x64 .f32) (x2 : Vec F S1x64 .f32) :
    Σ' (L3 : List (View.Piece (Elt F) S1280x64 .f32)), { LS0 : List (View.Piece (Elt F) S1280x64 .f32) //
      ∀ (xi3 : Vec F S1280x64 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ (∃ d, owns (c : Thread nD τ) a4 fullShare d)
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc5__agg_kernel i a0 h0 a1 h1 a2 h2 a3 h3 a4 h4) Kc } := by
  refine ⟨[], ?_, fun xi3 E Kc => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := h0.eq_unread hf0; obtain rfl := h1.eq_unread hf1; obtain rfl := h2.eq_unread hf2; obtain rfl := h3.eq_unread hf3
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- A middle block: this block's product is added to what the accumulator held; the output's buffer is handed back
    untouched. -/
noncomputable def kernelRun5_B (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : ¬cond5_1 i)
    (x0 : Vec F S1280x1280 .bf16) (x1 : Vec F S1280x64 .f32) (x2 : Vec F S1x64 .f32) (xs0 : Vec F S1280x64 .f32) :
    Σ' (L3 : List (View.Piece (Elt F) S1280x64 .f32)), { LS0 : List (View.Piece (Elt F) S1280x64 .f32) //
      ∀ (xi3 : Vec F S1280x64 .f32) (E : Set ℕ) (Kc : PUnit → sProp 𝕄),
        iprop(owns (c : Thread nD τ) a0 fullShare x0 ∗ owns (c : Thread nD τ) a1 fullShare x1 ∗ owns (c : Thread nD τ) a2 fullShare x2 ∗ owns (c : Thread nD τ) a3 fullShare xi3 ∗ owns (c : Thread nD τ) a4 fullShare xs0
            ∗ (iprop(owns (c : Thread nD τ) a0 fullShare x0 ∗ owns (c : Thread nD τ) a1 fullShare x1 ∗ owns (c : Thread nD τ) a2 fullShare x2 ∗ owns (c : Thread nD τ) a3 fullShare xi3 ∗ (∃ f, a4.view.loc (c : Thread nD τ) ↦[a4.view.set]{fullShare} a4.view.writes (Elt F) f LS0)) -∗ Kc ⟨⟩))
          ⊢ wp frame (wpE (defs₀ (F := F)) Variants.none c none) E (cc5__agg_kernel i a0 h0 a1 h1 a2 h2 a3 h3 a4 h4) Kc } := by
  refine ⟨[], ?_, fun xi3 E Kc => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := h0.eq_unread hf0; obtain rfl := h1.eq_unread hf1; obtain rfl := h2.eq_unread hf2; obtain rfl := h3.eq_unread hf3; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact HS0

set_option maxHeartbeats 4000000 in
/-- Last block: this block's product is added, then the accumulator plus the bias row, clamped below at zero, is stored
    into the output's buffer. -/
noncomputable def kernelRun5_C (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i)
    (x0 : Vec F S1280x1280 .bf16) (x1 : Vec F S1280x64 .f32) (x2 : Vec F S1x64 .f32) (xs0 : Vec F S1280x64 .f32) :
    Σ' (L3 : List (View.Piece (Elt F) S1280x64 .f32)), { LS0 : List (View.Piece (Elt F) S1280x64 .f32) //
      ∀ (E : Set ℕ) (Kc : PUnit → sProp 𝕄),
        iprop(owns (c : Thread nD τ) a0 fullShare x0 ∗ owns (c : Thread nD τ) a1 fullShare x1 ∗ owns (c : Thread nD τ) a2 fullShare x2 ∗ (∃ d, owns (c : Thread nD τ) a3 fullShare d) ∗ owns (c : Thread nD τ) a4 fullShare xs0
            ∗ (iprop(owns (c : Thread nD τ) a0 fullShare x0 ∗ owns (c : Thread nD τ) a1 fullShare x1 ∗ owns (c : Thread nD τ) a2 fullShare x2 ∗ (∃ f, a3.view.loc (c : Thread nD τ) ↦[a3.view.set]{fullShare} a3.view.writes (Elt F) f L3) ∗ (∃ f, a4.view.loc (c : Thread nD τ) ↦[a4.view.set]{fullShare} a4.view.writes (Elt F) f LS0)) -∗ Kc ⟨⟩))
          ⊢ wp frame (wpE (defs₀ (F := F)) Variants.none c none) E (cc5__agg_kernel i a0 h0 a1 h1 a2 h2 a3 h3 a4 h4) Kc } := by
  refine ⟨?_, ?_, fun E Kc => ?run⟩
  case run =>
    simp only [cc5__agg_kernel_eq_skeleton]; unfold cc5__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := h0.eq_unread hf0; obtain rfl := h1.eq_unread hf1; obtain rfl := h2.eq_unread hf2; obtain rfl := h4.eq_unread hfs0
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact HS0

/-! ## What each case leaves -/

theorem scover5_A_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : cond5_0 i) (hc1 : ¬cond5_1 i) (x0 : Vec F S1280x1280 .bf16) (x1 : Vec F S1280x64 .f32) (x2 : Vec F S1x64 .f32) (y : S1280x64.Idx) :
    ∃ pc ∈ (kernelRun5_A c i a0 h0 a1 h1 a2 h2 a3 h3 a4 h4 hc0 hc1 x0 x1 x2).2.1, y ∈ pc.1.set :=
  View.cover_of_tiledL (kernelRun5_A c i a0 h0 a1 h1 a2 h2 a3 h3 a4 h4 hc0 hc1 x0 x1 x2).2.1 S1280x64.size (by sl_kernel_rfl) y
def sout5_A_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : cond5_0 i) (hc1 : ¬cond5_1 i) (x0 : Vec F S1280x1280 .bf16) (x1 : Vec F S1280x64 .f32) (x2 : Vec F S1x64 .f32) : Vec F S1280x64 .f32 :=
  VS5_0.read (Elt F) (VS5_0.writes (Elt F) VS5_0.junk (kernelRun5_A c i a0 h0 a1 h1 a2 h2 a3 h3 a4 h4 hc0 hc1 x0 x1 x2).2.1)
/-- The first and the middle cases store nothing into the output: a placeholder nothing consults. -/
def out5_A_3 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : cond5_0 i) (hc1 : ¬cond5_1 i) (x0 : Vec F S1280x1280 .bf16) (x1 : Vec F S1280x64 .f32) (x2 : Vec F S1x64 .f32) : Vec F S1280x64 .f32 :=
  VO5_3.read (Elt F) (VO5_3.writes (Elt F) VO5_3.junk (kernelRun5_A c i a0 h0 a1 h1 a2 h2 a3 h3 a4 h4 hc0 hc1 x0 x1 x2).1)

theorem scover5_B_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : ¬cond5_1 i) (x0 : Vec F S1280x1280 .bf16) (x1 : Vec F S1280x64 .f32) (x2 : Vec F S1x64 .f32) (xs0 : Vec F S1280x64 .f32) (y : S1280x64.Idx) :
    ∃ pc ∈ (kernelRun5_B c i a0 h0 a1 h1 a2 h2 a3 h3 a4 h4 hc0 hc1 x0 x1 x2 xs0).2.1, y ∈ pc.1.set :=
  View.cover_of_tiledL (kernelRun5_B c i a0 h0 a1 h1 a2 h2 a3 h3 a4 h4 hc0 hc1 x0 x1 x2 xs0).2.1 S1280x64.size (by sl_kernel_rfl) y
def sout5_B_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : ¬cond5_1 i) (x0 : Vec F S1280x1280 .bf16) (x1 : Vec F S1280x64 .f32) (x2 : Vec F S1x64 .f32) (xs0 : Vec F S1280x64 .f32) : Vec F S1280x64 .f32 :=
  VS5_0.read (Elt F) (VS5_0.writes (Elt F) VS5_0.junk (kernelRun5_B c i a0 h0 a1 h1 a2 h2 a3 h3 a4 h4 hc0 hc1 x0 x1 x2 xs0).2.1)
def out5_B_3 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : ¬cond5_1 i) (x0 : Vec F S1280x1280 .bf16) (x1 : Vec F S1280x64 .f32) (x2 : Vec F S1x64 .f32) (xs0 : Vec F S1280x64 .f32) : Vec F S1280x64 .f32 :=
  VO5_3.read (Elt F) (VO5_3.writes (Elt F) VO5_3.junk (kernelRun5_B c i a0 h0 a1 h1 a2 h2 a3 h3 a4 h4 hc0 hc1 x0 x1 x2 xs0).1)

theorem cover5_C_3 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i) (x0 : Vec F S1280x1280 .bf16) (x1 : Vec F S1280x64 .f32) (x2 : Vec F S1x64 .f32) (xs0 : Vec F S1280x64 .f32) (y : S1280x64.Idx) :
    ∃ pc ∈ (kernelRun5_C c i a0 h0 a1 h1 a2 h2 a3 h3 a4 h4 hc0 hc1 x0 x1 x2 xs0).1, y ∈ pc.1.set :=
  View.cover_of_tiledL (kernelRun5_C c i a0 h0 a1 h1 a2 h2 a3 h3 a4 h4 hc0 hc1 x0 x1 x2 xs0).1 S1280x64.size (by sl_kernel_rfl) y
def out5_C_3 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i) (x0 : Vec F S1280x1280 .bf16) (x1 : Vec F S1280x64 .f32) (x2 : Vec F S1x64 .f32) (xs0 : Vec F S1280x64 .f32) : Vec F S1280x64 .f32 :=
  VO5_3.read (Elt F) (VO5_3.writes (Elt F) VO5_3.junk (kernelRun5_C c i a0 h0 a1 h1 a2 h2 a3 h3 a4 h4 hc0 hc1 x0 x1 x2 xs0).1)
theorem scover5_C_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i) (x0 : Vec F S1280x1280 .bf16) (x1 : Vec F S1280x64 .f32) (x2 : Vec F S1x64 .f32) (xs0 : Vec F S1280x64 .f32) (y : S1280x64.Idx) :
    ∃ pc ∈ (kernelRun5_C c i a0 h0 a1 h1 a2 h2 a3 h3 a4 h4 hc0 hc1 x0 x1 x2 xs0).2.1, y ∈ pc.1.set :=
  View.cover_of_tiledL (kernelRun5_C c i a0 h0 a1 h1 a2 h2 a3 h3 a4 h4 hc0 hc1 x0 x1 x2 xs0).2.1 S1280x64.size (by sl_kernel_rfl) y
def sout5_C_0 (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i) (x0 : Vec F S1280x1280 .bf16) (x1 : Vec F S1280x64 .f32) (x2 : Vec F S1x64 .f32) (xs0 : Vec F S1280x64 .f32) : Vec F S1280x64 .f32 :=
  VS5_0.read (Elt F) (VS5_0.writes (Elt F) VS5_0.junk (kernelRun5_C c i a0 h0 a1 h1 a2 h2 a3 h3 a4 h4 hc0 hc1 x0 x1 x2 xs0).2.1)

/-! ## The accumulation, point by point -/

/-- What the output's staging buffer and the accumulator hold after the body at position `n`: the case the position is
    in, run on the position's blocks, over what the position before left in the accumulator. -/
def outsAt5 (c : Dev nD) : (n : ℕ) → n < cfg5.N → Vec F S1280x64 .f32 × Vec F S1280x64 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 8 = 0 then
      if h1 : (n + 1) % 8 = 7 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 8 = 7 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 8 = 0) (h1 : ¬t.val % 8 = 7) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 8 = 0) (h1 : ¬t.val % 8 = 7) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 8 = 0) (h1 : t.val % 8 = 7) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the pipeline hands over; afterwards the accumulator
    at what the point before left in it, beside the other scoped buffers and the generator register. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Rest5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5_0 fullShare ((outsAt5 V c n hn).2) ∗ Rest5 c) ∗ (∃ r, prngReg c r)) := rfl
theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Rest5 c) ∗ (∃ r, prngReg c r)) := by
  cases n with
  | zero => exact absurd rfl hz
  | succ n => rfl

/-- The proof data of this pipeline on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point, by the case the point is in. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 64 := lt_of_lt_of_eq t.isLt (show cfg5.N = 64 from N_5)
  rw [show (dat5 V c).leavesExact 0 t = owns (c : Thread nD τ) (ms5_0 t) fullShare ((dat5 V c).after 0 t) from by
      unfold Dat.leavesExact; rw [liveAt5_0 t], after5_0]
  rw [show (dat5 V c).leavesExact 1 t = owns (c : Thread nD τ) (ms5_1 t) fullShare ((dat5 V c).after 1 t) from by
      unfold Dat.leavesExact; rw [liveAt5_1 t], after5_1]
  rw [show (dat5 V c).leavesExact 2 t = owns (c : Thread nD τ) (ms5_2 t) fullShare ((dat5 V c).after 2 t) from by
      unfold Dat.leavesExact; rw [liveAt5_2 t], after5_2]
  by_cases h0 : t.val % 8 = 0
  · by_cases h1 : t.val % 8 = 7
    · exfalso; omega
    · rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩⟩
      iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_C_3 c _ _ _ _ _ _ _ _ _ _ _ _ _ _ _ _ _)
    · rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B_0; (try dsimp only)
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover5_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the pipeline hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the scoped buffers and the register back, the accumulator's contents forgotten. -/
theorem hout5 (c : Dev nD) : (dat5 V c).Φ (Fin.last cfg5.N) ⊢ Pipeline.ΦA spec5 c := by
  have ht : (Fin.last cfg5.N).val ≠ 0 := by rw [Fin.val_last]; have : cfg5.N = 64 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨HS0, HR⟩, Hg⟩
  isplitl [HS0 HR]
  · isplitl [HS0]
    · iexists _; iexact HS0
    iexact HR
  iexact Hg

end Region5

end Cert.KernelIdeal.Fr

end
-- ==== Proof.KI.R6.lean ====
/-
  The classifier, region 6 of the program: each grid point multiplies a block of 1280 rows of the third layer's output
  by the whole 64×3 weight matrix and adds the bias row. What the body leaves in its output buffer, its triple, and the
  pipeline's proof data and body obligation.
-/
import proofs.«143928_j37108517437617_1_alg».proof.Proof.Gen.KernelIdeal.Launch
import proofs.«143928_j37108517437617_1_alg».proof.Proof.Gen.KernelIdeal.Skeleton
import proofs.«143928_j37108517437617_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6 (h₃·W_c + b_c by row blocks), at the buffer contents `V` it is entered from -/

section Region6
variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not (a window the pipeline
    does not fetch at a point has not moved its block index since the point before). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not (a window the pipeline
    does not fetch at a point has not moved its block index since the point before). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not (a window the pipeline
    does not fetch at a point has not moved its block index since the point before). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S1280x64 := Rect.unit (s := S1280x64) ![0, 0] S1280x64.size inb_S1280x64_S1280x64_0_0
abbrev r6_1 : Rect S64x3 := Rect.unit (s := S64x3) ![0, 0] S64x3.size inb_S64x3_S64x3_0_0
abbrev r6_2 : Rect S1x3 := Rect.unit (s := S1x3) ![0, 0] S1x3.size inb_S1x3_S1x3_0_0
abbrev r6_3 : Rect S1280x3 := Rect.unit (s := S1280x3) ![0, 0] S1280x3.size inb_S1280x3_S1280x3_0_0

/-- What the body leaves in the output window's staging buffer: its one whole-block store, the payload computed from the
    input blocks. -/
def out6_3 (x0 : Vec F S1280x64 .f32) (x1 : Vec F S64x3 .f32) (x2 : Vec F S1x3 .f32) : Vec F S1280x3 .f32 :=
  View.canon [⟨r6_3, k6_pay1 (View.ld x0 r6_0) (View.ld x1 r6_1) (View.ld x2 r6_2)⟩]

/-- The one store covers the block. -/
theorem cover6_3 (p0 : Vec F S1280x3 .f32) (y : S1280x3.Idx) :
    ∃ pc ∈ ([⟨r6_3, p0⟩] : List (View.Piece (Elt F) S1280x3 .f32)), y ∈ pc.1.set :=
  View.cover_of_tiled [⟨r6_3, p0⟩] S1280x3.size (by rfl) y

set_option maxHeartbeats 4000000 in
/-- The body on whole staging buffers: the inputs' at read contents `x_i`, the output's at anything. It runs to its
    continuation with the inputs' buffers as they were and the output's at `out6_3` of them. -/
theorem sound_kernel6 (c : Dev nD) (i : grid6.Coords) (E : Set ℕ) (arg0 : Memref sig .tc .vmem S1280x64 .f32) (harg0 : arg0.IsWhole) (arg1 : Memref sig .tc .vmem S64x3 .f32) (harg1 : arg1.IsWhole) (arg2 : Memref sig .tc .vmem S1x3 .f32) (harg2 : arg2.IsWhole) (arg3 : Memref sig .tc .vmem S1280x3 .f32) (harg3 : arg3.IsWhole)
    (x0 : Vec F S1280x64 .f32) (x1 : Vec F S64x3 .f32) (x2 : Vec F S1x3 .f32) (Kc : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ Kc ⟨⟩))
      ⊢ wp frame (wpE (defs₀ (F := F)) Variants.none c none) E (cc6__final_kernel i arg0 harg0 arg1 harg1 arg2 harg2 arg3 harg3) Kc := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of this pipeline on core `c`: the arrays as the region finds them; after the body each input's
    buffer at its block and the output's at `out6_3` of the input blocks; the invariant is the scoped rest and
    the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the triple above applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c _ Set.univ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Fr

end
-- ==== Proof.KI.Run.lean ====
/-
  The whole run of the program: seven kernel regions among stretches of host operations. The buffer contents at every
  boundary as a fold from the launch memory (a host stretch applies its operations; a region replaces its arrays by what
  its write-backs leave), each region as a segment over the thread state "every unscoped buffer at the boundary's
  contents", and the run: every weakly fair execution terminates with every unscoped buffer at the last boundary's contents.
-/
import proofs.«143928_j37108517437617_1_alg».proof.Proof.Gen.KernelIdeal.Launch
import proofs.«143928_j37108517437617_1_alg».proof.Proof.Gen.KernelIdeal.Skeleton
import proofs.«143928_j37108517437617_1_alg».proof.Proof.Gen.KernelIdeal.Points
import proofs.«143928_j37108517437617_1_alg».proof.Proof.KI.R0
import proofs.«143928_j37108517437617_1_alg».proof.Proof.KI.R1
import proofs.«143928_j37108517437617_1_alg».proof.Proof.KI.R2
import proofs.«143928_j37108517437617_1_alg».proof.Proof.KI.R3
import proofs.«143928_j37108517437617_1_alg».proof.Proof.KI.R4
import proofs.«143928_j37108517437617_1_alg».proof.Proof.KI.R5
import proofs.«143928_j37108517437617_1_alg».proof.Proof.KI.R6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After region 0: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After region 1: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After region 2: its arrays at what the pipeline leaves, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- After the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
/-- After region 3: its arrays at what the pipeline leaves, every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- After region 4: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch `hostOps5`. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After region 5: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the host stretch `hostOps6`. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- After region 6: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- After the host stretch `hostOps7`. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b

/-! ## The proof data family and the thread state -/

abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 over the thread state: entered from every unscoped buffer at `W3`, left at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (V5 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V5 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 3).pre c (fun _ => fullShare) (adm (F := F) 3).1 ∗ Pipeline.scopedRest spec3 c)
        ⊢ (Pipeline.ΦA spec3 c : sProp 𝕄) := by
      unfold Pipeline.ΦA
      iintro ⟨Hp, -, Hr⟩
      isplitl [Hr]; · iexact Hr
      iexact Hp
    exact h1.trans (hin3 (V8 m ρ) c)
  hout c := by
    rw [Pipeline.ownSems0_none]
    have h2 : (Pipeline.ΦA spec3 c : sProp 𝕄) ⊢ iprop((∃ r, prngReg c r) ∗ BI.emp ∗ Pipeline.scopedRest spec3 c) := by
      unfold Pipeline.ΦA
      iintro ⟨Hr, Hp⟩
      isplitl [Hp]; · iexact Hp
      isplitr; · iempintro
      iexact Hr
    exact (hout3 (V8 m ρ) c).trans h2
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 5).pre c (fun _ => fullShare) (adm (F := F) 5).1 ∗ Pipeline.scopedRest spec5 c)
        ⊢ (Pipeline.ΦA spec5 c : sProp 𝕄) := by
      unfold Pipeline.ΦA
      iintro ⟨Hp, -, Hr⟩
      isplitl [Hr]; · iexact Hr
      iexact Hp
    exact h1.trans (hin5 (V11 m ρ) c)
  hout c := by
    rw [Pipeline.ownSems0_none]
    have h2 : (Pipeline.ΦA spec5 c : sProp 𝕄) ⊢ iprop((∃ r, prngReg c r) ∗ BI.emp ∗ Pipeline.scopedRest spec5 c) := by
      unfold Pipeline.ΦA
      iintro ⟨Hr, Hp⟩
      isplitl [Hp]; · iexact Hp
      isplitr; · iempintro
      iexact Hr
    exact (hout5 (V11 m ρ) c).trans h2
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

theorem hostOps0_fresh' : (hostOps0 : List (HloOp τ sig (Elt F))).Forall fun op => op.fresh = ∅ := by
  simp only [List.Forall]; repeat' constructor
theorem hostOps0_1_fresh' : (hostOps0_1 : List (HloOp τ sig (Elt F))).Forall fun op => op.fresh = ∅ := by
  simp only [List.Forall]; repeat' constructor
theorem hostOps0_2_fresh' : (hostOps0_2 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps5_fresh' : (hostOps5 : List (HloOp τ sig (Elt F))).Forall fun op => op.fresh = ∅ := by
  simp only [List.Forall]; repeat' constructor
theorem hostOps6_fresh' : (hostOps6 : List (HloOp τ sig (Elt F))).Forall fun op => op.fresh = ∅ := by
  simp only [List.Forall]; repeat' constructor
theorem hostOps7_fresh' : (hostOps7 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last host stretch's state regrouped: the buffers and the register, beside the core's dues at nothing. -/
theorem hlast (c : Dev nD) :
    iprop(StableHlo.held (c : Thread nD τ) (Pipeline.ucRefs τ sig) (StableHlo.after hostOps7 (W14 m ρ c)) ∗ R c)
      ⊢ (iprop(Tₙ m ρ c ∗ ∃ W, owes (c : Thread nD τ) (0 : CellTallies nD τ sig Unit) W) : sProp 𝕄) := by
  iintro ⟨Hh, Hp, Ho⟩
  isplitl [Hh Hp]
  · isplitl [Hh]; · iexact Hh
    iexact Hp
  iexact Ho

abbrev segs : List (Pipeline.Seg (pcfgs (F := F)) adm (pdats m ρ) () defs₀ 𝒱₀ L lv) :=
  [ .host (hseg hostOps0 hostOps0_sub hostOps0_fresh' (W0 m ρ)),
    .host (hseg hostOps0_1 hostOps0_1_sub hostOps0_1_fresh' (W1 m ρ)),
    .host (hseg hostOps0_2 hostOps0_2_sub hostOps0_2_fresh' (W2 m ρ)),
    .region (reg0 m ρ),
    .host (hseg hostOps1 hostOps1_sub hostOps1_fresh' (W4 m ρ)),
    .region (reg1 m ρ),
    .region (reg2 m ρ),
    .host (hseg hostOps3 hostOps3_sub hostOps3_fresh' (W7 m ρ)),
    .region (reg3 m ρ),
    .region (reg4 m ρ),
    .host (hseg hostOps5 hostOps5_sub hostOps5_fresh' (W10 m ρ)),
    .region (reg5 m ρ),
    .host (hseg hostOps6 hostOps6_sub hostOps6_fresh' (W12 m ρ)),
    .region (reg6 m ρ),
    .host (hseg hostOps7 hostOps7_sub hostOps7_fresh' (W14 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun _ h => h)

end Cert.KernelIdeal.Fr

end
-- ==== Proof.KI.Args.lean ====
/-
  No item of the program writes an argument array: a host stretch writes only its own results, a region only its
  output array; an argument a region stages through an input window comes back as it went in. So each argument's buffer
  at the last boundary holds its launch contents.
-/
import proofs.«143928_j37108517437617_1_alg».proof.Proof.Gen.KernelIdeal.Launch
import proofs.«143928_j37108517437617_1_alg».proof.Proof.Gen.KernelIdeal.Skeleton
import proofs.«143928_j37108517437617_1_alg».proof.Proof.Gen.KernelIdeal.Points
import proofs.«143928_j37108517437617_1_alg».proof.Proof.KI.Run
import proofs.«143928_j37108517437617_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W15_main_arg0 (c : Dev nD) : W15 m ρ c (Proc.devRef .tc main_arg0) = m ((c : Thread nD τ).loc main_arg0) :=
  (show W15 m ρ c (Proc.devRef .tc main_arg0) = W14 m ρ c (Proc.devRef .tc main_arg0) from StableHlo.after_of_writes_sub hostOps7 _ hostOps7_writes (by decide : main_arg0 ∉ hostOps7_W)).trans <|
  (show W14 m ρ c (Proc.devRef .tc main_arg0) = W13 m ρ c (Proc.devRef .tc main_arg0) from W14_of_ne m ρ c main_arg0 (by decide)).trans <|
  (show W13 m ρ c (Proc.devRef .tc main_arg0) = W12 m ρ c (Proc.devRef .tc main_arg0) from StableHlo.after_of_writes_sub hostOps6 _ hostOps6_writes (by decide : main_arg0 ∉ hostOps6_W)).trans <|
  (show W12 m ρ c (Proc.devRef .tc main_arg0) = W11 m ρ c (Proc.devRef .tc main_arg0) from W12_of_ne m ρ c main_arg0 (by decide)).trans <|
  (show W11 m ρ c (Proc.devRef .tc main_arg0) = W10 m ρ c (Proc.devRef .tc main_arg0) from StableHlo.after_of_writes_sub hostOps5 _ hostOps5_writes (by decide : main_arg0 ∉ hostOps5_W)).trans <|
  (show W10 m ρ c (Proc.devRef .tc main_arg0) = W9 m ρ c (Proc.devRef .tc main_arg0) from W10_of_ne m ρ c main_arg0 (by decide)).trans <|
  (show W9 m ρ c (Proc.devRef .tc main_arg0) = W8 m ρ c (Proc.devRef .tc main_arg0) from W9_of_ne m ρ c main_arg0 (by decide)).trans <|
  (show W8 m ρ c (Proc.devRef .tc main_arg0) = W7 m ρ c (Proc.devRef .tc main_arg0) from StableHlo.after_of_writes_sub hostOps3 _ hostOps3_writes (by decide : main_arg0 ∉ hostOps3_W)).trans <|
  (show W7 m ρ c (Proc.devRef .tc main_arg0) = W6 m ρ c (Proc.devRef .tc main_arg0) from W7_of_ne m ρ c main_arg0 (by decide)).trans <|
  (show W6 m ρ c (Proc.devRef .tc main_arg0) = W5 m ρ c (Proc.devRef .tc main_arg0) from W6_of_ne m ρ c main_arg0 (by decide)).trans <|
  (show W5 m ρ c (Proc.devRef .tc main_arg0) = W4 m ρ c (Proc.devRef .tc main_arg0) from StableHlo.after_of_writes_sub hostOps1 _ hostOps1_writes (by decide : main_arg0 ∉ hostOps1_W)).trans <|
  (show W4 m ρ c (Proc.devRef .tc main_arg0) = W3 m ρ c (Proc.devRef .tc main_arg0) from W4_of_ne m ρ c main_arg0 (by decide)).trans <|
  (show W3 m ρ c (Proc.devRef .tc main_arg0) = W2 m ρ c (Proc.devRef .tc main_arg0) from StableHlo.after_of_writes_sub hostOps0_2 _ hostOps0_2_writes (by decide : main_arg0 ∉ hostOps0_2_W)).trans <|
  (show W2 m ρ c (Proc.devRef .tc main_arg0) = W1 m ρ c (Proc.devRef .tc main_arg0) from StableHlo.after_of_writes_sub hostOps0_1 _ hostOps0_1_writes (by decide : main_arg0 ∉ hostOps0_1_W)).trans <|
  (show W1 m ρ c (Proc.devRef .tc main_arg0) = W0 m ρ c (Proc.devRef .tc main_arg0) from StableHlo.after_of_writes_sub hostOps0 _ hostOps0_writes (by decide : main_arg0 ∉ hostOps0_W)).trans <|
  rfl

theorem W15_main_arg1 (c : Dev nD) : W15 m ρ c (Proc.devRef .tc main_arg1) = m ((c : Thread nD τ).loc main_arg1) :=
  (show W15 m ρ c (Proc.devRef .tc main_arg1) = W14 m ρ c (Proc.devRef .tc main_arg1) from StableHlo.after_of_writes_sub hostOps7 _ hostOps7_writes (by decide : main_arg1 ∉ hostOps7_W)).trans <|
  (show W14 m ρ c (Proc.devRef .tc main_arg1) = W13 m ρ c (Proc.devRef .tc main_arg1) from W14_of_ne m ρ c main_arg1 (by decide)).trans <|
  (show W13 m ρ c (Proc.devRef .tc main_arg1) = W12 m ρ c (Proc.devRef .tc main_arg1) from StableHlo.after_of_writes_sub hostOps6 _ hostOps6_writes (by decide : main_arg1 ∉ hostOps6_W)).trans <|
  (show W12 m ρ c (Proc.devRef .tc main_arg1) = W11 m ρ c (Proc.devRef .tc main_arg1) from W12_of_ne m ρ c main_arg1 (by decide)).trans <|
  (show W11 m ρ c (Proc.devRef .tc main_arg1) = W10 m ρ c (Proc.devRef .tc main_arg1) from StableHlo.after_of_writes_sub hostOps5 _ hostOps5_writes (by decide : main_arg1 ∉ hostOps5_W)).trans <|
  (show W10 m ρ c (Proc.devRef .tc main_arg1) = W9 m ρ c (Proc.devRef .tc main_arg1) from W10_of_ne m ρ c main_arg1 (by decide)).trans <|
  (show W9 m ρ c (Proc.devRef .tc main_arg1) = W8 m ρ c (Proc.devRef .tc main_arg1) from W9_of_ne m ρ c main_arg1 (by decide)).trans <|
  (show W8 m ρ c (Proc.devRef .tc main_arg1) = W7 m ρ c (Proc.devRef .tc main_arg1) from StableHlo.after_of_writes_sub hostOps3 _ hostOps3_writes (by decide : main_arg1 ∉ hostOps3_W)).trans <|
  (show W7 m ρ c (Proc.devRef .tc main_arg1) = W6 m ρ c (Proc.devRef .tc main_arg1) from W7_of_ne m ρ c main_arg1 (by decide)).trans <|
  (show W6 m ρ c (Proc.devRef .tc main_arg1) = W5 m ρ c (Proc.devRef .tc main_arg1) from W6_of_ne m ρ c main_arg1 (by decide)).trans <|
  (show W5 m ρ c (Proc.devRef .tc main_arg1) = W4 m ρ c (Proc.devRef .tc main_arg1) from StableHlo.after_of_writes_sub hostOps1 _ hostOps1_writes (by decide : main_arg1 ∉ hostOps1_W)).trans <|
  (show W4 m ρ c (Proc.devRef .tc main_arg1) = W3 m ρ c (Proc.devRef .tc main_arg1) from (W4_arr m ρ c 1).trans (((dat0 (V3 m ρ) c).arrAt_in 1 rfl _).trans (A_eq0 (V3 m ρ) c 1))).trans <|
  (show W3 m ρ c (Proc.devRef .tc main_arg1) = W2 m ρ c (Proc.devRef .tc main_arg1) from StableHlo.after_of_writes_sub hostOps0_2 _ hostOps0_2_writes (by decide : main_arg1 ∉ hostOps0_2_W)).trans <|
  (show W2 m ρ c (Proc.devRef .tc main_arg1) = W1 m ρ c (Proc.devRef .tc main_arg1) from StableHlo.after_of_writes_sub hostOps0_1 _ hostOps0_1_writes (by decide : main_arg1 ∉ hostOps0_1_W)).trans <|
  (show W1 m ρ c (Proc.devRef .tc main_arg1) = W0 m ρ c (Proc.devRef .tc main_arg1) from StableHlo.after_of_writes_sub hostOps0 _ hostOps0_writes (by decide : main_arg1 ∉ hostOps0_W)).trans <|
  rfl

theorem W15_main_arg2 (c : Dev nD) : W15 m ρ c (Proc.devRef .tc main_arg2) = m ((c : Thread nD τ).loc main_arg2) :=
  (show W15 m ρ c (Proc.devRef .tc main_arg2) = W14 m ρ c (Proc.devRef .tc main_arg2) from StableHlo.after_of_writes_sub hostOps7 _ hostOps7_writes (by decide : main_arg2 ∉ hostOps7_W)).trans <|
  (show W14 m ρ c (Proc.devRef .tc main_arg2) = W13 m ρ c (Proc.devRef .tc main_arg2) from W14_of_ne m ρ c main_arg2 (by decide)).trans <|
  (show W13 m ρ c (Proc.devRef .tc main_arg2) = W12 m ρ c (Proc.devRef .tc main_arg2) from StableHlo.after_of_writes_sub hostOps6 _ hostOps6_writes (by decide : main_arg2 ∉ hostOps6_W)).trans <|
  (show W12 m ρ c (Proc.devRef .tc main_arg2) = W11 m ρ c (Proc.devRef .tc main_arg2) from W12_of_ne m ρ c main_arg2 (by decide)).trans <|
  (show W11 m ρ c (Proc.devRef .tc main_arg2) = W10 m ρ c (Proc.devRef .tc main_arg2) from StableHlo.after_of_writes_sub hostOps5 _ hostOps5_writes (by decide : main_arg2 ∉ hostOps5_W)).trans <|
  (show W10 m ρ c (Proc.devRef .tc main_arg2) = W9 m ρ c (Proc.devRef .tc main_arg2) from W10_of_ne m ρ c main_arg2 (by decide)).trans <|
  (show W9 m ρ c (Proc.devRef .tc main_arg2) = W8 m ρ c (Proc.devRef .tc main_arg2) from W9_of_ne m ρ c main_arg2 (by decide)).trans <|
  (show W8 m ρ c (Proc.devRef .tc main_arg2) = W7 m ρ c (Proc.devRef .tc main_arg2) from StableHlo.after_of_writes_sub hostOps3 _ hostOps3_writes (by decide : main_arg2 ∉ hostOps3_W)).trans <|
  (show W7 m ρ c (Proc.devRef .tc main_arg2) = W6 m ρ c (Proc.devRef .tc main_arg2) from W7_of_ne m ρ c main_arg2 (by decide)).trans <|
  (show W6 m ρ c (Proc.devRef .tc main_arg2) = W5 m ρ c (Proc.devRef .tc main_arg2) from W6_of_ne m ρ c main_arg2 (by decide)).trans <|
  (show W5 m ρ c (Proc.devRef .tc main_arg2) = W4 m ρ c (Proc.devRef .tc main_arg2) from StableHlo.after_of_writes_sub hostOps1 _ hostOps1_writes (by decide : main_arg2 ∉ hostOps1_W)).trans <|
  (show W4 m ρ c (Proc.devRef .tc main_arg2) = W3 m ρ c (Proc.devRef .tc main_arg2) from W4_of_ne m ρ c main_arg2 (by decide)).trans <|
  (show W3 m ρ c (Proc.devRef .tc main_arg2) = W2 m ρ c (Proc.devRef .tc main_arg2) from StableHlo.after_of_writes_sub hostOps0_2 _ hostOps0_2_writes (by decide : main_arg2 ∉ hostOps0_2_W)).trans <|
  (show W2 m ρ c (Proc.devRef .tc main_arg2) = W1 m ρ c (Proc.devRef .tc main_arg2) from StableHlo.after_of_writes_sub hostOps0_1 _ hostOps0_1_writes (by decide : main_arg2 ∉ hostOps0_1_W)).trans <|
  (show W1 m ρ c (Proc.devRef .tc main_arg2) = W0 m ρ c (Proc.devRef .tc main_arg2) from StableHlo.after_of_writes_sub hostOps0 _ hostOps0_writes (by decide : main_arg2 ∉ hostOps0_W)).trans <|
  rfl

theorem W15_main_arg3 (c : Dev nD) : W15 m ρ c (Proc.devRef .tc main_arg3) = m ((c : Thread nD τ).loc main_arg3) :=
  (show W15 m ρ c (Proc.devRef .tc main_arg3) = W14 m ρ c (Proc.devRef .tc main_arg3) from StableHlo.after_of_writes_sub hostOps7 _ hostOps7_writes (by decide : main_arg3 ∉ hostOps7_W)).trans <|
  (show W14 m ρ c (Proc.devRef .tc main_arg3) = W13 m ρ c (Proc.devRef .tc main_arg3) from W14_of_ne m ρ c main_arg3 (by decide)).trans <|
  (show W13 m ρ c (Proc.devRef .tc main_arg3) = W12 m ρ c (Proc.devRef .tc main_arg3) from StableHlo.after_of_writes_sub hostOps6 _ hostOps6_writes (by decide : main_arg3 ∉ hostOps6_W)).trans <|
  (show W12 m ρ c (Proc.devRef .tc main_arg3) = W11 m ρ c (Proc.devRef .tc main_arg3) from W12_of_ne m ρ c main_arg3 (by decide)).trans <|
  (show W11 m ρ c (Proc.devRef .tc main_arg3) = W10 m ρ c (Proc.devRef .tc main_arg3) from StableHlo.after_of_writes_sub hostOps5 _ hostOps5_writes (by decide : main_arg3 ∉ hostOps5_W)).trans <|
  (show W10 m ρ c (Proc.devRef .tc main_arg3) = W9 m ρ c (Proc.devRef .tc main_arg3) from W10_of_ne m ρ c main_arg3 (by decide)).trans <|
  (show W9 m ρ c (Proc.devRef .tc main_arg3) = W8 m ρ c (Proc.devRef .tc main_arg3) from W9_of_ne m ρ c main_arg3 (by decide)).trans <|
  (show W8 m ρ c (Proc.devRef .tc main_arg3) = W7 m ρ c (Proc.devRef .tc main_arg3) from StableHlo.after_of_writes_sub hostOps3 _ hostOps3_writes (by decide : main_arg3 ∉ hostOps3_W)).trans <|
  (show W7 m ρ c (Proc.devRef .tc main_arg3) = W6 m ρ c (Proc.devRef .tc main_arg3) from (W7_arr m ρ c 1).trans (((dat2 (V6 m ρ) c).arrAt_in 1 rfl _).trans (A_eq2 (V6 m ρ) c 1))).trans <|
  (show W6 m ρ c (Proc.devRef .tc main_arg3) = W5 m ρ c (Proc.devRef .tc main_arg3) from W6_of_ne m ρ c main_arg3 (by decide)).trans <|
  (show W5 m ρ c (Proc.devRef .tc main_arg3) = W4 m ρ c (Proc.devRef .tc main_arg3) from StableHlo.after_of_writes_sub hostOps1 _ hostOps1_writes (by decide : main_arg3 ∉ hostOps1_W)).trans <|
  (show W4 m ρ c (Proc.devRef .tc main_arg3) = W3 m ρ c (Proc.devRef .tc main_arg3) from W4_of_ne m ρ c main_arg3 (by decide)).trans <|
  (show W3 m ρ c (Proc.devRef .tc main_arg3) = W2 m ρ c (Proc.devRef .tc main_arg3) from StableHlo.after_of_writes_sub hostOps0_2 _ hostOps0_2_writes (by decide : main_arg3 ∉ hostOps0_2_W)).trans <|
  (show W2 m ρ c (Proc.devRef .tc main_arg3) = W1 m ρ c (Proc.devRef .tc main_arg3) from StableHlo.after_of_writes_sub hostOps0_1 _ hostOps0_1_writes (by decide : main_arg3 ∉ hostOps0_1_W)).trans <|
  (show W1 m ρ c (Proc.devRef .tc main_arg3) = W0 m ρ c (Proc.devRef .tc main_arg3) from StableHlo.after_of_writes_sub hostOps0 _ hostOps0_writes (by decide : main_arg3 ∉ hostOps0_W)).trans <|
  rfl

theorem W15_main_arg4 (c : Dev nD) : W15 m ρ c (Proc.devRef .tc main_arg4) = m ((c : Thread nD τ).loc main_arg4) :=
  (show W15 m ρ c (Proc.devRef .tc main_arg4) = W14 m ρ c (Proc.devRef .tc main_arg4) from StableHlo.after_of_writes_sub hostOps7 _ hostOps7_writes (by decide : main_arg4 ∉ hostOps7_W)).trans <|
  (show W14 m ρ c (Proc.devRef .tc main_arg4) = W13 m ρ c (Proc.devRef .tc main_arg4) from W14_of_ne m ρ c main_arg4 (by decide)).trans <|
  (show W13 m ρ c (Proc.devRef .tc main_arg4) = W12 m ρ c (Proc.devRef .tc main_arg4) from StableHlo.after_of_writes_sub hostOps6 _ hostOps6_writes (by decide : main_arg4 ∉ hostOps6_W)).trans <|
  (show W12 m ρ c (Proc.devRef .tc main_arg4) = W11 m ρ c (Proc.devRef .tc main_arg4) from W12_of_ne m ρ c main_arg4 (by decide)).trans <|
  (show W11 m ρ c (Proc.devRef .tc main_arg4) = W10 m ρ c (Proc.devRef .tc main_arg4) from StableHlo.after_of_writes_sub hostOps5 _ hostOps5_writes (by decide : main_arg4 ∉ hostOps5_W)).trans <|
  (show W10 m ρ c (Proc.devRef .tc main_arg4) = W9 m ρ c (Proc.devRef .tc main_arg4) from W10_of_ne m ρ c main_arg4 (by decide)).trans <|
  (show W9 m ρ c (Proc.devRef .tc main_arg4) = W8 m ρ c (Proc.devRef .tc main_arg4) from W9_of_ne m ρ c main_arg4 (by decide)).trans <|
  (show W8 m ρ c (Proc.devRef .tc main_arg4) = W7 m ρ c (Proc.devRef .tc main_arg4) from StableHlo.after_of_writes_sub hostOps3 _ hostOps3_writes (by decide : main_arg4 ∉ hostOps3_W)).trans <|
  (show W7 m ρ c (Proc.devRef .tc main_arg4) = W6 m ρ c (Proc.devRef .tc main_arg4) from W7_of_ne m ρ c main_arg4 (by decide)).trans <|
  (show W6 m ρ c (Proc.devRef .tc main_arg4) = W5 m ρ c (Proc.devRef .tc main_arg4) from W6_of_ne m ρ c main_arg4 (by decide)).trans <|
  (show W5 m ρ c (Proc.devRef .tc main_arg4) = W4 m ρ c (Proc.devRef .tc main_arg4) from StableHlo.after_of_writes_sub hostOps1 _ hostOps1_writes (by decide : main_arg4 ∉ hostOps1_W)).trans <|
  (show W4 m ρ c (Proc.devRef .tc main_arg4) = W3 m ρ c (Proc.devRef .tc main_arg4) from W4_of_ne m ρ c main_arg4 (by decide)).trans <|
  (show W3 m ρ c (Proc.devRef .tc main_arg4) = W2 m ρ c (Proc.devRef .tc main_arg4) from StableHlo.after_of_writes_sub hostOps0_2 _ hostOps0_2_writes (by decide : main_arg4 ∉ hostOps0_2_W)).trans <|
  (show W2 m ρ c (Proc.devRef .tc main_arg4) = W1 m ρ c (Proc.devRef .tc main_arg4) from StableHlo.after_of_writes_sub hostOps0_1 _ hostOps0_1_writes (by decide : main_arg4 ∉ hostOps0_1_W)).trans <|
  (show W1 m ρ c (Proc.devRef .tc main_arg4) = W0 m ρ c (Proc.devRef .tc main_arg4) from StableHlo.after_of_writes_sub hostOps0 _ hostOps0_writes (by decide : main_arg4 ∉ hostOps0_W)).trans <|
  rfl

theorem W15_main_arg5 (c : Dev nD) : W15 m ρ c (Proc.devRef .tc main_arg5) = m ((c : Thread nD τ).loc main_arg5) :=
  (show W15 m ρ c (Proc.devRef .tc main_arg5) = W14 m ρ c (Proc.devRef .tc main_arg5) from StableHlo.after_of_writes_sub hostOps7 _ hostOps7_writes (by decide : main_arg5 ∉ hostOps7_W)).trans <|
  (show W14 m ρ c (Proc.devRef .tc main_arg5) = W13 m ρ c (Proc.devRef .tc main_arg5) from W14_of_ne m ρ c main_arg5 (by decide)).trans <|
  (show W13 m ρ c (Proc.devRef .tc main_arg5) = W12 m ρ c (Proc.devRef .tc main_arg5) from StableHlo.after_of_writes_sub hostOps6 _ hostOps6_writes (by decide : main_arg5 ∉ hostOps6_W)).trans <|
  (show W12 m ρ c (Proc.devRef .tc main_arg5) = W11 m ρ c (Proc.devRef .tc main_arg5) from W12_of_ne m ρ c main_arg5 (by decide)).trans <|
  (show W11 m ρ c (Proc.devRef .tc main_arg5) = W10 m ρ c (Proc.devRef .tc main_arg5) from StableHlo.after_of_writes_sub hostOps5 _ hostOps5_writes (by decide : main_arg5 ∉ hostOps5_W)).trans <|
  (show W10 m ρ c (Proc.devRef .tc main_arg5) = W9 m ρ c (Proc.devRef .tc main_arg5) from (W10_arr m ρ c 1).trans (((dat4 (V9 m ρ) c).arrAt_in 1 rfl _).trans (A_eq4 (V9 m ρ) c 1))).trans <|
  (show W9 m ρ c (Proc.devRef .tc main_arg5) = W8 m ρ c (Proc.devRef .tc main_arg5) from W9_of_ne m ρ c main_arg5 (by decide)).trans <|
  (show W8 m ρ c (Proc.devRef .tc main_arg5) = W7 m ρ c (Proc.devRef .tc main_arg5) from StableHlo.after_of_writes_sub hostOps3 _ hostOps3_writes (by decide : main_arg5 ∉ hostOps3_W)).trans <|
  (show W7 m ρ c (Proc.devRef .tc main_arg5) = W6 m ρ c (Proc.devRef .tc main_arg5) from W7_of_ne m ρ c main_arg5 (by decide)).trans <|
  (show W6 m ρ c (Proc.devRef .tc main_arg5) = W5 m ρ c (Proc.devRef .tc main_arg5) from W6_of_ne m ρ c main_arg5 (by decide)).trans <|
  (show W5 m ρ c (Proc.devRef .tc main_arg5) = W4 m ρ c (Proc.devRef .tc main_arg5) from StableHlo.after_of_writes_sub hostOps1 _ hostOps1_writes (by decide : main_arg5 ∉ hostOps1_W)).trans <|
  (show W4 m ρ c (Proc.devRef .tc main_arg5) = W3 m ρ c (Proc.devRef .tc main_arg5) from W4_of_ne m ρ c main_arg5 (by decide)).trans <|
  (show W3 m ρ c (Proc.devRef .tc main_arg5) = W2 m ρ c (Proc.devRef .tc main_arg5) from StableHlo.after_of_writes_sub hostOps0_2 _ hostOps0_2_writes (by decide : main_arg5 ∉ hostOps0_2_W)).trans <|
  (show W2 m ρ c (Proc.devRef .tc main_arg5) = W1 m ρ c (Proc.devRef .tc main_arg5) from StableHlo.after_of_writes_sub hostOps0_1 _ hostOps0_1_writes (by decide : main_arg5 ∉ hostOps0_1_W)).trans <|
  (show W1 m ρ c (Proc.devRef .tc main_arg5) = W0 m ρ c (Proc.devRef .tc main_arg5) from StableHlo.after_of_writes_sub hostOps0 _ hostOps0_writes (by decide : main_arg5 ∉ hostOps0_W)).trans <|
  rfl

theorem W15_main_arg6 (c : Dev nD) : W15 m ρ c (Proc.devRef .tc main_arg6) = m ((c : Thread nD τ).loc main_arg6) :=
  (show W15 m ρ c (Proc.devRef .tc main_arg6) = W14 m ρ c (Proc.devRef .tc main_arg6) from StableHlo.after_of_writes_sub hostOps7 _ hostOps7_writes (by decide : main_arg6 ∉ hostOps7_W)).trans <|
  (show W14 m ρ c (Proc.devRef .tc main_arg6) = W13 m ρ c (Proc.devRef .tc main_arg6) from W14_of_ne m ρ c main_arg6 (by decide)).trans <|
  (show W13 m ρ c (Proc.devRef .tc main_arg6) = W12 m ρ c (Proc.devRef .tc main_arg6) from StableHlo.after_of_writes_sub hostOps6 _ hostOps6_writes (by decide : main_arg6 ∉ hostOps6_W)).trans <|
  (show W12 m ρ c (Proc.devRef .tc main_arg6) = W11 m ρ c (Proc.devRef .tc main_arg6) from W12_of_ne m ρ c main_arg6 (by decide)).trans <|
  (show W11 m ρ c (Proc.devRef .tc main_arg6) = W10 m ρ c (Proc.devRef .tc main_arg6) from StableHlo.after_of_writes_sub hostOps5 _ hostOps5_writes (by decide : main_arg6 ∉ hostOps5_W)).trans <|
  (show W10 m ρ c (Proc.devRef .tc main_arg6) = W9 m ρ c (Proc.devRef .tc main_arg6) from W10_of_ne m ρ c main_arg6 (by decide)).trans <|
  (show W9 m ρ c (Proc.devRef .tc main_arg6) = W8 m ρ c (Proc.devRef .tc main_arg6) from W9_of_ne m ρ c main_arg6 (by decide)).trans <|
  (show W8 m ρ c (Proc.devRef .tc main_arg6) = W7 m ρ c (Proc.devRef .tc main_arg6) from StableHlo.after_of_writes_sub hostOps3 _ hostOps3_writes (by decide : main_arg6 ∉ hostOps3_W)).trans <|
  (show W7 m ρ c (Proc.devRef .tc main_arg6) = W6 m ρ c (Proc.devRef .tc main_arg6) from W7_of_ne m ρ c main_arg6 (by decide)).trans <|
  (show W6 m ρ c (Proc.devRef .tc main_arg6) = W5 m ρ c (Proc.devRef .tc main_arg6) from W6_of_ne m ρ c main_arg6 (by decide)).trans <|
  (show W5 m ρ c (Proc.devRef .tc main_arg6) = W4 m ρ c (Proc.devRef .tc main_arg6) from StableHlo.after_of_writes_sub hostOps1 _ hostOps1_writes (by decide : main_arg6 ∉ hostOps1_W)).trans <|
  (show W4 m ρ c (Proc.devRef .tc main_arg6) = W3 m ρ c (Proc.devRef .tc main_arg6) from W4_of_ne m ρ c main_arg6 (by decide)).trans <|
  (show W3 m ρ c (Proc.devRef .tc main_arg6) = W2 m ρ c (Proc.devRef .tc main_arg6) from StableHlo.after_of_writes_sub hostOps0_2 _ hostOps0_2_writes (by decide : main_arg6 ∉ hostOps0_2_W)).trans <|
  (show W2 m ρ c (Proc.devRef .tc main_arg6) = W1 m ρ c (Proc.devRef .tc main_arg6) from StableHlo.after_of_writes_sub hostOps0_1 _ hostOps0_1_writes (by decide : main_arg6 ∉ hostOps0_1_W)).trans <|
  (show W1 m ρ c (Proc.devRef .tc main_arg6) = W0 m ρ c (Proc.devRef .tc main_arg6) from StableHlo.after_of_writes_sub hostOps0 _ hostOps0_writes (by decide : main_arg6 ∉ hostOps0_W)).trans <|
  rfl

theorem W15_main_arg7 (c : Dev nD) : W15 m ρ c (Proc.devRef .tc main_arg7) = m ((c : Thread nD τ).loc main_arg7) :=
  (show W15 m ρ c (Proc.devRef .tc main_arg7) = W14 m ρ c (Proc.devRef .tc main_arg7) from StableHlo.after_of_writes_sub hostOps7 _ hostOps7_writes (by decide : main_arg7 ∉ hostOps7_W)).trans <|
  (show W14 m ρ c (Proc.devRef .tc main_arg7) = W13 m ρ c (Proc.devRef .tc main_arg7) from (W14_arr m ρ c 1).trans (((dat6 (V13 m ρ) c).arrAt_in 1 rfl _).trans (A_eq6 (V13 m ρ) c 1))).trans <|
  (show W13 m ρ c (Proc.devRef .tc main_arg7) = W12 m ρ c (Proc.devRef .tc main_arg7) from StableHlo.after_of_writes_sub hostOps6 _ hostOps6_writes (by decide : main_arg7 ∉ hostOps6_W)).trans <|
  (show W12 m ρ c (Proc.devRef .tc main_arg7) = W11 m ρ c (Proc.devRef .tc main_arg7) from W12_of_ne m ρ c main_arg7 (by decide)).trans <|
  (show W11 m ρ c (Proc.devRef .tc main_arg7) = W10 m ρ c (Proc.devRef .tc main_arg7) from StableHlo.after_of_writes_sub hostOps5 _ hostOps5_writes (by decide : main_arg7 ∉ hostOps5_W)).trans <|
  (show W10 m ρ c (Proc.devRef .tc main_arg7) = W9 m ρ c (Proc.devRef .tc main_arg7) from W10_of_ne m ρ c main_arg7 (by decide)).trans <|
  (show W9 m ρ c (Proc.devRef .tc main_arg7) = W8 m ρ c (Proc.devRef .tc main_arg7) from W9_of_ne m ρ c main_arg7 (by decide)).trans <|
  (show W8 m ρ c (Proc.devRef .tc main_arg7) = W7 m ρ c (Proc.devRef .tc main_arg7) from StableHlo.after_of_writes_sub hostOps3 _ hostOps3_writes (by decide : main_arg7 ∉ hostOps3_W)).trans <|
  (show W7 m ρ c (Proc.devRef .tc main_arg7) = W6 m ρ c (Proc.devRef .tc main_arg7) from W7_of_ne m ρ c main_arg7 (by decide)).trans <|
  (show W6 m ρ c (Proc.devRef .tc main_arg7) = W5 m ρ c (Proc.devRef .tc main_arg7) from W6_of_ne m ρ c main_arg7 (by decide)).trans <|
  (show W5 m ρ c (Proc.devRef .tc main_arg7) = W4 m ρ c (Proc.devRef .tc main_arg7) from StableHlo.after_of_writes_sub hostOps1 _ hostOps1_writes (by decide : main_arg7 ∉ hostOps1_W)).trans <|
  (show W4 m ρ c (Proc.devRef .tc main_arg7) = W3 m ρ c (Proc.devRef .tc main_arg7) from W4_of_ne m ρ c main_arg7 (by decide)).trans <|
  (show W3 m ρ c (Proc.devRef .tc main_arg7) = W2 m ρ c (Proc.devRef .tc main_arg7) from StableHlo.after_of_writes_sub hostOps0_2 _ hostOps0_2_writes (by decide : main_arg7 ∉ hostOps0_2_W)).trans <|
  (show W2 m ρ c (Proc.devRef .tc main_arg7) = W1 m ρ c (Proc.devRef .tc main_arg7) from StableHlo.after_of_writes_sub hostOps0_1 _ hostOps0_1_writes (by decide : main_arg7 ∉ hostOps0_1_W)).trans <|
  (show W1 m ρ c (Proc.devRef .tc main_arg7) = W0 m ρ c (Proc.devRef .tc main_arg7) from StableHlo.after_of_writes_sub hostOps0 _ hostOps0_writes (by decide : main_arg7 ∉ hostOps0_W)).trans <|
  rfl

theorem W15_main_arg8 (c : Dev nD) : W15 m ρ c (Proc.devRef .tc main_arg8) = m ((c : Thread nD τ).loc main_arg8) :=
  (show W15 m ρ c (Proc.devRef .tc main_arg8) = W14 m ρ c (Proc.devRef .tc main_arg8) from StableHlo.after_of_writes_sub hostOps7 _ hostOps7_writes (by decide : main_arg8 ∉ hostOps7_W)).trans <|
  (show W14 m ρ c (Proc.devRef .tc main_arg8) = W13 m ρ c (Proc.devRef .tc main_arg8) from W14_of_ne m ρ c main_arg8 (by decide)).trans <|
  (show W13 m ρ c (Proc.devRef .tc main_arg8) = W12 m ρ c (Proc.devRef .tc main_arg8) from StableHlo.after_of_writes_sub hostOps6 _ hostOps6_writes (by decide : main_arg8 ∉ hostOps6_W)).trans <|
  (show W12 m ρ c (Proc.devRef .tc main_arg8) = W11 m ρ c (Proc.devRef .tc main_arg8) from W12_of_ne m ρ c main_arg8 (by decide)).trans <|
  (show W11 m ρ c (Proc.devRef .tc main_arg8) = W10 m ρ c (Proc.devRef .tc main_arg8) from StableHlo.after_of_writes_sub hostOps5 _ hostOps5_writes (by decide : main_arg8 ∉ hostOps5_W)).trans <|
  (show W10 m ρ c (Proc.devRef .tc main_arg8) = W9 m ρ c (Proc.devRef .tc main_arg8) from W10_of_ne m ρ c main_arg8 (by decide)).trans <|
  (show W9 m ρ c (Proc.devRef .tc main_arg8) = W8 m ρ c (Proc.devRef .tc main_arg8) from W9_of_ne m ρ c main_arg8 (by decide)).trans <|
  (show W8 m ρ c (Proc.devRef .tc main_arg8) = W7 m ρ c (Proc.devRef .tc main_arg8) from StableHlo.after_of_writes_sub hostOps3 _ hostOps3_writes (by decide : main_arg8 ∉ hostOps3_W)).trans <|
  (show W7 m ρ c (Proc.devRef .tc main_arg8) = W6 m ρ c (Proc.devRef .tc main_arg8) from W7_of_ne m ρ c main_arg8 (by decide)).trans <|
  (show W6 m ρ c (Proc.devRef .tc main_arg8) = W5 m ρ c (Proc.devRef .tc main_arg8) from W6_of_ne m ρ c main_arg8 (by decide)).trans <|
  (show W5 m ρ c (Proc.devRef .tc main_arg8) = W4 m ρ c (Proc.devRef .tc main_arg8) from StableHlo.after_of_writes_sub hostOps1 _ hostOps1_writes (by decide : main_arg8 ∉ hostOps1_W)).trans <|
  (show W4 m ρ c (Proc.devRef .tc main_arg8) = W3 m ρ c (Proc.devRef .tc main_arg8) from W4_of_ne m ρ c main_arg8 (by decide)).trans <|
  (show W3 m ρ c (Proc.devRef .tc main_arg8) = W2 m ρ c (Proc.devRef .tc main_arg8) from StableHlo.after_of_writes_sub hostOps0_2 _ hostOps0_2_writes (by decide : main_arg8 ∉ hostOps0_2_W)).trans <|
  (show W2 m ρ c (Proc.devRef .tc main_arg8) = W1 m ρ c (Proc.devRef .tc main_arg8) from StableHlo.after_of_writes_sub hostOps0_1 _ hostOps0_1_writes (by decide : main_arg8 ∉ hostOps0_1_W)).trans <|
  (show W1 m ρ c (Proc.devRef .tc main_arg8) = W0 m ρ c (Proc.devRef .tc main_arg8) from StableHlo.after_of_writes_sub hostOps0 _ hostOps0_writes (by decide : main_arg8 ∉ hostOps0_W)).trans <|
  rfl

theorem W15_main_arg9 (c : Dev nD) : W15 m ρ c (Proc.devRef .tc main_arg9) = m ((c : Thread nD τ).loc main_arg9) :=
  (show W15 m ρ c (Proc.devRef .tc main_arg9) = W14 m ρ c (Proc.devRef .tc main_arg9) from StableHlo.after_of_writes_sub hostOps7 _ hostOps7_writes (by decide : main_arg9 ∉ hostOps7_W)).trans <|
  (show W14 m ρ c (Proc.devRef .tc main_arg9) = W13 m ρ c (Proc.devRef .tc main_arg9) from W14_of_ne m ρ c main_arg9 (by decide)).trans <|
  (show W13 m ρ c (Proc.devRef .tc main_arg9) = W12 m ρ c (Proc.devRef .tc main_arg9) from StableHlo.after_of_writes_sub hostOps6 _ hostOps6_writes (by decide : main_arg9 ∉ hostOps6_W)).trans <|
  (show W12 m ρ c (Proc.devRef .tc main_arg9) = W11 m ρ c (Proc.devRef .tc main_arg9) from W12_of_ne m ρ c main_arg9 (by decide)).trans <|
  (show W11 m ρ c (Proc.devRef .tc main_arg9) = W10 m ρ c (Proc.devRef .tc main_arg9) from StableHlo.after_of_writes_sub hostOps5 _ hostOps5_writes (by decide : main_arg9 ∉ hostOps5_W)).trans <|
  (show W10 m ρ c (Proc.devRef .tc main_arg9) = W9 m ρ c (Proc.devRef .tc main_arg9) from W10_of_ne m ρ c main_arg9 (by decide)).trans <|
  (show W9 m ρ c (Proc.devRef .tc main_arg9) = W8 m ρ c (Proc.devRef .tc main_arg9) from W9_of_ne m ρ c main_arg9 (by decide)).trans <|
  (show W8 m ρ c (Proc.devRef .tc main_arg9) = W7 m ρ c (Proc.devRef .tc main_arg9) from StableHlo.after_of_writes_sub hostOps3 _ hostOps3_writes (by decide : main_arg9 ∉ hostOps3_W)).trans <|
  (show W7 m ρ c (Proc.devRef .tc main_arg9) = W6 m ρ c (Proc.devRef .tc main_arg9) from W7_of_ne m ρ c main_arg9 (by decide)).trans <|
  (show W6 m ρ c (Proc.devRef .tc main_arg9) = W5 m ρ c (Proc.devRef .tc main_arg9) from W6_of_ne m ρ c main_arg9 (by decide)).trans <|
  (show W5 m ρ c (Proc.devRef .tc main_arg9) = W4 m ρ c (Proc.devRef .tc main_arg9) from StableHlo.after_of_writes_sub hostOps1 _ hostOps1_writes (by decide : main_arg9 ∉ hostOps1_W)).trans <|
  (show W4 m ρ c (Proc.devRef .tc main_arg9) = W3 m ρ c (Proc.devRef .tc main_arg9) from W4_of_ne m ρ c main_arg9 (by decide)).trans <|
  (show W3 m ρ c (Proc.devRef .tc main_arg9) = W2 m ρ c (Proc.devRef .tc main_arg9) from StableHlo.after_of_writes_sub hostOps0_2 _ hostOps0_2_writes (by decide : main_arg9 ∉ hostOps0_2_W)).trans <|
  (show W2 m ρ c (Proc.devRef .tc main_arg9) = W1 m ρ c (Proc.devRef .tc main_arg9) from StableHlo.after_of_writes_sub hostOps0_1 _ hostOps0_1_writes (by decide : main_arg9 ∉ hostOps0_1_W)).trans <|
  (show W1 m ρ c (Proc.devRef .tc main_arg9) = W0 m ρ c (Proc.devRef .tc main_arg9) from StableHlo.after_of_writes_sub hostOps0 _ hostOps0_writes (by decide : main_arg9 ∉ hostOps0_W)).trans <|
  rfl

/-- The frame: every execution terminates with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W15_main_arg0 m ρ c),
    (h c _ (mem_uc main_arg1 (by decide))).trans (W15_main_arg1 m ρ c),
    (h c _ (mem_uc main_arg2 (by decide))).trans (W15_main_arg2 m ρ c),
    (h c _ (mem_uc main_arg3 (by decide))).trans (W15_main_arg3 m ρ c),
    (h c _ (mem_uc main_arg4 (by decide))).trans (W15_main_arg4 m ρ c),
    (h c _ (mem_uc main_arg5 (by decide))).trans (W15_main_arg5 m ρ c),
    (h c _ (mem_uc main_arg6 (by decide))).trans (W15_main_arg6 m ρ c),
    (h c _ (mem_uc main_arg7 (by decide))).trans (W15_main_arg7 m ρ c),
    (h c _ (mem_uc main_arg8 (by decide))).trans (W15_main_arg8 m ρ c),
    (h c _ (mem_uc main_arg9 (by decide))).trans (W15_main_arg9 m ρ c)⟩) (run_all m ρ)

end Cert.KernelIdeal.Fr

end
-- ==== Proof.Spec.lean ====
/-
  Three graph-convolution layers and a linear classifier, as functions on the extended reals.

  The graph has 10000 nodes and 170000 messages: 160000 edges followed by one self-loop per node. Message `e` goes from
  node `s e` to node `d e`. A node's degree counts the messages into it; `dinv = deg^(-1/2)` (zero where the degree is
  not positive); message `e` weighs `dinv (s e) · dinv (d e)`. A layer transforms the node features by a weight matrix,
  sums into each node the weighted transformed rows of the messages' sources, adds a bias and clamps below at zero.

  Two arrangements of one layer are stated. The message-passing one sums over the messages into a node. The dense one
  first builds the 10240 × 10240 adjacency matrix (entry (r, c): the total weight of the messages from c to r; rows and
  columns past 10000 are padding) and contracts its row against the transformed features of all 10240 padded rows.
-/
import Mathlib.Data.EReal.Operations
import Mathlib.Algebra.BigOperators.Group.Finset.Basic
import Idealize.ShloMosaic.PureOps.Ideal

noncomputable section

namespace Gcn

open scoped BigOperators
open Idealize.ShloMosaic

/-- Nodes, padded rows, messages. -/
abbrev Nn : ℕ := 10000
abbrev Np : ℕ := 10240
abbrev Ne : ℕ := 170000

/-- A node seen as a padded row. -/
def pad (v : Fin Nn) : Fin Np := ⟨v.val, lt_trans v.isLt (by decide : (10000 : ℕ) < 10240)⟩

variable (s d : Fin Ne → Fin Nn)

/-- The degree: the number of messages into the node. -/
def deg (v : Fin Nn) : EReal := ∑ _e ∈ Finset.univ.filter (fun e => d e = v), (1 : EReal)

/-- The inverse square root of the degree; zero where the degree is not positive. -/
def dinv (v : Fin Nn) : EReal := if 0 < deg d v then Ideal.rsqrt (deg d v) else 0

/-- A message's weight. -/
def nrm (e : Fin Ne) : EReal := dinv d (s e) * dinv d (d e)

/-- The feature transform: `h · w`. -/
def lin {n k b : ℕ} (h : Fin n → Fin k → EReal) (w : Fin k → Fin b → EReal) (r : Fin n) (q : Fin b) : EReal :=
  ∑ κ : Fin k, h r κ * w κ q

/-- One layer by message passing. -/
def layerMsg {k b : ℕ} (h : Fin Nn → Fin k → EReal) (w : Fin k → Fin b → EReal) (β : Fin b → EReal)
    (v : Fin Nn) (q : Fin b) : EReal :=
  max ((∑ e ∈ Finset.univ.filter (fun e => d e = v), lin h w (s e) q * nrm s d e) + β q) 0

/-- The reference: three layers by message passing and the classifier. -/
def outMsg (x : Fin Nn → Fin 128 → EReal) (w1 : Fin 128 → Fin 512 → EReal) (b1 : Fin 512 → EReal)
    (w2 : Fin 512 → Fin 256 → EReal) (b2 : Fin 256 → EReal) (w3 : Fin 256 → Fin 64 → EReal) (b3 : Fin 64 → EReal)
    (wc : Fin 64 → Fin 3 → EReal) (bc : Fin 3 → EReal) (v : Fin Nn) (q : Fin 3) : EReal :=
  lin (layerMsg s d (layerMsg s d (layerMsg s d x w1 b1) w2 b2) w3 b3) wc v q + bc q

/-- The dense normalised adjacency over the padded rows and columns. -/
def adj (r c : Fin Np) : EReal :=
  ∑ e ∈ Finset.univ.filter (fun e => pad (d e) = r ∧ pad (s e) = c), nrm s d e

/-- The features padded with zero rows. -/
def xpad {k : ℕ} (x : Fin Nn → Fin k → EReal) (r : Fin Np) (κ : Fin k) : EReal :=
  if h : r.val < Nn then x ⟨r.val, h⟩ κ else 0

/-- One layer against any square matrix `A` over the padded rows: row `r` of `A` contracted against the transformed
    features of every padded row, plus the bias, clamped below at zero. -/
def layerDenseOf (A : Fin Np → Fin Np → EReal) {k b : ℕ} (h : Fin Np → Fin k → EReal) (w : Fin k → Fin b → EReal)
    (β : Fin b → EReal) (r : Fin Np) (q : Fin b) : EReal :=
  max ((∑ c : Fin Np, A r c * lin h w c q) + β q) 0

/-- Three dense layers against `A` from padded features `xp`, and the classifier, at a padded row. -/
def outDenseOf (A : Fin Np → Fin Np → EReal) (xp : Fin Np → Fin 128 → EReal) (w1 : Fin 128 → Fin 512 → EReal)
    (b1 : Fin 512 → EReal) (w2 : Fin 512 → Fin 256 → EReal) (b2 : Fin 256 → EReal) (w3 : Fin 256 → Fin 64 → EReal)
    (b3 : Fin 64 → EReal) (wc : Fin 64 → Fin 3 → EReal) (bc : Fin 3 → EReal) (r : Fin Np) (q : Fin 3) : EReal :=
  lin (layerDenseOf A (layerDenseOf A (layerDenseOf A xp w1 b1) w2 b2) w3 b3) wc r q + bc q

/-- The kernel: the dense layers against the normalised adjacency, from the zero-padded features, read at a node. -/
def outDense (x : Fin Nn → Fin 128 → EReal) (w1 : Fin 128 → Fin 512 → EReal) (b1 : Fin 512 → EReal)
    (w2 : Fin 512 → Fin 256 → EReal) (b2 : Fin 256 → EReal) (w3 : Fin 256 → Fin 64 → EReal) (b3 : Fin 64 → EReal)
    (wc : Fin 64 → Fin 3 → EReal) (bc : Fin 3 → EReal) (v : Fin Nn) (q : Fin 3) : EReal :=
  outDenseOf (adj s d) (xpad x) w1 b1 w2 b2 w3 b3 wc bc (pad v) q

/-! ## The message tables from the index words -/

/-- A 32-bit word read signed as a node (words outside 0 … 9999 are sent to a node all the same; the statements
    that use this assume the words in range). -/
def node (w : BitVec 32) : Fin Nn := ⟨min w.toInt.toNat 9999, by show min w.toInt.toNat 9999 < 10000; omega⟩

/-- The index words are node numbers. -/
def InRange (ei : Fin 2 → Fin 160000 → BitVec 32) : Prop := ∀ j e, 0 ≤ (ei j e).toInt ∧ (ei j e).toInt < 10000

/-- Message `e`'s source: the edge list's first row, then one self-loop per node. -/
def srcTab (ei : Fin 2 → Fin 160000 → BitVec 32) (e : Fin Ne) : Fin Nn :=
  if h : e.val < 160000 then node (ei 0 ⟨e.val, h⟩) else ⟨e.val - 160000, by have h2 : e.val < 170000 := e.isLt; show e.val - 160000 < 10000; omega⟩

/-- Message `e`'s target: the edge list's second row, then one self-loop per node. -/
def dstTab (ei : Fin 2 → Fin 160000 → BitVec 32) (e : Fin Ne) : Fin Nn :=
  if h : e.val < 160000 then node (ei 1 ⟨e.val, h⟩) else ⟨e.val - 160000, by have h2 : e.val < 170000 := e.isLt; show e.val - 160000 < 10000; omega⟩

end Gcn

end
-- ==== Proof.Glue.lean ====
/-
  Arrays of the printed programs seen as plain functions of their coordinates: a rank-2 array as a function of a row and a
  column, a rank-1 array as a function of its index.
-/
import proofs.«143928_j37108517437617_1_alg».proof.Proof.Spec
import Idealize.ShloMosaic.Lib.ValueIdx

noncomputable section

namespace Gcn

open Idealize.ShloMosaic Idealize.ShloMosaic.ValueIdx

/-- A rank-2 array by its coordinates. -/
def mat2 {α : Type} {n0 n1 : ℕ} (a : (⟨2, ![n0, n1]⟩ : Shape).Idx → α) (r : Fin n0) (q : Fin n1) : α := a (ix2 r q)

/-- A rank-1 array by its index. -/
def vec1 {α : Type} {n : ℕ} (a : (⟨1, ![n]⟩ : Shape).Idx → α) (q : Fin n) : α := a (ix1 q)

theorem mat2_apply {α : Type} {n0 n1 : ℕ} (a : (⟨2, ![n0, n1]⟩ : Shape).Idx → α) (r : Fin n0) (q : Fin n1) :
    mat2 a r q = a (ix2 r q) := rfl

theorem vec1_apply {α : Type} {n : ℕ} (a : (⟨1, ![n]⟩ : Shape).Idx → α) (q : Fin n) : vec1 a q = a (ix1 q) := rfl

/-- A rank-2 array is determined by its reading by coordinates. -/
theorem eq_of_mat2 {α : Type} {n0 n1 : ℕ} (a : (⟨2, ![n0, n1]⟩ : Shape).Idx → α) (g : Fin n0 → Fin n1 → α)
    (h : mat2 a = g) : a = fun i => g (i 0) (i 1) := by
  funext i
  conv_lhs => rw [eq_ix2 i]
  exact congrFun (congrFun h (i 0)) (i 1)

end Gcn

end
-- ==== Proof.KHostPlumb.lean ====
/-
  Where each kernel region's arrays come from. The program's buffers are followed through its sixteen boundaries: a
  host stretch changes only the buffers it writes, a kernel region only its own output array. So an argument is still
  the launch memory's when a region reads it; the adjacency and the padded features are what the first three host
  stretches leave; a layer's input is the previous region's output array; a bias row is the bias vector laid out as
  one row; the program's result is the first 10000 rows of the last region's output.
-/
import proofs.«143928_j37108517437617_1_alg».proof.Proof.KI.Run
import proofs.«143928_j37108517437617_1_alg».proof.Proof.Gen.KernelIdeal.Regions
import proofs.«143928_j37108517437617_1_alg».proof.Proof.Glue
import Idealize.ShloMosaic.Lib.ValueLayout

set_option maxRecDepth 16384

noncomputable section

namespace Cert.KernelIdeal.KHost

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## One boundary to the next, at a buffer the step does not write -/

theorem keep1 (r : Ref sig .tc) (h : r ∉ (hostOps0_W : List (Ref sig .tc))) :
    W1 m ρ c (Proc.devRef .tc r) = W0 m ρ c (Proc.devRef .tc r) :=
  StableHlo.after_of_writes_sub hostOps0 _ hostOps0_writes h
theorem keep2 (r : Ref sig .tc) (h : r ∉ (hostOps0_1_W : List (Ref sig .tc))) :
    W2 m ρ c (Proc.devRef .tc r) = W1 m ρ c (Proc.devRef .tc r) :=
  StableHlo.after_of_writes_sub hostOps0_1 _ hostOps0_1_writes h
theorem keep3 (r : Ref sig .tc) (h : r ∉ (hostOps0_2_W : List (Ref sig .tc))) :
    W3 m ρ c (Proc.devRef .tc r) = W2 m ρ c (Proc.devRef .tc r) :=
  StableHlo.after_of_writes_sub hostOps0_2 _ hostOps0_2_writes h
theorem keep4 (r : Ref sig .tc) (h : ∀ w, Pipeline.arrRef spec0 w ≠ r) :
    W4 m ρ c (Proc.devRef .tc r) = W3 m ρ c (Proc.devRef .tc r) := W4_of_ne m ρ c r h
theorem keep5 (r : Ref sig .tc) (h : r ∉ (hostOps1_W : List (Ref sig .tc))) :
    W5 m ρ c (Proc.devRef .tc r) = W4 m ρ c (Proc.devRef .tc r) :=
  StableHlo.after_of_writes_sub hostOps1 _ hostOps1_writes h
theorem keep6 (r : Ref sig .tc) (h : ∀ w, Pipeline.arrRef spec1 w ≠ r) :
    W6 m ρ c (Proc.devRef .tc r) = W5 m ρ c (Proc.devRef .tc r) := W6_of_ne m ρ c r h
theorem keep7 (r : Ref sig .tc) (h : ∀ w, Pipeline.arrRef spec2 w ≠ r) :
    W7 m ρ c (Proc.devRef .tc r) = W6 m ρ c (Proc.devRef .tc r) := W7_of_ne m ρ c r h
theorem keep8 (r : Ref sig .tc) (h : r ∉ (hostOps3_W : List (Ref sig .tc))) :
    W8 m ρ c (Proc.devRef .tc r) = W7 m ρ c (Proc.devRef .tc r) :=
  StableHlo.after_of_writes_sub hostOps3 _ hostOps3_writes h
theorem keep9 (r : Ref sig .tc) (h : ∀ w, Pipeline.arrRef spec3 w ≠ r) :
    W9 m ρ c (Proc.devRef .tc r) = W8 m ρ c (Proc.devRef .tc r) := W9_of_ne m ρ c r h
theorem keep10 (r : Ref sig .tc) (h : ∀ w, Pipeline.arrRef spec4 w ≠ r) :
    W10 m ρ c (Proc.devRef .tc r) = W9 m ρ c (Proc.devRef .tc r) := W10_of_ne m ρ c r h
theorem keep11 (r : Ref sig .tc) (h : r ∉ (hostOps5_W : List (Ref sig .tc))) :
    W11 m ρ c (Proc.devRef .tc r) = W10 m ρ c (Proc.devRef .tc r) :=
  StableHlo.after_of_writes_sub hostOps5 _ hostOps5_writes h
theorem keep12 (r : Ref sig .tc) (h : ∀ w, Pipeline.arrRef spec5 w ≠ r) :
    W12 m ρ c (Proc.devRef .tc r) = W11 m ρ c (Proc.devRef .tc r) := W12_of_ne m ρ c r h
theorem keep13 (r : Ref sig .tc) (h : r ∉ (hostOps6_W : List (Ref sig .tc))) :
    W13 m ρ c (Proc.devRef .tc r) = W12 m ρ c (Proc.devRef .tc r) :=
  StableHlo.after_of_writes_sub hostOps6 _ hostOps6_writes h
theorem keep14 (r : Ref sig .tc) (h : ∀ w, Pipeline.arrRef spec6 w ≠ r) :
    W14 m ρ c (Proc.devRef .tc r) = W13 m ρ c (Proc.devRef .tc r) := W14_of_ne m ρ c r h
theorem keep15 (r : Ref sig .tc) (h : r ∉ (hostOps7_W : List (Ref sig .tc))) :
    W15 m ρ c (Proc.devRef .tc r) = W14 m ρ c (Proc.devRef .tc r) :=
  StableHlo.after_of_writes_sub hostOps7 _ hostOps7_writes h

/-! ## A region leaves the arrays it only reads as it found them -/

theorem pass6_v45 : W6 m ρ c (Proc.devRef .tc main_v45) = W5 m ρ c (Proc.devRef .tc main_v45) :=
  (W6_arr m ρ c 0).trans (((dat1 (V5 m ρ) c).arrAt_in 0 rfl cfg1.N).trans (A_eq1 (V5 m ρ) c 0))
theorem pass9_v45 : W9 m ρ c (Proc.devRef .tc main_v45) = W8 m ρ c (Proc.devRef .tc main_v45) :=
  (W9_arr m ρ c 0).trans (((dat3 (V8 m ρ) c).arrAt_in 0 rfl cfg3.N).trans (A_eq3 (V8 m ρ) c 0))

/-! ## Region 0 (entered at boundary 3) -/

/-- Window 0 is `main_v48`, as the first three host stretches leave it. -/
theorem ent0_0 : V3 m ρ c (Pipeline.arrRef spec0 0) = W3 m ρ c (Proc.devRef .tc main_v48) :=
  rfl
/-- Window 1 is the argument `main_arg1`, as launched. -/
theorem ent0_1 : V3 m ρ c (Pipeline.arrRef spec0 1) = m ((c : Thread nD τ).loc main_arg1) :=
  (keep3 m ρ c main_arg1 (by decide)).trans <| (keep2 m ρ c main_arg1 (by decide)).trans <| (keep1 m ρ c main_arg1 (by decide))

/-! ## Region 1 (entered at boundary 5) -/

/-- Window 0 is `main_v45`, as the first three host stretches leave it. -/
theorem ent1_0 : V5 m ρ c (Pipeline.arrRef spec1 0) = W3 m ρ c (Proc.devRef .tc main_v45) :=
  (keep5 m ρ c main_v45 (by decide)).trans <| (keep4 m ρ c main_v45 (by decide))
/-- Window 1 is region 0's output array `main_v49`. -/
theorem ent1_1 : V5 m ρ c (Pipeline.arrRef spec1 1) = (dat0 (V3 m ρ) c).arrAt 2 cfg0.N :=
  (keep5 m ρ c main_v49 (by decide)).trans <| W4_arr m ρ c 2
/-- Window 2 is the bias vector `main_arg2` laid out as one row. -/
theorem ent1_2 : V5 m ρ c (Pipeline.arrRef spec1 2)
    = fun i : S1x512.Idx => m ((c : Thread nD τ).loc main_arg2) (ix1 (i 1)) := by
  have e : (W5 m ρ c (Proc.devRef .tc main_v50) : S1x512.Idx → EReal)
      = shapeCast S1x512 (W4 m ρ c (Proc.devRef .tc main_arg2)) shapeCasts_S512_S1x512 := by
    show StableHlo.after hostOps1 (W4 m ρ c) (Proc.devRef .tc main_v50) = _
    after_results; rfl
  have ea : W4 m ρ c (Proc.devRef .tc main_arg2) = m ((c : Thread nD τ).loc main_arg2) :=
    (keep4 m ρ c main_arg2 (by decide)).trans <| (keep3 m ρ c main_arg2 (by decide)).trans <| (keep2 m ρ c main_arg2 (by decide)).trans <| (keep1 m ρ c main_arg2 (by decide))

  refine e.trans ?_
  rw [ea]
  funext i
  conv_lhs => rw [eq_ix2 i]
  exact shapeCast_a_1a_apply _ _ (i 0) (i 1)
/-- The same read by coordinates. -/
theorem ent1_2_apply (q : Fin 512) : Gcn.mat2 (V5 m ρ c (Pipeline.arrRef spec1 2)) 0 q
    = Gcn.vec1 (m ((c : Thread nD τ).loc main_arg2)) q := by
  rw [ent1_2]; rfl

/-! ## Region 2 (entered at boundary 6) -/

/-- Window 0 is region 1's output array `main_v51`. -/
theorem ent2_0 : V6 m ρ c (Pipeline.arrRef spec2 0) = (dat1 (V5 m ρ) c).arrAt 3 cfg1.N :=
  W6_arr m ρ c 3
/-- Window 1 is the argument `main_arg3`, as launched. -/
theorem ent2_1 : V6 m ρ c (Pipeline.arrRef spec2 1) = m ((c : Thread nD τ).loc main_arg3) :=
  (keep6 m ρ c main_arg3 (by decide)).trans <| (keep5 m ρ c main_arg3 (by decide)).trans <| (keep4 m ρ c main_arg3 (by decide)).trans <| (keep3 m ρ c main_arg3 (by decide)).trans <| (keep2 m ρ c main_arg3 (by decide)).trans <| (keep1 m ρ c main_arg3 (by decide))

/-! ## Region 3 (entered at boundary 8) -/

/-- Window 0 is `main_v45`, as the first three host stretches leave it. -/
theorem ent3_0 : V8 m ρ c (Pipeline.arrRef spec3 0) = W3 m ρ c (Proc.devRef .tc main_v45) :=
  (keep8 m ρ c main_v45 (by decide)).trans <| (keep7 m ρ c main_v45 (by decide)).trans <| (pass6_v45 m ρ c).trans <| (keep5 m ρ c main_v45 (by decide)).trans <| (keep4 m ρ c main_v45 (by decide))
/-- Window 1 is region 2's output array `main_v52`. -/
theorem ent3_1 : V8 m ρ c (Pipeline.arrRef spec3 1) = (dat2 (V6 m ρ) c).arrAt 2 cfg2.N :=
  (keep8 m ρ c main_v52 (by decide)).trans <| W7_arr m ρ c 2
/-- Window 2 is the bias vector `main_arg4` laid out as one row. -/
theorem ent3_2 : V8 m ρ c (Pipeline.arrRef spec3 2)
    = fun i : S1x256.Idx => m ((c : Thread nD τ).loc main_arg4) (ix1 (i 1)) := by
  have e : (W8 m ρ c (Proc.devRef .tc main_v53) : S1x256.Idx → EReal)
      = shapeCast S1x256 (W7 m ρ c (Proc.devRef .tc main_arg4)) shapeCasts_S256_S1x256 := by
    show StableHlo.after hostOps3 (W7 m ρ c) (Proc.devRef .tc main_v53) = _
    after_results; rfl
  have ea : W7 m ρ c (Proc.devRef .tc main_arg4) = m ((c : Thread nD τ).loc main_arg4) :=
    (keep7 m ρ c main_arg4 (by decide)).trans <| (keep6 m ρ c main_arg4 (by decide)).trans <| (keep5 m ρ c main_arg4 (by decide)).trans <| (keep4 m ρ c main_arg4 (by decide)).trans <| (keep3 m ρ c main_arg4 (by decide)).trans <| (keep2 m ρ c main_arg4 (by decide)).trans <| (keep1 m ρ c main_arg4 (by decide))

  refine e.trans ?_
  rw [ea]
  funext i
  conv_lhs => rw [eq_ix2 i]
  exact shapeCast_a_1a_apply _ _ (i 0) (i 1)
/-- The same read by coordinates. -/
theorem ent3_2_apply (q : Fin 256) : Gcn.mat2 (V8 m ρ c (Pipeline.arrRef spec3 2)) 0 q
    = Gcn.vec1 (m ((c : Thread nD τ).loc main_arg4)) q := by
  rw [ent3_2]; rfl

/-! ## Region 4 (entered at boundary 9) -/

/-- Window 0 is region 3's output array `main_v54`. -/
theorem ent4_0 : V9 m ρ c (Pipeline.arrRef spec4 0) = (dat3 (V8 m ρ) c).arrAt 3 cfg3.N :=
  W9_arr m ρ c 3
/-- Window 1 is the argument `main_arg5`, as launched. -/
theorem ent4_1 : V9 m ρ c (Pipeline.arrRef spec4 1) = m ((c : Thread nD τ).loc main_arg5) :=
  (keep9 m ρ c main_arg5 (by decide)).trans <| (keep8 m ρ c main_arg5 (by decide)).trans <| (keep7 m ρ c main_arg5 (by decide)).trans <| (keep6 m ρ c main_arg5 (by decide)).trans <| (keep5 m ρ c main_arg5 (by decide)).trans <| (keep4 m ρ c main_arg5 (by decide)).trans <| (keep3 m ρ c main_arg5 (by decide)).trans <| (keep2 m ρ c main_arg5 (by decide)).trans <| (keep1 m ρ c main_arg5 (by decide))

/-! ## Region 5 (entered at boundary 11) -/

/-- Window 0 is `main_v45`, as the first three host stretches leave it. -/
theorem ent5_0 : V11 m ρ c (Pipeline.arrRef spec5 0) = W3 m ρ c (Proc.devRef .tc main_v45) :=
  (keep11 m ρ c main_v45 (by decide)).trans <| (keep10 m ρ c main_v45 (by decide)).trans <| (pass9_v45 m ρ c).trans <| (keep8 m ρ c main_v45 (by decide)).trans <| (keep7 m ρ c main_v45 (by decide)).trans <| (pass6_v45 m ρ c).trans <| (keep5 m ρ c main_v45 (by decide)).trans <| (keep4 m ρ c main_v45 (by decide))
/-- Window 1 is region 4's output array `main_v55`. -/
theorem ent5_1 : V11 m ρ c (Pipeline.arrRef spec5 1) = (dat4 (V9 m ρ) c).arrAt 2 cfg4.N :=
  (keep11 m ρ c main_v55 (by decide)).trans <| W10_arr m ρ c 2
/-- Window 2 is the bias vector `main_arg6` laid out as one row. -/
theorem ent5_2 : V11 m ρ c (Pipeline.arrRef spec5 2)
    = fun i : S1x64.Idx => m ((c : Thread nD τ).loc main_arg6) (ix1 (i 1)) := by
  have e : (W11 m ρ c (Proc.devRef .tc main_v56) : S1x64.Idx → EReal)
      = shapeCast S1x64 (W10 m ρ c (Proc.devRef .tc main_arg6)) shapeCasts_S64_S1x64 := by
    show StableHlo.after hostOps5 (W10 m ρ c) (Proc.devRef .tc main_v56) = _
    after_results; rfl
  have ea : W10 m ρ c (Proc.devRef .tc main_arg6) = m ((c : Thread nD τ).loc main_arg6) :=
    (keep10 m ρ c main_arg6 (by decide)).trans <| (keep9 m ρ c main_arg6 (by decide)).trans <| (keep8 m ρ c main_arg6 (by decide)).trans <| (keep7 m ρ c main_arg6 (by decide)).trans <| (keep6 m ρ c main_arg6 (by decide)).trans <| (keep5 m ρ c main_arg6 (by decide)).trans <| (keep4 m ρ c main_arg6 (by decide)).trans <| (keep3 m ρ c main_arg6 (by decide)).trans <| (keep2 m ρ c main_arg6 (by decide)).trans <| (keep1 m ρ c main_arg6 (by decide))

  refine e.trans ?_
  rw [ea]
  funext i
  conv_lhs => rw [eq_ix2 i]
  exact shapeCast_a_1a_apply _ _ (i 0) (i 1)
/-- The same read by coordinates. -/
theorem ent5_2_apply (q : Fin 64) : Gcn.mat2 (V11 m ρ c (Pipeline.arrRef spec5 2)) 0 q
    = Gcn.vec1 (m ((c : Thread nD τ).loc main_arg6)) q := by
  rw [ent5_2]; rfl

/-! ## Region 6 (entered at boundary 13) -/

/-- Window 0 is region 5's output array `main_v57`. -/
theorem ent6_0 : V13 m ρ c (Pipeline.arrRef spec6 0) = (dat5 (V11 m ρ) c).arrAt 3 cfg5.N :=
  (keep13 m ρ c main_v57 (by decide)).trans <| W12_arr m ρ c 3
/-- Window 1 is the argument `main_arg7`, as launched. -/
theorem ent6_1 : V13 m ρ c (Pipeline.arrRef spec6 1) = m ((c : Thread nD τ).loc main_arg7) :=
  (keep13 m ρ c main_arg7 (by decide)).trans <| (keep12 m ρ c main_arg7 (by decide)).trans <| (keep11 m ρ c main_arg7 (by decide)).trans <| (keep10 m ρ c main_arg7 (by decide)).trans <| (keep9 m ρ c main_arg7 (by decide)).trans <| (keep8 m ρ c main_arg7 (by decide)).trans <| (keep7 m ρ c main_arg7 (by decide)).trans <| (keep6 m ρ c main_arg7 (by decide)).trans <| (keep5 m ρ c main_arg7 (by decide)).trans <| (keep4 m ρ c main_arg7 (by decide)).trans <| (keep3 m ρ c main_arg7 (by decide)).trans <| (keep2 m ρ c main_arg7 (by decide)).trans <| (keep1 m ρ c main_arg7 (by decide))
/-- Window 2 is the bias vector `main_arg8` laid out as one row. -/
theorem ent6_2 : V13 m ρ c (Pipeline.arrRef spec6 2)
    = fun i : S1x3.Idx => m ((c : Thread nD τ).loc main_arg8) (ix1 (i 1)) := by
  have e : (W13 m ρ c (Proc.devRef .tc main_v58) : S1x3.Idx → EReal)
      = shapeCast S1x3 (W12 m ρ c (Proc.devRef .tc main_arg8)) shapeCasts_S3_S1x3 := by
    show StableHlo.after hostOps6 (W12 m ρ c) (Proc.devRef .tc main_v58) = _
    after_results; rfl
  have ea : W12 m ρ c (Proc.devRef .tc main_arg8) = m ((c : Thread nD τ).loc main_arg8) :=
    (keep12 m ρ c main_arg8 (by decide)).trans <| (keep11 m ρ c main_arg8 (by decide)).trans <| (keep10 m ρ c main_arg8 (by decide)).trans <| (keep9 m ρ c main_arg8 (by decide)).trans <| (keep8 m ρ c main_arg8 (by decide)).trans <| (keep7 m ρ c main_arg8 (by decide)).trans <| (keep6 m ρ c main_arg8 (by decide)).trans <| (keep5 m ρ c main_arg8 (by decide)).trans <| (keep4 m ρ c main_arg8 (by decide)).trans <| (keep3 m ρ c main_arg8 (by decide)).trans <| (keep2 m ρ c main_arg8 (by decide)).trans <| (keep1 m ρ c main_arg8 (by decide))

  refine e.trans ?_
  rw [ea]
  funext i
  conv_lhs => rw [eq_ix2 i]
  exact shapeCast_a_1a_apply _ _ (i 0) (i 1)
/-- The same read by coordinates. -/
theorem ent6_2_apply (q : Fin 3) : Gcn.mat2 (V13 m ρ c (Pipeline.arrRef spec6 2)) 0 q
    = Gcn.vec1 (m ((c : Thread nD τ).loc main_arg8)) q := by
  rw [ent6_2]; rfl

/-! ## The result -/

/-- The program's result `main_v60` is the first 10000 rows of region 6's output `main_v59`. -/
theorem out60 : W15 m ρ c (Proc.devRef .tc main_v60)
    = fun i : S10000x3.Idx => W14 m ρ c (Proc.devRef .tc main_v59) (ix2 ⟨(i 0).val, lt_trans (i 0).isLt (by decide)⟩ (i 1)) := by
  have e : (W15 m ρ c (Proc.devRef .tc main_v60) : S10000x3.Idx → EReal)
      = extractStridedSlice S10000x3 ![0, 0] (W14 m ρ c (Proc.devRef .tc main_v59)) slices_S10240x3_S10000x3_0_0 := by
    show StableHlo.after hostOps7 (W14 m ρ c) (Proc.devRef .tc main_v60) = _
    after_results
  refine e.trans ?_
  funext i
  refine extractStridedSlice_apply ![0, 0] _ slices_S10240x3_S10000x3_0_0 i
    (ix2 ⟨(i 0).val, lt_trans (i 0).isLt (by decide)⟩ (i 1)) fun ax => ?_
  match ax with
  | ⟨0, _⟩ => show (i 0).val = 0 + (i 0).val; omega
  | ⟨1, _⟩ => show (i 1).val = 0 + (i 1).val; omega

/-- The same read by coordinates: node `v`'s row of the result is padded row `v` of region 6's output. -/
theorem out60_apply (v : Fin 10000) (q : Fin 3) : Gcn.mat2 (W15 m ρ c (Proc.devRef .tc main_v60)) v q
    = Gcn.mat2 (W14 m ρ c (Proc.devRef .tc main_v59)) (Gcn.pad v) q := by
  rw [out60]; rfl

end Cert.KernelIdeal.KHost

end
-- ==== Proof.LibScatterSet.lean ====
/-
  A scatter whose body returns the update ("set": `fun _ b => b`), read at ONE element of its result.

  The scatter is the left fold, over the update indices in row-major order, of "if this update lands on element `i`,
  overwrite element `i` by it". Read at a fixed element `i` this is a fold over the same indices of a plain value:
  "if the update lands on `i` take it, else keep what is there", started at the operand's element `i`
  (`scatter_set_apply`). Such an overwriting fold only looks at the indices that hit, in their order: it may be run
  over any sublist that keeps every hit (`foldl_set_filter`), and so over any strictly increasing family of indices
  that contains every hit (`foldl_set_reindex`). Together (`scatter_set_apply_reindex`): if the update indices that can land on
  `i` are `g 0, g 1, …, g (M-1)`, increasing in row-major order, then the result's element `i` is the fold over
  `k = 0, …, M-1` of "if `g k` lands on `i` take its update" — the update of the LAST such `k`, or the operand's element
  if there is none. Last, the row-major position of a rank-3 index in coordinates, and that it increases with the
  middle coordinate.
-/
import Idealize.ShloMosaic.PureOps
import Idealize.ShloMosaic.Lib.ValueIdx
import Mathlib.Data.List.Sort

namespace ScatterSet

open Idealize.ShloMosaic Idealize.ShloMosaic.ValueIdx

/-! ## Overwriting folds -/

section Fold

variable {ι α : Type}

/-- An overwriting fold may skip every index outside a set `P` that contains all the hits: an index that does not
    hit leaves the running value as it is. -/
theorem foldl_set_filter (hit P : ι → Prop) [DecidablePred hit] [DecidablePred P] (val : ι → α)
    (hP : ∀ n, hit n → P n) (z : α) (l : List ι) :
    l.foldl (fun r n => if hit n then val n else r) z
      = (l.filter fun n => decide (P n)).foldl (fun r n => if hit n then val n else r) z := by
  induction l generalizing z with
  | nil => rfl
  | cons n l ih =>
    by_cases hn : P n
    · rw [List.filter_cons_of_pos (by simpa using hn), List.foldl_cons, List.foldl_cons, ih]
    · rw [List.filter_cons_of_neg (by simpa using hn), List.foldl_cons, if_neg (fun h => hn (hP n h)), ih]

/-- The positions below `N` that a strictly increasing family `g 0 < g 1 < … < g (M-1)` takes, in increasing order, are
    `g 0, g 1, …, g (M-1)`: two strictly increasing lists with the same members are the same list. -/
theorem finRange_filter_range {N M : Nat} (g : Fin M → Fin N) (hg : StrictMono g) :
    ((List.finRange N).filter fun n => decide (∃ k, g k = n)) = (List.finRange M).map g := by
  refine List.Pairwise.eq_of_mem_iff (r := (· < ·)) ((List.sortedLT_finRange N).pairwise.filter _) ?_ ?_
  · exact List.pairwise_map.2 ((List.sortedLT_finRange M).pairwise.imp fun h => hg h)
  · intro n
    simp only [List.mem_filter, List.mem_finRange, true_and, decide_eq_true_eq, List.mem_map]

/-- An overwriting fold over all positions below `N` is the fold over a strictly increasing family of positions that
    contains every hit. -/
theorem foldl_set_reindex {N M : Nat} (g : Fin M → Fin N) (hg : StrictMono g) (hit : Fin N → Prop)
    [DecidablePred hit] (val : Fin N → α) (hrange : ∀ n, hit n → ∃ k, g k = n) (z : α) :
    (List.finRange N).foldl (fun r n => if hit n then val n else r) z
      = (List.finRange M).foldl (fun r k => if hit (g k) then val (g k) else r) z := by
  rw [foldl_set_filter hit (fun n => ∃ k, g k = n) val hrange, finRange_filter_range g hg, List.foldl_map]

end Fold

/-! ## The scatter read at an element -/

section Scatter

variable {α : Type} {w : Nat} {s si u : Shape}

/-- The element `i` of a "set" scatter: the fold, over the update positions in row-major order, of "if the update at
    this position lands on `i`, take it; else keep the running value", started at the operand's element `i`. -/
theorem scatter_set_apply (d : ScatterDims s si u) (x : s.Idx → α) (idx : IVec si w) (upd : u.Idx → α) (i : s.Idx) :
    Host.scatter d (fun _ b => b) x idx upd i
      = (List.finRange u.numel).foldl
          (fun r n => if d.resultIdx? (u.rowMajor.symm n) idx = some i then upd (u.rowMajor.symm n) else r) (x i) := by
  unfold Host.scatter
  generalize List.finRange u.numel = l
  induction l generalizing x with
  | nil => rfl
  | cons n l ih =>
    rw [List.foldl_cons, List.foldl_cons, ih]
    congr 1
    cases h : d.resultIdx? (u.rowMajor.symm n) idx with
    | none => simp
    | some i0 =>
      by_cases e : i = i0
      · subst e; simp
      · simp [e, Ne.symm e]

/-- The element `i` of a "set" scatter whose updates landing on `i` all lie in a family `g 0, …, g (M-1)` of update
    indices, increasing in row-major order: the fold over `k` of "if `g k` lands on `i`, take its update", started at
    the operand's element — the update of the last `k` that lands on `i`. -/
theorem scatter_set_apply_reindex (d : ScatterDims s si u) (x : s.Idx → α) (idx : IVec si w) (upd : u.Idx → α)
    (i : s.Idx) {M : Nat} (g : Fin M → u.Idx) (hg : StrictMono fun k => u.rowMajor (g k))
    (hrange : ∀ j, d.resultIdx? j idx = some i → ∃ k, g k = j) :
    Host.scatter d (fun _ b => b) x idx upd i
      = (List.finRange M).foldl (fun r k => if d.resultIdx? (g k) idx = some i then upd (g k) else r) (x i) := by
  rw [scatter_set_apply,
    foldl_set_reindex (fun k => u.rowMajor (g k)) hg (fun n => d.resultIdx? (u.rowMajor.symm n) idx = some i)
      (fun n => upd (u.rowMajor.symm n))
      (fun n hn => by
        obtain ⟨k, hk⟩ := hrange _ hn
        exact ⟨k, by rw [hk, Equiv.apply_symm_apply]⟩)]
  simp only [Equiv.symm_apply_apply]

end Scatter

/-! ## Row-major order on a rank-3 shape -/

/-- The row-major position of `(a, b, c)` among `n0 × n1 × n2` indices: `a` weighs `n1 · n2`, `b` weighs `n2`. -/
theorem rowMajor_ix3_val {n0 n1 n2 : Nat} (a : Fin n0) (b : Fin n1) (c : Fin n2) :
    ((⟨3, ![n0, n1, n2]⟩ : Shape).rowMajor (ix3 a b c)).val = a.val * (n1 * n2) + b.val * n2 + c.val := by
  show a.val * (n1 * (n2 * 1)) + (b.val * (n2 * 1) + (c.val * 1 + 0)) = _
  ring

/-- With the first and last coordinates fixed, the row-major position increases with the middle coordinate. -/
theorem rowMajor_ix3_strictMono_mid {n0 n1 n2 : Nat} (a : Fin n0) (c : Fin n2) :
    StrictMono fun b : Fin n1 => (⟨3, ![n0, n1, n2]⟩ : Shape).rowMajor (ix3 a b c) := by
  intro b b' h
  rw [Fin.lt_def, rowMajor_ix3_val, rowMajor_ix3_val]
  have h2 : b.val * n2 < b'.val * n2 := Nat.mul_lt_mul_of_pos_right h (Nat.zero_lt_of_lt c.isLt)
  omega

end ScatterSet
-- ==== Proof.LibScatterZero.lean ====
/-
  A scatter whose body returns the update, at start index zero, read at an element.

  When every word of the index table is zero, every update window starts at the origin: update element j lands on the
  operand element whose coordinates are j's window coordinates (zero on an inserted axis). If that placement is
  injective, the result holds update j at the element j lands on, and the operand's own element everywhere else.
  This is how zero padding is spelt on the host: zeros(...).at[:n, :m].set(x).
-/
import Idealize.ShloMosaic.PureOps
import Idealize.ShloMosaic.Lib.ValueIdx
import proofs.«143928_j37108517437617_1_alg».proof.Proof.LibScatterSet

namespace ScatterZero

open Idealize.ShloMosaic

/-! ## Overwriting folds with no hit, or with exactly one -/

section Fold

variable {ι α : Type}

/-- An overwriting fold none of whose positions hits keeps its start value. -/
theorem foldl_set_none (hit : ι → Prop) [DecidablePred hit] (val : ι → α) (z : α) (l : List ι)
    (h : ∀ n ∈ l, ¬ hit n) : l.foldl (fun r n => if hit n then val n else r) z = z := by
  induction l generalizing z with
  | nil => rfl
  | cons n l ih =>
    rw [List.foldl_cons, if_neg (h n List.mem_cons_self)]
    exact ih z fun k hk => h k (List.mem_cons_of_mem _ hk)

/-- An overwriting fold whose only hit is the position n0, which the list contains, ends at n0's value. -/
theorem foldl_set_unique (hit : ι → Prop) [DecidablePred hit] (val : ι → α) (n0 : ι) (hhit : ∀ n, hit n ↔ n = n0)
    (z : α) (l : List ι) (hmem : n0 ∈ l) : l.foldl (fun r n => if hit n then val n else r) z = val n0 := by
  induction l generalizing z with
  | nil => exact absurd hmem List.not_mem_nil
  | cons n l ih =>
    rw [List.foldl_cons]
    by_cases hn : n0 ∈ l
    · exact ih _ hn
    · have e : n = n0 := by
        rcases List.mem_cons.mp hmem with h | h
        · exact h.symm
        · exact absurd h hn
      subst e
      rw [if_pos ((hhit n).mpr rfl)]
      exact foldl_set_none hit val _ l fun k hk hk' => hn (((hhit k).mp hk') ▸ hk)

end Fold

/-! ## The scatter at start index zero -/

section Scatter

variable {α : Type} {w : Nat} {s si u : Shape} (d : ScatterDims s si u)

/-- With an all-zero index table every window starts at the origin. -/
theorem start_eq_zero (idx : IVec si w) (hidx : ∀ k, idx k = 0#w) (j : u.Idx) (a : Fin s.rank) :
    d.start j idx a = 0 := by
  unfold ScatterDims.start
  split
  · rw [hidx]; exact BitVec.toInt_zero
  · rfl

/-- So update element j lands where its window coordinates say. -/
theorem resultIdx?_eq (idx : IVec si w) (hidx : ∀ k, idx k = 0#w) (emb : u.Idx → s.Idx)
    (hemb : ∀ j a, (emb j a).val = d.window j a) (j : u.Idx) : d.resultIdx? j idx = some (emb j) := by
  unfold ScatterDims.resultIdx?
  have h : ∀ a, 0 ≤ d.start j idx a + d.window j a ∧ d.start j idx a + d.window j a < s.size a := fun a => by
    rw [start_eq_zero d idx hidx, ← hemb j a]
    have := (emb j a).isLt
    omega
  rw [dif_pos h]
  refine congrArg some (funext fun a => Fin.ext ?_)
  show (d.start j idx a + d.window j a).toNat = (emb j a).val
  rw [start_eq_zero d idx hidx, hemb]
  simp

/-- The result at the element update j0 lands on is update j0. -/
theorem scatter_at_emb (x : s.Idx → α) (idx : IVec si w) (hidx : ∀ k, idx k = 0#w) (upd : u.Idx → α)
    (emb : u.Idx → s.Idx) (hemb : ∀ j a, (emb j a).val = d.window j a) (hinj : Function.Injective emb) (j0 : u.Idx) :
    Host.scatter d (fun _ b => b) x idx upd (emb j0) = upd j0 := by
  rw [ScatterSet.scatter_set_apply]
  have key := foldl_set_unique (fun n : Fin u.numel => d.resultIdx? (u.rowMajor.symm n) idx = some (emb j0))
    (fun n => upd (u.rowMajor.symm n)) (u.rowMajor j0) (fun n => by
      rw [resultIdx?_eq d idx hidx emb hemb]
      constructor
      · intro h
        have e := hinj (Option.some.inj h)
        rw [← e, Equiv.apply_symm_apply]
      · rintro rfl
        rw [Equiv.symm_apply_apply]) (x (emb j0)) (List.finRange u.numel) (List.mem_finRange _)
  rw [key, Equiv.symm_apply_apply]

/-- The result at an element no update lands on is the operand's element. -/
theorem scatter_off (x : s.Idx → α) (idx : IVec si w) (hidx : ∀ k, idx k = 0#w) (upd : u.Idx → α)
    (emb : u.Idx → s.Idx) (hemb : ∀ j a, (emb j a).val = d.window j a) (i : s.Idx) (hi : ∀ j, emb j ≠ i) :
    Host.scatter d (fun _ b => b) x idx upd i = x i := by
  rw [ScatterSet.scatter_set_apply]
  exact foldl_set_none _ _ _ _ fun n _ h => hi _ (by
    rw [resultIdx?_eq d idx hidx emb hemb] at h
    exact Option.some.inj h)

end Scatter

/-! ## Zero padding spelt as a scatter: a corner block of a matrix, and the head of a one-row matrix -/

section Pad

open Idealize.ShloMosaic.ValueIdx

variable {α : Type} {w : Nat} {si : Shape}

/-- An [R', C'] update set into the top-left corner of an [R, C] operand, read at (r, c): the update's entry inside
    the corner, the operand's entry outside. -/
theorem pad2_apply {R C R' C' : ℕ} (hR : R' ≤ R) (hC : C' ≤ C)
    (d : ScatterDims ⟨2, ![R, C]⟩ si ⟨2, ![R', C']⟩)
    (hw0 : ∀ j : (⟨2, ![R', C']⟩ : Shape).Idx, d.window j (0 : Fin 2) = (j (0 : Fin 2)).val)
    (hw1 : ∀ j : (⟨2, ![R', C']⟩ : Shape).Idx, d.window j (1 : Fin 2) = (j (1 : Fin 2)).val)
    (x : (⟨2, ![R, C]⟩ : Shape).Idx → α) (idx : IVec si w) (hidx : ∀ k, idx k = 0#w)
    (upd : (⟨2, ![R', C']⟩ : Shape).Idx → α) (r : Fin R) (c : Fin C) :
    Host.scatter d (fun _ b => b) x idx upd (ix2 r c)
      = if h : r.val < R' ∧ c.val < C' then upd (ix2 (⟨r.val, h.1⟩ : Fin R') (⟨c.val, h.2⟩ : Fin C')) else x (ix2 r c) := by
  let emb : (⟨2, ![R', C']⟩ : Shape).Idx → (⟨2, ![R, C]⟩ : Shape).Idx := fun j =>
    ix2 (⟨(j (0 : Fin 2)).val, lt_of_lt_of_le (idx2_lt0 j) hR⟩ : Fin R) (⟨(j (1 : Fin 2)).val, lt_of_lt_of_le (idx2_lt1 j) hC⟩ : Fin C)
  have hemb : ∀ j a, (emb j a).val = d.window j a := fun j a => by
    match a with
    | ⟨0, _⟩ => exact (hw0 j).symm
    | ⟨1, _⟩ => exact (hw1 j).symm
  split
  · rename_i h
    have e : ix2 r c = emb (ix2 (⟨r.val, h.1⟩ : Fin R') (⟨c.val, h.2⟩ : Fin C')) := funext fun a => Fin.ext (by
      match a with
      | ⟨0, _⟩ => rfl
      | ⟨1, _⟩ => rfl)
    rw [e]
    exact scatter_at_emb d x idx hidx upd emb hemb (fun j j' hj => funext fun a => Fin.ext (by
      match a with
      | ⟨0, _⟩ => exact congrArg (fun i : (⟨2, ![R, C]⟩ : Shape).Idx => (i (0 : Fin 2)).val) hj
      | ⟨1, _⟩ => exact congrArg (fun i : (⟨2, ![R, C]⟩ : Shape).Idx => (i (1 : Fin 2)).val) hj)) _
  · rename_i h
    refine scatter_off d x idx hidx upd emb hemb _ fun j hj => h ⟨?_, ?_⟩
    · have e : (j (0 : Fin 2)).val = r.val := congrArg (fun i : (⟨2, ![R, C]⟩ : Shape).Idx => (i (0 : Fin 2)).val) hj
      have := idx2_lt0 j
      omega
    · have e : (j (1 : Fin 2)).val = c.val := congrArg (fun i : (⟨2, ![R, C]⟩ : Shape).Idx => (i (1 : Fin 2)).val) hj
      have := idx2_lt1 j
      omega

/-- A vector of C' entries set into the head of a [1, C] row, read at (u, c): the vector's entry c below C', the
    row's own entry from C' on. -/
theorem padrow_apply {C C' : ℕ} (hC : C' ≤ C)
    (d : ScatterDims ⟨2, ![1, C]⟩ si ⟨1, ![C']⟩)
    (hw0 : ∀ j : (⟨1, ![C']⟩ : Shape).Idx, d.window j (0 : Fin 2) = 0)
    (hw1 : ∀ j : (⟨1, ![C']⟩ : Shape).Idx, d.window j (1 : Fin 2) = (j (0 : Fin 1)).val)
    (x : (⟨2, ![1, C]⟩ : Shape).Idx → α) (idx : IVec si w) (hidx : ∀ k, idx k = 0#w)
    (upd : (⟨1, ![C']⟩ : Shape).Idx → α) (u : Fin 1) (c : Fin C) :
    Host.scatter d (fun _ b => b) x idx upd (ix2 u c)
      = if h : c.val < C' then upd (ix1 (⟨c.val, h⟩ : Fin C')) else x (ix2 u c) := by
  have hj0 : ∀ j : (⟨1, ![C']⟩ : Shape).Idx, (j (0 : Fin 1)).val < C' := fun j => (j (0 : Fin 1)).isLt
  let emb : (⟨1, ![C']⟩ : Shape).Idx → (⟨2, ![1, C]⟩ : Shape).Idx := fun j =>
    ix2 (0 : Fin 1) (⟨(j (0 : Fin 1)).val, lt_of_lt_of_le (hj0 j) hC⟩ : Fin C)
  have hemb : ∀ j a, (emb j a).val = d.window j a := fun j a => by
    match a with
    | ⟨0, _⟩ => exact (hw0 j).symm
    | ⟨1, _⟩ => exact (hw1 j).symm
  have hu : u = 0 := Fin.ext (by omega)
  subst hu
  split
  · rename_i h
    have e : ix2 (0 : Fin 1) c = emb (ix1 (⟨c.val, h⟩ : Fin C')) := funext fun a => Fin.ext (by
      match a with
      | ⟨0, _⟩ => rfl
      | ⟨1, _⟩ => rfl)
    rw [e]
    exact scatter_at_emb d x idx hidx upd emb hemb (fun j j' hj => funext fun a => Fin.ext (by
      match a with
      | ⟨0, _⟩ => exact congrArg (fun i : (⟨2, ![1, C]⟩ : Shape).Idx => (i (1 : Fin 2)).val) hj)) _
  · rename_i h
    refine scatter_off d x idx hidx upd emb hemb _ fun j hj => h ?_
    have e : (j (0 : Fin 1)).val = c.val := congrArg (fun i : (⟨2, ![1, C]⟩ : Shape).Idx => (i (1 : Fin 2)).val) hj
    have := hj0 j
    omega

/-- A concatenation all of whose pieces are constant at one value is constant at that value. -/
theorem concatenate_const {t : Shape} (a : Fin t.rank) (xs : List ((s : Shape) × (s.Idx → α)))
    (h : Shape.Concatenates (xs.map (·.1)) t a) (v : α) (hv : ∀ p ∈ xs, ∀ i, p.2 i = v) (j : t.Idx) :
    concatenate t a xs h j = v := by
  unfold concatenate
  exact hv _ (List.getElem_mem _) _

end Pad

end ScatterZero
-- ==== Proof.LibScatterRows.lean ====
/-
  Reading an accumulating scatter at an index, when the scatter is by ROWS.

  The operand is an `R × C` array, the updates a `U × C` array, and the index table has one column: update row `r`
  is added, whole, to operand row `ρ r`. (Dimension numbers: the updates' window is their axis 1, the operand's
  inserted axis is 0, the one start component goes to operand axis 0, the index vector is the table's axis 1.)
  On the extended reals the accumulating scatter is an exact sum, so at an index `(a, c)` its result is the operand's
  element plus the sum of `upd (r, c)` over the rows `r` in the fibre `ρ ⁻¹ a` — in whatever order: addition of
  extended reals is commutative and associative.  This file proves that reading from the definition of the target
  index (start read signed off the table, plus the window coordinate), and then counts a fibre that is the image of
  `Fin P` under an injection as a sum over `Fin P`.
-/
import Idealize.ShloMosaic.PureOps.Ideal
import Idealize.ShloMosaic.Lib.ValueIdx

noncomputable section

namespace ScatterRows

open Idealize.ShloMosaic Idealize.ShloMosaic.ValueIdx

/-- The operand's shape, `R` rows of `C` entries. -/
abbrev Opnd (R C : Nat) : Shape := ⟨2, ![R, C]⟩
/-- The index table's shape: one start component per update row. -/
abbrev Tbl (U : Nat) : Shape := ⟨2, ![U, 1]⟩
/-- The updates' shape, `U` rows of `C` entries. -/
abbrev Upd (U C : Nat) : Shape := ⟨2, ![U, C]⟩

variable {R C U w : Nat}

/-- The row of a table index, as a plain `Fin U`. -/
abbrev tblRow (q : (Tbl U).Idx) : Fin U := ⟨(q 0).val, idx2_lt0 q⟩
/-- The row of an update index, as a plain `Fin U`. -/
abbrev updRow (j : (Upd U C).Idx) : Fin U := ⟨(j 0).val, idx2_lt0 j⟩

/-- A valid index into a one-element list reads its element. -/
theorem getElem_singleton_any {α : Type} (a : α) (k : Nat) (hk : k < [a].length) : [a][k]'hk = a := by
  have h0 : k = 0 := by simpa using hk
  subst h0; rfl

/-- The same for a list that equals a one-element list. -/
theorem getElem_of_eq_singleton {α : Type} (l : List α) (a : α) (hl : l = [a]) (k : Nat) (hk : k < l.length) :
    l[k]'hk = a := by
  subst hl; exact getElem_singleton_any a k hk

/-- On the row axis the target coordinate of update index `j` is the table's word for `j`'s row, read signed: the
    start component comes from the table, and the window contributes nothing on an inserted axis. -/
theorem coord_row (d : ScatterDims (Opnd R C) (Tbl U) (Upd U C))
    (h1 : d.updateWindowDims = [1]) (h2 : d.insertedWindowDims = [0]) (h3 : d.scatterDimsToOperandDims = [0])
    (h4 : d.indexVectorDim = 1) (ρ : Fin U → Fin R) (idx : IVec (Tbl U) w)
    (hrow : ∀ q : (Tbl U).Idx, (idx q).toInt = ((ρ (tblRow q)).val : Int)) (j : (Upd U C).Idx) :
    d.start j idx 0 + (d.window j 0 : Int) = ((ρ (updRow j)).val : Int) := by
  obtain ⟨uw, iw, sd, iv, wf⟩ := d
  dsimp only at h1 h2 h3 h4
  subst h1 h2 h3 h4
  have m0 : (0 : Fin 2) ∈ ([0] : List (Fin 2)) := by decide
  have k0 : (0 : Fin 2) ∉ ScatterDims.sKept (⟨[1], [0], [0], 1, wf⟩ : ScatterDims (Opnd R C) (Tbl U) (Upd U C)) := by
    show (0 : Fin 2) ∉ (List.finRange 2).filter (fun x => decide (x ∉ ([0] : List (Fin 2))))
    decide
  simp only [ScatterDims.start, ScatterDims.window]
  rw [dif_pos m0, dif_neg k0, hrow]
  simp only [Nat.cast_zero, add_zero]
  refine congrArg (fun r : Fin U => ((ρ r).val : Int)) (Fin.ext ?_)
  -- the table index that update `j` reads has `j`'s row: the updates' one scatter axis is axis 0
  have hu : ScatterDims.uScatter (⟨[1], [0], [0], 1, wf⟩ : ScatterDims (Opnd R C) (Tbl U) (Upd U C)) = [0] := by
    show (List.finRange 2).filter (fun x => decide (x ∉ ([1] : List (Fin 2)))) = [0]
    decide
  simp only [tblRow, updRow, ScatterDims.siIdx]
  split
  · rename_i h
    exact absurd h Nat.zero_ne_one
  · unfold ScatterDims.siCoord
    simp only [Fin.coe_cast]
    exact congrArg (fun a => (j a).val) (getElem_of_eq_singleton _ 0 hu _ _)

/-- On the column axis the target coordinate is `j`'s own column: no start component, and the window is the
    updates' axis 1. -/
theorem coord_col (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w) (j : (Upd U C).Idx) :
    d.start j idx 1 + (d.window j 1 : Int) = ((j 1).val : Int) := by
  obtain ⟨uw, iw, sd, iv, wf⟩ := d
  dsimp only at h1 h2 h3 h4
  subst h1 h2 h3 h4
  have m1 : (1 : Fin 2) ∉ ([0] : List (Fin 2)) := by decide
  have k1 : (1 : Fin 2) ∈ ScatterDims.sKept (⟨[1], [0], [0], 1, wf⟩ : ScatterDims (Opnd R C) (Tbl U) (Upd U C)) := by
    show (1 : Fin 2) ∈ (List.finRange 2).filter (fun x => decide (x ∉ ([0] : List (Fin 2))))
    decide
  have e1 : List.idxOf (1 : Fin 2) (ScatterDims.sKept (⟨[1], [0], [0], 1, wf⟩ : ScatterDims (Opnd R C) (Tbl U) (Upd U C))) = 0 := by
    show List.idxOf (1 : Fin 2) ((List.finRange 2).filter (fun x => decide (x ∉ ([0] : List (Fin 2))))) = 0
    decide
  simp only [ScatterDims.start, ScatterDims.window]
  rw [dif_neg m1, dif_pos k1]
  simp only [zero_add, Nat.cast_inj]
  exact congrArg (fun a => (j a).val) (getElem_singleton_any _ _ _)

/-- The column of an index, as a plain `Fin C`. -/
abbrev updCol (j : (Upd U C).Idx) : Fin C := ⟨(j 1).val, idx2_lt1 j⟩

/-- WHERE AN UPDATE LANDS. When the table's word for row `r` reads, signed, as the row `ρ r` of the operand, update
    index `(r, c)` lands at `(ρ r, c)`: both coordinates are inside the operand by their types, so no update is
    dropped. -/
theorem resultIdx_rows (d : ScatterDims (Opnd R C) (Tbl U) (Upd U C))
    (h1 : d.updateWindowDims = [1]) (h2 : d.insertedWindowDims = [0]) (h3 : d.scatterDimsToOperandDims = [0])
    (h4 : d.indexVectorDim = 1) (ρ : Fin U → Fin R) (idx : IVec (Tbl U) w)
    (hrow : ∀ q : (Tbl U).Idx, (idx q).toInt = ((ρ (tblRow q)).val : Int)) (j : (Upd U C).Idx) :
    d.resultIdx? j idx = some (ix2 (ρ (updRow j)) (updCol j)) := by
  have c0 := coord_row d h1 h2 h3 h4 ρ idx hrow j
  have c1 := coord_col d h1 h2 h3 h4 idx j
  have hall : ∀ a, 0 ≤ d.start j idx a + (d.window j a : Int) ∧ d.start j idx a + (d.window j a : Int) < ((Opnd R C).size a : Nat) := by
    refine Fin.forall_fin_two.2 ⟨?_, ?_⟩
    · rw [c0]
      exact ⟨Int.natCast_nonneg _, by exact_mod_cast (ρ (updRow j)).isLt⟩
    · rw [c1]
      exact ⟨Int.natCast_nonneg _, by exact_mod_cast idx2_lt1 j⟩
  unfold ScatterDims.resultIdx?
  rw [dif_pos hall]
  refine congrArg some (funext ?_)
  refine Fin.forall_fin_two.2 ⟨?_, ?_⟩
  · apply Fin.ext
    show (d.start j idx 0 + (d.window j 0 : Int)).toNat = (ρ (updRow j)).val
    rw [c0, Int.toNat_natCast]
  · apply Fin.ext
    show (d.start j idx 1 + (d.window j 1 : Int)).toNat = (j 1).val
    rw [c1, Int.toNat_natCast]

/-- THE SCATTER READ AT AN INDEX: the operand's element plus the sum, over the update rows `r` that the table sends
    to this row, of the update's element in this column. -/
theorem scatterAdd_rows (d : ScatterDims (Opnd R C) (Tbl U) (Upd U C))
    (h1 : d.updateWindowDims = [1]) (h2 : d.insertedWindowDims = [0]) (h3 : d.scatterDimsToOperandDims = [0])
    (h4 : d.indexVectorDim = 1) (ρ : Fin U → Fin R) (idx : IVec (Tbl U) w)
    (hrow : ∀ q : (Tbl U).Idx, (idx q).toInt = ((ρ (tblRow q)).val : Int))
    (x : (Opnd R C).Idx → EReal) (upd : (Upd U C).Idx → EReal) (a : Fin R) (c : Fin C) :
    Ideal.hostScatterAdd d x idx upd (ix2 a c)
      = x (ix2 a c) + ∑ r ∈ Finset.univ.filter (fun r : Fin U => ρ r = a), upd (ix2 r c) := by
  unfold Ideal.hostScatterAdd
  refine congrArg (x (ix2 a c) + ·) ?_
  refine Finset.sum_bij' (fun j _ => updRow j) (fun r _ => ix2 r c) ?_ ?_ ?_ ?_ ?_
  · intro j hj
    rw [Finset.mem_filter] at hj ⊢
    refine ⟨Finset.mem_univ _, ?_⟩
    have h := hj.2
    rw [resultIdx_rows d h1 h2 h3 h4 ρ idx hrow j, Option.some.injEq] at h
    exact congrFun h 0
  · intro r hr
    rw [Finset.mem_filter] at hr ⊢
    refine ⟨Finset.mem_univ _, ?_⟩
    rw [resultIdx_rows d h1 h2 h3 h4 ρ idx hrow (ix2 r c)]
    refine congrArg some ?_
    show ix2 (ρ r) c = ix2 a c
    rw [hr.2]
  · intro j hj
    rw [Finset.mem_filter] at hj
    have h := hj.2
    rw [resultIdx_rows d h1 h2 h3 h4 ρ idx hrow j, Option.some.injEq] at h
    have hc : updCol j = c := congrFun h 1
    conv_rhs => rw [eq_ix2 j]
    refine congrArg₂ ix2 (Fin.ext rfl) ?_
    exact Fin.ext (by rw [← hc])
  · intro r _
    exact Fin.ext rfl
  · intro j hj
    rw [Finset.mem_filter] at hj
    have h := hj.2
    rw [resultIdx_rows d h1 h2 h3 h4 ρ idx hrow j, Option.some.injEq] at h
    have hc : updCol j = c := congrFun h 1
    refine congrArg upd ?_
    conv_lhs => rw [eq_ix2 j]
    refine congrArg₂ ix2 (Fin.ext rfl) ?_
    exact Fin.ext (by rw [← hc])

end ScatterRows

end
-- ==== Proof.LibScatterDrop.lean ====
/-
  Reading a row gather and an accumulating row scatter at an index, WHATEVER the index table holds.

  The operand is an `R × C` array, the updates a `U × C` array and the index table has one column, one word per update
  row. Nothing is assumed about the words. For the scatter (updates' window their axis 1, operand's inserted axis 0,
  the one start component going to operand axis 0, index vector the table's axis 1) update index `(r, c)` has the
  target `(the table's word for row r read signed, c)`; it lands there when the word is a row of the operand and is
  dropped otherwise. So on the extended reals the result at `(a, c)` is the operand's element plus the sum of
  `upd (r, c)` over the update rows `r` whose word reads, signed, as `a` — a word that is negative or at least `R`
  equals no `a` and so contributes to no element, which is exactly "dropped".
  For the gather (offset axis the result's axis 1, operand's axis 0 collapsed, the one start component for operand axis 0,
  slices one whole row) result index `(r, c)` reads the operand at `(the table's word for row r read signed and clamped
  into [0, R - 1], c)`. The width `C` enters neither the filter of the scatter nor the row of the gather: that is what
  lets a scatter of a gather be compared across two widths.
-/
import proofs.«143928_j37108517437617_1_alg».proof.Proof.LibScatterRows

noncomputable section

namespace ScatterDrop

open Idealize.ShloMosaic Idealize.ShloMosaic.ValueIdx ScatterRows

variable {R C U w : Nat}

/-- A table index is its row with column 0: the table has one column. -/
theorem tbl_eq (q : (Tbl U).Idx) : q = ix2 (tblRow q) (0 : Fin 1) := by
  funext a
  match a with
  | ⟨0, _⟩ => exact Fin.ext rfl
  | ⟨1, _⟩ => exact Fin.ext (by have := idx2_lt1 q; show (q 1).val = 0; omega)

/-- On the row axis the target coordinate of update index `j` is the table's word for `j`'s row, read signed,
    whatever that word is: the start component comes from the table unclamped, and the window contributes nothing on
    an inserted axis. -/
theorem coord_row_word (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w) (j : (Upd U C).Idx) :
    d.start j idx 0 + (d.window j 0 : Int) = (idx (ix2 (updRow j) (0 : Fin 1))).toInt := by
  obtain ⟨uw, iw, sd, iv, wf⟩ := d
  dsimp only at h1 h2 h3 h4
  subst h1 h2 h3 h4
  have m0 : (0 : Fin 2) ∈ ([0] : List (Fin 2)) := by decide
  have k0 : (0 : Fin 2) ∉ ScatterDims.sKept (⟨[1], [0], [0], 1, wf⟩ : ScatterDims (Opnd R C) (Tbl U) (Upd U C)) := by
    show (0 : Fin 2) ∉ (List.finRange 2).filter (fun x => decide (x ∉ ([0] : List (Fin 2))))
    decide
  simp only [ScatterDims.start, ScatterDims.window]
  rw [dif_pos m0, dif_neg k0]
  simp only [Nat.cast_zero, add_zero]
  refine congrArg (fun q => (idx q).toInt) ?_
  refine (tbl_eq _).trans ?_
  refine congrArg (fun r : Fin U => ix2 r (0 : Fin 1)) (Fin.ext ?_)
  -- the table index that update `j` reads has `j`'s row: the updates' one scatter axis is axis 0
  have hu : ScatterDims.uScatter (⟨[1], [0], [0], 1, wf⟩ : ScatterDims (Opnd R C) (Tbl U) (Upd U C)) = [0] := by
    show (List.finRange 2).filter (fun x => decide (x ∉ ([1] : List (Fin 2)))) = [0]
    decide
  simp only [tblRow, updRow, ScatterDims.siIdx]
  split
  · rename_i h
    exact absurd h Nat.zero_ne_one
  · unfold ScatterDims.siCoord
    simp only [Fin.coe_cast]
    exact congrArg (fun a => (j a).val) (getElem_of_eq_singleton _ 0 hu _ _)

/-- WHERE AN UPDATE LANDS, AND WHEN. Update index `j` lands at `(a, c)` exactly when the table's word for `j`'s row
    reads, signed, as `a` and `j`'s column is `c`. A word outside `[0, R)` reads as no `a : Fin R`: the update is
    dropped. -/
theorem resultIdx_eq_some_iff (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w) (j : (Upd U C).Idx) (a : Fin R) (c : Fin C) :
    d.resultIdx? j idx = some (ix2 a c)
      ↔ (idx (ix2 (updRow j) (0 : Fin 1))).toInt = (a.val : Int) ∧ updCol j = c := by
  have c0 := coord_row_word d h1 h2 h3 h4 idx j
  have c1 := coord_col d h1 h2 h3 h4 idx j
  unfold ScatterDims.resultIdx?
  split
  · rename_i hall
    have p0 := (hall 0).1
    constructor
    · intro h
      have h' := Option.some.inj h
      have e0 : (d.start j idx 0 + (d.window j 0 : Int)).toNat = a.val := congrArg Fin.val (congrFun h' 0)
      have e1 : (d.start j idx 1 + (d.window j 1 : Int)).toNat = c.val := congrArg Fin.val (congrFun h' 1)
      refine ⟨?_, Fin.ext ?_⟩
      · rw [← c0]; omega
      · show (j 1).val = c.val
        rw [c1] at e1; omega
    · rintro ⟨hr, hc⟩
      refine congrArg some (funext ?_)
      refine Fin.forall_fin_two.2 ⟨?_, ?_⟩
      · apply Fin.ext
        show (d.start j idx 0 + (d.window j 0 : Int)).toNat = a.val
        rw [c0, hr, Int.toNat_natCast]
      · apply Fin.ext
        show (d.start j idx 1 + (d.window j 1 : Int)).toNat = c.val
        rw [c1, Int.toNat_natCast, ← hc]
  · rename_i hall
    constructor
    · intro h
      exact absurd h (by simp)
    · rintro ⟨hr, hc⟩
      refine absurd ?_ hall
      refine Fin.forall_fin_two.2 ⟨?_, ?_⟩
      · rw [c0, hr]
        exact ⟨Int.natCast_nonneg _, by exact_mod_cast a.isLt⟩
      · rw [c1]
        exact ⟨Int.natCast_nonneg _, by exact_mod_cast idx2_lt1 j⟩

/-- THE SCATTER READ AT AN INDEX, with no hypothesis on the table: the operand's element plus the sum, over the update
    rows `r` whose word reads signed as this row, of the update's element in this column. -/
theorem scatterAdd_rows_drop (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w)
    (x : (Opnd R C).Idx → EReal) (upd : (Upd U C).Idx → EReal) (a : Fin R) (c : Fin C) :
    Ideal.hostScatterAdd d x idx upd (ix2 a c)
      = x (ix2 a c)
        + ∑ r ∈ Finset.univ.filter (fun r : Fin U => (idx (ix2 r (0 : Fin 1))).toInt = (a.val : Int)), upd (ix2 r c) := by
  unfold Ideal.hostScatterAdd
  refine congrArg (x (ix2 a c) + ·) ?_
  refine Finset.sum_bij' (fun j _ => updRow j) (fun r _ => ix2 r c) ?_ ?_ ?_ ?_ ?_
  · intro j hj
    rw [Finset.mem_filter] at hj ⊢
    exact ⟨Finset.mem_univ _, ((resultIdx_eq_some_iff d h1 h2 h3 h4 idx j a c).1 hj.2).1⟩
  · intro r hr
    rw [Finset.mem_filter] at hr ⊢
    refine ⟨Finset.mem_univ _, (resultIdx_eq_some_iff d h1 h2 h3 h4 idx (ix2 r c) a c).2 ⟨?_, Fin.ext rfl⟩⟩
    exact hr.2
  · intro j hj
    rw [Finset.mem_filter] at hj
    have hc : updCol j = c := ((resultIdx_eq_some_iff d h1 h2 h3 h4 idx j a c).1 hj.2).2
    conv_rhs => rw [eq_ix2 j]
    refine congrArg₂ ix2 (Fin.ext rfl) ?_
    exact Fin.ext (by rw [← hc])
  · intro r _
    exact Fin.ext rfl
  · intro j hj
    rw [Finset.mem_filter] at hj
    have hc : updCol j = c := ((resultIdx_eq_some_iff d h1 h2 h3 h4 idx j a c).1 hj.2).2
    refine congrArg upd ?_
    conv_lhs => rw [eq_ix2 j]
    refine congrArg₂ ix2 (Fin.ext rfl) ?_
    exact Fin.ext (by rw [← hc])

/-! ## The row gather at an index -/

section Gather
variable {α : Type}

/-- The row a gather reads for update row `r`: the table's word read signed and clamped into `[0, R - 1]`. It does
    not depend on the width of the operand. -/
def gRow (hR : 0 < R) (idx : IVec (Tbl U) w) (r : Fin U) : Fin R :=
  ⟨min (idx (ix2 r (0 : Fin 1))).toInt.toNat (R - 1), by omega⟩

/-- THE ROW GATHER READ AT AN INDEX: result index `(r, c)` reads the operand at `(gRow r, c)`, for any width `C`:
    on the row axis the clamped start and nothing else (the axis is collapsed), on the column axis the offset
    coordinate and nothing else (no start component goes there). -/
theorem gather_rows_apply (hR : 0 < R) (d : GatherDims (Opnd R C) (Tbl U) (Upd U C))
    (g1 : d.offsetDims = [1]) (g2 : d.collapsedSliceDims = [0]) (g3 : d.operandBatchingDims = [])
    (g5 : d.startIndexMap = [0]) (g6 : d.indexVectorDim = 1) (g7 : d.sliceSizes = ![1, C])
    (x : (Opnd R C).Idx → α) (idx : IVec (Tbl U) w) (r : Fin U) (c : Fin C) :
    Host.gather d x idx (ix2 r c) = x (ix2 (gRow hR idx r) c) := by
  obtain ⟨od, cd, ob, sb, sm, iv, ss, wf⟩ := d
  dsimp only at g1 g2 g3 g5 g6 g7
  subst g1 g2 g3 g5 g6 g7
  unfold Host.gather
  refine congrArg x (funext ?_)
  refine Fin.forall_fin_two.2 ⟨?_, ?_⟩
  · apply Fin.ext
    show GatherDims.start _ (ix2 r c) idx 0 + GatherDims.batchCoord _ (ix2 r c) 0 + GatherDims.offCoord _ (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ ([0] : List (Fin 2)) from List.mem_singleton.mpr rfl)]
    refine congrArg (fun q => min (idx q).toInt.toNat (R - 1)) ?_
    funext b
    refine Fin.ext ?_
    match b with
    | ⟨0, _⟩ => rfl
    | ⟨1, _⟩ => rfl
  · apply Fin.ext
    show GatherDims.start _ (ix2 r c) idx 1 + GatherDims.batchCoord _ (ix2 r c) 1 + GatherDims.offCoord _ (ix2 r c) 1 = c.val
    rw [GatherDims.batchCoord_eq_zero _ _ _ List.not_mem_nil]
    unfold GatherDims.start
    rw [dif_neg (show (1 : Fin 2) ∉ ([0] : List (Fin 2)) by decide)]
    simp only [Nat.zero_add, Nat.add_zero]
    rfl

end Gather

/-! ## The scatter of a gather -/

/-- THE NEIGHBOUR SUM AT AN INDEX. Gathering the rows of `X` at the table `src` and adding them into `z` at the
    table `dst` gives, at `(a, c)`, `z (a, c)` plus the sum over the update rows `r` whose `dst` word reads signed
    as `a` of `X (gRow src r, c)`. Neither the set of rows nor `gRow src r` mentions the width `C`. -/
theorem scatter_gather_rows {w' : Nat} (hR : 0 < R)
    (ds : ScatterDims (Opnd R C) (Tbl U) (Upd U C))
    (h1 : ds.updateWindowDims = [1]) (h2 : ds.insertedWindowDims = [0]) (h3 : ds.scatterDimsToOperandDims = [0])
    (h4 : ds.indexVectorDim = 1)
    (dg : GatherDims (Opnd R C) (Tbl U) (Upd U C))
    (g1 : dg.offsetDims = [1]) (g2 : dg.collapsedSliceDims = [0]) (g3 : dg.operandBatchingDims = [])
    (g5 : dg.startIndexMap = [0]) (g6 : dg.indexVectorDim = 1) (g7 : dg.sliceSizes = ![1, C])
    (z X : (Opnd R C).Idx → EReal) (dst : IVec (Tbl U) w) (src : IVec (Tbl U) w') (a : Fin R) (c : Fin C) :
    Ideal.hostScatterAdd ds z dst (Host.gather dg X src) (ix2 a c)
      = z (ix2 a c)
        + ∑ r ∈ Finset.univ.filter (fun r : Fin U => (dst (ix2 r (0 : Fin 1))).toInt = (a.val : Int)),
            X (ix2 (gRow hR src r) c) := by
  rw [scatterAdd_rows_drop ds h1 h2 h3 h4 dst z (Host.gather dg X src) a c]
  refine congrArg (z (ix2 a c) + ·) (Finset.sum_congr rfl fun r _ => ?_)
  exact gather_rows_apply hR dg g1 g2 g3 g5 g6 g7 X src r c

/-- At the exact instance the host's accumulating scatter is the exact sum (the instance's field, by definition). -/
theorem scatterAdd_ideal {s si u : Shape} {w : Nat} {φ : FTy} (d : ScatterDims s si u) (x : FVec Ideal s φ)
    (idx : IVec si w) (upd : FVec Ideal u φ) :
    Host.scatterAdd (F := Ideal) (φ := φ) d x idx upd = Ideal.hostScatterAdd d x idx upd := rfl

/-- THE NEIGHBOUR SUM AT AN INDEX, as the host operations spell it at the exact instance. -/
theorem host_scatter_gather_rows {w' : Nat} {φ : FTy} (hR : 0 < R)
    (ds : ScatterDims (Opnd R C) (Tbl U) (Upd U C))
    (h1 : ds.updateWindowDims = [1]) (h2 : ds.insertedWindowDims = [0]) (h3 : ds.scatterDimsToOperandDims = [0])
    (h4 : ds.indexVectorDim = 1)
    (dg : GatherDims (Opnd R C) (Tbl U) (Upd U C))
    (g1 : dg.offsetDims = [1]) (g2 : dg.collapsedSliceDims = [0]) (g3 : dg.operandBatchingDims = [])
    (g5 : dg.startIndexMap = [0]) (g6 : dg.indexVectorDim = 1) (g7 : dg.sliceSizes = ![1, C])
    (z X : FVec Ideal (Opnd R C) φ) (dst : IVec (Tbl U) w) (src : IVec (Tbl U) w') (a : Fin R) (c : Fin C) :
    Host.scatterAdd (F := Ideal) (φ := φ) ds z dst (Host.gather dg X src) (ix2 a c)
      = z (ix2 a c)
        + ∑ r ∈ Finset.univ.filter (fun r : Fin U => (dst (ix2 r (0 : Fin 1))).toInt = (a.val : Int)),
            X (ix2 (gRow hR src r) c) := by
  rw [scatterAdd_ideal]
  exact scatter_gather_rows hR ds h1 h2 h3 h4 dg g1 g2 g3 g5 g6 g7 z X dst src a c

end ScatterDrop

end
-- ==== Proof.LibGatherVec.lean ====
/-
  A vector gather read at an index, the two spreads that carry a per-row factor into a two-axis array, a signed word
  that a "negative index" wrap leaves alone, and the reciprocal square root of a clipped degree as a scale.

  The vector gather: the operand is a vector of `R` entries, the index table has `U` rows and one column, the result is
  a vector of `U` entries (no offset axis, the operand's one axis collapsed, the one start component for that axis,
  slices of one entry). Result entry `r` is the operand's entry at the table's word for row `r`, read signed and
  clamped into `[0, R - 1]` — the same row `gRow` the row gather of a two-axis operand reads.

  The spreads: a vector of `n` entries stood up as an `[n, 1]` column, and an `[n, 1]` column spread along the rows to
  `[n, b]`, read at coordinates (for `n ≠ 1`, so that the row axis is a copied axis and not a size-one axis).

  The wrap: `select (x <ₛ 0) (x + k) x` is `x` for a word that reads signed as a non-negative number.

  The scale: for any extended real `y ≥ 1` the reciprocal square root is a non-negative extended real other than `⊤`
  (`⊤ ↦ 0`, a real `r ≥ 1` to `1 / √r`), hence a factor that distributes over sums of extended reals.
-/
import proofs.«143928_j37108517437617_1_alg».proof.Proof.LibScatterDrop

noncomputable section

namespace GatherVec

open Idealize.ShloMosaic Idealize.ShloMosaic.ValueIdx ScatterRows

/-- A vector's shape. -/
abbrev Vec1 (n : Nat) : Shape := ⟨1, ![n]⟩

variable {R U n b w : Nat} {α : Type}

/-- THE VECTOR GATHER READ AT AN INDEX: result entry `r` reads the operand at `gRow r`: the clamped start and nothing
    else, the operand's one axis being collapsed. -/
theorem gather_vec_apply (hR : 0 < R) (d : GatherDims (Vec1 R) (Tbl U) (Vec1 U))
    (g1 : d.offsetDims = []) (g2 : d.collapsedSliceDims = [0]) (g3 : d.operandBatchingDims = [])
    (g5 : d.startIndexMap = [0]) (g6 : d.indexVectorDim = 1) (g7 : d.sliceSizes = ![1])
    (x : (Vec1 R).Idx → α) (idx : IVec (Tbl U) w) (r : Fin U) :
    Host.gather d x idx (ix1 r) = x (ix1 (ScatterDrop.gRow hR idx r)) := by
  obtain ⟨od, cd, ob, sb, sm, iv, ss, wf⟩ := d
  dsimp only at g1 g2 g3 g5 g6 g7
  subst g1 g2 g3 g5 g6 g7
  unfold Host.gather
  refine congrArg x (funext fun a => ?_)
  match a with
  | ⟨0, _⟩ =>
    apply Fin.ext
    show GatherDims.start _ (ix1 r) idx 0 + GatherDims.batchCoord _ (ix1 r) 0 + GatherDims.offCoord _ (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ ([0] : List (Fin 1)) from List.mem_singleton.mpr rfl)]
    refine congrArg (fun q => min (idx q).toInt.toNat (R - 1)) ?_
    funext c
    refine Fin.ext ?_
    match c with
    | ⟨0, _⟩ => rfl
    | ⟨1, _⟩ => rfl

/-- A vector stood up as a column, read at `(r, 0)`, is the vector's entry `r`. -/
theorem column_apply (hn : n ≠ 1) (h : (Vec1 n).BroadcastsInDim (⟨2, ![n, 1]⟩ : Shape) (![0] : Fin 1 → Fin 2))
    (v : (Vec1 n).Idx → α) (r : Fin n) (z : Fin 1) :
    broadcastInDim (⟨2, ![n, 1]⟩ : Shape) ![0] h v (ix2 r z) = v (ix1 r) := by
  unfold broadcastInDim
  refine congrArg v (funext fun a => ?_)
  match a with
  | ⟨0, _⟩ =>
    split
    · rename_i h1; exact absurd h1 hn
    · exact Fin.ext rfl

/-- A column spread along the rows, read at `(r, c)`, is the column's entry `(r, 0)`. -/
theorem spread_apply (hn : n ≠ 1) (h : (⟨2, ![n, 1]⟩ : Shape).BroadcastsInDim (⟨2, ![n, b]⟩ : Shape) (![0, 1] : Fin 2 → Fin 2))
    (v : (⟨2, ![n, 1]⟩ : Shape).Idx → α) (r : Fin n) (c : Fin b) :
    broadcastInDim (⟨2, ![n, b]⟩ : Shape) ![0, 1] h v (ix2 r c) = v (ix2 r (0 : Fin 1)) := by
  unfold broadcastInDim
  refine congrArg v (funext fun a => ?_)
  match a with
  | ⟨0, _⟩ =>
    split
    · rename_i h1; exact absurd h1 hn
    · exact Fin.ext rfl
  | ⟨1, _⟩ =>
    split
    · exact Fin.ext rfl
    · rename_i h1; exact absurd rfl h1

/-- A per-row factor carried into a two-axis array: the vector's entry `r` at every column of row `r`. -/
theorem spread_column_apply (hn : n ≠ 1) (h1 : (Vec1 n).BroadcastsInDim (⟨2, ![n, 1]⟩ : Shape) (![0] : Fin 1 → Fin 2))
    (h2 : (⟨2, ![n, 1]⟩ : Shape).BroadcastsInDim (⟨2, ![n, b]⟩ : Shape) (![0, 1] : Fin 2 → Fin 2))
    (v : (Vec1 n).Idx → α) (r : Fin n) (c : Fin b) :
    broadcastInDim (⟨2, ![n, b]⟩ : Shape) ![0, 1] h2 (broadcastInDim (⟨2, ![n, 1]⟩ : Shape) ![0] h1 v) (ix2 r c) = v (ix1 r) := by
  rw [spread_apply hn h2, column_apply hn h1]

/-- A word that reads signed as a non-negative number is not below zero, so the wrap keeps it. -/
theorem wrap_of_nonneg (x k : BitVec 32) (hx : 0 ≤ x.toInt) :
    Scalar.select (IntOp.cmpi .slt x 0#32) (IntOp.addi x k) x = x := by
  have hs : x.slt 0#32 = false := by
    rw [BitVec.slt_eq_decide]
    simp only [BitVec.toInt_zero, decide_eq_false_iff_not, not_lt]
    exact hx
  unfold Scalar.select IntOp.cmpi
  simp only [hs]
  rw [if_neg (by decide)]

/-- The reciprocal square root of an extended real that is at least `1` is a non-negative extended real other than `⊤`. -/
theorem rsqrt_scale {y : EReal} (hy : 1 ≤ y) : 0 ≤ Ideal.rsqrt y ∧ Ideal.rsqrt y ≠ ⊤ := by
  induction y using EReal.rec with
  | bot => exact absurd hy (not_le.mpr (by exact_mod_cast EReal.bot_lt_coe 1))
  | top => exact ⟨le_of_eq Ideal.rsqrt_top.symm, by rw [Ideal.rsqrt_top]; exact EReal.zero_ne_top⟩
  | coe r =>
    have hr : (1 : ℝ) ≤ r := by exact_mod_cast hy
    have h0 : ¬ r < 0 := not_lt.mpr (le_trans zero_le_one hr)
    have h1 : ¬ r = 0 := fun h => by rw [h] at hr; exact absurd hr (by norm_num)
    rw [Ideal.rsqrt_coe, if_neg h0, if_neg h1]
    refine ⟨?_, EReal.coe_ne_top _⟩
    exact_mod_cast inv_nonneg.mpr (Real.sqrt_nonneg r)

end GatherVec

end
-- ==== Proof.LibWordTables.lean ====
/-
  One-column index tables as functions of their words.

  A gather or scatter by rows reads a table with one column, one word per row. Programs build such a table from a
  vector of words: they stand the vector up as a column, often after wrapping negative words by an extent `k`
  (`x ↦ if x <ₛ 0 then x + k else x`, the compare and the sum against `0` and `k` spread over the vector).
  Read at a row both constructions are plain functions of that row's word: `colTbl x` and `wrapTbl k x`. The row a
  gather reads depends only on the table's word for that row, so two tables (of any two heights) that hold the same
  word at two rows send those rows to the same place.
-/
import proofs.«143928_j37108517437617_1_alg».proof.Proof.LibGatherVec
import Idealize.ShloMosaic.Lib.Pipeline.Value

noncomputable section

namespace WordTables

open Idealize.ShloMosaic Idealize.ShloMosaic.ValueIdx ScatterRows ScatterDrop GatherVec

variable {U U' R : Nat}

/-- A word with the negative-index wrap by `k`. -/
def wrapWord (k x : BitVec 32) : BitVec 32 := Scalar.select (IntOp.cmpi .slt x 0#32) (IntOp.addi x k) x

/-- The table whose row `r` holds word `r` of the vector. -/
def colTbl (x : IVec (Vec1 U) 32) : IVec (Tbl U) 32 := fun q => x (ix1 (tblRow q))

/-- The table whose row `r` holds word `r` of the vector, wrapped by `k`. -/
def wrapTbl (k : BitVec 32) (x : IVec (Vec1 U) 32) : IVec (Tbl U) 32 := fun q => wrapWord k (x (ix1 (tblRow q)))

theorem colTbl_apply (x : IVec (Vec1 U) 32) (r : Fin U) : colTbl x (ix2 r (0 : Fin 1)) = x (ix1 r) := rfl

theorem wrapTbl_apply (k : BitVec 32) (x : IVec (Vec1 U) 32) (r : Fin U) :
    wrapTbl k x (ix2 r (0 : Fin 1)) = wrapWord k (x (ix1 r)) := rfl

/-- A vector stood up as a column is `colTbl`. -/
theorem column_eq (hU : U ≠ 1) (h : (Vec1 U).BroadcastsInDim (Tbl U) (![0] : Fin 1 → Fin 2)) (x : IVec (Vec1 U) 32) :
    broadcastInDim (Tbl U) ![0] h x = colTbl x := by
  funext q
  rw [tbl_eq q]
  exact column_apply hU h x (tblRow q) 0

/-- A scalar word spread over a vector, read at an entry. -/
theorem splat_apply (h : (⟨0, ![]⟩ : Shape).BroadcastsInDim (Vec1 U) (![] : Fin 0 → Fin 1)) (k : BitVec 32)
    (i : (Vec1 U).Idx) : broadcastInDim (Vec1 U) ![] h (constantI ⟨0, ![]⟩ 32 k) i = k :=
  (broadcastInDim_apply _ h (constantI ⟨0, ![]⟩ 32 k) i (fun a => a.elim0) (fun a => a.elim0)).trans rfl

/-- The wrapped vector stood up as a column is `wrapTbl`. -/
theorem wrap_column_eq (hU : U ≠ 1) (h : (Vec1 U).BroadcastsInDim (Tbl U) (![0] : Fin 1 → Fin 2))
    (h0 : (⟨0, ![]⟩ : Shape).BroadcastsInDim (Vec1 U) (![] : Fin 0 → Fin 1)) (k : BitVec 32) (x : IVec (Vec1 U) 32) :
    broadcastInDim (Tbl U) ![0] h
        (select (cmpi .slt x (broadcastInDim (Vec1 U) ![] h0 (constantI ⟨0, ![]⟩ 32 0#32)))
          (addi x (broadcastInDim (Vec1 U) ![] h0 (constantI ⟨0, ![]⟩ 32 k))) x)
      = wrapTbl k x := by
  rw [column_eq hU h]
  funext q
  show Scalar.select (IntOp.cmpi .slt (x (ix1 (tblRow q))) (broadcastInDim (Vec1 U) ![] h0 (constantI ⟨0, ![]⟩ 32 0#32) (ix1 (tblRow q))))
      (IntOp.addi (x (ix1 (tblRow q))) (broadcastInDim (Vec1 U) ![] h0 (constantI ⟨0, ![]⟩ 32 k) (ix1 (tblRow q))))
      (x (ix1 (tblRow q))) = _
  rw [splat_apply h0 0#32, splat_apply h0 k]
  rfl

/-- The row a gather reads depends only on the table's word for that row. -/
theorem gRow_congr (hR : 0 < R) {w : Nat} (idx : IVec (Tbl U) w) (idx' : IVec (Tbl U') w) (r : Fin U) (r' : Fin U')
    (h : idx (ix2 r (0 : Fin 1)) = idx' (ix2 r' (0 : Fin 1))) : gRow hR idx r = gRow hR idx' r' := by
  unfold gRow
  exact Fin.ext (by show min _ _ = min _ _; rw [h])

end WordTables

end
-- ==== Proof.KHostX.lean ====
/-
  The padded features. The program writes the 10000 x 128 feature matrix into the top rows of a 10240 x 128 array of
  zeros (a scatter with the overwriting body at start index zero): read by coordinates, the node's feature row on the
  first 10000 rows and zero on the 240 rows of padding.
-/
import proofs.«143928_j37108517437617_1_alg».proof.Proof.KHostPlumb
import proofs.«143928_j37108517437617_1_alg».proof.Proof.LibScatterZero
import proofs.«143928_j37108517437617_1_alg».proof.Proof.LibWordTables
import Idealize.ShloMosaic.PureOps.Ideal.Laws

set_option maxRecDepth 16384

noncomputable section

namespace Cert.KernelIdeal.KHost

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The array of padded features as the host stretch's operations give it. -/
theorem v48_term : (W3 m ρ c (Proc.devRef .tc main_v48) : S10240x128.Idx → EReal)
    = Host.scatter scatter_S10240x128_S1_S10000x128_01_n_0_0 (fun _ b => b)
        (broadcastInDim S10240x128 ![] bcast_S_S10240x128 (constant (F := Ideal) S_ .f32 0x00000000#32))
        (broadcastInDim S1 ![] bcast_S_S1 (constantI S_ 32 0#32))
        (m ((c : Thread nD τ).loc main_arg0)) := by
  have ea : W2 m ρ c (Proc.devRef .tc main_arg0) = m ((c : Thread nD τ).loc main_arg0) :=
    (keep2 m ρ c main_arg0 (by decide)).trans (keep1 m ρ c main_arg0 (by decide))
  rw [← ea]
  show StableHlo.after hostOps0_2 (W2 m ρ c) (Proc.devRef .tc main_v48) = _
  after_results_simp

/-- The padded features by coordinates. -/
theorem xpad_eq : Gcn.mat2 (W3 m ρ c (Proc.devRef .tc main_v48))
    = Gcn.xpad (Gcn.mat2 (m ((c : Thread nD τ).loc main_arg0))) := by
  funext r κ
  show W3 m ρ c (Proc.devRef .tc main_v48) (ix2 r κ) = _
  rw [v48_term]
  have hw0 : ∀ j : S10000x128.Idx, scatter_S10240x128_S1_S10000x128_01_n_0_0.window j (0 : Fin 2) = (j (0 : Fin 2)).val :=
    fun j => rfl
  have hw1 : ∀ j : S10000x128.Idx, scatter_S10240x128_S1_S10000x128_01_n_0_0.window j (1 : Fin 2) = (j (1 : Fin 2)).val :=
    fun j => rfl
  have hidx : ∀ k, (broadcastInDim S1 ![] bcast_S_S1 (constantI S_ 32 0#32) : IVec S1 32) k = 0#32 :=
    fun k => WordTables.splat_apply (U := 1) bcast_S_S1 0#32 k
  refine (ScatterZero.pad2_apply (R := 10240) (C := 128) (R' := 10000) (C' := 128) (by decide) (by decide)
    scatter_S10240x128_S1_S10000x128_01_n_0_0 hw0 hw1 _ _ hidx _ r κ).trans ?_
  unfold Gcn.xpad
  by_cases h : r.val < 10000
  · rw [dif_pos (show r.val < 10000 ∧ κ.val < 128 from ⟨h, κ.isLt⟩), dif_pos (show r.val < Gcn.Nn from h)]
    rfl
  · rw [dif_neg (fun h' : r.val < 10000 ∧ κ.val < 128 => h h'.1), dif_neg (show ¬ r.val < Gcn.Nn from h)]
    refine (broadcastInDim_apply _ bcast_S_S10240x128 _ _ (fun a => a.elim0) (fun a => a.elim0)).trans ?_
    exact Ideal.ofBits_zero_f32

end Cert.KernelIdeal.KHost

end
-- ==== Proof.KHostTabs.lean ====
/-
  The message tables as the program builds them. Each row of the edge list is joined end to end with the node numbers
  0 … 9999 (one self-loop per node): a vector of 170000 words. Under the hypothesis that every word of the edge list
  is a node number, word `e` of the joined vector reads, signed, as the source (first row) or the target (second row) of
  message `e`.
-/
import proofs.«143928_j37108517437617_1_alg».proof.Proof.KHostPlumb
import proofs.«143928_j37108517437617_1_alg».proof.Proof.LibWordTables
import Idealize.ShloMosaic.Lib.IdealHost

set_option maxRecDepth 16384

noncomputable section

namespace Cert.KernelIdeal.KHost

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The edge list's words by row and position. -/
abbrev ei : Fin 2 → Fin 160000 → BitVec 32 := fun j e => m ((c : Thread nD τ).loc main_arg9) (ix2 j e)

/-! ## Joining 160000 words with 10000 -/

/-- The joined vector read in the first piece. -/
theorem join_left (x : S160000.Idx → BitVec 32) (y : S10000.Idx → BitVec 32) (e : Fin 170000) (h : e.val < 160000) :
    concatenate S170000 0 [⟨S160000, x⟩, ⟨S10000, y⟩] concatenates_S160000_S10000_S170000_d0 (ix1 e)
      = x (ix1 (⟨e.val, h⟩ : Fin 160000)) :=
  concatenate_apply_piece 0 [⟨S160000, x⟩, ⟨S10000, y⟩] concatenates_S160000_S10000_S170000_d0 (ix1 e) 0
    (by show 0 < 2; omega) S160000 x rfl rfl 0 rfl (ix1 (⟨e.val, h⟩ : Fin 160000))
    (fun b hb => by match b with
      | ⟨0, _⟩ => exact absurd rfl hb) (by show 0 + e.val = e.val; omega)

/-- The joined vector read in the second piece. -/
theorem join_right (x : S160000.Idx → BitVec 32) (y : S10000.Idx → BitVec 32) (e : Fin 170000) (h : ¬ e.val < 160000) :
    concatenate S170000 0 [⟨S160000, x⟩, ⟨S10000, y⟩] concatenates_S160000_S10000_S170000_d0 (ix1 e)
      = y (ix1 (⟨e.val - 160000, by have := e.isLt; omega⟩ : Fin 10000)) :=
  concatenate_apply_piece 0 [⟨S160000, x⟩, ⟨S10000, y⟩] concatenates_S160000_S10000_S170000_d0 (ix1 e) 1
    (by show 1 < 2; omega) S10000 y rfl rfl 160000 rfl (ix1 (⟨e.val - 160000, by have := e.isLt; omega⟩ : Fin 10000))
    (fun b hb => by match b with
      | ⟨0, _⟩ => exact absurd rfl hb) (by show 160000 + (e.val - 160000) = e.val; omega)

/-- A small number as a 32-bit word reads, signed, as itself. -/
theorem toInt_ofNat_small (k : ℕ) (hk : k < 10000) : (BitVec.ofNat 32 k).toInt = (k : Int) := by
  rw [BitVec.toInt_ofNat']
  simp only [Int.bmod_def]
  omega

/-- A word in range is the node it names. -/
theorem node_val (w : BitVec 32) (h0 : 0 ≤ w.toInt) (h1 : w.toInt < 10000) : ((Gcn.node w).val : Int) = w.toInt := by
  show ((min w.toInt.toNat 9999 : ℕ) : Int) = w.toInt
  omega

/-! ## The two tables -/

/-- Row `j` of the edge list as a vector of 160000 words. -/
def rowOf (j : ℕ) (x9 : S2x160000.Idx → BitVec 32) (h : S2x160000.Slices ![j, 0] S1x160000) : S160000.Idx → BitVec 32 :=
  shapeCast S160000 (extractStridedSlice S1x160000 ![j, 0] x9 h) shapeCasts_S1x160000_S160000

theorem rowOf_apply (j : Fin 2) (x9 : S2x160000.Idx → BitVec 32) (h : S2x160000.Slices ![j.val, 0] S1x160000) (e : Fin 160000) :
    rowOf j.val x9 h (ix1 e) = x9 (ix2 j e) := by
  unfold rowOf
  refine (shapeCast_1a_a_apply _ shapeCasts_S1x160000_S160000 e).trans ?_
  refine extractStridedSlice_apply ![j.val, 0] x9 h _ (ix2 j e) fun ax => ?_
  match ax with
  | ⟨0, _⟩ => show j.val = j.val + 0; omega
  | ⟨1, _⟩ => show e.val = 0 + e.val; omega

/-- The sources' vector `main_v5`: the edge list's first row, then the node numbers. -/
theorem v5_term : (W1 m ρ c (Proc.devRef .tc main_v5) : S170000.Idx → BitVec 32)
    = concatenate S170000 0 [⟨S160000, rowOf 0 (m ((c : Thread nD τ).loc main_arg9)) slices_S2x160000_S1x160000_0_0⟩,
        ⟨S10000, iotaInDim S10000 32 0⟩] concatenates_S160000_S10000_S170000_d0 := by
  show StableHlo.after hostOps0 (W0 m ρ c) (Proc.devRef .tc main_v5) = _
  after_results_simp
  rfl

/-- The targets' vector `main_v6`: the edge list's second row, then the node numbers. -/
theorem v6_term : (W1 m ρ c (Proc.devRef .tc main_v6) : S170000.Idx → BitVec 32)
    = concatenate S170000 0 [⟨S160000, rowOf 1 (m ((c : Thread nD τ).loc main_arg9)) slices_S2x160000_S1x160000_1_0⟩,
        ⟨S10000, iotaInDim S10000 32 0⟩] concatenates_S160000_S10000_S170000_d0 := by
  show StableHlo.after hostOps0 (W0 m ρ c) (Proc.devRef .tc main_v6) = _
  after_results_simp
  rfl

variable (hr : Gcn.InRange (ei m c))
include hr

/-- Word `e` of the sources' vector reads, signed, as message `e`'s source. -/
theorem v5_word (e : Fin 170000) :
    (W1 m ρ c (Proc.devRef .tc main_v5) (ix1 e)).toInt = ((Gcn.srcTab (ei m c) e).val : Int) := by
  rw [v5_term]
  unfold Gcn.srcTab
  by_cases h : e.val < 160000
  · rw [join_left _ _ e h, dif_pos h]
    refine (congrArg BitVec.toInt (rowOf_apply (0 : Fin 2) _ slices_S2x160000_S1x160000_0_0 ⟨e.val, h⟩)).trans ?_
    exact (node_val _ (hr 0 ⟨e.val, h⟩).1 (hr 0 ⟨e.val, h⟩).2).symm
  · rw [join_right _ _ e h, dif_neg h, iotaInDim_apply]
    exact toInt_ofNat_small _ (by have := e.isLt; show e.val - 160000 < 10000; omega)

/-- Word `e` of the targets' vector reads, signed, as message `e`'s target. -/
theorem v6_word (e : Fin 170000) :
    (W1 m ρ c (Proc.devRef .tc main_v6) (ix1 e)).toInt = ((Gcn.dstTab (ei m c) e).val : Int) := by
  rw [v6_term]
  unfold Gcn.dstTab
  by_cases h : e.val < 160000
  · rw [join_left _ _ e h, dif_pos h]
    refine (congrArg BitVec.toInt (rowOf_apply (1 : Fin 2) _ slices_S2x160000_S1x160000_1_0 ⟨e.val, h⟩)).trans ?_
    exact (node_val _ (hr 1 ⟨e.val, h⟩).1 (hr 1 ⟨e.val, h⟩).2).symm
  · rw [join_right _ _ e h, dif_neg h, iotaInDim_apply]
    exact toInt_ofNat_small _ (by have := e.isLt; show e.val - 160000 < 10000; omega)

end Cert.KernelIdeal.KHost

end
-- ==== Proof.LibScatterCols.lean ====
/-
  Reading a COLUMN gather, an accumulating COLUMN scatter and an accumulating VECTOR scatter at an index, whatever the
  index table holds.

  The table has one column, one word per update. For the column scatter the operand is a `B × N` array and the updates a
  `B × U` array (updates' window their axis 0, operand's inserted axis 1, the one start component going to operand axis 1):
  update index `(b, e)` has the target `(b, the table's word for e read signed)`; it lands there when the word is a column
  of the operand and is dropped otherwise, so on the extended reals the result at `(b, n)` is the operand's element plus
  the sum of `upd (b, e)` over the updates `e` whose word reads, signed, as `n`. For the vector scatter the operand has
  `N` entries and the updates `U` (no window axis): the result at `n` is the operand's entry plus the sum of `upd e` over
  the same set of `e`. For the column gather (offset axis the result's axis 0, operand's axis 1 collapsed, the one start
  component for operand axis 1, slices one whole column) result index `(b, e)` reads the operand at `(b, the word for e
  read signed and clamped into [0, N - 1])`. The set of updates landing at `n` and the clamped column are the SAME
  expressions of the table as in the row forms: that is what lets a row arrangement be compared with a column one.
-/
import proofs.«143928_j37108517437617_1_alg».proof.Proof.LibScatterDrop

noncomputable section

namespace ScatterCols

open Idealize.ShloMosaic Idealize.ShloMosaic.ValueIdx ScatterRows ScatterDrop

variable {B N U w : Nat}

/-- A vector's shape. -/
abbrev V1 (n : Nat) : Shape := ⟨1, ![n]⟩

/-- The entry of a vector index, as a plain `Fin U`. -/
abbrev vecRow (j : (V1 U).Idx) : Fin U := ⟨(j 0).val, (j 0).isLt⟩

/-! ## The column scatter -/

/-- On the row axis the target coordinate of update index `j` is `j`'s own row: no start component goes there, and the
    window is the updates' axis 0. -/
theorem coord_row_c (d : ScatterDims (Opnd B N) (Tbl U) (Upd B U))
    (h1 : d.updateWindowDims = [0]) (h2 : d.insertedWindowDims = [1]) (h3 : d.scatterDimsToOperandDims = [1])
    (h4 : d.indexVectorDim = 1) (idx : IVec (Tbl U) w) (j : (Upd B U).Idx) :
    d.start j idx 0 + (d.window j 0 : Int) = ((j 0).val : Int) := by
  obtain ⟨uw, iw, sd, iv, wf⟩ := d
  dsimp only at h1 h2 h3 h4
  subst h1 h2 h3 h4
  have m0 : (0 : Fin 2) ∉ ([1] : List (Fin 2)) := by decide
  have k0 : (0 : Fin 2) ∈ ScatterDims.sKept (⟨[0], [1], [1], 1, wf⟩ : ScatterDims (Opnd B N) (Tbl U) (Upd B U)) := by
    show (0 : Fin 2) ∈ (List.finRange 2).filter (fun x => decide (x ∉ ([1] : List (Fin 2))))
    decide
  simp only [ScatterDims.start, ScatterDims.window]
  rw [dif_neg m0, dif_pos k0]
  simp only [zero_add, Nat.cast_inj]
  exact congrArg (fun a => (j a).val) (getElem_singleton_any _ _ _)

/-- On the column axis the target coordinate is the table's word for `j`'s column, read signed, whatever that word is. -/
theorem coord_col_c (d : ScatterDims (Opnd B N) (Tbl U) (Upd B U))
    (h1 : d.updateWindowDims = [0]) (h2 : d.insertedWindowDims = [1]) (h3 : d.scatterDimsToOperandDims = [1])
    (h4 : d.indexVectorDim = 1) (idx : IVec (Tbl U) w) (j : (Upd B U).Idx) :
    d.start j idx 1 + (d.window j 1 : Int) = (idx (ix2 (updCol j) (0 : Fin 1))).toInt := by
  obtain ⟨uw, iw, sd, iv, wf⟩ := d
  dsimp only at h1 h2 h3 h4
  subst h1 h2 h3 h4
  have m1 : (1 : Fin 2) ∈ ([1] : List (Fin 2)) := by decide
  have k1 : (1 : Fin 2) ∉ ScatterDims.sKept (⟨[0], [1], [1], 1, wf⟩ : ScatterDims (Opnd B N) (Tbl U) (Upd B U)) := by
    show (1 : Fin 2) ∉ (List.finRange 2).filter (fun x => decide (x ∉ ([1] : List (Fin 2))))
    decide
  simp only [ScatterDims.start, ScatterDims.window]
  rw [dif_pos m1, dif_neg k1]
  simp only [Nat.cast_zero, add_zero]
  refine congrArg (fun q => (idx q).toInt) ?_
  refine (tbl_eq _).trans ?_
  refine congrArg (fun r : Fin U => ix2 r (0 : Fin 1)) (Fin.ext ?_)
  have hu : ScatterDims.uScatter (⟨[0], [1], [1], 1, wf⟩ : ScatterDims (Opnd B N) (Tbl U) (Upd B U)) = [1] := by
    show (List.finRange 2).filter (fun x => decide (x ∉ ([0] : List (Fin 2)))) = [1]
    decide
  simp only [tblRow, updCol, ScatterDims.siIdx]
  split
  · rename_i h
    exact absurd h Nat.zero_ne_one
  · unfold ScatterDims.siCoord
    simp only [Fin.coe_cast]
    exact congrArg (fun a => (j a).val) (getElem_of_eq_singleton _ 1 hu _ _)

/-- Update index `j` lands at `(b, n)` exactly when `j`'s row is `b` and the table's word for `j`'s column reads, signed,
    as `n`. -/
theorem resultIdx_c_iff (d : ScatterDims (Opnd B N) (Tbl U) (Upd B U))
    (h1 : d.updateWindowDims = [0]) (h2 : d.insertedWindowDims = [1]) (h3 : d.scatterDimsToOperandDims = [1])
    (h4 : d.indexVectorDim = 1) (idx : IVec (Tbl U) w) (j : (Upd B U).Idx) (b : Fin B) (n : Fin N) :
    d.resultIdx? j idx = some (ix2 b n)
      ↔ updRow j = b ∧ (idx (ix2 (updCol j) (0 : Fin 1))).toInt = (n.val : Int) := by
  have c0 := coord_row_c d h1 h2 h3 h4 idx j
  have c1 := coord_col_c d h1 h2 h3 h4 idx j
  unfold ScatterDims.resultIdx?
  split
  · rename_i hall
    have p1 := (hall 1).1
    constructor
    · intro h
      have h' := Option.some.inj h
      have e0 : (d.start j idx 0 + (d.window j 0 : Int)).toNat = b.val := congrArg Fin.val (congrFun h' 0)
      have e1 : (d.start j idx 1 + (d.window j 1 : Int)).toNat = n.val := congrArg Fin.val (congrFun h' 1)
      refine ⟨Fin.ext ?_, ?_⟩
      · show (j 0).val = b.val
        rw [c0] at e0; omega
      · rw [← c1]; omega
    · rintro ⟨hr, hc⟩
      refine congrArg some (funext ?_)
      refine Fin.forall_fin_two.2 ⟨?_, ?_⟩
      · apply Fin.ext
        show (d.start j idx 0 + (d.window j 0 : Int)).toNat = b.val
        rw [c0, Int.toNat_natCast, ← hr]
      · apply Fin.ext
        show (d.start j idx 1 + (d.window j 1 : Int)).toNat = n.val
        rw [c1, hc, Int.toNat_natCast]
  · rename_i hall
    constructor
    · intro h
      exact absurd h (by simp)
    · rintro ⟨hr, hc⟩
      refine absurd ?_ hall
      refine Fin.forall_fin_two.2 ⟨?_, ?_⟩
      · rw [c0]
        exact ⟨Int.natCast_nonneg _, by exact_mod_cast idx2_lt0 j⟩
      · rw [c1, hc]
        exact ⟨Int.natCast_nonneg _, by exact_mod_cast n.isLt⟩

/-- THE COLUMN SCATTER READ AT AN INDEX, with no hypothesis on the table. -/
theorem scatterAdd_cols_drop (d : ScatterDims (Opnd B N) (Tbl U) (Upd B U))
    (h1 : d.updateWindowDims = [0]) (h2 : d.insertedWindowDims = [1]) (h3 : d.scatterDimsToOperandDims = [1])
    (h4 : d.indexVectorDim = 1) (idx : IVec (Tbl U) w)
    (x : (Opnd B N).Idx → EReal) (upd : (Upd B U).Idx → EReal) (b : Fin B) (n : Fin N) :
    Ideal.hostScatterAdd d x idx upd (ix2 b n)
      = x (ix2 b n)
        + ∑ e ∈ Finset.univ.filter (fun e : Fin U => (idx (ix2 e (0 : Fin 1))).toInt = (n.val : Int)), upd (ix2 b e) := by
  unfold Ideal.hostScatterAdd
  refine congrArg (x (ix2 b n) + ·) ?_
  refine Finset.sum_bij' (fun j _ => updCol j) (fun e _ => ix2 b e) ?_ ?_ ?_ ?_ ?_
  · intro j hj
    rw [Finset.mem_filter] at hj ⊢
    exact ⟨Finset.mem_univ _, ((resultIdx_c_iff d h1 h2 h3 h4 idx j b n).1 hj.2).2⟩
  · intro e he
    rw [Finset.mem_filter] at he ⊢
    refine ⟨Finset.mem_univ _, (resultIdx_c_iff d h1 h2 h3 h4 idx (ix2 b e) b n).2 ⟨Fin.ext rfl, ?_⟩⟩
    exact he.2
  · intro j hj
    rw [Finset.mem_filter] at hj
    have hb : updRow j = b := ((resultIdx_c_iff d h1 h2 h3 h4 idx j b n).1 hj.2).1
    conv_rhs => rw [eq_ix2 j]
    refine congrArg₂ ix2 ?_ (Fin.ext rfl)
    exact Fin.ext (by rw [← hb])
  · intro e _
    exact Fin.ext rfl
  · intro j hj
    rw [Finset.mem_filter] at hj
    have hb : updRow j = b := ((resultIdx_c_iff d h1 h2 h3 h4 idx j b n).1 hj.2).1
    refine congrArg upd ?_
    conv_lhs => rw [eq_ix2 j]
    refine congrArg₂ ix2 ?_ (Fin.ext rfl)
    exact Fin.ext (by rw [← hb])

/-! ## The vector scatter -/

/-- The one target coordinate of update index `j` is the table's word for `j`, read signed. -/
theorem coord_vec (d : ScatterDims (V1 N) (Tbl U) (V1 U))
    (h1 : d.updateWindowDims = []) (h2 : d.insertedWindowDims = [0]) (h3 : d.scatterDimsToOperandDims = [0])
    (h4 : d.indexVectorDim = 1) (idx : IVec (Tbl U) w) (j : (V1 U).Idx) :
    d.start j idx 0 + (d.window j 0 : Int) = (idx (ix2 (vecRow j) (0 : Fin 1))).toInt := by
  obtain ⟨uw, iw, sd, iv, wf⟩ := d
  dsimp only at h1 h2 h3 h4
  subst h1 h2 h3 h4
  have m0 : (0 : Fin 1) ∈ ([0] : List (Fin 1)) := by decide
  have k0 : (0 : Fin 1) ∉ ScatterDims.sKept (⟨[], [0], [0], 1, wf⟩ : ScatterDims (V1 N) (Tbl U) (V1 U)) := by
    show (0 : Fin 1) ∉ (List.finRange 1).filter (fun x => decide (x ∉ ([0] : List (Fin 1))))
    decide
  simp only [ScatterDims.start, ScatterDims.window]
  rw [dif_pos m0, dif_neg k0]
  simp only [Nat.cast_zero, add_zero]
  refine congrArg (fun q => (idx q).toInt) ?_
  refine (tbl_eq _).trans ?_
  refine congrArg (fun r : Fin U => ix2 r (0 : Fin 1)) (Fin.ext ?_)
  have hu : ScatterDims.uScatter (⟨[], [0], [0], 1, wf⟩ : ScatterDims (V1 N) (Tbl U) (V1 U)) = [0] := by
    show (List.finRange 1).filter (fun x => decide (x ∉ ([] : List (Fin 1)))) = [0]
    decide
  simp only [tblRow, vecRow, ScatterDims.siIdx]
  split
  · rename_i h
    exact absurd h Nat.zero_ne_one
  · unfold ScatterDims.siCoord
    simp only [Fin.coe_cast]
    exact congrArg (fun a => (j a).val) (getElem_of_eq_singleton _ 0 hu _ _)

/-- Update `j` lands at entry `n` exactly when its word reads, signed, as `n`. -/
theorem resultIdx_v_iff (d : ScatterDims (V1 N) (Tbl U) (V1 U))
    (h1 : d.updateWindowDims = []) (h2 : d.insertedWindowDims = [0]) (h3 : d.scatterDimsToOperandDims = [0])
    (h4 : d.indexVectorDim = 1) (idx : IVec (Tbl U) w) (j : (V1 U).Idx) (n : Fin N) :
    d.resultIdx? j idx = some (ix1 n) ↔ (idx (ix2 (vecRow j) (0 : Fin 1))).toInt = (n.val : Int) := by
  have c0 := coord_vec d h1 h2 h3 h4 idx j
  unfold ScatterDims.resultIdx?
  split
  · rename_i hall
    have p0 := (hall 0).1
    constructor
    · intro h
      have h' := Option.some.inj h
      have e0 : (d.start j idx 0 + (d.window j 0 : Int)).toNat = n.val := congrArg Fin.val (congrFun h' 0)
      rw [← c0]; omega
    · intro hr
      refine congrArg some (funext ?_)
      refine Fin.forall_fin_one.2 ?_
      apply Fin.ext
      show (d.start j idx 0 + (d.window j 0 : Int)).toNat = n.val
      rw [c0, hr, Int.toNat_natCast]
  · rename_i hall
    constructor
    · intro h
      exact absurd h (by simp)
    · intro hr
      refine absurd ?_ hall
      refine Fin.forall_fin_one.2 ?_
      rw [c0, hr]
      exact ⟨Int.natCast_nonneg _, by exact_mod_cast n.isLt⟩

/-- THE VECTOR SCATTER READ AT AN INDEX, with no hypothesis on the table. -/
theorem scatterAdd_vec_drop (d : ScatterDims (V1 N) (Tbl U) (V1 U))
    (h1 : d.updateWindowDims = []) (h2 : d.insertedWindowDims = [0]) (h3 : d.scatterDimsToOperandDims = [0])
    (h4 : d.indexVectorDim = 1) (idx : IVec (Tbl U) w)
    (x : (V1 N).Idx → EReal) (upd : (V1 U).Idx → EReal) (n : Fin N) :
    Ideal.hostScatterAdd d x idx upd (ix1 n)
      = x (ix1 n)
        + ∑ e ∈ Finset.univ.filter (fun e : Fin U => (idx (ix2 e (0 : Fin 1))).toInt = (n.val : Int)), upd (ix1 e) := by
  unfold Ideal.hostScatterAdd
  refine congrArg (x (ix1 n) + ·) ?_
  refine Finset.sum_bij' (fun j _ => vecRow j) (fun e _ => ix1 e) ?_ ?_ ?_ ?_ ?_
  · intro j hj
    rw [Finset.mem_filter] at hj ⊢
    exact ⟨Finset.mem_univ _, (resultIdx_v_iff d h1 h2 h3 h4 idx j n).1 hj.2⟩
  · intro e he
    rw [Finset.mem_filter] at he ⊢
    refine ⟨Finset.mem_univ _, (resultIdx_v_iff d h1 h2 h3 h4 idx (ix1 e) n).2 ?_⟩
    exact he.2
  · intro j _
    exact (eq_ix1 j).symm
  · intro e _
    exact Fin.ext rfl
  · intro j _
    exact congrArg upd (eq_ix1 j)

/-! ## The column gather -/

section Gather
variable {α : Type}

/-- THE COLUMN GATHER READ AT AN INDEX: result index `(b, e)` reads the operand at `(b, gRow e)`: on the row axis the
    offset coordinate and nothing else, on the column axis the clamped start and nothing else (the axis is collapsed). -/
theorem gather_cols_apply (hN : 0 < N) (d : GatherDims (Opnd B N) (Tbl U) (Upd B U))
    (g1 : d.offsetDims = [0]) (g2 : d.collapsedSliceDims = [1]) (g3 : d.operandBatchingDims = [])
    (g5 : d.startIndexMap = [1]) (g6 : d.indexVectorDim = 1) (g7 : d.sliceSizes = ![B, 1])
    (x : (Opnd B N).Idx → α) (idx : IVec (Tbl U) w) (b : Fin B) (e : Fin U) :
    Host.gather d x idx (ix2 b e) = x (ix2 b (gRow hN idx e)) := by
  obtain ⟨od, cd, ob, sb, sm, iv, ss, wf⟩ := d
  dsimp only at g1 g2 g3 g5 g6 g7
  subst g1 g2 g3 g5 g6 g7
  unfold Host.gather
  refine congrArg x (funext ?_)
  refine Fin.forall_fin_two.2 ⟨?_, ?_⟩
  · apply Fin.ext
    show GatherDims.start _ (ix2 b e) idx 0 + GatherDims.batchCoord _ (ix2 b e) 0 + GatherDims.offCoord _ (ix2 b e) 0 = b.val
    rw [GatherDims.batchCoord_eq_zero _ _ _ List.not_mem_nil]
    unfold GatherDims.start
    rw [dif_neg (show (0 : Fin 2) ∉ ([1] : List (Fin 2)) by decide)]
    simp only [Nat.zero_add, Nat.add_zero]
    rfl
  · apply Fin.ext
    show GatherDims.start _ (ix2 b e) idx 1 + GatherDims.batchCoord _ (ix2 b e) 1 + GatherDims.offCoord _ (ix2 b e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ ([1] : List (Fin 2)) from List.mem_singleton.mpr rfl)]
    refine congrArg (fun q => min (idx q).toInt.toNat (N - 1)) ?_
    funext a
    refine Fin.ext ?_
    match a with
    | ⟨0, _⟩ => rfl
    | ⟨1, _⟩ => rfl

end Gather

end ScatterCols

end
-- ==== Proof.LibScaleSum.lean ====
/-
  A non-negative finite scale moved across a finite sum of extended reals, and a clipped power that is such a scale.

  The extended reals are not a ring: a product distributes over a sum only under side conditions, because
  `⊤ + ⊥ = ⊥` while a negative or infinite factor can turn the two summands round.  A factor `c` with `0 ≤ c` and
  `c ≠ ⊤` does distribute over every sum, finite or not in its terms, and so it may be moved from outside a
  contraction `(∑ₖ aₖ · wₖ) · c` onto one factor of each term, `∑ₖ (aₖ · c) · wₖ`: the step between normalising
  the rows of a matrix product after the product and normalising the rows of its left factor before it.

  The scale met with in degree normalisation is `(max 1 d) ^ (-1/2)`.  Whatever `d` is — a count, or `⊤` — the base
  is at least `1`, and the power is a non-negative real: `⊤ ^ (-1/2) = 0`, and a real base `x ≥ 1` gives `x ^ (-1/2)`
  in `(0, 1]`.
-/
import Idealize.ShloMosaic.PureOps.Ideal

noncomputable section

namespace Cert.ScaleSum

open Idealize.ShloMosaic

/-- A factor `c` with `0 ≤ c`, `c ≠ ⊤` distributes over a finite sum of extended reals from the right. -/
theorem sum_mul_of_nonneg_of_ne_top {K : Type*} (s : Finset K) (f : K → EReal) {c : EReal} (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top h0 ht, ih]

/-- The scale moved across a contraction: `(∑ₖ aₖ · wₖ) · c = ∑ₖ (aₖ · c) · wₖ` for `0 ≤ c`, `c ≠ ⊤`. -/
theorem contraction_mul_scale {K : Type*} [Fintype K] (a w : K → EReal) {c : EReal} (h0 : 0 ≤ c) (ht : c ≠ ⊤) :
    (∑ k, a k * w k) * c = ∑ k, (a k * c) * w k := by
  rw [sum_mul_of_nonneg_of_ne_top _ _ h0 ht]
  exact Finset.sum_congr rfl fun k _ => mul_right_comm _ _ _

/-- The f32 pattern of `1.0` denotes `1`. -/
theorem ofBits_one : Ideal.ofBits .f32 0x3F800000#32 = 1 := by
  simp [Ideal.ofBits, Ideal.ieee, -EReal.coe_mul]; norm_num

/-- The f32 pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- A base of at least `1` raised to a negative real is a non-negative extended real other than `⊤`. -/
theorem pow_nonneg_ne_top_of_one_le {x : EReal} (hx : 1 ≤ x) {y : ℝ} (hy : y < 0) :
    0 ≤ Ideal.pow x (y : EReal) ∧ Ideal.pow x (y : EReal) ≠ ⊤ := by
  induction x using EReal.rec with
  | bot => exact absurd hx (not_le.mpr (by exact_mod_cast EReal.bot_lt_coe 1))
  | top =>
    have h1 : ¬ (0 : EReal) < (y : EReal) := by
      rw [not_lt]; exact_mod_cast hy.le
    have h2 : ¬ ((y : EReal) = 0) := by
      exact_mod_cast hy.ne
    rw [Ideal.pow_top, if_neg h1, if_neg h2]
    exact ⟨le_refl _, EReal.zero_ne_top⟩
  | coe r =>
    have hr : (1 : ℝ) ≤ r := by exact_mod_cast hx
    rw [Ideal.pow_coe_coe]
    refine ⟨?_, EReal.coe_ne_top _⟩
    exact_mod_cast Real.rpow_nonneg (le_trans zero_le_one hr) y

/-- The degree normalisation `(max 1.0 d) ^ (-0.5)`, spelt with the f32 patterns, is a scale that distributes. -/
theorem clipped_pow_scale (d : EReal) :
    0 ≤ Ideal.pow (max (Ideal.ofBits .f32 0x3F800000#32) d) (Ideal.ofBits .f32 0xBF000000#32)
    ∧ Ideal.pow (max (Ideal.ofBits .f32 0x3F800000#32) d) (Ideal.ofBits .f32 0xBF000000#32) ≠ ⊤ := by
  rw [ofBits_one, ofBits_neg_half]
  exact pow_nonneg_ne_top_of_one_le (le_max_left _ _) (by norm_num)

end Cert.ScaleSum

end
-- ==== Proof.KHostDeg.lean ====
/-
  The degrees and their inverse square roots as the program computes them. The degree vector is an accumulating scatter
  of ones by the targets' table into a vector of zeros: entry `v` is the number of messages into node `v`. The
  next entry-wise steps select the reciprocal square root where the degree is positive and zero elsewhere.
-/
import proofs.«143928_j37108517437617_1_alg».proof.Proof.KHostTabs
import proofs.«143928_j37108517437617_1_alg».proof.Proof.LibScatterCols
import proofs.«143928_j37108517437617_1_alg».proof.Proof.LibScaleSum
import Idealize.ShloMosaic.PureOps.Ideal.Laws

set_option maxRecDepth 16384

noncomputable section

namespace Cert.KernelIdeal.KHost

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- A scalar spread over a vector of floats, read at an entry. -/
theorem fsplat_apply {T : Shape} (h : S_.BroadcastsInDim T (![] : Fin 0 → Fin T.rank)) (b : BitVec 32) (i : T.Idx) :
    broadcastInDim T ![] h (constant (F := Ideal) S_ .f32 b) i = Ideal.ofBits .f32 b :=
  (broadcastInDim_apply _ h (constant (F := Ideal) S_ .f32 b) i (fun a => a.elim0) (fun a => a.elim0)).trans rfl

/-- The degree vector `main_v10` as the host stretch's operations give it. -/
theorem v10_term : (W1 m ρ c (Proc.devRef .tc main_v10) : S10000.Idx → EReal)
    = Host.scatterAdd (F := Ideal) scatter_S10000_S170000x1_S170000_n_0_0_1
        (broadcastInDim S10000 ![] bcast_S_S10000 (constant (F := Ideal) S_ .f32 0x00000000#32))
        (broadcastInDim S170000x1 ![0] bcast_S170000_S170000x1_0 (W1 m ρ c (Proc.devRef .tc main_v6)))
        (broadcastInDim S170000 ![] bcast_S_S170000 (constant (F := Ideal) S_ .f32 0x3F800000#32)) := by
  rw [v6_term]
  show StableHlo.after hostOps0 (W0 m ρ c) (Proc.devRef .tc main_v10) = _
  after_results_simp
  rfl

/-- The three operations of the selection, over any contents of the buffers they read. -/
theorem where_term (V : Valuation τ sig (Elt Ideal)) :
    (StableHlo.after hostOps0_1 V (Proc.devRef .tc main_v14) : S10000.Idx → EReal)
      = select (V (Proc.devRef .tc main_v12) : S10000.Idx → BitVec 1) (V (Proc.devRef .tc main_v13) : S10000.Idx → EReal)
          (broadcastInDim S10000 ![] bcast_S_S10000 (V (Proc.devRef .tc main_cst_2) : S_.Idx → EReal)) := by
  after_results_simp
  rfl

/-- The vector `main_v14` in terms of the degree vector: the reciprocal square root selected where the degree is
    positive, zero elsewhere. -/
theorem v14_term : (W2 m ρ c (Proc.devRef .tc main_v14) : S10000.Idx → EReal)
    = select (cmpf .ogt (W1 m ρ c (Proc.devRef .tc main_v10))
          (broadcastInDim S10000 ![] bcast_S_S10000 (constant (F := Ideal) S_ .f32 0x00000000#32)))
        (Host.rsqrt (F := Ideal) (s := S10000) (φ := .f32) (W1 m ρ c (Proc.devRef .tc main_v10)))
        (broadcastInDim S10000 ![] bcast_S_S10000 (constant (F := Ideal) S_ .f32 0x00000000#32)) := by
  have e12 : (W1 m ρ c (Proc.devRef .tc main_v12) : S10000.Idx → BitVec 1)
      = cmpf .ogt (W1 m ρ c (Proc.devRef .tc main_v10))
          (broadcastInDim S10000 ![] bcast_S_S10000 (constant (F := Ideal) S_ .f32 0x00000000#32)) := by
    rw [v10_term, v6_term]
    show StableHlo.after hostOps0 (W0 m ρ c) (Proc.devRef .tc main_v12) = _
    after_results_simp
    rfl
  have e13 : (W1 m ρ c (Proc.devRef .tc main_v13) : S10000.Idx → EReal)
      = Host.rsqrt (F := Ideal) (s := S10000) (φ := .f32) (W1 m ρ c (Proc.devRef .tc main_v10)) := by
    rw [v10_term, v6_term]
    show StableHlo.after hostOps0 (W0 m ρ c) (Proc.devRef .tc main_v13) = _
    after_results_simp
    rfl
  have ec : (W1 m ρ c (Proc.devRef .tc main_cst_2) : S_.Idx → EReal) = constant (F := Ideal) S_ .f32 0x00000000#32 := by
    show StableHlo.after hostOps0 (W0 m ρ c) (Proc.devRef .tc main_cst_2) = _
    after_results_simp
  rw [← e12, ← e13, ← ec]
  exact where_term (W1 m ρ c)

variable (hr : Gcn.InRange (ei m c))
include hr

/-- Entry `v` of the degree vector is the number of messages into node `v`. -/
theorem deg_apply (v : Fin 10000) :
    W1 m ρ c (Proc.devRef .tc main_v10) (ix1 v) = Gcn.deg (Gcn.dstTab (ei m c)) v := by
  rw [v10_term]
  refine (ScatterCols.scatterAdd_vec_drop scatter_S10000_S170000x1_S170000_n_0_0_1 rfl rfl rfl rfl _ _ _ v).trans ?_
  rw [fsplat_apply, Ideal.ofBits_zero_f32, zero_add, WordTables.column_eq (by decide) bcast_S170000_S170000x1_0]
  unfold Gcn.deg
  refine Finset.sum_congr (Finset.filter_congr fun e _ => ?_) fun e _ => ?_
  · rw [WordTables.colTbl_apply, v6_word m ρ c hr e]
    constructor
    · intro h; exact Fin.ext (by exact_mod_cast h)
    · intro h; rw [h]
  · rw [fsplat_apply]; exact Cert.ScaleSum.ofBits_one

/-- Entry `v` of `main_v14` is the inverse square root of node `v`'s degree (zero where the degree is not positive). -/
theorem dinv_apply (v : Fin 10000) :
    W2 m ρ c (Proc.devRef .tc main_v14) (ix1 v) = Gcn.dinv (Gcn.dstTab (ei m c)) v := by
  have hrs : ∀ x : S10000.Idx → EReal, Host.rsqrt (F := Ideal) (s := S10000) (φ := .f32) x (ix1 v) = Ideal.rsqrt (x (ix1 v)) :=
    fun x => rfl
  rw [v14_term, select_apply, cmpf_apply, hrs, fsplat_apply, Ideal.ofBits_zero_f32, deg_apply m ρ c hr v]
  unfold Gcn.dinv
  generalize Gcn.deg (Gcn.dstTab (ei m c)) v = dg
  show Scalar.select (Ideal.cmp .ogt dg 0) (Ideal.rsqrt dg) 0 = _
  unfold Scalar.select Ideal.cmp
  by_cases h : 0 < dg
  · rw [if_pos h]; simp [h]
  · rw [if_neg h]; simp [h]

end Cert.KernelIdeal.KHost

end
-- ==== Proof.KHostAdjTerm.lean ====
/-
  The dense normalised adjacency as a term of the host operations. The last of the first three host stretches is read
  in two parts: its first 37 operations leave the weights' vector (a product of two gathers), the two index columns
  (the targets' and the sources' words, each with the negative-index wrap, stood up as columns) and an array of zeros;
  the next three operations set the two columns side by side, add the weights into the zeros at the indexed entries and
  change the format.
-/
import proofs.«143928_j37108517437617_1_alg».proof.Proof.KHostTabs
import proofs.«143928_j37108517437617_1_alg».proof.Proof.LibGatherVec

set_option maxRecDepth 16384

noncomputable section

namespace Cert.KernelIdeal.KHost

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## Two columns side by side -/

/-- Two one-column tables side by side, read in the first column. -/
theorem cols_left (x y : S170000x1.Idx → BitVec 32) (e : Fin 170000) :
    concatenate S170000x2 1 [⟨S170000x1, x⟩, ⟨S170000x1, y⟩] concatenates_S170000x1_S170000x1_S170000x2_d1 (ix2 e (0 : Fin 2))
      = x (ix2 e (0 : Fin 1)) :=
  concatenate_apply_piece 1 [⟨S170000x1, x⟩, ⟨S170000x1, y⟩] concatenates_S170000x1_S170000x1_S170000x2_d1 (ix2 e (0 : Fin 2)) 0
    (by show 0 < 2; omega) S170000x1 x rfl rfl 0 rfl (ix2 e (0 : Fin 1))
    (fun b hb => by match b with
      | ⟨0, _⟩ => rfl
      | ⟨1, _⟩ => exact absurd rfl hb) rfl

/-- Two one-column tables side by side, read in the second column. -/
theorem cols_right (x y : S170000x1.Idx → BitVec 32) (e : Fin 170000) :
    concatenate S170000x2 1 [⟨S170000x1, x⟩, ⟨S170000x1, y⟩] concatenates_S170000x1_S170000x1_S170000x2_d1 (ix2 e (1 : Fin 2))
      = y (ix2 e (0 : Fin 1)) :=
  concatenate_apply_piece 1 [⟨S170000x1, x⟩, ⟨S170000x1, y⟩] concatenates_S170000x1_S170000x1_S170000x2_d1 (ix2 e (1 : Fin 2)) 1
    (by show 1 < 2; omega) S170000x1 y rfl rfl 1 rfl (ix2 e (0 : Fin 1))
    (fun b hb => by match b with
      | ⟨0, _⟩ => rfl
      | ⟨1, _⟩ => exact absurd rfl hb) rfl

/-! ## The wrap of a vector of words, stood up as a column -/

/-- A vector of words with the negative-index wrap by `k`, as the program spells it, stood up as a column. -/
def wrapCol (k : BitVec 32) (x : S170000.Idx → BitVec 32) : S170000x1.Idx → BitVec 32 :=
  broadcastInDim S170000x1 ![0] bcast_S170000_S170000x1_0
    (select (cmpi .slt x (broadcastInDim S170000 ![] bcast_S_S170000 (constantI S_ 32 0#32)))
      (addi x (broadcastInDim S170000 ![] bcast_S_S170000 (constantI S_ 32 k))) x)

/-- Its word `e` is the vector's word `e` when that reads, signed, as a non-negative number. -/
theorem wrapCol_apply (k : BitVec 32) (x : S170000.Idx → BitVec 32) (e : Fin 170000) (h : 0 ≤ (x (ix1 e)).toInt) :
    wrapCol k x (ix2 e (0 : Fin 1)) = x (ix1 e) := by
  unfold wrapCol
  rw [WordTables.wrap_column_eq (U := 170000) (by decide) bcast_S170000_S170000x1_0 bcast_S_S170000 k x,
    WordTables.wrapTbl_apply]
  exact GatherVec.wrap_of_nonneg _ _ h

/-- The entry a gather from 10000 entries reads for message `e` is the node the word names. -/
theorem gRow_wrapCol (k : BitVec 32) (x : S170000.Idx → BitVec 32) (e : Fin 170000) (v : Fin 10000)
    (h : (x (ix1 e)).toInt = (v.val : Int)) :
    ScatterDrop.gRow (R := 10000) (by decide) (wrapCol k x) e = v := by
  have h0 : 0 ≤ (x (ix1 e)).toInt := by rw [h]; exact Int.natCast_nonneg _
  unfold ScatterDrop.gRow
  refine Fin.ext ?_
  show min (wrapCol k x (ix2 e (0 : Fin 1))).toInt.toNat (10000 - 1) = v.val
  rw [wrapCol_apply k x e h0, h]
  have := v.isLt
  omega

/-! ## The host stretch in two parts -/

section Parts

variable (V : Valuation τ sig (Elt Ideal))

/-- The stretch's contents are its last eight operations' on what its first 37 leave. -/
theorem split37 (r : DevRef τ sig) :
    StableHlo.after hostOps0_2 V r = StableHlo.after (List.drop 37 hostOps0_2) (StableHlo.after (List.take 37 hostOps0_2) V) r := rfl

/-- The weights' vector the first part leaves: the product of two gathers from `main_v14`. -/
theorem head_v29 : (StableHlo.after (List.take 37 hostOps0_2) V (Proc.devRef .tc main_v29) : S170000.Idx → EReal)
    = mulf (F := Ideal) (s := S170000) (φ := .f32)
        (Host.gather gather_S10000_S170000x1_S170000_n_0_n_n_0_1_1 (V (Proc.devRef .tc main_v14) : S10000.Idx → EReal)
          (wrapCol 10000#32 (V (Proc.devRef .tc main_v5))))
        (Host.gather gather_S10000_S170000x1_S170000_n_0_n_n_0_1_1 (V (Proc.devRef .tc main_v14) : S10000.Idx → EReal)
          (wrapCol 10000#32 (V (Proc.devRef .tc main_v6)))) := by
  unfold wrapCol
  dsimp only [hostOps0_2, List.take_succ_cons, List.take_zero]
  after_results_simp

/-- The same vector after the whole stretch. -/
theorem full_v29 : (StableHlo.after hostOps0_2 V (Proc.devRef .tc main_v29) : S170000.Idx → EReal)
    = mulf (F := Ideal) (s := S170000) (φ := .f32)
        (Host.gather gather_S10000_S170000x1_S170000_n_0_n_n_0_1_1 (V (Proc.devRef .tc main_v14) : S10000.Idx → EReal)
          (wrapCol 10000#32 (V (Proc.devRef .tc main_v5))))
        (Host.gather gather_S10000_S170000x1_S170000_n_0_n_n_0_1_1 (V (Proc.devRef .tc main_v14) : S10000.Idx → EReal)
          (wrapCol 10000#32 (V (Proc.devRef .tc main_v6)))) := by
  unfold wrapCol
  after_results_simp

/-- The targets' column the first part leaves. -/
theorem head_v41 : (StableHlo.after (List.take 37 hostOps0_2) V (Proc.devRef .tc main_v41) : S170000x1.Idx → BitVec 32)
    = wrapCol 10240#32 (V (Proc.devRef .tc main_v6)) := by
  unfold wrapCol
  dsimp only [hostOps0_2, List.take_succ_cons, List.take_zero]
  after_results_simp

/-- The sources' column the first part leaves. -/
theorem head_v42 : (StableHlo.after (List.take 37 hostOps0_2) V (Proc.devRef .tc main_v42) : S170000x1.Idx → BitVec 32)
    = wrapCol 10240#32 (V (Proc.devRef .tc main_v5)) := by
  unfold wrapCol
  dsimp only [hostOps0_2, List.take_succ_cons, List.take_zero]
  after_results_simp

/-- The array of zeros the first part leaves. -/
theorem head_v30 : (StableHlo.after (List.take 37 hostOps0_2) V (Proc.devRef .tc main_v30) : S10240x10240.Idx → EReal)
    = broadcastInDim S10240x10240 ![] bcast_S_S10240x10240 (constant (F := Ideal) S_ .f32 0x00000000#32) := by
  dsimp only [hostOps0_2, List.take_succ_cons, List.take_zero]
  after_results_simp

/-- The adjacency the second part leaves, over any contents `G` it starts from. -/
theorem tail_v45 (G : Valuation τ sig (Elt Ideal)) :
    (StableHlo.after (List.drop 37 hostOps0_2) G (Proc.devRef .tc main_v45) : S10240x10240.Idx → EReal)
    = truncf (F := Ideal) (s := S10240x10240) (φ := .f32) .bf16
        (Host.scatterAdd (F := Ideal) (φ := .f32) scatter_S10240x10240_S170000x2_S170000_n_01_01_1
          (G (Proc.devRef .tc main_v30) : S10240x10240.Idx → EReal)
          (concatenate S170000x2 1 [⟨S170000x1, (G (Proc.devRef .tc main_v41) : S170000x1.Idx → BitVec 32)⟩,
            ⟨S170000x1, (G (Proc.devRef .tc main_v42) : S170000x1.Idx → BitVec 32)⟩] concatenates_S170000x1_S170000x1_S170000x2_d1)
          (G (Proc.devRef .tc main_v29) : S170000.Idx → EReal)) bitsLt_bf16_f32 := by
  simp only [hostOps0_2, List.drop_succ_cons, List.drop_zero]
  after_results_simp

end Parts

/-- The weights' vector `main_v29`: the product of two gathers from `main_v14`. -/
theorem v29_term : (W3 m ρ c (Proc.devRef .tc main_v29) : S170000.Idx → EReal)
    = mulf (F := Ideal) (s := S170000) (φ := .f32)
        (Host.gather gather_S10000_S170000x1_S170000_n_0_n_n_0_1_1 (W2 m ρ c (Proc.devRef .tc main_v14) : S10000.Idx → EReal)
          (wrapCol 10000#32 (W2 m ρ c (Proc.devRef .tc main_v5))))
        (Host.gather gather_S10000_S170000x1_S170000_n_0_n_n_0_1_1 (W2 m ρ c (Proc.devRef .tc main_v14) : S10000.Idx → EReal)
          (wrapCol 10000#32 (W2 m ρ c (Proc.devRef .tc main_v6)))) := by
  exact full_v29 (W2 m ρ c)

/-- The adjacency `main_v45`: the weights added into zeros at (target, source), then the change of format. -/
theorem v45_term : (W3 m ρ c (Proc.devRef .tc main_v45) : S10240x10240.Idx → EReal)
    = truncf (F := Ideal) (s := S10240x10240) (φ := .f32) .bf16
        (Host.scatterAdd (F := Ideal) (φ := .f32) scatter_S10240x10240_S170000x2_S170000_n_01_01_1
          (broadcastInDim S10240x10240 ![] bcast_S_S10240x10240 (constant (F := Ideal) S_ .f32 0x00000000#32))
          (concatenate S170000x2 1 [⟨S170000x1, wrapCol 10240#32 (W2 m ρ c (Proc.devRef .tc main_v6))⟩,
            ⟨S170000x1, wrapCol 10240#32 (W2 m ρ c (Proc.devRef .tc main_v5))⟩] concatenates_S170000x1_S170000x1_S170000x2_d1)
          (W3 m ρ c (Proc.devRef .tc main_v29))) bitsLt_bf16_f32 := by
  rw [v29_term, ← head_v29 (W2 m ρ c), ← head_v41 (W2 m ρ c), ← head_v42 (W2 m ρ c), ← head_v30 (W2 m ρ c)]
  exact (split37 (W2 m ρ c) (Proc.devRef .tc main_v45)).trans (tail_v45 _)

end Cert.KernelIdeal.KHost

end
-- ==== Proof.LibScatterEntries.lean ====
/-
  Reading an accumulating scatter at an entry, when the scatter is by ENTRIES.

  The operand is an `R × C` array, the updates a vector of `U` entries, and the index table has two columns: update
  `u` is added to the operand's entry `(ρ u, σ u)`, where the table's row `u` holds the row number in its first word
  and the column number in its second. (Dimension numbers: the updates have no window axis, both operand axes are
  inserted, start component 0 goes to operand axis 0 and component 1 to axis 1, the index vector is the table's
  axis 1.)  On the extended reals the accumulating scatter is an exact sum, so at an entry `(a, c)` its result is the
  operand's entry plus the sum of `upd u` over the updates `u` whose two words read, signed, as `a` and `c` — in
  whatever order: addition of extended reals is commutative and associative. An update whose words point outside the
  operand lands nowhere and contributes to no entry.
-/
import Idealize.ShloMosaic.PureOps.Ideal
import Idealize.ShloMosaic.Lib.ValueIdx

noncomputable section

namespace ScatterEntries

open Idealize.ShloMosaic Idealize.ShloMosaic.ValueIdx

/-- The operand's shape, `R` rows of `C` entries. -/
abbrev Opnd (R C : Nat) : Shape := ⟨2, ![R, C]⟩
/-- The index table's shape: a row number and a column number per update. -/
abbrev Tbl (U : Nat) : Shape := ⟨2, ![U, 2]⟩
/-- The updates' shape: a vector of `U` entries. -/
abbrev Upd (U : Nat) : Shape := ⟨1, ![U]⟩

variable {R C U w : Nat}

/-- An update index as a plain `Fin U`. -/
abbrev updRow (j : (Upd U).Idx) : Fin U := ⟨(j 0).val, (j 0).isLt⟩

/-- A valid index into a one-element list reads its element. -/
theorem getElem_singleton_any {α : Type} (a : α) (k : Nat) (hk : k < [a].length) : [a][k]'hk = a := by
  have h0 : k = 0 := by simpa using hk
  subst h0; rfl

/-- The same for a list that equals a one-element list. -/
theorem getElem_of_eq_singleton {α : Type} (l : List α) (a : α) (hl : l = [a]) (k : Nat) (hk : k < l.length) :
    l[k]'hk = a := by
  subst hl; exact getElem_singleton_any a k hk

/-- On the row axis the target coordinate of update `j` is the first word of the table's row `j`, read signed: the
    start component comes from the table, and there is no window. -/
theorem coord_row (d : ScatterDims (Opnd R C) (Tbl U) (Upd U))
    (h1 : d.updateWindowDims = []) (h2 : d.insertedWindowDims = [0, 1]) (h3 : d.scatterDimsToOperandDims = [0, 1])
    (h4 : d.indexVectorDim = 1) (idx : IVec (Tbl U) w) (j : (Upd U).Idx) :
    d.start j idx 0 + (d.window j 0 : Int) = (idx (ix2 (updRow j) (0 : Fin 2))).toInt := by
  obtain ⟨uw, iw, sd, iv, wf⟩ := d
  dsimp only at h1 h2 h3 h4
  subst h1 h2 h3 h4
  have m0 : (0 : Fin 2) ∈ ([0, 1] : List (Fin 2)) := by decide
  have k0 : (0 : Fin 2) ∉ ScatterDims.sKept (⟨[], [0, 1], [0, 1], 1, wf⟩ : ScatterDims (Opnd R C) (Tbl U) (Upd U)) := by
    show (0 : Fin 2) ∉ (List.finRange 2).filter (fun x => decide (x ∉ ([0, 1] : List (Fin 2))))
    decide
  have hu : ScatterDims.uScatter (⟨[], [0, 1], [0, 1], 1, wf⟩ : ScatterDims (Opnd R C) (Tbl U) (Upd U)) = [0] := by
    show (List.finRange 1).filter (fun x => decide (x ∉ ([] : List (Fin 1)))) = [0]
    decide
  simp only [ScatterDims.start, ScatterDims.window]
  rw [dif_pos m0, dif_neg k0]
  simp only [Nat.cast_zero, add_zero]
  refine congrArg (fun q => (idx q).toInt) (funext ?_)
  refine Fin.forall_fin_two.2 ⟨?_, ?_⟩
  · apply Fin.ext
    simp only [ScatterDims.siIdx]
    split
    · rename_i h
      exact absurd h Nat.zero_ne_one
    · unfold ScatterDims.siCoord
      simp only [Fin.coe_cast]
      exact congrArg (fun a => (j a).val) (getElem_of_eq_singleton _ 0 hu _ _)
  · apply Fin.ext
    simp only [ScatterDims.siIdx]
    split
    · rfl
    · rename_i h
      exact absurd rfl h

/-- On the column axis the target coordinate of update `j` is the second word of the table's row `j`, read signed. -/
theorem coord_col (d : ScatterDims (Opnd R C) (Tbl U) (Upd U))
    (h1 : d.updateWindowDims = []) (h2 : d.insertedWindowDims = [0, 1]) (h3 : d.scatterDimsToOperandDims = [0, 1])
    (h4 : d.indexVectorDim = 1) (idx : IVec (Tbl U) w) (j : (Upd U).Idx) :
    d.start j idx 1 + (d.window j 1 : Int) = (idx (ix2 (updRow j) (1 : Fin 2))).toInt := by
  obtain ⟨uw, iw, sd, iv, wf⟩ := d
  dsimp only at h1 h2 h3 h4
  subst h1 h2 h3 h4
  have m1 : (1 : Fin 2) ∈ ([0, 1] : List (Fin 2)) := by decide
  have k1 : (1 : Fin 2) ∉ ScatterDims.sKept (⟨[], [0, 1], [0, 1], 1, wf⟩ : ScatterDims (Opnd R C) (Tbl U) (Upd U)) := by
    show (1 : Fin 2) ∉ (List.finRange 2).filter (fun x => decide (x ∉ ([0, 1] : List (Fin 2))))
    decide
  have hu : ScatterDims.uScatter (⟨[], [0, 1], [0, 1], 1, wf⟩ : ScatterDims (Opnd R C) (Tbl U) (Upd U)) = [0] := by
    show (List.finRange 1).filter (fun x => decide (x ∉ ([] : List (Fin 1)))) = [0]
    decide
  simp only [ScatterDims.start, ScatterDims.window]
  rw [dif_pos m1, dif_neg k1]
  simp only [Nat.cast_zero, add_zero]
  refine congrArg (fun q => (idx q).toInt) (funext ?_)
  refine Fin.forall_fin_two.2 ⟨?_, ?_⟩
  · apply Fin.ext
    simp only [ScatterDims.siIdx]
    split
    · rename_i h
      exact absurd h Nat.zero_ne_one
    · unfold ScatterDims.siCoord
      simp only [Fin.coe_cast]
      exact congrArg (fun a => (j a).val) (getElem_of_eq_singleton _ 0 hu _ _)
  · apply Fin.ext
    simp only [ScatterDims.siIdx]
    split
    · rfl
    · rename_i h
      exact absurd rfl h

/-- WHERE AN UPDATE LANDS. Update `j` lands at entry `(a, c)` exactly when the two words of the table's row `j` read,
    signed, as `a` and as `c`; an update whose words point outside the operand lands nowhere. -/
theorem resultIdx_iff (d : ScatterDims (Opnd R C) (Tbl U) (Upd U))
    (h1 : d.updateWindowDims = []) (h2 : d.insertedWindowDims = [0, 1]) (h3 : d.scatterDimsToOperandDims = [0, 1])
    (h4 : d.indexVectorDim = 1) (idx : IVec (Tbl U) w) (j : (Upd U).Idx) (a : Fin R) (c : Fin C) :
    d.resultIdx? j idx = some (ix2 a c)
      ↔ (idx (ix2 (updRow j) (0 : Fin 2))).toInt = (a.val : Int) ∧ (idx (ix2 (updRow j) (1 : Fin 2))).toInt = (c.val : Int) := by
  have c0 := coord_row d h1 h2 h3 h4 idx j
  have c1 := coord_col d h1 h2 h3 h4 idx j
  unfold ScatterDims.resultIdx?
  split
  · rename_i hall
    have p0 := (hall 0).1
    have p1 := (hall 1).1
    constructor
    · intro h
      have h' := Option.some.inj h
      have e0 : (d.start j idx 0 + (d.window j 0 : Int)).toNat = a.val := congrArg Fin.val (congrFun h' 0)
      have e1 : (d.start j idx 1 + (d.window j 1 : Int)).toNat = c.val := congrArg Fin.val (congrFun h' 1)
      rw [← c0, ← c1]
      constructor <;> omega
    · rintro ⟨hr, hc⟩
      refine congrArg some (funext ?_)
      refine Fin.forall_fin_two.2 ⟨?_, ?_⟩
      · apply Fin.ext
        show (d.start j idx 0 + (d.window j 0 : Int)).toNat = a.val
        rw [c0, hr, Int.toNat_natCast]
      · apply Fin.ext
        show (d.start j idx 1 + (d.window j 1 : Int)).toNat = c.val
        rw [c1, hc, Int.toNat_natCast]
  · rename_i hall
    constructor
    · intro h
      exact absurd h (by simp)
    · rintro ⟨hr, hc⟩
      refine absurd ?_ hall
      refine Fin.forall_fin_two.2 ⟨?_, ?_⟩
      · rw [c0, hr]
        exact ⟨Int.natCast_nonneg _, by exact_mod_cast a.isLt⟩
      · rw [c1, hc]
        exact ⟨Int.natCast_nonneg _, by exact_mod_cast c.isLt⟩

/-- THE SCATTER READ AT AN ENTRY, with no hypothesis on the table: the operand's entry plus the sum of the updates
    whose two words read, signed, as this row and this column. -/
theorem scatterAdd_entries_drop (d : ScatterDims (Opnd R C) (Tbl U) (Upd U))
    (h1 : d.updateWindowDims = []) (h2 : d.insertedWindowDims = [0, 1]) (h3 : d.scatterDimsToOperandDims = [0, 1])
    (h4 : d.indexVectorDim = 1) (idx : IVec (Tbl U) w)
    (x : (Opnd R C).Idx → EReal) (upd : (Upd U).Idx → EReal) (a : Fin R) (c : Fin C) :
    Ideal.hostScatterAdd d x idx upd (ix2 a c)
      = x (ix2 a c)
        + ∑ u ∈ Finset.univ.filter (fun u : Fin U =>
            (idx (ix2 u (0 : Fin 2))).toInt = (a.val : Int) ∧ (idx (ix2 u (1 : Fin 2))).toInt = (c.val : Int)), upd (ix1 u) := by
  unfold Ideal.hostScatterAdd
  refine congrArg (x (ix2 a c) + ·) ?_
  refine Finset.sum_bij' (fun j _ => updRow j) (fun u _ => ix1 u) ?_ ?_ ?_ ?_ ?_
  · intro j hj
    rw [Finset.mem_filter] at hj ⊢
    exact ⟨Finset.mem_univ _, (resultIdx_iff d h1 h2 h3 h4 idx j a c).1 hj.2⟩
  · intro u hu
    rw [Finset.mem_filter] at hu ⊢
    refine ⟨Finset.mem_univ _, (resultIdx_iff d h1 h2 h3 h4 idx (ix1 u) a c).2 ?_⟩
    exact hu.2
  · intro j _
    exact (eq_ix1 j).symm
  · intro u _
    exact Fin.ext rfl
  · intro j _
    exact congrArg upd (eq_ix1 j)

/-- THE SCATTER READ AT AN ENTRY, when the table's words are row and column numbers of the operand: the operand's
    entry plus the sum of the updates that the table sends to this entry. -/
theorem scatterAdd_entries (d : ScatterDims (Opnd R C) (Tbl U) (Upd U))
    (h1 : d.updateWindowDims = []) (h2 : d.insertedWindowDims = [0, 1]) (h3 : d.scatterDimsToOperandDims = [0, 1])
    (h4 : d.indexVectorDim = 1) (ρ : Fin U → Fin R) (σ : Fin U → Fin C) (idx : IVec (Tbl U) w)
    (hρ : ∀ u : Fin U, (idx (ix2 u (0 : Fin 2))).toInt = ((ρ u).val : Int))
    (hσ : ∀ u : Fin U, (idx (ix2 u (1 : Fin 2))).toInt = ((σ u).val : Int))
    (x : (Opnd R C).Idx → EReal) (upd : (Upd U).Idx → EReal) (a : Fin R) (c : Fin C) :
    Ideal.hostScatterAdd d x idx upd (ix2 a c)
      = x (ix2 a c) + ∑ u ∈ Finset.univ.filter (fun u : Fin U => ρ u = a ∧ σ u = c), upd (ix1 u) := by
  rw [scatterAdd_entries_drop d h1 h2 h3 h4 idx x upd a c]
  refine congrArg (x (ix2 a c) + ·) (Finset.sum_congr (Finset.filter_congr fun u _ => ?_) fun _ _ => rfl)
  rw [hρ u, hσ u]
  constructor
  · rintro ⟨hr, hc⟩
    exact ⟨Fin.ext (by exact_mod_cast hr), Fin.ext (by exact_mod_cast hc)⟩
  · rintro ⟨hr, hc⟩
    rw [hr, hc]
    exact ⟨rfl, rfl⟩

end ScatterEntries

end
-- ==== Proof.KHostAdj.lean ====
/-
  The dense normalised adjacency as the program builds it, by coordinates. A message's weight is the product of the
  inverse square roots of the degrees of its two ends, each fetched by a gather at the message's source or target; the
  weights are then added, message by message, into a 10240 x 10240 array of zeros at (target, source). Every index
  word is a node number, so the "negative index" wraps leave the words alone, no gather is clamped and no update is
  dropped: entry (r, q) of the array is the total weight of the messages from q to r.
-/
import proofs.«143928_j37108517437617_1_alg».proof.Proof.KHostDeg
import proofs.«143928_j37108517437617_1_alg».proof.Proof.KHostAdjTerm
import proofs.«143928_j37108517437617_1_alg».proof.Proof.LibScatterEntries

set_option maxRecDepth 16384

noncomputable section

namespace Cert.KernelIdeal.KHost

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

variable (hr : Gcn.InRange (ei m c))
include hr

/-- Word `e` of the sources' vector, still there after the second host stretch. -/
theorem w5_word (e : Fin 170000) :
    (W2 m ρ c (Proc.devRef .tc main_v5) (ix1 e)).toInt = ((Gcn.srcTab (ei m c) e).val : Int) := by
  rw [keep2 m ρ c main_v5 (by decide)]; exact v5_word m ρ c hr e
/-- Word `e` of the targets' vector, still there after the second host stretch. -/
theorem w6_word (e : Fin 170000) :
    (W2 m ρ c (Proc.devRef .tc main_v6) (ix1 e)).toInt = ((Gcn.dstTab (ei m c) e).val : Int) := by
  rw [keep2 m ρ c main_v6 (by decide)]; exact v6_word m ρ c hr e

/-- Entry `e` of the weights' vector is message `e`'s weight. -/
theorem nrm_apply (e : Fin 170000) :
    W3 m ρ c (Proc.devRef .tc main_v29) (ix1 e) = Gcn.nrm (Gcn.srcTab (ei m c)) (Gcn.dstTab (ei m c)) e := by
  rw [v29_term, mulf_apply,
    GatherVec.gather_vec_apply (R := 10000) (U := 170000) (by decide) gather_S10000_S170000x1_S170000_n_0_n_n_0_1_1 rfl rfl rfl rfl rfl rfl,
    GatherVec.gather_vec_apply (R := 10000) (U := 170000) (by decide) gather_S10000_S170000x1_S170000_n_0_n_n_0_1_1 rfl rfl rfl rfl rfl rfl,
    gRow_wrapCol 10000#32 _ e _ (w5_word m ρ c hr e), gRow_wrapCol 10000#32 _ e _ (w6_word m ρ c hr e),
    dinv_apply m ρ c hr, dinv_apply m ρ c hr]
  rfl

/-- THE ADJACENCY by coordinates: entry (r, q) is the total weight of the messages from q to r. -/
theorem adj_eq : Gcn.mat2 (W3 m ρ c (Proc.devRef .tc main_v45))
    = Gcn.adj (Gcn.srcTab (ei m c)) (Gcn.dstTab (ei m c)) := by
  funext r q
  show W3 m ρ c (Proc.devRef .tc main_v45) (ix2 r q) = _
  rw [v45_term, truncf_apply, ScatterDrop.scatterAdd_ideal]
  refine (ScatterEntries.scatterAdd_entries_drop (R := 10240) (C := 10240) (U := 170000)
    scatter_S10240x10240_S170000x2_S170000_n_01_01_1 rfl rfl rfl rfl _ _ _ r q).trans ?_
  rw [fsplat_apply, Ideal.ofBits_zero_f32, zero_add]
  unfold Gcn.adj
  refine Finset.sum_congr (Finset.filter_congr fun e _ => ?_) fun e _ => nrm_apply m ρ c hr e
  have h5 := w5_word m ρ c hr e
  have h6 := w6_word m ρ c hr e
  rw [cols_left, cols_right, wrapCol_apply _ _ e (by rw [h6]; exact Int.natCast_nonneg _),
    wrapCol_apply _ _ e (by rw [h5]; exact Int.natCast_nonneg _), h5, h6]
  constructor
  · rintro ⟨a, b⟩
    exact ⟨Fin.ext (by show (Gcn.dstTab (ei m c) e).val = r.val; exact_mod_cast a),
      Fin.ext (by show (Gcn.srcTab (ei m c) e).val = q.val; exact_mod_cast b)⟩
  · rintro ⟨a, b⟩
    rw [← a, ← b]
    exact ⟨rfl, rfl⟩

end Cert.KernelIdeal.KHost

end
-- ==== Proof.LibPlainDot.lean ====
/-
  A plain matrix product read at an entry.

  A kernel's matrix unit multiplies an [a, k] matrix by a [k, b] matrix into a zero accumulator.  Over the extended
  reals the entry (r, c) of the product is the sum over the k contraction positions of the left entry (r, κ) times the
  right entry (κ, c): the textbook formula, for any contraction record of that plain layout (no batch axis; rows and
  columns kept; the left operand's second axis contracted with the right operand's first).
-/
import Idealize.ShloMosaic.Lib.ValueIdx
import Idealize.ShloMosaic.PureOps.Ideal.Laws

namespace Cert.PlainDot

open Idealize.ShloMosaic Idealize.ShloMosaic.ValueIdx

/-- Two spellings of one axis read the same coordinate. -/
theorem coord_congr {s : Shape} (j : s.Idx) (p q : ℕ) (hp : p < s.rank) (hq : q < s.rank) (h : p = q) :
    (j ⟨p, hp⟩).val = (j ⟨q, hq⟩).val := by subst h; rfl

variable {a k b : ℕ} (D : DotDims ⟨2, ![a, k]⟩ ⟨2, ![k, b]⟩ ⟨2, ![a, b]⟩)

/-- The left operand is read in the result's row. -/
theorem lhs_row (hlb : D.lhsBatch = []) (hln : D.lhsNonContracting = [(0 : Fin 2)])
    (j : (⟨2, ![a, b]⟩ : Shape).Idx) (q : D.contr.Idx) : (D.lhsIdx j q (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand is read in the result's column. -/
theorem rhs_col (hlb : D.lhsBatch = []) (hln : D.lhsNonContracting = [(0 : Fin 2)]) (hrb : D.rhsBatch = [])
    (hrn : D.rhsNonContracting = [(1 : Fin 2)])
    (j : (⟨2, ![a, b]⟩ : Shape).Idx) (q : D.contr.Idx) : (D.rhsIdx j q (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- Entry (r, c) of the product into a zero accumulator is Σ_κ lhs(r, κ) · rhs(κ, c). -/
theorem matmul_zero_apply (hr : D.contr.rank = 1) (hs : D.contr.size ⟨0, by omega⟩ = k)
    (hlb : D.lhsBatch = []) (hln : D.lhsNonContracting = [(0 : Fin 2)]) (hlc : D.lhsContracting = [(1 : Fin 2)])
    (hrb : D.rhsBatch = []) (hrn : D.rhsNonContracting = [(1 : Fin 2)]) (hrc : D.rhsContracting = [(0 : Fin 2)])
    {φ₁ φ₂ : FTy} (prec : Option ContractPrecision)
    (lhs : FVec Ideal ⟨2, ![a, k]⟩ φ₁) (rhs : FVec Ideal ⟨2, ![k, b]⟩ φ₂) (r : Fin a) (c : Fin b) :
    matmul D prec lhs rhs (constant ⟨2, ![a, b]⟩ .f32 0x00000000#32) (ix2 r c) = ∑ κ : Fin k, lhs (ix2 r κ) * rhs (ix2 κ c) := by
  show FloatOps.matmul D prec lhs rhs (constant ⟨2, ![a, b]⟩ .f32 0x00000000#32) (ix2 r c) = _
  rw [Ideal.matmul_constant_zero_apply, ← Equiv.sum_comp (contrEquiv1 D k hr hs).symm]
  refine Finset.sum_congr rfl fun κ _ => ?_
  have hk := contrEquiv1_symm_val D k hr hs κ
  have el : D.lhsIdx (ix2 r c) ((contrEquiv1 D k hr hs).symm κ) = ix2 r κ := funext fun ax => Fin.ext (by
    match ax with
    | ⟨0, _⟩ => exact lhs_row D hlb hln _ _
    | ⟨1, _⟩ => exact (D.lhsIdx_val_of_single hlc _ _).trans hk)
  have er : D.rhsIdx (ix2 r c) ((contrEquiv1 D k hr hs).symm κ) = ix2 κ c := funext fun ax => Fin.ext (by
    match ax with
    | ⟨0, _⟩ => exact (D.rhsIdx_val_of_single hrc _ _).trans hk
    | ⟨1, _⟩ => exact rhs_col D hlb hln hrb hrn _ _)
  rw [el, er]

end Cert.PlainDot
-- ==== Proof.KVal0.lean ====
/-
  The first layer's feature transform as one array: the output of region 0 is the product of the padded features by
  the weight matrix, entry (r, q) being the sum over the 128 input features κ of x(r, κ) · w(κ, q).

  Each of the 8 grid points multiplies a block of 1280 rows of the features by the whole weight matrix (the operands
  pass through a change of float format, the identity on the extended reals) and writes the block of 1280 rows of
  the output; the 8 blocks tile the 10240 rows.
-/
import proofs.«143928_j37108517437617_1_alg».proof.Proof.KI.R0
import proofs.«143928_j37108517437617_1_alg».proof.Proof.Glue
import proofs.«143928_j37108517437617_1_alg».proof.Proof.LibPlainDot
import Idealize.ShloMosaic.Lib.Pipeline.Value

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.ValueIdx Idealize.SL.Sem

theorem hz0 : (![0, 0] : Fin 2 → Nat) = fun _ => 0 := funext fun a => by fin_cases a <;> rfl

/-- The product of an [n, 128] array by a [128, 512] array, as an [n, 512] array. -/
def G0 {n : ℕ} (a0 : (⟨2, ![n, 128]⟩ : Shape).Idx → EReal) (a1 : S128x512.Idx → EReal) :
    (⟨2, ![n, 512]⟩ : Shape).Idx → EReal :=
  fun i => Gcn.lin (Gcn.mat2 a0) (Gcn.mat2 a1) (i 0) (i 1)

/-- The body's payload at an entry: row r of the feature block against column q of the weights. -/
theorem pay0_apply (x0 : Vec Ideal S1280x128 .f32) (x1 : Vec Ideal S128x512 .f32) (r : Fin 1280) (q : Fin 512) :
    k0_pay1 x0 x1 (ix2 r q) = ∑ κ : Fin 128, x0 (ix2 r κ) * x1 (ix2 κ q) := by
  unfold k0_pay1
  refine (Cert.PlainDot.matmul_zero_apply dot_S1280x128_S128x512_S1280x512_1_0_0_1_n_n rfl rfl rfl rfl rfl rfl rfl rfl none _ _ r q).trans ?_
  refine Finset.sum_congr rfl fun κ _ => ?_
  rw [shapeCast_self]
  rfl

/-- The payload of a block of rows is the block of the whole product: an entry of the block's product reads the
    block's row, which is the array's row, and the weights' column. -/
theorem pay0_block (x0 : Vec Ideal S1280x128 .f32) (x1 : Vec Ideal S128x512 .f32)
    (a0 : S10240x128.Idx → EReal) (a1 : S128x512.Idx → EReal) (j : S1280x512.Idx) (i : S10240x512.Idx)
    (h0 : ∀ κ : Fin 128, x0 (ix2 (j 0) κ) = a0 (ix2 (i 0) κ))
    (h1 : ∀ κ : Fin 128, x1 (ix2 κ (j 1)) = a1 (ix2 κ (i 1))) :
    k0_pay1 x0 x1 j = G0 a0 a1 i := by
  refine (congrArg (k0_pay1 x0 x1) (eq_ix2 j)).trans ((pay0_apply x0 x1 (j 0) (j 1)).trans ?_)
  show ∑ κ : Fin 128, x0 (ix2 (j 0) κ) * x1 (ix2 κ (j 1)) = ∑ κ : Fin 128, a0 (ix2 (i 0) κ) * a1 (ix2 κ (i 1))
  exact Finset.sum_congr rfl fun κ _ => by rw [h0 κ, h1 κ]

/-! ## From blocks to the array -/

section Blocks
variable (V : (c : Dev nD) → (b : Ref sig .tc) → Buf (Elt Ideal) ((c : Thread nD τ).loc b))

/-- The printed index maps over the 8 grid points: the feature block and the output block are block t of their
    arrays' rows, over all columns; the weights are read whole. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every block of 1280 rows of the output is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- What point t writes back is block t of the product of the arrays the region finds. -/
theorem flushed0_eq (c : Dev nD) (t : Fin cfg0.N) :
    (dat0 (F := Ideal) V c).flushed 2 t
      = ((cfg0.win 2).blk t).view.read (Elt Ideal) (G0 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz0]
  simp only [View.ld_unit_zero (S := S1280x128) hz0, View.ld_unit_zero (S := S128x512) hz0]
  obtain ⟨e0, e1, e2, e3, e4, e5⟩ := idx_facts0 t
  funext j
  refine pay0_block (iblk0 V c 0 t) (iblk0 V c 1 t) (V c (Pipeline.arrRef spec0 0)) (V c (Pipeline.arrRef spec0 1)) j
    (((cfg0.win 2).blk t).view.emb j) (fun κ => ?_) (fun κ => ?_)
  · show V c (Pipeline.arrRef spec0 0) (((cfg0.win 0).blk t).view.emb (ix2 (j 0) κ)) = V c (Pipeline.arrRef spec0 0) (ix2 (((cfg0.win 2).blk t).view.emb j 0) κ)
    refine congrArg _ (funext fun a => Fin.ext ?_)
    match a with
    | ⟨0, _⟩ => show win0_0.index t (0 : Fin 2) * 1280 + 1 * (j 0).val = win0_2.index t (0 : Fin 2) * 1280 + 1 * (j 0).val; omega
    | ⟨1, _⟩ => show win0_0.index t (1 : Fin 2) * 128 + 1 * κ.val = κ.val; omega
  · show V c (Pipeline.arrRef spec0 1) (((cfg0.win 1).blk t).view.emb (ix2 κ (j 1))) = V c (Pipeline.arrRef spec0 1) (ix2 κ (((cfg0.win 2).blk t).view.emb j 1))
    refine congrArg _ (funext fun a => Fin.ext ?_)
    match a with
    | ⟨0, _⟩ => show win0_1.index t (0 : Fin 2) * 128 + 1 * κ.val = κ.val; omega
    | ⟨1, _⟩ => show win0_1.index t (1 : Fin 2) * 512 + 1 * (j 1).val = win0_2.index t (1 : Fin 2) * 512 + 1 * (j 1).val; omega

/-- An index of the output array is in point t's block iff each coordinate is in the block's range on its axis. -/
theorem mem_blk0 (t : Fin cfg0.N) (i : S10240x512.Idx) :
    i ∈ ((cfg0.win 2).blk t).view.set ↔ ∀ a : Fin 2, win0_2.index t a * S1280x512.size a ≤ (i a).val ∧ (i a).val < win0_2.index t a * S1280x512.size a + S1280x512.size a := by
  show i ∈ ((View.whole main_v49).slice (win0_2.rect t)).set ↔ _
  rw [View.set_slice_whole, Rect.mem_set_unit]
  exact Iff.rfl

/-- The 8 blocks of 1280 rows tile the 10240 rows: row r is in the block of point r / 1280. -/
theorem cover0 (i : S10240x512.Idx) : ∃ t : Fin cfg0.N, (cfg0.win 2).flush t = true ∧ i ∈ ((cfg0.win 2).blk t).view.set := by
  have hi0 : (i 0).val < 10240 := (i 0).isLt
  have hi1 : (i 1).val < 512 := (i 1).isLt
  obtain ⟨t, ht⟩ := idx_onto0 ⟨(i 0).val / 1280, by omega⟩
  have q0 : win0_2.index t (0 : Fin 2) = (i 0).val / 1280 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1280 ≤ (i 0).val ∧ (i 0).val < win0_2.index t (0 : Fin 2) * 1280 + 1280; omega
  | ⟨1, _⟩ => show win0_2.index t (1 : Fin 2) * 512 ≤ (i 1).val ∧ (i 1).val < win0_2.index t (1 : Fin 2) * 512 + 512; omega

/-- The output array after the region: the product of the features by the weights. -/
theorem final0 (c : Dev nD) :
    (dat0 (F := Ideal) V c).arrAt 2 cfg0.N = G0 (V c (Pipeline.arrRef spec0 0)) (V c (Pipeline.arrRef spec0 1)) :=
  (dat0 (F := Ideal) V c).arrAt_eq_of_cover 2 (G0 (V c (Pipeline.arrRef spec0 0)) (V c (Pipeline.arrRef spec0 1)))
    (fun t _ => flushed0_eq V c t) cover0

/-- Region 0's output, by rows and columns, is the feature transform of the arrays it finds. -/
theorem lin0_out (c : Dev nD) :
    Gcn.mat2 ((dat0 (F := Ideal) V c).arrAt 2 cfg0.N)
      = Gcn.lin (Gcn.mat2 (V c (Pipeline.arrRef spec0 0))) (Gcn.mat2 (V c (Pipeline.arrRef spec0 1))) := by
  rw [final0]
  rfl

end Blocks

end Cert.KernelIdeal.KVal

end
-- ==== Proof.KVal2.lean ====
/-
  The second layer's feature transform as one array: the output of region 2 is the product of the layer's input
  features by the weight matrix, entry (r, q) being the sum over the 512 input features κ of x(r, κ) · w(κ, q).

  Each of the 8 grid points multiplies a block of 1280 rows of the features by the whole weight matrix (the operands
  pass through a change of float format, the identity on the extended reals) and writes the block of 1280 rows of
  the output; the 8 blocks tile the 10240 rows.
-/
import proofs.«143928_j37108517437617_1_alg».proof.Proof.KI.R2
import proofs.«143928_j37108517437617_1_alg».proof.Proof.Glue
import proofs.«143928_j37108517437617_1_alg».proof.Proof.LibPlainDot
import Idealize.ShloMosaic.Lib.Pipeline.Value

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.ValueIdx Idealize.SL.Sem

theorem hz2 : (![0, 0] : Fin 2 → Nat) = fun _ => 0 := funext fun a => by fin_cases a <;> rfl

/-- The product of an [n, 512] array by a [512, 256] array, as an [n, 256] array. -/
def G2 {n : ℕ} (a0 : (⟨2, ![n, 512]⟩ : Shape).Idx → EReal) (a1 : S512x256.Idx → EReal) :
    (⟨2, ![n, 256]⟩ : Shape).Idx → EReal :=
  fun i => Gcn.lin (Gcn.mat2 a0) (Gcn.mat2 a1) (i 0) (i 1)

/-- The body's payload at an entry: row r of the feature block against column q of the weights. -/
theorem pay2_apply (x0 : Vec Ideal S1280x512 .f32) (x1 : Vec Ideal S512x256 .f32) (r : Fin 1280) (q : Fin 256) :
    k2_pay1 x0 x1 (ix2 r q) = ∑ κ : Fin 512, x0 (ix2 r κ) * x1 (ix2 κ q) := by
  unfold k2_pay1
  refine (Cert.PlainDot.matmul_zero_apply dot_S1280x512_S512x256_S1280x256_1_0_0_1_n_n rfl rfl rfl rfl rfl rfl rfl rfl none _ _ r q).trans ?_
  refine Finset.sum_congr rfl fun κ _ => ?_
  rw [shapeCast_self]
  rfl

/-- The payload of a block of rows is the block of the whole product: an entry of the block's product reads the
    block's row, which is the array's row, and the weights' column. -/
theorem pay2_block (x0 : Vec Ideal S1280x512 .f32) (x1 : Vec Ideal S512x256 .f32)
    (a0 : S10240x512.Idx → EReal) (a1 : S512x256.Idx → EReal) (j : S1280x256.Idx) (i : S10240x256.Idx)
    (h0 : ∀ κ : Fin 512, x0 (ix2 (j 0) κ) = a0 (ix2 (i 0) κ))
    (h1 : ∀ κ : Fin 512, x1 (ix2 κ (j 1)) = a1 (ix2 κ (i 1))) :
    k2_pay1 x0 x1 j = G2 a0 a1 i := by
  refine (congrArg (k2_pay1 x0 x1) (eq_ix2 j)).trans ((pay2_apply x0 x1 (j 0) (j 1)).trans ?_)
  show ∑ κ : Fin 512, x0 (ix2 (j 0) κ) * x1 (ix2 κ (j 1)) = ∑ κ : Fin 512, a0 (ix2 (i 0) κ) * a1 (ix2 κ (i 1))
  exact Finset.sum_congr rfl fun κ _ => by rw [h0 κ, h1 κ]

/-! ## From blocks to the array -/

section Blocks
variable (V : (c : Dev nD) → (b : Ref sig .tc) → Buf (Elt Ideal) ((c : Thread nD τ).loc b))

/-- The printed index maps over the 8 grid points: the feature block and the output block are block t of their
    arrays' rows, over all columns; the weights are read whole. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 7 :=
  (by decide +kernel : ∀ t : Fin grid2.N, _)

/-- Every block of 1280 rows of the output is some point's. -/
theorem idx_onto2 : ∀ q0 : Fin 8, ∃ t : Fin cfg2.N, win2_2.index t = ![q0.val, 0] :=
  (by decide +kernel : ∀ q0 : Fin 8, ∃ t : Fin grid2.N, win2_2.index t = ![q0.val, 0])

/-- What point t writes back is block t of the product of the arrays the region finds. -/
theorem flushed2_eq (c : Dev nD) (t : Fin cfg2.N) :
    (dat2 (F := Ideal) V c).flushed 2 t
      = ((cfg2.win 2).blk t).view.read (Elt Ideal) (G2 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero hz2]
  simp only [View.ld_unit_zero (S := S1280x512) hz2, View.ld_unit_zero (S := S512x256) hz2]
  obtain ⟨e0, e1, e2, e3, e4, e5⟩ := idx_facts2 t
  funext j
  refine pay2_block (iblk2 V c 0 t) (iblk2 V c 1 t) (V c (Pipeline.arrRef spec2 0)) (V c (Pipeline.arrRef spec2 1)) j
    (((cfg2.win 2).blk t).view.emb j) (fun κ => ?_) (fun κ => ?_)
  · show V c (Pipeline.arrRef spec2 0) (((cfg2.win 0).blk t).view.emb (ix2 (j 0) κ)) = V c (Pipeline.arrRef spec2 0) (ix2 (((cfg2.win 2).blk t).view.emb j 0) κ)
    refine congrArg _ (funext fun a => Fin.ext ?_)
    match a with
    | ⟨0, _⟩ => show win2_0.index t (0 : Fin 2) * 1280 + 1 * (j 0).val = win2_2.index t (0 : Fin 2) * 1280 + 1 * (j 0).val; omega
    | ⟨1, _⟩ => show win2_0.index t (1 : Fin 2) * 512 + 1 * κ.val = κ.val; omega
  · show V c (Pipeline.arrRef spec2 1) (((cfg2.win 1).blk t).view.emb (ix2 κ (j 1))) = V c (Pipeline.arrRef spec2 1) (ix2 κ (((cfg2.win 2).blk t).view.emb j 1))
    refine congrArg _ (funext fun a => Fin.ext ?_)
    match a with
    | ⟨0, _⟩ => show win2_1.index t (0 : Fin 2) * 512 + 1 * κ.val = κ.val; omega
    | ⟨1, _⟩ => show win2_1.index t (1 : Fin 2) * 256 + 1 * (j 1).val = win2_2.index t (1 : Fin 2) * 256 + 1 * (j 1).val; omega

/-- An index of the output array is in point t's block iff each coordinate is in the block's range on its axis. -/
theorem mem_blk2 (t : Fin cfg2.N) (i : S10240x256.Idx) :
    i ∈ ((cfg2.win 2).blk t).view.set ↔ ∀ a : Fin 2, win2_2.index t a * S1280x256.size a ≤ (i a).val ∧ (i a).val < win2_2.index t a * S1280x256.size a + S1280x256.size a := by
  show i ∈ ((View.whole main_v52).slice (win2_2.rect t)).set ↔ _
  rw [View.set_slice_whole, Rect.mem_set_unit]
  exact Iff.rfl

/-- The 8 blocks of 1280 rows tile the 10240 rows: row r is in the block of point r / 1280. -/
theorem cover2 (i : S10240x256.Idx) : ∃ t : Fin cfg2.N, (cfg2.win 2).flush t = true ∧ i ∈ ((cfg2.win 2).blk t).view.set := by
  have hi0 : (i 0).val < 10240 := (i 0).isLt
  have hi1 : (i 1).val < 256 := (i 1).isLt
  obtain ⟨t, ht⟩ := idx_onto2 ⟨(i 0).val / 1280, by omega⟩
  have q0 : win2_2.index t (0 : Fin 2) = (i 0).val / 1280 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 1280 ≤ (i 0).val ∧ (i 0).val < win2_2.index t (0 : Fin 2) * 1280 + 1280; omega
  | ⟨1, _⟩ => show win2_2.index t (1 : Fin 2) * 256 ≤ (i 1).val ∧ (i 1).val < win2_2.index t (1 : Fin 2) * 256 + 256; omega

/-- The output array after the region: the product of the features by the weights. -/
theorem final2 (c : Dev nD) :
    (dat2 (F := Ideal) V c).arrAt 2 cfg2.N = G2 (V c (Pipeline.arrRef spec2 0)) (V c (Pipeline.arrRef spec2 1)) :=
  (dat2 (F := Ideal) V c).arrAt_eq_of_cover 2 (G2 (V c (Pipeline.arrRef spec2 0)) (V c (Pipeline.arrRef spec2 1)))
    (fun t _ => flushed2_eq V c t) cover2

/-- Region 2's output, by rows and columns, is the feature transform of the arrays it finds. -/
theorem lin2_out (c : Dev nD) :
    Gcn.mat2 ((dat2 (F := Ideal) V c).arrAt 2 cfg2.N)
      = Gcn.lin (Gcn.mat2 (V c (Pipeline.arrRef spec2 0))) (Gcn.mat2 (V c (Pipeline.arrRef spec2 1))) := by
  rw [final2]
  rfl

end Blocks

end Cert.KernelIdeal.KVal

end
-- ==== Proof.KVal4.lean ====
/-
  The third layer's feature transform as one array: the output of region 4 is the product of the layer's input
  features by the weight matrix, entry (r, q) being the sum over the 256 input features κ of x(r, κ) · w(κ, q).

  Each of the 8 grid points multiplies a block of 1280 rows of the features by the whole weight matrix (the operands
  pass through a change of float format, the identity on the extended reals) and writes the block of 1280 rows of
  the output; the 8 blocks tile the 10240 rows.
-/
import proofs.«143928_j37108517437617_1_alg».proof.Proof.KI.R4
import proofs.«143928_j37108517437617_1_alg».proof.Proof.Glue
import proofs.«143928_j37108517437617_1_alg».proof.Proof.LibPlainDot
import Idealize.ShloMosaic.Lib.Pipeline.Value

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.ValueIdx Idealize.SL.Sem

theorem hz4 : (![0, 0] : Fin 2 → Nat) = fun _ => 0 := funext fun a => by fin_cases a <;> rfl

/-- The product of an [n, 256] array by a [256, 64] array, as an [n, 64] array. -/
def G4 {n : ℕ} (a0 : (⟨2, ![n, 256]⟩ : Shape).Idx → EReal) (a1 : S256x64.Idx → EReal) :
    (⟨2, ![n, 64]⟩ : Shape).Idx → EReal :=
  fun i => Gcn.lin (Gcn.mat2 a0) (Gcn.mat2 a1) (i 0) (i 1)

/-- The body's payload at an entry: row r of the feature block against column q of the weights. -/
theorem pay4_apply (x0 : Vec Ideal S1280x256 .f32) (x1 : Vec Ideal S256x64 .f32) (r : Fin 1280) (q : Fin 64) :
    k4_pay1 x0 x1 (ix2 r q) = ∑ κ : Fin 256, x0 (ix2 r κ) * x1 (ix2 κ q) := by
  unfold k4_pay1
  refine (Cert.PlainDot.matmul_zero_apply dot_S1280x256_S256x64_S1280x64_1_0_0_1_n_n rfl rfl rfl rfl rfl rfl rfl rfl none _ _ r q).trans ?_
  refine Finset.sum_congr rfl fun κ _ => ?_
  rw [shapeCast_self]
  rfl

/-- The payload of a block of rows is the block of the whole product: an entry of the block's product reads the
    block's row, which is the array's row, and the weights' column. -/
theorem pay4_block (x0 : Vec Ideal S1280x256 .f32) (x1 : Vec Ideal S256x64 .f32)
    (a0 : S10240x256.Idx → EReal) (a1 : S256x64.Idx → EReal) (j : S1280x64.Idx) (i : S10240x64.Idx)
    (h0 : ∀ κ : Fin 256, x0 (ix2 (j 0) κ) = a0 (ix2 (i 0) κ))
    (h1 : ∀ κ : Fin 256, x1 (ix2 κ (j 1)) = a1 (ix2 κ (i 1))) :
    k4_pay1 x0 x1 j = G4 a0 a1 i := by
  refine (congrArg (k4_pay1 x0 x1) (eq_ix2 j)).trans ((pay4_apply x0 x1 (j 0) (j 1)).trans ?_)
  show ∑ κ : Fin 256, x0 (ix2 (j 0) κ) * x1 (ix2 κ (j 1)) = ∑ κ : Fin 256, a0 (ix2 (i 0) κ) * a1 (ix2 κ (i 1))
  exact Finset.sum_congr rfl fun κ _ => by rw [h0 κ, h1 κ]

/-! ## From blocks to the array -/

section Blocks
variable (V : (c : Dev nD) → (b : Ref sig .tc) → Buf (Elt Ideal) ((c : Thread nD τ).loc b))

/-- The printed index maps over the 8 grid points: the feature block and the output block are block t of their
    arrays' rows, over all columns; the weights are read whole. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 7 :=
  (by decide +kernel : ∀ t : Fin grid4.N, _)

/-- Every block of 1280 rows of the output is some point's. -/
theorem idx_onto4 : ∀ q0 : Fin 8, ∃ t : Fin cfg4.N, win4_2.index t = ![q0.val, 0] :=
  (by decide +kernel : ∀ q0 : Fin 8, ∃ t : Fin grid4.N, win4_2.index t = ![q0.val, 0])

/-- What point t writes back is block t of the product of the arrays the region finds. -/
theorem flushed4_eq (c : Dev nD) (t : Fin cfg4.N) :
    (dat4 (F := Ideal) V c).flushed 2 t
      = ((cfg4.win 2).blk t).view.read (Elt Ideal) (G4 (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero hz4]
  simp only [View.ld_unit_zero (S := S1280x256) hz4, View.ld_unit_zero (S := S256x64) hz4]
  obtain ⟨e0, e1, e2, e3, e4, e5⟩ := idx_facts4 t
  funext j
  refine pay4_block (iblk4 V c 0 t) (iblk4 V c 1 t) (V c (Pipeline.arrRef spec4 0)) (V c (Pipeline.arrRef spec4 1)) j
    (((cfg4.win 2).blk t).view.emb j) (fun κ => ?_) (fun κ => ?_)
  · show V c (Pipeline.arrRef spec4 0) (((cfg4.win 0).blk t).view.emb (ix2 (j 0) κ)) = V c (Pipeline.arrRef spec4 0) (ix2 (((cfg4.win 2).blk t).view.emb j 0) κ)
    refine congrArg _ (funext fun a => Fin.ext ?_)
    match a with
    | ⟨0, _⟩ => show win4_0.index t (0 : Fin 2) * 1280 + 1 * (j 0).val = win4_2.index t (0 : Fin 2) * 1280 + 1 * (j 0).val; omega
    | ⟨1, _⟩ => show win4_0.index t (1 : Fin 2) * 256 + 1 * κ.val = κ.val; omega
  · show V c (Pipeline.arrRef spec4 1) (((cfg4.win 1).blk t).view.emb (ix2 κ (j 1))) = V c (Pipeline.arrRef spec4 1) (ix2 κ (((cfg4.win 2).blk t).view.emb j 1))
    refine congrArg _ (funext fun a => Fin.ext ?_)
    match a with
    | ⟨0, _⟩ => show win4_1.index t (0 : Fin 2) * 256 + 1 * κ.val = κ.val; omega
    | ⟨1, _⟩ => show win4_1.index t (1 : Fin 2) * 64 + 1 * (j 1).val = win4_2.index t (1 : Fin 2) * 64 + 1 * (j 1).val; omega

/-- An index of the output array is in point t's block iff each coordinate is in the block's range on its axis. -/
theorem mem_blk4 (t : Fin cfg4.N) (i : S10240x64.Idx) :
    i ∈ ((cfg4.win 2).blk t).view.set ↔ ∀ a : Fin 2, win4_2.index t a * S1280x64.size a ≤ (i a).val ∧ (i a).val < win4_2.index t a * S1280x64.size a + S1280x64.size a := by
  show i ∈ ((View.whole main_v55).slice (win4_2.rect t)).set ↔ _
  rw [View.set_slice_whole, Rect.mem_set_unit]
  exact Iff.rfl

/-- The 8 blocks of 1280 rows tile the 10240 rows: row r is in the block of point r / 1280. -/
theorem cover4 (i : S10240x64.Idx) : ∃ t : Fin cfg4.N, (cfg4.win 2).flush t = true ∧ i ∈ ((cfg4.win 2).blk t).view.set := by
  have hi0 : (i 0).val < 10240 := (i 0).isLt
  have hi1 : (i 1).val < 64 := (i 1).isLt
  obtain ⟨t, ht⟩ := idx_onto4 ⟨(i 0).val / 1280, by omega⟩
  have q0 : win4_2.index t (0 : Fin 2) = (i 0).val / 1280 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 1280 ≤ (i 0).val ∧ (i 0).val < win4_2.index t (0 : Fin 2) * 1280 + 1280; omega
  | ⟨1, _⟩ => show win4_2.index t (1 : Fin 2) * 64 ≤ (i 1).val ∧ (i 1).val < win4_2.index t (1 : Fin 2) * 64 + 64; omega

/-- The output array after the region: the product of the features by the weights. -/
theorem final4 (c : Dev nD) :
    (dat4 (F := Ideal) V c).arrAt 2 cfg4.N = G4 (V c (Pipeline.arrRef spec4 0)) (V c (Pipeline.arrRef spec4 1)) :=
  (dat4 (F := Ideal) V c).arrAt_eq_of_cover 2 (G4 (V c (Pipeline.arrRef spec4 0)) (V c (Pipeline.arrRef spec4 1)))
    (fun t _ => flushed4_eq V c t) cover4

/-- Region 4's output, by rows and columns, is the feature transform of the arrays it finds. -/
theorem lin4_out (c : Dev nD) :
    Gcn.mat2 ((dat4 (F := Ideal) V c).arrAt 2 cfg4.N)
      = Gcn.lin (Gcn.mat2 (V c (Pipeline.arrRef spec4 0))) (Gcn.mat2 (V c (Pipeline.arrRef spec4 1))) := by
  rw [final4]
  rfl

end Blocks

end Cert.KernelIdeal.KVal

end
-- ==== Proof.KVal6.lean ====
/-
  The classifier as one array: the output of region 6 is the product of the last layer's features by the classifier's
  weight matrix plus the bias row, entry (r, q) being the sum over the 64 features κ of h(r, κ) · w(κ, q), plus b(0, q).

  Each of the 8 grid points multiplies a block of 1280 rows of the features by the whole weight matrix (the operands
  pass through a change of float format, the identity on the extended reals), adds the bias row spread down the
  block's rows, and writes the block of 1280 rows of the output; the 8 blocks tile the 10240 rows.
-/
import proofs.«143928_j37108517437617_1_alg».proof.Proof.KI.R6
import proofs.«143928_j37108517437617_1_alg».proof.Proof.Glue
import proofs.«143928_j37108517437617_1_alg».proof.Proof.LibPlainDot
import Idealize.ShloMosaic.Lib.Pipeline.Value
import Idealize.ShloMosaic.Lib.ValueLayout

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.ValueIdx Idealize.SL.Sem

theorem hz6 : (![0, 0] : Fin 2 → Nat) = fun _ => 0 := funext fun a => by fin_cases a <;> rfl

/-- The product of an [n, 64] array by a [64, 3] array plus a [1, 3] row, as an [n, 3] array. -/
def G6 {n : ℕ} (a0 : (⟨2, ![n, 64]⟩ : Shape).Idx → EReal) (a1 : S64x3.Idx → EReal) (a2 : S1x3.Idx → EReal) :
    (⟨2, ![n, 3]⟩ : Shape).Idx → EReal :=
  fun i => Gcn.lin (Gcn.mat2 a0) (Gcn.mat2 a1) (i 0) (i 1) + Gcn.mat2 a2 0 (i 1)

/-- The body's payload at an entry: row r of the feature block against column q of the weights, plus the bias
    row's entry q. -/
theorem pay6_apply (x0 : Vec Ideal S1280x64 .f32) (x1 : Vec Ideal S64x3 .f32) (x2 : Vec Ideal S1x3 .f32)
    (r : Fin 1280) (q : Fin 3) :
    k6_pay1 x0 x1 x2 (ix2 r q) = (∑ κ : Fin 64, x0 (ix2 r κ) * x1 (ix2 κ q)) + x2 (ix2 (0 : Fin 1) q) := by
  unfold k6_pay1
  refine (addf_apply _ _ (ix2 r q)).trans ?_
  refine congrArg₂ (· + ·) ?_ ?_
  · refine (Cert.PlainDot.matmul_zero_apply dot_S1280x64_S64x3_S1280x3_1_0_0_1_n_n rfl rfl rfl rfl rfl rfl rfl rfl none _ _ r q).trans ?_
    refine Finset.sum_congr rfl fun κ _ => ?_
    rw [shapeCast_self]
    rfl
  · refine (broadcastTo_1b_ab_apply _ broadcasts_S1x3_S1280x3 r q).trans ?_
    rw [shapeCast_self]

/-- The payload of a block of rows is the block of the whole array: an entry reads the block's row, which is the
    array's row, the weights' column and the bias row's entry. -/
theorem pay6_block (x0 : Vec Ideal S1280x64 .f32) (x1 : Vec Ideal S64x3 .f32) (x2 : Vec Ideal S1x3 .f32)
    (a0 : S10240x64.Idx → EReal) (a1 : S64x3.Idx → EReal) (a2 : S1x3.Idx → EReal) (j : S1280x3.Idx) (i : S10240x3.Idx)
    (h0 : ∀ κ : Fin 64, x0 (ix2 (j 0) κ) = a0 (ix2 (i 0) κ))
    (h1 : ∀ κ : Fin 64, x1 (ix2 κ (j 1)) = a1 (ix2 κ (i 1)))
    (h2 : x2 (ix2 (0 : Fin 1) (j 1)) = a2 (ix2 (0 : Fin 1) (i 1))) :
    k6_pay1 x0 x1 x2 j = G6 a0 a1 a2 i := by
  refine (congrArg (k6_pay1 x0 x1 x2) (eq_ix2 j)).trans ((pay6_apply x0 x1 x2 (j 0) (j 1)).trans ?_)
  show (∑ κ : Fin 64, x0 (ix2 (j 0) κ) * x1 (ix2 κ (j 1))) + x2 (ix2 (0 : Fin 1) (j 1))
    = (∑ κ : Fin 64, a0 (ix2 (i 0) κ) * a1 (ix2 κ (i 1))) + a2 (ix2 (0 : Fin 1) (i 1))
  rw [h2]
  exact congrArg (· + a2 (ix2 (0 : Fin 1) (i 1))) (Finset.sum_congr rfl fun κ _ => by rw [h0 κ, h1 κ])

/-! ## From blocks to the array -/

section Blocks
variable (V : (c : Dev nD) → (b : Ref sig .tc) → Buf (Elt Ideal) ((c : Thread nD τ).loc b))

/-- The printed index maps over the 8 grid points: the feature block and the output block are block t of their
    arrays' rows, over all columns; the weights and the bias row are read whole. -/
theorem idx_facts6 : ∀ t : Fin cfg6.N, win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (1 : Fin 2) = 0
    ∧ win6_3.index t (0 : Fin 2) ≤ 7 :=
  (by decide +kernel : ∀ t : Fin grid6.N, _)

/-- Every block of 1280 rows of the output is some point's. -/
theorem idx_onto6 : ∀ q0 : Fin 8, ∃ t : Fin cfg6.N, win6_3.index t = ![q0.val, 0] :=
  (by decide +kernel : ∀ q0 : Fin 8, ∃ t : Fin grid6.N, win6_3.index t = ![q0.val, 0])

set_option maxHeartbeats 1600000 in
/-- What point t writes back is block t of the product plus the bias row, of the arrays the region finds. -/
theorem flushed6_eq (c : Dev nD) (t : Fin cfg6.N) :
    (dat6 (F := Ideal) V c).flushed 3 t
      = ((cfg6.win 3).blk t).view.read (Elt Ideal)
          (G6 (V c (Pipeline.arrRef spec6 0)) (V c (Pipeline.arrRef spec6 1)) (V c (Pipeline.arrRef spec6 2))) := by
  show (cfg6.win 3).cut (grid6.coords t) ((dat6 (F := Ideal) V c).after 3 t) = _
  rw [after6_3]
  unfold out6_3
  rw [View.canon_unit_zero hz6]
  simp only [View.ld_unit_zero (S := S1280x64) hz6, View.ld_unit_zero (S := S64x3) hz6, View.ld_unit_zero (S := S1x3) hz6]
  obtain ⟨e0, e1, e2, e3, e4, e5, e6, e7⟩ := idx_facts6 t
  funext j
  refine pay6_block (iblk6 V c 0 t) (iblk6 V c 1 t) (iblk6 V c 2 t) (V c (Pipeline.arrRef spec6 0)) (V c (Pipeline.arrRef spec6 1))
    (V c (Pipeline.arrRef spec6 2)) j (((cfg6.win 3).blk t).view.emb j) (fun κ => ?_) (fun κ => ?_) ?_
  · show V c (Pipeline.arrRef spec6 0) (((cfg6.win 0).blk t).view.emb (ix2 (j 0) κ)) = V c (Pipeline.arrRef spec6 0) (ix2 (((cfg6.win 3).blk t).view.emb j 0) κ)
    refine congrArg _ (funext fun a => Fin.ext ?_)
    match a with
    | ⟨0, _⟩ => show win6_0.index t (0 : Fin 2) * 1280 + 1 * (j 0).val = win6_3.index t (0 : Fin 2) * 1280 + 1 * (j 0).val; omega
    | ⟨1, _⟩ => show win6_0.index t (1 : Fin 2) * 64 + 1 * κ.val = κ.val; omega
  · show V c (Pipeline.arrRef spec6 1) (((cfg6.win 1).blk t).view.emb (ix2 κ (j 1))) = V c (Pipeline.arrRef spec6 1) (ix2 κ (((cfg6.win 3).blk t).view.emb j 1))
    refine congrArg _ (funext fun a => Fin.ext ?_)
    match a with
    | ⟨0, _⟩ => show win6_1.index t (0 : Fin 2) * 64 + 1 * κ.val = κ.val; omega
    | ⟨1, _⟩ => show win6_1.index t (1 : Fin 2) * 3 + 1 * (j 1).val = win6_3.index t (1 : Fin 2) * 3 + 1 * (j 1).val; omega
  · show V c (Pipeline.arrRef spec6 2) (((cfg6.win 2).blk t).view.emb (ix2 (0 : Fin 1) (j 1))) = V c (Pipeline.arrRef spec6 2) (ix2 (0 : Fin 1) (((cfg6.win 3).blk t).view.emb j 1))
    refine congrArg _ (funext fun a => Fin.ext ?_)
    match a with
    | ⟨0, _⟩ => show win6_2.index t (0 : Fin 2) * 1 + 1 * 0 = 0; omega
    | ⟨1, _⟩ => show win6_2.index t (1 : Fin 2) * 3 + 1 * (j 1).val = win6_3.index t (1 : Fin 2) * 3 + 1 * (j 1).val; omega

/-- An index of the output array is in point t's block iff each coordinate is in the block's range on its axis. -/
theorem mem_blk6 (t : Fin cfg6.N) (i : S10240x3.Idx) :
    i ∈ ((cfg6.win 3).blk t).view.set ↔ ∀ a : Fin 2, win6_3.index t a * S1280x3.size a ≤ (i a).val ∧ (i a).val < win6_3.index t a * S1280x3.size a + S1280x3.size a := by
  show i ∈ ((View.whole main_v59).slice (win6_3.rect t)).set ↔ _
  rw [View.set_slice_whole, Rect.mem_set_unit]
  exact Iff.rfl

/-- The 8 blocks of 1280 rows tile the 10240 rows: row r is in the block of point r / 1280. -/
theorem cover6 (i : S10240x3.Idx) : ∃ t : Fin cfg6.N, (cfg6.win 3).flush t = true ∧ i ∈ ((cfg6.win 3).blk t).view.set := by
  have hi0 : (i 0).val < 10240 := (i 0).isLt
  have hi1 : (i 1).val < 3 := (i 1).isLt
  obtain ⟨t, ht⟩ := idx_onto6 ⟨(i 0).val / 1280, by omega⟩
  have q0 : win6_3.index t (0 : Fin 2) = (i 0).val / 1280 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 1280 ≤ (i 0).val ∧ (i 0).val < win6_3.index t (0 : Fin 2) * 1280 + 1280; omega
  | ⟨1, _⟩ => show win6_3.index t (1 : Fin 2) * 3 ≤ (i 1).val ∧ (i 1).val < win6_3.index t (1 : Fin 2) * 3 + 3; omega

/-- The output array after the region: the product of the features by the weights, plus the bias row. -/
theorem final6 (c : Dev nD) :
    (dat6 (F := Ideal) V c).arrAt 3 cfg6.N
      = G6 (V c (Pipeline.arrRef spec6 0)) (V c (Pipeline.arrRef spec6 1)) (V c (Pipeline.arrRef spec6 2)) :=
  (dat6 (F := Ideal) V c).arrAt_eq_of_cover 3
    (G6 (V c (Pipeline.arrRef spec6 0)) (V c (Pipeline.arrRef spec6 1)) (V c (Pipeline.arrRef spec6 2)))
    (fun t _ => flushed6_eq V c t) cover6

/-- Region 6's output, by rows and columns, is the classifier of the arrays it finds. -/
theorem fin6_out (c : Dev nD) :
    Gcn.mat2 ((dat6 (F := Ideal) V c).arrAt 3 cfg6.N)
      = fun r q => Gcn.lin (Gcn.mat2 (V c (Pipeline.arrRef spec6 0))) (Gcn.mat2 (V c (Pipeline.arrRef spec6 1))) r q
          + Gcn.mat2 (V c (Pipeline.arrRef spec6 2)) 0 q := by
  rw [final6]
  rfl

end Blocks

end Cert.KernelIdeal.KVal

end
-- ==== Proof.LibDenseAdjacency.lean ====
/-
  A message-passing sum against its dense adjacency matrix, on the extended reals.

  Messages `e` of a finite type carry a weight `w e ≥ 0`, a source `src e` and a target `dst e`. The dense adjacency
  has at (r, c) the sum of the weights of the messages from c to r. Contracting row r of that matrix against any
  column vector `y` gives the sum, over the messages into r, of the weight times `y` at the message's source:

    Σ_c (Σ_{e : dst e = r, src e = c} w e) * y c = Σ_{e : dst e = r} w e * y (src e).

  The weights being non-negative, the factor `y c` moves inside the inner sum whatever it is (an infinity too); the
  double sum is then the sum over the messages regrouped by their source. Columns no message comes from hold an empty
  sum, and `0 * y c = 0`. Also the same with the adjacency entry started from zero (`0 + Σ …`), as an accumulating
  scatter into a zero matrix spells it, and the contraction cut into consecutive blocks of columns.
-/
import Mathlib.Data.EReal.Operations
import Mathlib.Algebra.BigOperators.Group.Finset.Basic
import Mathlib.Algebra.BigOperators.Group.Finset.Sigma
import Mathlib.Algebra.Order.BigOperators.Group.Finset
import Mathlib.Algebra.BigOperators.Fin

namespace DenseAdjacency

open scoped BigOperators

/-- A factor moves inside a finite sum of non-negative extended reals. -/
theorem sum_mul_of_nonneg {ι : Type} (s : Finset ι) (a : ι → EReal) (y : EReal) (ha : ∀ i ∈ s, 0 ≤ a i) :
    (∑ i ∈ s, a i) * y = ∑ i ∈ s, a i * y := by
  classical
  induction s using Finset.induction_on with
  | empty => simp
  | insert i s hi ih =>
    have hi0 : 0 ≤ a i := ha i (Finset.mem_insert_self i s)
    have hs0 : ∀ j ∈ s, 0 ≤ a j := fun j hj => ha j (Finset.mem_insert_of_mem hj)
    rw [Finset.sum_insert hi, Finset.sum_insert hi, EReal.right_distrib_of_nonneg hi0 (Finset.sum_nonneg hs0), ih hs0]

variable {E N M : Type} [Fintype E] [Fintype M] [DecidableEq N] [DecidableEq M]

/-- Row `r` of the dense adjacency against a column vector is the sum over the messages into `r`. -/
theorem row_contract (w : E → EReal) (hw : ∀ e, 0 ≤ w e) (src : E → M) (dst : E → N) (r : N) (y : M → EReal) :
    ∑ c : M, (∑ e ∈ Finset.univ.filter (fun e => dst e = r ∧ src e = c), w e) * y c
      = ∑ e ∈ Finset.univ.filter (fun e => dst e = r), w e * y (src e) := by
  classical
  have h1 : ∀ c : M, (∑ e ∈ Finset.univ.filter (fun e => dst e = r ∧ src e = c), w e) * y c
      = ∑ e ∈ (Finset.univ.filter (fun e => dst e = r)).filter (fun e => src e = c), w e * y (src e) := by
    intro c
    rw [sum_mul_of_nonneg _ _ _ (fun e _ => hw e), Finset.filter_filter]
    refine Finset.sum_congr rfl fun e he => ?_
    rw [(Finset.mem_filter.mp he).2.2]
  rw [Finset.sum_congr rfl (fun c _ => h1 c)]
  exact Finset.sum_fiberwise _ src (fun e => w e * y (src e))

/-- The same with each adjacency entry started from zero. -/
theorem row_contract_zero_add (w : E → EReal) (hw : ∀ e, 0 ≤ w e) (src : E → M) (dst : E → N) (r : N) (y : M → EReal) :
    ∑ c : M, (0 + ∑ e ∈ Finset.univ.filter (fun e => dst e = r ∧ src e = c), w e) * y c
      = ∑ e ∈ Finset.univ.filter (fun e => dst e = r), w e * y (src e) := by
  rw [← row_contract w hw src dst r y]
  exact Finset.sum_congr rfl fun c _ => by rw [zero_add]

/-- A contraction over `a * b` columns accumulated block by block from zero (`a` consecutive blocks of `b`, each added
    to what the blocks before left) is the contraction over all the columns at once. -/
theorem blocks_from_zero (a b : ℕ) (t : ℕ → EReal) :
    (Finset.range a).sum (fun i => (Finset.range b).sum fun j => t (i * b + j)) = (Finset.range (a * b)).sum t := by
  induction a with
  | zero => simp
  | succ a ih =>
    rw [Finset.sum_range_succ, ih, Nat.succ_mul, Finset.sum_range_add]

end DenseAdjacency
-- ==== Proof.KAgg1.lean ====
/-
  Layer 1's aggregation read as values: what the accumulator and the output block hold after each grid point, and the
  output array at the end.
-/
import proofs.«143928_j37108517437617_1_alg».proof.Proof.KI.R1
import proofs.«143928_j37108517437617_1_alg».proof.Proof.Glue
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«143928_j37108517437617_1_alg».proof.Proof.LibPlainDot
import proofs.«143928_j37108517437617_1_alg».proof.Proof.LibDenseAdjacency

set_option maxRecDepth 16384

noncomputable section

open Idealize.ShloMosaic Idealize.ShloMosaic.TcCoe Idealize.SL.Sem
open Idealize.ShloMosaic.Pipeline (Dat)

namespace Cert.KernelIdeal.KAgg1

open Cert.KernelIdeal Cert.KernelIdeal.Gen Cert.KernelIdeal.Fr Idealize.ShloMosaic.ValueIdx

variable {F : FTy → Type} [FloatOps F]

theorem hz : (![0, 0] : Fin 2 → Nat) = fun _ => 0 := funext fun a => by fin_cases a <;> rfl

/-! ## What each case of the body leaves, as values -/

/-- A middle block: the accumulator ends at what it held plus this block's product. -/
theorem sout_B (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : ¬cond1_1 i) (x0 : Vec F S1280x1280 .bf16) (x1 : Vec F S1280x512 .f32) (x2 : Vec F S1x512 .f32) (xs0 : Vec F S1280x512 .f32) :
    sout1_B_0 c i a0 h0 a1 h1 a2 h2 a3 h3 a4 h4 hc0 hc1 x0 x1 x2 xs0 = k1_pay2 x0 x1 xs0 := by
  unfold sout1_B_0
  rw [View.read_writes_eq_canon _ _ _ (scover1_B_0 c i a0 h0 a1 h1 a2 h2 a3 h3 a4 h4 hc0 hc1 x0 x1 x2 xs0)]
  unfold kernelRun1_B
  dsimp only
  rw [View.canon_unit_zero hz]
  simp only [View.readAt_eq_ld, h0.read_unread, h1.read_unread, h4.read_unread, View.ld_unit_zero (S := S1280x1280) hz, View.ld_unit_zero (S := S1280x512) hz]

/-- The first block: the accumulator is cleared and ends at zero plus this block's product. -/
theorem sout_A (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : cond1_0 i) (hc1 : ¬cond1_1 i) (x0 : Vec F S1280x1280 .bf16) (x1 : Vec F S1280x512 .f32) (x2 : Vec F S1x512 .f32) :
    sout1_A_0 c i a0 h0 a1 h1 a2 h2 a3 h3 a4 h4 hc0 hc1 x0 x1 x2 = k1_pay2 x0 x1 (k1_pay1 (F := F)) := by
  unfold sout1_A_0
  rw [View.read_writes_eq_canon _ _ _ (scover1_A_0 c i a0 h0 a1 h1 a2 h2 a3 h3 a4 h4 hc0 hc1 x0 x1 x2)]
  unfold kernelRun1_A
  dsimp only
  sl_unfold_words
  rw [View.canon_cons_unit_zero (S := S1280x512) hz, View.readCov_unit_zero (S := S1280x512) _ hz]
  simp only [View.readAt_eq_ld, h0.read_unread, h1.read_unread, View.ld_unit_zero (S := S1280x1280) hz, View.ld_unit_zero (S := S1280x512) hz]

/-- The last block: the accumulator ends at what it held plus this block's product, -/
theorem sout_C (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i) (x0 : Vec F S1280x1280 .bf16) (x1 : Vec F S1280x512 .f32) (x2 : Vec F S1x512 .f32) (xs0 : Vec F S1280x512 .f32) :
    sout1_C_0 c i a0 h0 a1 h1 a2 h2 a3 h3 a4 h4 hc0 hc1 x0 x1 x2 xs0 = k1_pay2 x0 x1 xs0 := by
  unfold sout1_C_0
  rw [View.read_writes_eq_canon _ _ _ (scover1_C_0 c i a0 h0 a1 h1 a2 h2 a3 h3 a4 h4 hc0 hc1 x0 x1 x2 xs0)]
  unfold kernelRun1_C
  dsimp only
  sl_unfold_words
  rw [View.canon_unit_zero hz]
  simp only [View.readAt_eq_ld, h0.read_unread, h1.read_unread, h4.read_unread, View.ld_unit_zero (S := S1280x1280) hz, View.ld_unit_zero (S := S1280x512) hz]

/-- and the output block at that sum plus the bias row, clamped below at zero. -/
theorem out_C (c : Dev nD) (i : grid1.Coords) (a0 : Memref sig .tc .vmem S1280x1280 .bf16) (h0 : a0.IsWhole) (a1 : Memref sig .tc .vmem S1280x512 .f32) (h1 : a1.IsWhole) (a2 : Memref sig .tc .vmem S1x512 .f32) (h2 : a2.IsWhole) (a3 : Memref sig .tc .vmem S1280x512 .f32) (h3 : a3.IsWhole) (a4 : Memref sig .tc .vmem S1280x512 .f32) (h4 : a4.IsWhole) (hc0 : ¬cond1_0 i) (hc1 : cond1_1 i) (x0 : Vec F S1280x1280 .bf16) (x1 : Vec F S1280x512 .f32) (x2 : Vec F S1x512 .f32) (xs0 : Vec F S1280x512 .f32) :
    out1_C_3 c i a0 h0 a1 h1 a2 h2 a3 h3 a4 h4 hc0 hc1 x0 x1 x2 xs0 = k1_pay3 (k1_pay2 x0 x1 xs0) x2 := by
  unfold out1_C_3
  rw [View.read_writes_eq_canon _ _ _ (cover1_C_3 c i a0 h0 a1 h1 a2 h2 a3 h3 a4 h4 hc0 hc1 x0 x1 x2 xs0)]
  unfold kernelRun1_C
  dsimp only
  sl_unfold_words
  rw [View.canon_unit_zero hz, View.readCov_unit_zero (S := S1280x512) _ hz]
  simp only [View.readAt_eq_ld, h0.read_unread, h1.read_unread, h2.read_unread, h4.read_unread, View.ld_unit_zero (S := S1280x1280) hz, View.ld_unit_zero (S := S1280x512) hz, View.ld_unit_zero (S := S1x512) hz]

/-! ## The payloads at an entry, on the extended reals -/

/-- The cleared accumulator is zero. -/
theorem pay1_apply (i : S1280x512.Idx) : (k1_pay1 (F := Ideal)) i = 0 := by
  unfold k1_pay1
  rw [shapeCast_self, broadcast_apply]
  exact Ideal.ofBits_zero_f32

/-- One accumulation step: the old entry plus the block product's entry. -/
theorem pay2_apply (x0 : Vec Ideal S1280x1280 .bf16) (x1 x8 : Vec Ideal S1280x512 .f32) (p : Fin 1280) (q : Fin 512) :
    k1_pay2 x0 x1 x8 (ix2 p q) = x8 (ix2 p q) + ∑ l : Fin 1280, x0 (ix2 p l) * x1 (ix2 l q) := by
  unfold k1_pay2
  simp only [shapeCast_self]
  rw [addf_apply]
  refine congrArg (x8 (ix2 p q) + ·) ?_
  exact (Cert.PlainDot.matmul_zero_apply dot_S1280x1280_S1280x512_S1280x512_1_0_0_1_n_n rfl rfl rfl rfl rfl rfl rfl rfl none x0
    (truncf .bf16 x1 bitsLt_bf16_f32) p q).trans (Finset.sum_congr rfl fun κ _ => rfl)

/-- The epilogue: the accumulator's entry plus the bias row's, clamped below at zero. -/
theorem pay3_apply (x17 : Vec Ideal S1280x512 .f32) (x18 : Vec Ideal S1x512 .f32) (p : Fin 1280) (q : Fin 512) :
    k1_pay3 x17 x18 (ix2 p q) = max (x17 (ix2 p q) + x18 (ix2 0 q)) 0 := by
  unfold k1_pay3
  simp only [shapeCast_self]
  rw [maximumf_apply, addf_apply, broadcast_apply]
  rw [broadcastTo_apply x18 broadcasts_S1x512_S1280x512 (ix2 p q) (ix2 0 q) (by
    intro a
    match a with
    | ⟨0, _⟩ => rfl
    | ⟨1, _⟩ => rfl)]
  rw [show (Scalar.ofBits .f32 0x00000000#32 : Ideal .f32) = 0 from Ideal.ofBits_zero_f32]

/-! ## The accumulation read off the arrays the region finds -/

section Chain
variable (V : (c : Dev nD) → (b : Ref sig .tc) → Buf (Elt Ideal) ((c : Thread nD τ).loc b)) (c : Dev nD)

/-- The adjacency, the transformed features and the bias row as the region finds them. -/
abbrev Aarr : Vec Ideal S10240x10240 .bf16 := V c (Pipeline.arrRef spec1 0)
abbrev Xarr : Vec Ideal S10240x512 .f32 := V c (Pipeline.arrRef spec1 1)
abbrev Barr : Vec Ideal S1x512 .f32 := V c (Pipeline.arrRef spec1 2)

/-- The arrays read at natural-number coordinates, zero outside. -/
def An (r cc : ℕ) : EReal := if h : r < 10240 ∧ cc < 10240 then Aarr V c (ix2 ⟨r, h.1⟩ ⟨cc, h.2⟩) else 0
def Xn (r : ℕ) (q : Fin 512) : EReal := if h : r < 10240 then Xarr V c (ix2 ⟨r, h⟩ q) else 0

/-- The windows' block indices over the grid: point `t = 8·i + k` stages adjacency block (i, k), feature block k,
    the bias row, and output row block i. -/
theorem idx_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The blocks a point finds in its input windows. -/
abbrev bA (t : Fin cfg1.N) : Vec Ideal S1280x1280 .bf16 := iblk1 V c 0 t
abbrev bX (t : Fin cfg1.N) : Vec Ideal S1280x512 .f32 := iblk1 V c 1 t
abbrev bB (t : Fin cfg1.N) : Vec Ideal S1x512 .f32 := iblk1 V c 2 t

theorem blk0_apply (t : Fin cfg1.N) (p l : Fin 1280) :
    bA V c t (ix2 p l) = An V c (t.val / 8 * 1280 + p.val) (t.val % 8 * 1280 + l.val) := by
  have hN : t.val < 64 := lt_of_lt_of_eq t.isLt (show cfg1.N = 64 from N_1)
  have hp := p.isLt; have hl := l.isLt
  obtain ⟨e0, e1, -⟩ := idx_facts t
  unfold An
  rw [dif_pos ⟨by omega, by omega⟩]
  unfold bA iblk1
  rw [View.read_apply]
  refine congrArg (V c (Pipeline.arrRef spec1 0)) ?_
  funext a; apply Fin.ext
  match a with
  | ⟨0, _⟩ => show win1_0.index t (0 : Fin 2) * 1280 + 1 * p.val = t.val / 8 * 1280 + p.val; rw [e0]; omega
  | ⟨1, _⟩ => show win1_0.index t (1 : Fin 2) * 1280 + 1 * l.val = t.val % 8 * 1280 + l.val; rw [e1]; omega

theorem blk1_apply (t : Fin cfg1.N) (l : Fin 1280) (q : Fin 512) :
    bX V c t (ix2 l q) = Xn V c (t.val % 8 * 1280 + l.val) q := by
  have hN : t.val < 64 := lt_of_lt_of_eq t.isLt (show cfg1.N = 64 from N_1)
  have hl := l.isLt; have hq := q.isLt
  obtain ⟨-, -, e0, e1, -⟩ := idx_facts t
  unfold Xn
  rw [dif_pos (by omega)]
  unfold bX iblk1
  rw [View.read_apply]
  refine congrArg (V c (Pipeline.arrRef spec1 1)) ?_
  funext a; apply Fin.ext
  match a with
  | ⟨0, _⟩ => show win1_1.index t (0 : Fin 2) * 1280 + 1 * l.val = t.val % 8 * 1280 + l.val; rw [e0]; omega
  | ⟨1, _⟩ => show win1_1.index t (1 : Fin 2) * 512 + 1 * q.val = q.val; rw [e1]; omega

theorem blk2_apply (t : Fin cfg1.N) (q : Fin 512) :
    bB V c t (ix2 0 q) = Barr V c (ix2 0 q) := by
  obtain ⟨-, -, -, -, e0, e1, -⟩ := idx_facts t
  unfold bB iblk1
  rw [View.read_apply]
  refine congrArg (V c (Pipeline.arrRef spec1 2)) ?_
  funext a; apply Fin.ext
  match a with
  | ⟨0, _⟩ => show win1_2.index t (0 : Fin 2) * 1 + 1 * 0 = 0; rw [e0]
  | ⟨1, _⟩ => show win1_2.index t (1 : Fin 2) * 512 + 1 * q.val = q.val; rw [e1]; omega

/-- The two components of what a point leaves, case by case. -/
theorem acc_A (t : Fin cfg1.N) (h0 : t.val % 8 = 0) (h1 : ¬t.val % 8 = 7) :
    (outsAt1 V c t.val t.isLt).2 = sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (bA V c t) (bX V c t) (bB V c t) :=
  by rw [outsAt1_A V c t h0 h1]
theorem acc_B (t : Fin cfg1.N) (h0 : ¬t.val % 8 = 0) (h1 : ¬t.val % 8 = 7) :
    (outsAt1 V c t.val t.isLt).2 = sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (bA V c t) (bX V c t) (bB V c t) (outsAt1 V c (t.val - 1) (Nat.lt_of_le_of_lt (Nat.sub_le _ _) t.isLt)).2 :=
  by rw [outsAt1_B V c t h0 h1]
theorem acc_C (t : Fin cfg1.N) (h0 : ¬t.val % 8 = 0) (h1 : t.val % 8 = 7) :
    (outsAt1 V c t.val t.isLt).2 = sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (bA V c t) (bX V c t) (bB V c t) (outsAt1 V c (t.val - 1) (Nat.lt_of_le_of_lt (Nat.sub_le _ _) t.isLt)).2 :=
  by rw [outsAt1_C V c t h0 h1]
theorem outv_C (t : Fin cfg1.N) (h0 : ¬t.val % 8 = 0) (h1 : t.val % 8 = 7) :
    (outsAt1 V c t.val t.isLt).1 = out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (bA V c t) (bX V c t) (bB V c t) (outsAt1 V c (t.val - 1) (Nat.lt_of_le_of_lt (Nat.sub_le _ _) t.isLt)).2 :=
  by rw [outsAt1_C V c t h0 h1]

/-- One block product at an entry, over natural-number columns. -/
def term (i : ℕ) (p : Fin 1280) (q : Fin 512) (cc : ℕ) : EReal := An V c (i * 1280 + p.val) cc * Xn V c cc q

/-- What the accumulator holds after position `n`, entry by entry: the products of the blocks met so far in this row of
    blocks. -/
def accSpec (n : ℕ) (p : Fin 1280) (q : Fin 512) : EReal :=
  (Finset.range (n % 8 + 1)).sum fun j => (Finset.range 1280).sum fun l => term V c (n / 8) p q (j * 1280 + l)

theorem block_sum (t : Fin cfg1.N) (p : Fin 1280) (q : Fin 512) :
    (∑ l : Fin 1280, bA V c t (ix2 p l) * bX V c t (ix2 l q))
      = (Finset.range 1280).sum fun l => term V c (t.val / 8) p q (t.val % 8 * 1280 + l) := by
  rw [← Fin.sum_univ_eq_sum_range (fun l => term V c (t.val / 8) p q (t.val % 8 * 1280 + l)) 1280]
  refine Finset.sum_congr rfl fun l _ => ?_
  rw [blk0_apply, blk1_apply]
  rfl

/-- THE ACCUMULATOR after position `n` is the sum of the block products met so far. -/
theorem acc_eq : ∀ (n : ℕ) (hn : n < cfg1.N) (p : Fin 1280) (q : Fin 512),
    (outsAt1 V c n hn).2 (ix2 p q) = accSpec V c n p q
  | 0, hn, p, q => by
    have e := acc_A V c ⟨0, hn⟩ (Nat.zero_mod _) (by show ¬ 0 % 8 = 7; omega)
    refine (congrFun e (ix2 p q)).trans ?_
    rw [sout_A, pay2_apply, pay1_apply, zero_add, block_sum]
    unfold accSpec
    simp only [Nat.zero_mod, Nat.zero_div, zero_add, Finset.sum_range_one, Nat.zero_mul]
  | n + 1, hn, p, q => by
    have hN : n + 1 < 64 := lt_of_lt_of_eq hn (show cfg1.N = 64 from N_1)
    by_cases h0 : (n + 1) % 8 = 0
    · have e := acc_A V c ⟨n + 1, hn⟩ h0 (by show ¬ (n + 1) % 8 = 7; omega)
      refine (congrFun e (ix2 p q)).trans ?_
      rw [sout_A, pay2_apply, pay1_apply, zero_add, block_sum]
      unfold accSpec
      show _ = (Finset.range ((n + 1) % 8 + 1)).sum _
      rw [h0]
      simp only [zero_add, Finset.sum_range_one, Nat.zero_mul]
    · have ih := acc_eq n (Nat.lt_of_succ_lt hn) p q
      have hstep : accSpec V c (n + 1) p q = accSpec V c n p q + (Finset.range 1280).sum fun l => term V c ((n + 1) / 8) p q ((n + 1) % 8 * 1280 + l) := by
        unfold accSpec
        have e1 : (n + 1) % 8 = n % 8 + 1 := by omega
        have e2 : (n + 1) / 8 = n / 8 := by omega
        rw [e1, e2, Finset.sum_range_succ]
      by_cases h1 : (n + 1) % 8 = 7
      · have e := acc_C V c ⟨n + 1, hn⟩ h0 h1
        refine (congrFun e (ix2 p q)).trans ?_
        rw [sout_C, pay2_apply, block_sum, hstep]
        exact congrArg (· + _) ih
      · have e := acc_B V c ⟨n + 1, hn⟩ h0 h1
        refine (congrFun e (ix2 p q)).trans ?_
        rw [sout_B, pay2_apply, block_sum, hstep]
        exact congrArg (· + _) ih

end Chain

/-! ## The output array -/

section Final
variable (V : (c : Dev nD) → (b : Ref sig .tc) → Buf (Elt Ideal) ((c : Thread nD τ).loc b)) (c : Dev nD)

/-- The layer at an entry: the adjacency's row against the feature column, plus the bias, clamped below at zero. -/
def Gfun (r : Fin 10240) (q : Fin 512) : EReal :=
  max ((∑ c' : Fin 10240, Aarr V c (ix2 r c') * Xarr V c (ix2 c' q)) + Barr V c (ix2 0 q)) 0

/-- The same as an array. -/
def G : S10240x512.Idx → EReal := fun i => Gfun V c ⟨(i 0).val, idx2_lt0 i⟩ ⟨(i 1).val, idx2_lt1 i⟩

/-- After a row of blocks is finished the accumulator holds the whole contraction. -/
theorem acc_full (t : Fin cfg1.N) (h7 : t.val % 8 = 7) (p : Fin 1280) (q : Fin 512) (hr : t.val / 8 * 1280 + p.val < 10240) :
    accSpec V c t.val p q = ∑ c' : Fin 10240, Aarr V c (ix2 ⟨t.val / 8 * 1280 + p.val, hr⟩ c') * Xarr V c (ix2 c' q) := by
  unfold accSpec
  rw [h7, DenseAdjacency.blocks_from_zero 8 1280 (term V c (t.val / 8) p q)]
  rw [← Fin.sum_univ_eq_sum_range (term V c (t.val / 8) p q) (8 * 1280)]
  refine Finset.sum_congr rfl fun c' _ => ?_
  unfold term An Xn
  rw [dif_pos ⟨hr, c'.isLt⟩, dif_pos c'.isLt]

/-- At the last block of a row the output block is the layer's entries. -/
theorem out_flush (t : Fin cfg1.N) (h7 : t.val % 8 = 7) (p : Fin 1280) (q : Fin 512) (hr : t.val / 8 * 1280 + p.val < 10240) :
    (outsAt1 V c t.val t.isLt).1 (ix2 p q) = Gfun V c ⟨t.val / 8 * 1280 + p.val, hr⟩ q := by
  have h0 : ¬ t.val % 8 = 0 := by omega
  have e1 : (outsAt1 V c t.val t.isLt).1 = k1_pay3 (outsAt1 V c t.val t.isLt).2 (bB V c t) := by
    rw [outv_C V c t h0 h7, acc_C V c t h0 h7, out_C, sout_C]
  rw [e1, pay3_apply, acc_eq V c t.val t.isLt p q, blk2_apply, acc_full V c t h7 p q hr]
  rfl

theorem mem_blk (t : Fin cfg1.N) (i : S10240x512.Idx) :
    i ∈ ((cfg1.win 3).blk t).view.set ↔ ∀ a : Fin 2, win1_3.index t a * S1280x512.size a ≤ (i a).val ∧ (i a).val < win1_3.index t a * S1280x512.size a + S1280x512.size a := by
  show i ∈ ((View.whole main_v51).slice (win1_3.rect t)).set ↔ _
  rw [View.set_slice_whole, Rect.mem_set_unit]
  exact Iff.rfl

/-- What a point that writes the output back writes: its block of the layer. -/
theorem flushed_eq (t : Fin cfg1.N) (hf : (cfg1.win 3).flush t = true) :
    (dat1 V c).flushed 3 t = ((cfg1.win 3).blk t).view.read (Elt Ideal) (G V c) := by
  have h7 : t.val % 8 = 7 := (flush1_3 t).mp hf
  have hN : t.val < 64 := lt_of_lt_of_eq t.isLt (show cfg1.N = 64 from N_1)
  obtain ⟨-, -, -, -, -, -, e6, e7⟩ := idx_facts t
  show (cfg1.win 3).cut (grid1.coords t) ((dat1 V c).after 3 t) = _
  rw [after1_3]
  funext j
  obtain ⟨p, q, rfl⟩ : ∃ (p : Fin 1280) (q : Fin 512), j = ix2 p q := ⟨j 0, j 1, eq_ix2 j⟩
  have hp := p.isLt; have hq := q.isLt
  have hr : t.val / 8 * 1280 + p.val < 10240 := by omega
  show (outsAt1 V c t.val t.isLt).1 (ix2 p q) = G V c (((cfg1.win 3).blk t).view.emb (ix2 p q))
  rw [out_flush V c t h7 p q hr]
  unfold G
  have hemb0 : ((((cfg1.win 3).blk t).view.emb (ix2 p q)) 0).val = t.val / 8 * 1280 + p.val := by
    show win1_3.index t (0 : Fin 2) * 1280 + 1 * p.val = _; rw [e6]; omega
  have hemb1 : ((((cfg1.win 3).blk t).view.emb (ix2 p q)) 1).val = q.val := by
    show win1_3.index t (1 : Fin 2) * 512 + 1 * q.val = _; rw [e7]; omega
  exact congrArg₂ (Gfun V c) (Fin.ext hemb0.symm) (Fin.ext hemb1.symm)

/-- THE OUTPUT ARRAY after the region: the layer, entry by entry. -/
theorem final (c : Dev nD) : (dat1 V c).arrAt 3 cfg1.N = G V c :=
  (dat1 V c).arrAt_eq_of_cover 3 (G V c) (flushed_eq V c) fun i => by
    have hi0 : (i 0).val < 10240 := idx2_lt0 i
    have hi1 : (i 1).val < 512 := idx2_lt1 i
    have hN : cfg1.N = 64 := N_1
    let t : Fin cfg1.N := ⟨8 * ((i 0).val / 1280) + 7, by rw [hN]; omega⟩
    have ht : t.val = 8 * ((i 0).val / 1280) + 7 := rfl
    obtain ⟨-, -, -, -, -, -, e6, e7⟩ := idx_facts t
    refine ⟨t, (flush1_3 t).mpr (by rw [ht]; omega), ?_⟩
    rw [mem_blk]
    intro a
    match a with
    | ⟨0, _⟩ => show win1_3.index t (0 : Fin 2) * 1280 ≤ (i 0).val ∧ (i 0).val < win1_3.index t (0 : Fin 2) * 1280 + 1280; rw [e6, ht]; omega
    | ⟨1, _⟩ => show win1_3.index t (1 : Fin 2) * 512 ≤ (i 1).val ∧ (i 1).val < win1_3.index t (1 : Fin 2) * 512 + 512; rw [e7]; omega

/-- The same read by coordinates. -/
theorem agg1_out : Gcn.mat2 ((dat1 (F := Ideal) V c).arrAt 3 cfg1.N)
    = fun r q => max ((∑ c' : Fin 10240, Gcn.mat2 (Aarr V c) r c' * Gcn.mat2 (Xarr V c) c' q) + Gcn.mat2 (Barr V c) 0 q) 0 := by
  rw [final V c]
  funext r q
  rfl

end Final

end Cert.KernelIdeal.KAgg1

end
-- ==== Proof.KAgg3.lean ====
/-
  Layer 2's aggregation read as values: what the accumulator and the output block hold after each grid point, and the
  output array at the end.
-/
import proofs.«143928_j37108517437617_1_alg».proof.Proof.KI.R3
import proofs.«143928_j37108517437617_1_alg».proof.Proof.Glue
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«143928_j37108517437617_1_alg».proof.Proof.LibPlainDot
import proofs.«143928_j37108517437617_1_alg».proof.Proof.LibDenseAdjacency

set_option maxRecDepth 16384

noncomputable section

open Idealize.ShloMosaic Idealize.ShloMosaic.TcCoe Idealize.SL.Sem
open Idealize.ShloMosaic.Pipeline (Dat)

namespace Cert.KernelIdeal.KAgg3

open Cert.KernelIdeal Cert.KernelIdeal.Gen Cert.KernelIdeal.Fr Idealize.ShloMosaic.ValueIdx

variable {F : FTy → Type} [FloatOps F]

theorem hz : (![0, 0] : Fin 2 → Nat) = fun _ => 0 := funext fun a => by fin_cases a <;> rfl

/-! ## What each case of the body leaves, as values -/

/-- A middle block: the accumulator ends at what it held plus this block's product. -/
theorem sout_B (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : ¬cond3_1 i) (x0 : Vec F S1280x1280 .bf16) (x1 : Vec F S1280x256 .f32) (x2 : Vec F S1x256 .f32) (xs0 : Vec F S1280x256 .f32) :
    sout3_B_0 c i a0 h0 a1 h1 a2 h2 a3 h3 a4 h4 hc0 hc1 x0 x1 x2 xs0 = k3_pay2 x0 x1 xs0 := by
  unfold sout3_B_0
  rw [View.read_writes_eq_canon _ _ _ (scover3_B_0 c i a0 h0 a1 h1 a2 h2 a3 h3 a4 h4 hc0 hc1 x0 x1 x2 xs0)]
  unfold kernelRun3_B
  dsimp only
  rw [View.canon_unit_zero hz]
  simp only [View.readAt_eq_ld, h0.read_unread, h1.read_unread, h4.read_unread, View.ld_unit_zero (S := S1280x1280) hz, View.ld_unit_zero (S := S1280x256) hz]

/-- The first block: the accumulator is cleared and ends at zero plus this block's product. -/
theorem sout_A (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : cond3_0 i) (hc1 : ¬cond3_1 i) (x0 : Vec F S1280x1280 .bf16) (x1 : Vec F S1280x256 .f32) (x2 : Vec F S1x256 .f32) :
    sout3_A_0 c i a0 h0 a1 h1 a2 h2 a3 h3 a4 h4 hc0 hc1 x0 x1 x2 = k3_pay2 x0 x1 (k3_pay1 (F := F)) := by
  unfold sout3_A_0
  rw [View.read_writes_eq_canon _ _ _ (scover3_A_0 c i a0 h0 a1 h1 a2 h2 a3 h3 a4 h4 hc0 hc1 x0 x1 x2)]
  unfold kernelRun3_A
  dsimp only
  sl_unfold_words
  rw [View.canon_cons_unit_zero (S := S1280x256) hz, View.readCov_unit_zero (S := S1280x256) _ hz]
  simp only [View.readAt_eq_ld, h0.read_unread, h1.read_unread, View.ld_unit_zero (S := S1280x1280) hz, View.ld_unit_zero (S := S1280x256) hz]

/-- The last block: the accumulator ends at what it held plus this block's product, -/
theorem sout_C (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i) (x0 : Vec F S1280x1280 .bf16) (x1 : Vec F S1280x256 .f32) (x2 : Vec F S1x256 .f32) (xs0 : Vec F S1280x256 .f32) :
    sout3_C_0 c i a0 h0 a1 h1 a2 h2 a3 h3 a4 h4 hc0 hc1 x0 x1 x2 xs0 = k3_pay2 x0 x1 xs0 := by
  unfold sout3_C_0
  rw [View.read_writes_eq_canon _ _ _ (scover3_C_0 c i a0 h0 a1 h1 a2 h2 a3 h3 a4 h4 hc0 hc1 x0 x1 x2 xs0)]
  unfold kernelRun3_C
  dsimp only
  sl_unfold_words
  rw [View.canon_unit_zero hz]
  simp only [View.readAt_eq_ld, h0.read_unread, h1.read_unread, h4.read_unread, View.ld_unit_zero (S := S1280x1280) hz, View.ld_unit_zero (S := S1280x256) hz]

/-- and the output block at that sum plus the bias row, clamped below at zero. -/
theorem out_C (c : Dev nD) (i : grid3.Coords) (a0 : Memref sig .tc .vmem S1280x1280 .bf16) (h0 : a0.IsWhole) (a1 : Memref sig .tc .vmem S1280x256 .f32) (h1 : a1.IsWhole) (a2 : Memref sig .tc .vmem S1x256 .f32) (h2 : a2.IsWhole) (a3 : Memref sig .tc .vmem S1280x256 .f32) (h3 : a3.IsWhole) (a4 : Memref sig .tc .vmem S1280x256 .f32) (h4 : a4.IsWhole) (hc0 : ¬cond3_0 i) (hc1 : cond3_1 i) (x0 : Vec F S1280x1280 .bf16) (x1 : Vec F S1280x256 .f32) (x2 : Vec F S1x256 .f32) (xs0 : Vec F S1280x256 .f32) :
    out3_C_3 c i a0 h0 a1 h1 a2 h2 a3 h3 a4 h4 hc0 hc1 x0 x1 x2 xs0 = k3_pay3 (k3_pay2 x0 x1 xs0) x2 := by
  unfold out3_C_3
  rw [View.read_writes_eq_canon _ _ _ (cover3_C_3 c i a0 h0 a1 h1 a2 h2 a3 h3 a4 h4 hc0 hc1 x0 x1 x2 xs0)]
  unfold kernelRun3_C
  dsimp only
  sl_unfold_words
  rw [View.canon_unit_zero hz, View.readCov_unit_zero (S := S1280x256) _ hz]
  simp only [View.readAt_eq_ld, h0.read_unread, h1.read_unread, h2.read_unread, h4.read_unread, View.ld_unit_zero (S := S1280x1280) hz, View.ld_unit_zero (S := S1280x256) hz, View.ld_unit_zero (S := S1x256) hz]

/-! ## The payloads at an entry, on the extended reals -/

/-- The cleared accumulator is zero. -/
theorem pay1_apply (i : S1280x256.Idx) : (k3_pay1 (F := Ideal)) i = 0 := by
  unfold k3_pay1
  rw [shapeCast_self, broadcast_apply]
  exact Ideal.ofBits_zero_f32

/-- One accumulation step: the old entry plus the block product's entry. -/
theorem pay2_apply (x0 : Vec Ideal S1280x1280 .bf16) (x1 x8 : Vec Ideal S1280x256 .f32) (p : Fin 1280) (q : Fin 256) :
    k3_pay2 x0 x1 x8 (ix2 p q) = x8 (ix2 p q) + ∑ l : Fin 1280, x0 (ix2 p l) * x1 (ix2 l q) := by
  unfold k3_pay2
  simp only [shapeCast_self]
  rw [addf_apply]
  refine congrArg (x8 (ix2 p q) + ·) ?_
  exact (Cert.PlainDot.matmul_zero_apply dot_S1280x1280_S1280x256_S1280x256_1_0_0_1_n_n rfl rfl rfl rfl rfl rfl rfl rfl none x0
    (truncf .bf16 x1 bitsLt_bf16_f32) p q).trans (Finset.sum_congr rfl fun κ _ => rfl)

/-- The epilogue: the accumulator's entry plus the bias row's, clamped below at zero. -/
theorem pay3_apply (x17 : Vec Ideal S1280x256 .f32) (x18 : Vec Ideal S1x256 .f32) (p : Fin 1280) (q : Fin 256) :
    k3_pay3 x17 x18 (ix2 p q) = max (x17 (ix2 p q) + x18 (ix2 0 q)) 0 := by
  unfold k3_pay3
  simp only [shapeCast_self]
  rw [maximumf_apply, addf_apply, broadcast_apply]
  rw [broadcastTo_apply x18 broadcasts_S1x256_S1280x256 (ix2 p q) (ix2 0 q) (by
    intro a
    match a with
    | ⟨0, _⟩ => rfl
    | ⟨1, _⟩ => rfl)]
  rw [show (Scalar.ofBits .f32 0x00000000#32 : Ideal .f32) = 0 from Ideal.ofBits_zero_f32]

/-! ## The accumulation read off the arrays the region finds -/

section Chain
variable (V : (c : Dev nD) → (b : Ref sig .tc) → Buf (Elt Ideal) ((c : Thread nD τ).loc b)) (c : Dev nD)

/-- The adjacency, the transformed features and the bias row as the region finds them. -/
abbrev Aarr : Vec Ideal S10240x10240 .bf16 := V c (Pipeline.arrRef spec3 0)
abbrev Xarr : Vec Ideal S10240x256 .f32 := V c (Pipeline.arrRef spec3 1)
abbrev Barr : Vec Ideal S1x256 .f32 := V c (Pipeline.arrRef spec3 2)

/-- The arrays read at natural-number coordinates, zero outside. -/
def An (r cc : ℕ) : EReal := if h : r < 10240 ∧ cc < 10240 then Aarr V c (ix2 ⟨r, h.1⟩ ⟨cc, h.2⟩) else 0
def Xn (r : ℕ) (q : Fin 256) : EReal := if h : r < 10240 then Xarr V c (ix2 ⟨r, h⟩ q) else 0

/-- The windows' block indices over the grid: point `t = 8·i + k` stages adjacency block (i, k), feature block k,
    the bias row, and output row block i. -/
theorem idx_facts : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = 0 ∧ win3_2.index t (1 : Fin 2) = 0
    ∧ win3_3.index t (0 : Fin 2) = t.val / 8 ∧ win3_3.index t (1 : Fin 2) = 0 :=
  (by decide +kernel : ∀ t : Fin grid3.N, _)

/-- The blocks a point finds in its input windows. -/
abbrev bA (t : Fin cfg3.N) : Vec Ideal S1280x1280 .bf16 := iblk3 V c 0 t
abbrev bX (t : Fin cfg3.N) : Vec Ideal S1280x256 .f32 := iblk3 V c 1 t
abbrev bB (t : Fin cfg3.N) : Vec Ideal S1x256 .f32 := iblk3 V c 2 t

theorem blk0_apply (t : Fin cfg3.N) (p l : Fin 1280) :
    bA V c t (ix2 p l) = An V c (t.val / 8 * 1280 + p.val) (t.val % 8 * 1280 + l.val) := by
  have hN : t.val < 64 := lt_of_lt_of_eq t.isLt (show cfg3.N = 64 from N_3)
  have hp := p.isLt; have hl := l.isLt
  obtain ⟨e0, e1, -⟩ := idx_facts t
  unfold An
  rw [dif_pos ⟨by omega, by omega⟩]
  unfold bA iblk3
  rw [View.read_apply]
  refine congrArg (V c (Pipeline.arrRef spec3 0)) ?_
  funext a; apply Fin.ext
  match a with
  | ⟨0, _⟩ => show win3_0.index t (0 : Fin 2) * 1280 + 1 * p.val = t.val / 8 * 1280 + p.val; rw [e0]; omega
  | ⟨1, _⟩ => show win3_0.index t (1 : Fin 2) * 1280 + 1 * l.val = t.val % 8 * 1280 + l.val; rw [e1]; omega

theorem blk1_apply (t : Fin cfg3.N) (l : Fin 1280) (q : Fin 256) :
    bX V c t (ix2 l q) = Xn V c (t.val % 8 * 1280 + l.val) q := by
  have hN : t.val < 64 := lt_of_lt_of_eq t.isLt (show cfg3.N = 64 from N_3)
  have hl := l.isLt; have hq := q.isLt
  obtain ⟨-, -, e0, e1, -⟩ := idx_facts t
  unfold Xn
  rw [dif_pos (by omega)]
  unfold bX iblk3
  rw [View.read_apply]
  refine congrArg (V c (Pipeline.arrRef spec3 1)) ?_
  funext a; apply Fin.ext
  match a with
  | ⟨0, _⟩ => show win3_1.index t (0 : Fin 2) * 1280 + 1 * l.val = t.val % 8 * 1280 + l.val; rw [e0]; omega
  | ⟨1, _⟩ => show win3_1.index t (1 : Fin 2) * 256 + 1 * q.val = q.val; rw [e1]; omega

theorem blk2_apply (t : Fin cfg3.N) (q : Fin 256) :
    bB V c t (ix2 0 q) = Barr V c (ix2 0 q) := by
  obtain ⟨-, -, -, -, e0, e1, -⟩ := idx_facts t
  unfold bB iblk3
  rw [View.read_apply]
  refine congrArg (V c (Pipeline.arrRef spec3 2)) ?_
  funext a; apply Fin.ext
  match a with
  | ⟨0, _⟩ => show win3_2.index t (0 : Fin 2) * 1 + 1 * 0 = 0; rw [e0]
  | ⟨1, _⟩ => show win3_2.index t (1 : Fin 2) * 256 + 1 * q.val = q.val; rw [e1]; omega

/-- The two components of what a point leaves, case by case. -/
theorem acc_A (t : Fin cfg3.N) (h0 : t.val % 8 = 0) (h1 : ¬t.val % 8 = 7) :
    (outsAt3 V c t.val t.isLt).2 = sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (bA V c t) (bX V c t) (bB V c t) :=
  by rw [outsAt3_A V c t h0 h1]
theorem acc_B (t : Fin cfg3.N) (h0 : ¬t.val % 8 = 0) (h1 : ¬t.val % 8 = 7) :
    (outsAt3 V c t.val t.isLt).2 = sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (bA V c t) (bX V c t) (bB V c t) (outsAt3 V c (t.val - 1) (Nat.lt_of_le_of_lt (Nat.sub_le _ _) t.isLt)).2 :=
  by rw [outsAt3_B V c t h0 h1]
theorem acc_C (t : Fin cfg3.N) (h0 : ¬t.val % 8 = 0) (h1 : t.val % 8 = 7) :
    (outsAt3 V c t.val t.isLt).2 = sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (bA V c t) (bX V c t) (bB V c t) (outsAt3 V c (t.val - 1) (Nat.lt_of_le_of_lt (Nat.sub_le _ _) t.isLt)).2 :=
  by rw [outsAt3_C V c t h0 h1]
theorem outv_C (t : Fin cfg3.N) (h0 : ¬t.val % 8 = 0) (h1 : t.val % 8 = 7) :
    (outsAt3 V c t.val t.isLt).1 = out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (bA V c t) (bX V c t) (bB V c t) (outsAt3 V c (t.val - 1) (Nat.lt_of_le_of_lt (Nat.sub_le _ _) t.isLt)).2 :=
  by rw [outsAt3_C V c t h0 h1]

/-- One block product at an entry, over natural-number columns. -/
def term (i : ℕ) (p : Fin 1280) (q : Fin 256) (cc : ℕ) : EReal := An V c (i * 1280 + p.val) cc * Xn V c cc q

/-- What the accumulator holds after position `n`, entry by entry: the products of the blocks met so far in this row of
    blocks. -/
def accSpec (n : ℕ) (p : Fin 1280) (q : Fin 256) : EReal :=
  (Finset.range (n % 8 + 1)).sum fun j => (Finset.range 1280).sum fun l => term V c (n / 8) p q (j * 1280 + l)

theorem block_sum (t : Fin cfg3.N) (p : Fin 1280) (q : Fin 256) :
    (∑ l : Fin 1280, bA V c t (ix2 p l) * bX V c t (ix2 l q))
      = (Finset.range 1280).sum fun l => term V c (t.val / 8) p q (t.val % 8 * 1280 + l) := by
  rw [← Fin.sum_univ_eq_sum_range (fun l => term V c (t.val / 8) p q (t.val % 8 * 1280 + l)) 1280]
  refine Finset.sum_congr rfl fun l _ => ?_
  rw [blk0_apply, blk1_apply]
  rfl

/-- THE ACCUMULATOR after position `n` is the sum of the block products met so far. -/
theorem acc_eq : ∀ (n : ℕ) (hn : n < cfg3.N) (p : Fin 1280) (q : Fin 256),
    (outsAt3 V c n hn).2 (ix2 p q) = accSpec V c n p q
  | 0, hn, p, q => by
    have e := acc_A V c ⟨0, hn⟩ (Nat.zero_mod _) (by show ¬ 0 % 8 = 7; omega)
    refine (congrFun e (ix2 p q)).trans ?_
    rw [sout_A, pay2_apply, pay1_apply, zero_add, block_sum]
    unfold accSpec
    simp only [Nat.zero_mod, Nat.zero_div, zero_add, Finset.sum_range_one, Nat.zero_mul]
  | n + 1, hn, p, q => by
    have hN : n + 1 < 64 := lt_of_lt_of_eq hn (show cfg3.N = 64 from N_3)
    by_cases h0 : (n + 1) % 8 = 0
    · have e := acc_A V c ⟨n + 1, hn⟩ h0 (by show ¬ (n + 1) % 8 = 7; omega)
      refine (congrFun e (ix2 p q)).trans ?_
      rw [sout_A, pay2_apply, pay1_apply, zero_add, block_sum]
      unfold accSpec
      show _ = (Finset.range ((n + 1) % 8 + 1)).sum _
      rw [h0]
      simp only [zero_add, Finset.sum_range_one, Nat.zero_mul]
    · have ih := acc_eq n (Nat.lt_of_succ_lt hn) p q
      have hstep : accSpec V c (n + 1) p q = accSpec V c n p q + (Finset.range 1280).sum fun l => term V c ((n + 1) / 8) p q ((n + 1) % 8 * 1280 + l) := by
        unfold accSpec
        have e1 : (n + 1) % 8 = n % 8 + 1 := by omega
        have e2 : (n + 1) / 8 = n / 8 := by omega
        rw [e1, e2, Finset.sum_range_succ]
      by_cases h1 : (n + 1) % 8 = 7
      · have e := acc_C V c ⟨n + 1, hn⟩ h0 h1
        refine (congrFun e (ix2 p q)).trans ?_
        rw [sout_C, pay2_apply, block_sum, hstep]
        exact congrArg (· + _) ih
      · have e := acc_B V c ⟨n + 1, hn⟩ h0 h1
        refine (congrFun e (ix2 p q)).trans ?_
        rw [sout_B, pay2_apply, block_sum, hstep]
        exact congrArg (· + _) ih

end Chain

/-! ## The output array -/

section Final
variable (V : (c : Dev nD) → (b : Ref sig .tc) → Buf (Elt Ideal) ((c : Thread nD τ).loc b)) (c : Dev nD)

/-- The layer at an entry: the adjacency's row against the feature column, plus the bias, clamped below at zero. -/
def Gfun (r : Fin 10240) (q : Fin 256) : EReal :=
  max ((∑ c' : Fin 10240, Aarr V c (ix2 r c') * Xarr V c (ix2 c' q)) + Barr V c (ix2 0 q)) 0

/-- The same as an array. -/
def G : S10240x256.Idx → EReal := fun i => Gfun V c ⟨(i 0).val, idx2_lt0 i⟩ ⟨(i 1).val, idx2_lt1 i⟩

/-- After a row of blocks is finished the accumulator holds the whole contraction. -/
theorem acc_full (t : Fin cfg3.N) (h7 : t.val % 8 = 7) (p : Fin 1280) (q : Fin 256) (hr : t.val / 8 * 1280 + p.val < 10240) :
    accSpec V c t.val p q = ∑ c' : Fin 10240, Aarr V c (ix2 ⟨t.val / 8 * 1280 + p.val, hr⟩ c') * Xarr V c (ix2 c' q) := by
  unfold accSpec
  rw [h7, DenseAdjacency.blocks_from_zero 8 1280 (term V c (t.val / 8) p q)]
  rw [← Fin.sum_univ_eq_sum_range (term V c (t.val / 8) p q) (8 * 1280)]
  refine Finset.sum_congr rfl fun c' _ => ?_
  unfold term An Xn
  rw [dif_pos ⟨hr, c'.isLt⟩, dif_pos c'.isLt]

/-- At the last block of a row the output block is the layer's entries. -/
theorem out_flush (t : Fin cfg3.N) (h7 : t.val % 8 = 7) (p : Fin 1280) (q : Fin 256) (hr : t.val / 8 * 1280 + p.val < 10240) :
    (outsAt3 V c t.val t.isLt).1 (ix2 p q) = Gfun V c ⟨t.val / 8 * 1280 + p.val, hr⟩ q := by
  have h0 : ¬ t.val % 8 = 0 := by omega
  have e1 : (outsAt3 V c t.val t.isLt).1 = k3_pay3 (outsAt3 V c t.val t.isLt).2 (bB V c t) := by
    rw [outv_C V c t h0 h7, acc_C V c t h0 h7, out_C, sout_C]
  rw [e1, pay3_apply, acc_eq V c t.val t.isLt p q, blk2_apply, acc_full V c t h7 p q hr]
  rfl

theorem mem_blk (t : Fin cfg3.N) (i : S10240x256.Idx) :
    i ∈ ((cfg3.win 3).blk t).view.set ↔ ∀ a : Fin 2, win3_3.index t a * S1280x256.size a ≤ (i a).val ∧ (i a).val < win3_3.index t a * S1280x256.size a + S1280x256.size a := by
  show i ∈ ((View.whole main_v54).slice (win3_3.rect t)).set ↔ _
  rw [View.set_slice_whole, Rect.mem_set_unit]
  exact Iff.rfl

/-- What a point that writes the output back writes: its block of the layer. -/
theorem flushed_eq (t : Fin cfg3.N) (hf : (cfg3.win 3).flush t = true) :
    (dat3 V c).flushed 3 t = ((cfg3.win 3).blk t).view.read (Elt Ideal) (G V c) := by
  have h7 : t.val % 8 = 7 := (flush3_3 t).mp hf
  have hN : t.val < 64 := lt_of_lt_of_eq t.isLt (show cfg3.N = 64 from N_3)
  obtain ⟨-, -, -, -, -, -, e6, e7⟩ := idx_facts t
  show (cfg3.win 3).cut (grid3.coords t) ((dat3 V c).after 3 t) = _
  rw [after3_3]
  funext j
  obtain ⟨p, q, rfl⟩ : ∃ (p : Fin 1280) (q : Fin 256), j = ix2 p q := ⟨j 0, j 1, eq_ix2 j⟩
  have hp := p.isLt; have hq := q.isLt
  have hr : t.val / 8 * 1280 + p.val < 10240 := by omega
  show (outsAt3 V c t.val t.isLt).1 (ix2 p q) = G V c (((cfg3.win 3).blk t).view.emb (ix2 p q))
  rw [out_flush V c t h7 p q hr]
  unfold G
  have hemb0 : ((((cfg3.win 3).blk t).view.emb (ix2 p q)) 0).val = t.val / 8 * 1280 + p.val := by
    show win3_3.index t (0 : Fin 2) * 1280 + 1 * p.val = _; rw [e6]; omega
  have hemb1 : ((((cfg3.win 3).blk t).view.emb (ix2 p q)) 1).val = q.val := by
    show win3_3.index t (1 : Fin 2) * 256 + 1 * q.val = _; rw [e7]; omega
  exact congrArg₂ (Gfun V c) (Fin.ext hemb0.symm) (Fin.ext hemb1.symm)

/-- THE OUTPUT ARRAY after the region: the layer, entry by entry. -/
theorem final (c : Dev nD) : (dat3 V c).arrAt 3 cfg3.N = G V c :=
  (dat3 V c).arrAt_eq_of_cover 3 (G V c) (flushed_eq V c) fun i => by
    have hi0 : (i 0).val < 10240 := idx2_lt0 i
    have hi1 : (i 1).val < 256 := idx2_lt1 i
    have hN : cfg3.N = 64 := N_3
    let t : Fin cfg3.N := ⟨8 * ((i 0).val / 1280) + 7, by rw [hN]; omega⟩
    have ht : t.val = 8 * ((i 0).val / 1280) + 7 := rfl
    obtain ⟨-, -, -, -, -, -, e6, e7⟩ := idx_facts t
    refine ⟨t, (flush3_3 t).mpr (by rw [ht]; omega), ?_⟩
    rw [mem_blk]
    intro a
    match a with
    | ⟨0, _⟩ => show win3_3.index t (0 : Fin 2) * 1280 ≤ (i 0).val ∧ (i 0).val < win3_3.index t (0 : Fin 2) * 1280 + 1280; rw [e6, ht]; omega
    | ⟨1, _⟩ => show win3_3.index t (1 : Fin 2) * 256 ≤ (i 1).val ∧ (i 1).val < win3_3.index t (1 : Fin 2) * 256 + 256; rw [e7]; omega

/-- The same read by coordinates. -/
theorem agg3_out : Gcn.mat2 ((dat3 (F := Ideal) V c).arrAt 3 cfg3.N)
    = fun r q => max ((∑ c' : Fin 10240, Gcn.mat2 (Aarr V c) r c' * Gcn.mat2 (Xarr V c) c' q) + Gcn.mat2 (Barr V c) 0 q) 0 := by
  rw [final V c]
  funext r q
  rfl

end Final

end Cert.KernelIdeal.KAgg3

end
-- ==== Proof.KAgg5.lean ====
/-
  Layer 3's aggregation read as values: what the accumulator and the output block hold after each grid point, and the
  output array at the end.
-/
import proofs.«143928_j37108517437617_1_alg».proof.Proof.KI.R5
import proofs.«143928_j37108517437617_1_alg».proof.Proof.Glue
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«143928_j37108517437617_1_alg».proof.Proof.LibPlainDot
import proofs.«143928_j37108517437617_1_alg».proof.Proof.LibDenseAdjacency

set_option maxRecDepth 16384

noncomputable section

open Idealize.ShloMosaic Idealize.ShloMosaic.TcCoe Idealize.SL.Sem
open Idealize.ShloMosaic.Pipeline (Dat)

namespace Cert.KernelIdeal.KAgg5

open Cert.KernelIdeal Cert.KernelIdeal.Gen Cert.KernelIdeal.Fr Idealize.ShloMosaic.ValueIdx

variable {F : FTy → Type} [FloatOps F]

theorem hz : (![0, 0] : Fin 2 → Nat) = fun _ => 0 := funext fun a => by fin_cases a <;> rfl

/-! ## What each case of the body leaves, as values -/

/-- A middle block: the accumulator ends at what it held plus this block's product. -/
theorem sout_B (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : ¬cond5_1 i) (x0 : Vec F S1280x1280 .bf16) (x1 : Vec F S1280x64 .f32) (x2 : Vec F S1x64 .f32) (xs0 : Vec F S1280x64 .f32) :
    sout5_B_0 c i a0 h0 a1 h1 a2 h2 a3 h3 a4 h4 hc0 hc1 x0 x1 x2 xs0 = k5_pay2 x0 x1 xs0 := by
  unfold sout5_B_0
  rw [View.read_writes_eq_canon _ _ _ (scover5_B_0 c i a0 h0 a1 h1 a2 h2 a3 h3 a4 h4 hc0 hc1 x0 x1 x2 xs0)]
  unfold kernelRun5_B
  dsimp only
  rw [View.canon_unit_zero hz]
  simp only [View.readAt_eq_ld, h0.read_unread, h1.read_unread, h4.read_unread, View.ld_unit_zero (S := S1280x1280) hz, View.ld_unit_zero (S := S1280x64) hz]

/-- The first block: the accumulator is cleared and ends at zero plus this block's product. -/
theorem sout_A (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : cond5_0 i) (hc1 : ¬cond5_1 i) (x0 : Vec F S1280x1280 .bf16) (x1 : Vec F S1280x64 .f32) (x2 : Vec F S1x64 .f32) :
    sout5_A_0 c i a0 h0 a1 h1 a2 h2 a3 h3 a4 h4 hc0 hc1 x0 x1 x2 = k5_pay2 x0 x1 (k5_pay1 (F := F)) := by
  unfold sout5_A_0
  rw [View.read_writes_eq_canon _ _ _ (scover5_A_0 c i a0 h0 a1 h1 a2 h2 a3 h3 a4 h4 hc0 hc1 x0 x1 x2)]
  unfold kernelRun5_A
  dsimp only
  sl_unfold_words
  rw [View.canon_cons_unit_zero (S := S1280x64) hz, View.readCov_unit_zero (S := S1280x64) _ hz]
  simp only [View.readAt_eq_ld, h0.read_unread, h1.read_unread, View.ld_unit_zero (S := S1280x1280) hz, View.ld_unit_zero (S := S1280x64) hz]

/-- The last block: the accumulator ends at what it held plus this block's product, -/
theorem sout_C (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i) (x0 : Vec F S1280x1280 .bf16) (x1 : Vec F S1280x64 .f32) (x2 : Vec F S1x64 .f32) (xs0 : Vec F S1280x64 .f32) :
    sout5_C_0 c i a0 h0 a1 h1 a2 h2 a3 h3 a4 h4 hc0 hc1 x0 x1 x2 xs0 = k5_pay2 x0 x1 xs0 := by
  unfold sout5_C_0
  rw [View.read_writes_eq_canon _ _ _ (scover5_C_0 c i a0 h0 a1 h1 a2 h2 a3 h3 a4 h4 hc0 hc1 x0 x1 x2 xs0)]
  unfold kernelRun5_C
  dsimp only
  sl_unfold_words
  rw [View.canon_unit_zero hz]
  simp only [View.readAt_eq_ld, h0.read_unread, h1.read_unread, h4.read_unread, View.ld_unit_zero (S := S1280x1280) hz, View.ld_unit_zero (S := S1280x64) hz]

/-- and the output block at that sum plus the bias row, clamped below at zero. -/
theorem out_C (c : Dev nD) (i : grid5.Coords) (a0 : Memref sig .tc .vmem S1280x1280 .bf16) (h0 : a0.IsWhole) (a1 : Memref sig .tc .vmem S1280x64 .f32) (h1 : a1.IsWhole) (a2 : Memref sig .tc .vmem S1x64 .f32) (h2 : a2.IsWhole) (a3 : Memref sig .tc .vmem S1280x64 .f32) (h3 : a3.IsWhole) (a4 : Memref sig .tc .vmem S1280x64 .f32) (h4 : a4.IsWhole) (hc0 : ¬cond5_0 i) (hc1 : cond5_1 i) (x0 : Vec F S1280x1280 .bf16) (x1 : Vec F S1280x64 .f32) (x2 : Vec F S1x64 .f32) (xs0 : Vec F S1280x64 .f32) :
    out5_C_3 c i a0 h0 a1 h1 a2 h2 a3 h3 a4 h4 hc0 hc1 x0 x1 x2 xs0 = k5_pay3 (k5_pay2 x0 x1 xs0) x2 := by
  unfold out5_C_3
  rw [View.read_writes_eq_canon _ _ _ (cover5_C_3 c i a0 h0 a1 h1 a2 h2 a3 h3 a4 h4 hc0 hc1 x0 x1 x2 xs0)]
  unfold kernelRun5_C
  dsimp only
  sl_unfold_words
  rw [View.canon_unit_zero hz, View.readCov_unit_zero (S := S1280x64) _ hz]
  simp only [View.readAt_eq_ld, h0.read_unread, h1.read_unread, h2.read_unread, h4.read_unread, View.ld_unit_zero (S := S1280x1280) hz, View.ld_unit_zero (S := S1280x64) hz, View.ld_unit_zero (S := S1x64) hz]

/-! ## The payloads at an entry, on the extended reals -/

/-- The cleared accumulator is zero. -/
theorem pay1_apply (i : S1280x64.Idx) : (k5_pay1 (F := Ideal)) i = 0 := by
  unfold k5_pay1
  rw [shapeCast_self, broadcast_apply]
  exact Ideal.ofBits_zero_f32

/-- One accumulation step: the old entry plus the block product's entry. -/
theorem pay2_apply (x0 : Vec Ideal S1280x1280 .bf16) (x1 x8 : Vec Ideal S1280x64 .f32) (p : Fin 1280) (q : Fin 64) :
    k5_pay2 x0 x1 x8 (ix2 p q) = x8 (ix2 p q) + ∑ l : Fin 1280, x0 (ix2 p l) * x1 (ix2 l q) := by
  unfold k5_pay2
  simp only [shapeCast_self]
  rw [addf_apply]
  refine congrArg (x8 (ix2 p q) + ·) ?_
  exact (Cert.PlainDot.matmul_zero_apply dot_S1280x1280_S1280x64_S1280x64_1_0_0_1_n_n rfl rfl rfl rfl rfl rfl rfl rfl none x0
    (truncf .bf16 x1 bitsLt_bf16_f32) p q).trans (Finset.sum_congr rfl fun κ _ => rfl)

/-- The epilogue: the accumulator's entry plus the bias row's, clamped below at zero. -/
theorem pay3_apply (x17 : Vec Ideal S1280x64 .f32) (x18 : Vec Ideal S1x64 .f32) (p : Fin 1280) (q : Fin 64) :
    k5_pay3 x17 x18 (ix2 p q) = max (x17 (ix2 p q) + x18 (ix2 0 q)) 0 := by
  unfold k5_pay3
  simp only [shapeCast_self]
  rw [maximumf_apply, addf_apply, broadcast_apply]
  rw [broadcastTo_apply x18 broadcasts_S1x64_S1280x64 (ix2 p q) (ix2 0 q) (by
    intro a
    match a with
    | ⟨0, _⟩ => rfl
    | ⟨1, _⟩ => rfl)]
  rw [show (Scalar.ofBits .f32 0x00000000#32 : Ideal .f32) = 0 from Ideal.ofBits_zero_f32]

/-! ## The accumulation read off the arrays the region finds -/

section Chain
variable (V : (c : Dev nD) → (b : Ref sig .tc) → Buf (Elt Ideal) ((c : Thread nD τ).loc b)) (c : Dev nD)

/-- The adjacency, the transformed features and the bias row as the region finds them. -/
abbrev Aarr : Vec Ideal S10240x10240 .bf16 := V c (Pipeline.arrRef spec5 0)
abbrev Xarr : Vec Ideal S10240x64 .f32 := V c (Pipeline.arrRef spec5 1)
abbrev Barr : Vec Ideal S1x64 .f32 := V c (Pipeline.arrRef spec5 2)

/-- The arrays read at natural-number coordinates, zero outside. -/
def An (r cc : ℕ) : EReal := if h : r < 10240 ∧ cc < 10240 then Aarr V c (ix2 ⟨r, h.1⟩ ⟨cc, h.2⟩) else 0
def Xn (r : ℕ) (q : Fin 64) : EReal := if h : r < 10240 then Xarr V c (ix2 ⟨r, h⟩ q) else 0

/-- The windows' block indices over the grid: point `t = 8·i + k` stages adjacency block (i, k), feature block k,
    the bias row, and output row block i. -/
theorem idx_facts : ∀ t : Fin cfg5.N, win5_0.index t (0 : Fin 2) = t.val / 8 ∧ win5_0.index t (1 : Fin 2) = t.val % 8
    ∧ win5_1.index t (0 : Fin 2) = t.val % 8 ∧ win5_1.index t (1 : Fin 2) = 0
    ∧ win5_2.index t (0 : Fin 2) = 0 ∧ win5_2.index t (1 : Fin 2) = 0
    ∧ win5_3.index t (0 : Fin 2) = t.val / 8 ∧ win5_3.index t (1 : Fin 2) = 0 :=
  (by decide +kernel : ∀ t : Fin grid5.N, _)

/-- The blocks a point finds in its input windows. -/
abbrev bA (t : Fin cfg5.N) : Vec Ideal S1280x1280 .bf16 := iblk5 V c 0 t
abbrev bX (t : Fin cfg5.N) : Vec Ideal S1280x64 .f32 := iblk5 V c 1 t
abbrev bB (t : Fin cfg5.N) : Vec Ideal S1x64 .f32 := iblk5 V c 2 t

theorem blk0_apply (t : Fin cfg5.N) (p l : Fin 1280) :
    bA V c t (ix2 p l) = An V c (t.val / 8 * 1280 + p.val) (t.val % 8 * 1280 + l.val) := by
  have hN : t.val < 64 := lt_of_lt_of_eq t.isLt (show cfg5.N = 64 from N_5)
  have hp := p.isLt; have hl := l.isLt
  obtain ⟨e0, e1, -⟩ := idx_facts t
  unfold An
  rw [dif_pos ⟨by omega, by omega⟩]
  unfold bA iblk5
  rw [View.read_apply]
  refine congrArg (V c (Pipeline.arrRef spec5 0)) ?_
  funext a; apply Fin.ext
  match a with
  | ⟨0, _⟩ => show win5_0.index t (0 : Fin 2) * 1280 + 1 * p.val = t.val / 8 * 1280 + p.val; rw [e0]; omega
  | ⟨1, _⟩ => show win5_0.index t (1 : Fin 2) * 1280 + 1 * l.val = t.val % 8 * 1280 + l.val; rw [e1]; omega

theorem blk1_apply (t : Fin cfg5.N) (l : Fin 1280) (q : Fin 64) :
    bX V c t (ix2 l q) = Xn V c (t.val % 8 * 1280 + l.val) q := by
  have hN : t.val < 64 := lt_of_lt_of_eq t.isLt (show cfg5.N = 64 from N_5)
  have hl := l.isLt; have hq := q.isLt
  obtain ⟨-, -, e0, e1, -⟩ := idx_facts t
  unfold Xn
  rw [dif_pos (by omega)]
  unfold bX iblk5
  rw [View.read_apply]
  refine congrArg (V c (Pipeline.arrRef spec5 1)) ?_
  funext a; apply Fin.ext
  match a with
  | ⟨0, _⟩ => show win5_1.index t (0 : Fin 2) * 1280 + 1 * l.val = t.val % 8 * 1280 + l.val; rw [e0]; omega
  | ⟨1, _⟩ => show win5_1.index t (1 : Fin 2) * 64 + 1 * q.val = q.val; rw [e1]; omega

theorem blk2_apply (t : Fin cfg5.N) (q : Fin 64) :
    bB V c t (ix2 0 q) = Barr V c (ix2 0 q) := by
  obtain ⟨-, -, -, -, e0, e1, -⟩ := idx_facts t
  unfold bB iblk5
  rw [View.read_apply]
  refine congrArg (V c (Pipeline.arrRef spec5 2)) ?_
  funext a; apply Fin.ext
  match a with
  | ⟨0, _⟩ => show win5_2.index t (0 : Fin 2) * 1 + 1 * 0 = 0; rw [e0]
  | ⟨1, _⟩ => show win5_2.index t (1 : Fin 2) * 64 + 1 * q.val = q.val; rw [e1]; omega

/-- The two components of what a point leaves, case by case. -/
theorem acc_A (t : Fin cfg5.N) (h0 : t.val % 8 = 0) (h1 : ¬t.val % 8 = 7) :
    (outsAt5 V c t.val t.isLt).2 = sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (bA V c t) (bX V c t) (bB V c t) :=
  by rw [outsAt5_A V c t h0 h1]
theorem acc_B (t : Fin cfg5.N) (h0 : ¬t.val % 8 = 0) (h1 : ¬t.val % 8 = 7) :
    (outsAt5 V c t.val t.isLt).2 = sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (bA V c t) (bX V c t) (bB V c t) (outsAt5 V c (t.val - 1) (Nat.lt_of_le_of_lt (Nat.sub_le _ _) t.isLt)).2 :=
  by rw [outsAt5_B V c t h0 h1]
theorem acc_C (t : Fin cfg5.N) (h0 : ¬t.val % 8 = 0) (h1 : t.val % 8 = 7) :
    (outsAt5 V c t.val t.isLt).2 = sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (bA V c t) (bX V c t) (bB V c t) (outsAt5 V c (t.val - 1) (Nat.lt_of_le_of_lt (Nat.sub_le _ _) t.isLt)).2 :=
  by rw [outsAt5_C V c t h0 h1]
theorem outv_C (t : Fin cfg5.N) (h0 : ¬t.val % 8 = 0) (h1 : t.val % 8 = 7) :
    (outsAt5 V c t.val t.isLt).1 = out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (bA V c t) (bX V c t) (bB V c t) (outsAt5 V c (t.val - 1) (Nat.lt_of_le_of_lt (Nat.sub_le _ _) t.isLt)).2 :=
  by rw [outsAt5_C V c t h0 h1]

/-- One block product at an entry, over natural-number columns. -/
def term (i : ℕ) (p : Fin 1280) (q : Fin 64) (cc : ℕ) : EReal := An V c (i * 1280 + p.val) cc * Xn V c cc q

/-- What the accumulator holds after position `n`, entry by entry: the products of the blocks met so far in this row of
    blocks. -/
def accSpec (n : ℕ) (p : Fin 1280) (q : Fin 64) : EReal :=
  (Finset.range (n % 8 + 1)).sum fun j => (Finset.range 1280).sum fun l => term V c (n / 8) p q (j * 1280 + l)

theorem block_sum (t : Fin cfg5.N) (p : Fin 1280) (q : Fin 64) :
    (∑ l : Fin 1280, bA V c t (ix2 p l) * bX V c t (ix2 l q))
      = (Finset.range 1280).sum fun l => term V c (t.val / 8) p q (t.val % 8 * 1280 + l) := by
  rw [← Fin.sum_univ_eq_sum_range (fun l => term V c (t.val / 8) p q (t.val % 8 * 1280 + l)) 1280]
  refine Finset.sum_congr rfl fun l _ => ?_
  rw [blk0_apply, blk1_apply]
  rfl

/-- THE ACCUMULATOR after position `n` is the sum of the block products met so far. -/
theorem acc_eq : ∀ (n : ℕ) (hn : n < cfg5.N) (p : Fin 1280) (q : Fin 64),
    (outsAt5 V c n hn).2 (ix2 p q) = accSpec V c n p q
  | 0, hn, p, q => by
    have e := acc_A V c ⟨0, hn⟩ (Nat.zero_mod _) (by show ¬ 0 % 8 = 7; omega)
    refine (congrFun e (ix2 p q)).trans ?_
    rw [sout_A, pay2_apply, pay1_apply, zero_add, block_sum]
    unfold accSpec
    simp only [Nat.zero_mod, Nat.zero_div, zero_add, Finset.sum_range_one, Nat.zero_mul]
  | n + 1, hn, p, q => by
    have hN : n + 1 < 64 := lt_of_lt_of_eq hn (show cfg5.N = 64 from N_5)
    by_cases h0 : (n + 1) % 8 = 0
    · have e := acc_A V c ⟨n + 1, hn⟩ h0 (by show ¬ (n + 1) % 8 = 7; omega)
      refine (congrFun e (ix2 p q)).trans ?_
      rw [sout_A, pay2_apply, pay1_apply, zero_add, block_sum]
      unfold accSpec
      show _ = (Finset.range ((n + 1) % 8 + 1)).sum _
      rw [h0]
      simp only [zero_add, Finset.sum_range_one, Nat.zero_mul]
    · have ih := acc_eq n (Nat.lt_of_succ_lt hn) p q
      have hstep : accSpec V c (n + 1) p q = accSpec V c n p q + (Finset.range 1280).sum fun l => term V c ((n + 1) / 8) p q ((n + 1) % 8 * 1280 + l) := by
        unfold accSpec
        have e1 : (n + 1) % 8 = n % 8 + 1 := by omega
        have e2 : (n + 1) / 8 = n / 8 := by omega
        rw [e1, e2, Finset.sum_range_succ]
      by_cases h1 : (n + 1) % 8 = 7
      · have e := acc_C V c ⟨n + 1, hn⟩ h0 h1
        refine (congrFun e (ix2 p q)).trans ?_
        rw [sout_C, pay2_apply, block_sum, hstep]
        exact congrArg (· + _) ih
      · have e := acc_B V c ⟨n + 1, hn⟩ h0 h1
        refine (congrFun e (ix2 p q)).trans ?_
        rw [sout_B, pay2_apply, block_sum, hstep]
        exact congrArg (· + _) ih

end Chain

/-! ## The output array -/

section Final
variable (V : (c : Dev nD) → (b : Ref sig .tc) → Buf (Elt Ideal) ((c : Thread nD τ).loc b)) (c : Dev nD)

/-- The layer at an entry: the adjacency's row against the feature column, plus the bias, clamped below at zero. -/
def Gfun (r : Fin 10240) (q : Fin 64) : EReal :=
  max ((∑ c' : Fin 10240, Aarr V c (ix2 r c') * Xarr V c (ix2 c' q)) + Barr V c (ix2 0 q)) 0

/-- The same as an array. -/
def G : S10240x64.Idx → EReal := fun i => Gfun V c ⟨(i 0).val, idx2_lt0 i⟩ ⟨(i 1).val, idx2_lt1 i⟩

/-- After a row of blocks is finished the accumulator holds the whole contraction. -/
theorem acc_full (t : Fin cfg5.N) (h7 : t.val % 8 = 7) (p : Fin 1280) (q : Fin 64) (hr : t.val / 8 * 1280 + p.val < 10240) :
    accSpec V c t.val p q = ∑ c' : Fin 10240, Aarr V c (ix2 ⟨t.val / 8 * 1280 + p.val, hr⟩ c') * Xarr V c (ix2 c' q) := by
  unfold accSpec
  rw [h7, DenseAdjacency.blocks_from_zero 8 1280 (term V c (t.val / 8) p q)]
  rw [← Fin.sum_univ_eq_sum_range (term V c (t.val / 8) p q) (8 * 1280)]
  refine Finset.sum_congr rfl fun c' _ => ?_
  unfold term An Xn
  rw [dif_pos ⟨hr, c'.isLt⟩, dif_pos c'.isLt]

/-- At the last block of a row the output block is the layer's entries. -/
theorem out_flush (t : Fin cfg5.N) (h7 : t.val % 8 = 7) (p : Fin 1280) (q : Fin 64) (hr : t.val / 8 * 1280 + p.val < 10240) :
    (outsAt5 V c t.val t.isLt).1 (ix2 p q) = Gfun V c ⟨t.val / 8 * 1280 + p.val, hr⟩ q := by
  have h0 : ¬ t.val % 8 = 0 := by omega
  have e1 : (outsAt5 V c t.val t.isLt).1 = k5_pay3 (outsAt5 V c t.val t.isLt).2 (bB V c t) := by
    rw [outv_C V c t h0 h7, acc_C V c t h0 h7, out_C, sout_C]
  rw [e1, pay3_apply, acc_eq V c t.val t.isLt p q, blk2_apply, acc_full V c t h7 p q hr]
  rfl

theorem mem_blk (t : Fin cfg5.N) (i : S10240x64.Idx) :
    i ∈ ((cfg5.win 3).blk t).view.set ↔ ∀ a : Fin 2, win5_3.index t a * S1280x64.size a ≤ (i a).val ∧ (i a).val < win5_3.index t a * S1280x64.size a + S1280x64.size a := by
  show i ∈ ((View.whole main_v57).slice (win5_3.rect t)).set ↔ _
  rw [View.set_slice_whole, Rect.mem_set_unit]
  exact Iff.rfl

/-- What a point that writes the output back writes: its block of the layer. -/
theorem flushed_eq (t : Fin cfg5.N) (hf : (cfg5.win 3).flush t = true) :
    (dat5 V c).flushed 3 t = ((cfg5.win 3).blk t).view.read (Elt Ideal) (G V c) := by
  have h7 : t.val % 8 = 7 := (flush5_3 t).mp hf
  have hN : t.val < 64 := lt_of_lt_of_eq t.isLt (show cfg5.N = 64 from N_5)
  obtain ⟨-, -, -, -, -, -, e6, e7⟩ := idx_facts t
  show (cfg5.win 3).cut (grid5.coords t) ((dat5 V c).after 3 t) = _
  rw [after5_3]
  funext j
  obtain ⟨p, q, rfl⟩ : ∃ (p : Fin 1280) (q : Fin 64), j = ix2 p q := ⟨j 0, j 1, eq_ix2 j⟩
  have hp := p.isLt; have hq := q.isLt
  have hr : t.val / 8 * 1280 + p.val < 10240 := by omega
  show (outsAt5 V c t.val t.isLt).1 (ix2 p q) = G V c (((cfg5.win 3).blk t).view.emb (ix2 p q))
  rw [out_flush V c t h7 p q hr]
  unfold G
  have hemb0 : ((((cfg5.win 3).blk t).view.emb (ix2 p q)) 0).val = t.val / 8 * 1280 + p.val := by
    show win5_3.index t (0 : Fin 2) * 1280 + 1 * p.val = _; rw [e6]; omega
  have hemb1 : ((((cfg5.win 3).blk t).view.emb (ix2 p q)) 1).val = q.val := by
    show win5_3.index t (1 : Fin 2) * 64 + 1 * q.val = _; rw [e7]; omega
  exact congrArg₂ (Gfun V c) (Fin.ext hemb0.symm) (Fin.ext hemb1.symm)

/-- THE OUTPUT ARRAY after the region: the layer, entry by entry. -/
theorem final (c : Dev nD) : (dat5 V c).arrAt 3 cfg5.N = G V c :=
  (dat5 V c).arrAt_eq_of_cover 3 (G V c) (flushed_eq V c) fun i => by
    have hi0 : (i 0).val < 10240 := idx2_lt0 i
    have hi1 : (i 1).val < 64 := idx2_lt1 i
    have hN : cfg5.N = 64 := N_5
    let t : Fin cfg5.N := ⟨8 * ((i 0).val / 1280) + 7, by rw [hN]; omega⟩
    have ht : t.val = 8 * ((i 0).val / 1280) + 7 := rfl
    obtain ⟨-, -, -, -, -, -, e6, e7⟩ := idx_facts t
    refine ⟨t, (flush5_3 t).mpr (by rw [ht]; omega), ?_⟩
    rw [mem_blk]
    intro a
    match a with
    | ⟨0, _⟩ => show win5_3.index t (0 : Fin 2) * 1280 ≤ (i 0).val ∧ (i 0).val < win5_3.index t (0 : Fin 2) * 1280 + 1280; rw [e6, ht]; omega
    | ⟨1, _⟩ => show win5_3.index t (1 : Fin 2) * 64 ≤ (i 1).val ∧ (i 1).val < win5_3.index t (1 : Fin 2) * 64 + 64; rw [e7]; omega

/-- The same read by coordinates. -/
theorem agg5_out : Gcn.mat2 ((dat5 (F := Ideal) V c).arrAt 3 cfg5.N)
    = fun r q => max ((∑ c' : Fin 10240, Gcn.mat2 (Aarr V c) r c' * Gcn.mat2 (Xarr V c) c' q) + Gcn.mat2 (Barr V c) 0 q) 0 := by
  rw [final V c]
  funext r q
  rfl

end Final

end Cert.KernelIdeal.KAgg5

end
-- ==== Proof.Algebra.lean ====
/-
  The dense arrangement of the network equals the message-passing one, node by node, on the extended reals.

  A message's weight `dinv (s e) · dinv (d e)` is non-negative (an inverse square root of a positive number, or zero), so a
  row of the dense adjacency contracted against ANY column — finite or not — is the sum over the messages into the node of
  the weight times the column at the message's source (LibDenseAdjacency). Padding rows hold whatever they hold: no message
  comes from a padding column, so they meet a zero entry of the adjacency and contribute nothing. Hence one dense layer
  over padded features that agree with the node features on the nodes is the message-passing layer on the nodes; three
  layers and the classifier follow.
-/
import proofs.«143928_j37108517437617_1_alg».proof.Proof.Spec
import proofs.«143928_j37108517437617_1_alg».proof.Proof.LibDenseAdjacency

noncomputable section

namespace Gcn

open scoped BigOperators
open Idealize.ShloMosaic

theorem pad_injective : Function.Injective pad := fun a b h => Fin.ext (by simpa [pad] using congrArg Fin.val h)

/-- The inverse square root of a positive extended real is non-negative. -/
theorem rsqrt_nonneg_of_pos (x : EReal) (hx : 0 < x) : 0 ≤ Ideal.rsqrt x := by
  induction x using EReal.rec with
  | bot => exact absurd hx (by simp)
  | top => rw [show Ideal.rsqrt ⊤ = 0 from rfl]
  | coe r =>
    have hr : 0 < r := by exact_mod_cast hx
    have e : Ideal.rsqrt (r : EReal) = if r < 0 then ⊥ else if r = 0 then ⊤ else (((Real.sqrt r)⁻¹ : ℝ) : EReal) := rfl
    rw [e, if_neg (not_lt.mpr hr.le), if_neg hr.ne']
    exact_mod_cast inv_nonneg.mpr (Real.sqrt_nonneg r)

variable (s d : Fin Ne → Fin Nn)

theorem dinv_nonneg (v : Fin Nn) : 0 ≤ dinv d v := by
  unfold dinv
  split
  · exact rsqrt_nonneg_of_pos _ ‹_›
  · exact le_refl 0

theorem nrm_nonneg (e : Fin Ne) : 0 ≤ nrm s d e := mul_nonneg (dinv_nonneg d _) (dinv_nonneg d _)

/-- The zero-padded features at a node are the node's features. -/
theorem xpad_pad {k : ℕ} (x : Fin Nn → Fin k → EReal) (v : Fin Nn) (κ : Fin k) : xpad x (pad v) κ = x v κ := by
  unfold xpad
  rw [dif_pos (show (pad v).val < Nn from v.isLt)]
  rfl

/-- The feature transform reads one row: rows that agree transform alike. -/
theorem lin_congr_row {n n' k b : ℕ} (h : Fin n → Fin k → EReal) (h' : Fin n' → Fin k → EReal) (w : Fin k → Fin b → EReal)
    (r : Fin n) (r' : Fin n') (hrow : ∀ κ, h r κ = h' r' κ) (q : Fin b) : lin h w r q = lin h' w r' q := by
  unfold lin
  exact Finset.sum_congr rfl fun κ _ => by rw [hrow κ]

/-- ONE LAYER. Dense over padded features that agree with `h` on the nodes, read at a node, is message passing over `h`. -/
theorem layerDense_eq_layerMsg {k b : ℕ} (h' : Fin Np → Fin k → EReal) (h : Fin Nn → Fin k → EReal)
    (hh : ∀ v κ, h' (pad v) κ = h v κ) (w : Fin k → Fin b → EReal) (β : Fin b → EReal) (v : Fin Nn) (q : Fin b) :
    layerDenseOf (adj s d) h' w β (pad v) q = layerMsg s d h w β v q := by
  unfold layerDenseOf layerMsg
  have hsum : (∑ c : Fin Np, adj s d (pad v) c * lin h' w c q)
      = ∑ e ∈ Finset.univ.filter (fun e => d e = v), lin h w (s e) q * nrm s d e := by
    unfold adj
    rw [DenseAdjacency.row_contract (nrm s d) (nrm_nonneg s d) (fun e => pad (s e)) (fun e => pad (d e)) (pad v)
      (fun c => lin h' w c q)]
    have hf : (Finset.univ.filter (fun e : Fin Ne => pad (d e) = pad v)) = Finset.univ.filter (fun e => d e = v) := by
      ext e
      simp only [Finset.mem_filter, Finset.mem_univ, true_and]
      exact ⟨fun h0 => pad_injective h0, fun h0 => by rw [h0]⟩
    rw [hf]
    refine Finset.sum_congr rfl fun e _ => ?_
    rw [mul_comm, lin_congr_row h' h w (pad (s e)) (s e) (fun κ => hh (s e) κ) q]
  rw [hsum]

/-- THE NETWORK: the dense arrangement read at a node is the message-passing one. -/
theorem outDense_eq_outMsg (x : Fin Nn → Fin 128 → EReal) (w1 : Fin 128 → Fin 512 → EReal) (b1 : Fin 512 → EReal)
    (w2 : Fin 512 → Fin 256 → EReal) (b2 : Fin 256 → EReal) (w3 : Fin 256 → Fin 64 → EReal) (b3 : Fin 64 → EReal)
    (wc : Fin 64 → Fin 3 → EReal) (bc : Fin 3 → EReal) (v : Fin Nn) (q : Fin 3) :
    outDense s d x w1 b1 w2 b2 w3 b3 wc bc v q = outMsg s d x w1 b1 w2 b2 w3 b3 wc bc v q := by
  unfold outDense outDenseOf outMsg
  have h1 : ∀ v κ, layerDenseOf (adj s d) (xpad x) w1 b1 (pad v) κ = layerMsg s d x w1 b1 v κ :=
    fun v κ => layerDense_eq_layerMsg s d (xpad x) x (xpad_pad x) w1 b1 v κ
  have h2 : ∀ v κ, layerDenseOf (adj s d) (layerDenseOf (adj s d) (xpad x) w1 b1) w2 b2 (pad v) κ
      = layerMsg s d (layerMsg s d x w1 b1) w2 b2 v κ :=
    fun v κ => layerDense_eq_layerMsg s d _ _ h1 w2 b2 v κ
  have h3 : ∀ v κ, layerDenseOf (adj s d) (layerDenseOf (adj s d) (layerDenseOf (adj s d) (xpad x) w1 b1) w2 b2) w3 b3 (pad v) κ
      = layerMsg s d (layerMsg s d (layerMsg s d x w1 b1) w2 b2) w3 b3 v κ :=
    fun v κ => layerDense_eq_layerMsg s d _ _ h2 w3 b3 v κ
  rw [lin_congr_row _ _ wc (pad v) v (fun κ => h3 v κ) q]

end Gcn

end
-- ==== Proof.KOut.lean ====
/-
  The kernel program's result as the dense network: the seven regions' outputs chained through the buffers each finds,
  then the host values of the adjacency and the padded features, then the algebra — the result array is the
  message-passing network of the reference, node by node.
-/
import proofs.«143928_j37108517437617_1_alg».proof.Proof.KI.Run
import proofs.«143928_j37108517437617_1_alg».proof.Proof.KHostPlumb
import proofs.«143928_j37108517437617_1_alg».proof.Proof.KHostX
import proofs.«143928_j37108517437617_1_alg».proof.Proof.KHostAdj
import proofs.«143928_j37108517437617_1_alg».proof.Proof.KVal0
import proofs.«143928_j37108517437617_1_alg».proof.Proof.KVal2
import proofs.«143928_j37108517437617_1_alg».proof.Proof.KVal4
import proofs.«143928_j37108517437617_1_alg».proof.Proof.KVal6
import proofs.«143928_j37108517437617_1_alg».proof.Proof.KAgg1
import proofs.«143928_j37108517437617_1_alg».proof.Proof.KAgg3
import proofs.«143928_j37108517437617_1_alg».proof.Proof.KAgg5
import proofs.«143928_j37108517437617_1_alg».proof.Proof.Algebra

set_option maxRecDepth 16384

noncomputable section

namespace Cert.KernelIdeal.KOut

open Cert.KernelIdeal Cert.KernelIdeal.Gen Cert.KernelIdeal.Fr Cert.KernelIdeal.KHost
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The adjacency and the padded features as the first region finds them, by coordinates. -/
abbrev Adj : Fin 10240 → Fin 10240 → EReal := Gcn.mat2 (W3 m ρ c (Proc.devRef .tc main_v45))
abbrev XP : Fin 10240 → Fin 128 → EReal := Gcn.mat2 (W3 m ρ c (Proc.devRef .tc main_v48))
abbrev w1 : Fin 128 → Fin 512 → EReal := Gcn.mat2 (m ((c.tc : Thread nD τ).loc main_arg1))
abbrev b1 : Fin 512 → EReal := Gcn.vec1 (m ((c.tc : Thread nD τ).loc main_arg2))
abbrev w2 : Fin 512 → Fin 256 → EReal := Gcn.mat2 (m ((c.tc : Thread nD τ).loc main_arg3))
abbrev b2 : Fin 256 → EReal := Gcn.vec1 (m ((c.tc : Thread nD τ).loc main_arg4))
abbrev w3 : Fin 256 → Fin 64 → EReal := Gcn.mat2 (m ((c.tc : Thread nD τ).loc main_arg5))
abbrev b3 : Fin 64 → EReal := Gcn.vec1 (m ((c.tc : Thread nD τ).loc main_arg6))
abbrev wc : Fin 64 → Fin 3 → EReal := Gcn.mat2 (m ((c.tc : Thread nD τ).loc main_arg7))
abbrev bc : Fin 3 → EReal := Gcn.vec1 (m ((c.tc : Thread nD τ).loc main_arg8))

/-- Region 0: the padded features times the first weights. -/
theorem r0 : Gcn.mat2 ((dat0 (F := Ideal) (V3 m ρ) c).arrAt 2 cfg0.N) = Gcn.lin (XP m ρ c) (w1 m c) := by
  rw [KVal.lin0_out (V3 m ρ) c, ent0_0 m ρ c, ent0_1 m ρ c]

/-- Region 1: the first dense layer. -/
theorem r1 : Gcn.mat2 ((dat1 (F := Ideal) (V5 m ρ) c).arrAt 3 cfg1.N) = Gcn.layerDenseOf (Adj m ρ c) (XP m ρ c) (w1 m c) (b1 m c) := by
  rw [KAgg1.agg1_out (V5 m ρ) c]
  funext r q
  unfold Gcn.layerDenseOf
  dsimp only [KAgg1.Aarr, KAgg1.Xarr, KAgg1.Barr]
  rw [ent1_0 m ρ c, ent1_1 m ρ c, r0 m ρ c, ent1_2_apply m ρ c q]

theorem r2 : Gcn.mat2 ((dat2 (F := Ideal) (V6 m ρ) c).arrAt 2 cfg2.N) = Gcn.lin (Gcn.layerDenseOf (Adj m ρ c) (XP m ρ c) (w1 m c) (b1 m c)) (w2 m c) := by
  rw [KVal.lin2_out (V6 m ρ) c, ent2_0 m ρ c, ent2_1 m ρ c, r1 m ρ c]

theorem r3 : Gcn.mat2 ((dat3 (F := Ideal) (V8 m ρ) c).arrAt 3 cfg3.N)
    = Gcn.layerDenseOf (Adj m ρ c) (Gcn.layerDenseOf (Adj m ρ c) (XP m ρ c) (w1 m c) (b1 m c)) (w2 m c) (b2 m c) := by
  rw [KAgg3.agg3_out (V8 m ρ) c]
  funext r q
  unfold Gcn.layerDenseOf
  dsimp only [KAgg3.Aarr, KAgg3.Xarr, KAgg3.Barr]
  rw [ent3_0 m ρ c, ent3_1 m ρ c, r2 m ρ c, ent3_2_apply m ρ c q]
  rfl

theorem r4 : Gcn.mat2 ((dat4 (F := Ideal) (V9 m ρ) c).arrAt 2 cfg4.N)
    = Gcn.lin (Gcn.layerDenseOf (Adj m ρ c) (Gcn.layerDenseOf (Adj m ρ c) (XP m ρ c) (w1 m c) (b1 m c)) (w2 m c) (b2 m c)) (w3 m c) := by
  rw [KVal.lin4_out (V9 m ρ) c, ent4_0 m ρ c, ent4_1 m ρ c, r3 m ρ c]

theorem r5 : Gcn.mat2 ((dat5 (F := Ideal) (V11 m ρ) c).arrAt 3 cfg5.N)
    = Gcn.layerDenseOf (Adj m ρ c) (Gcn.layerDenseOf (Adj m ρ c) (Gcn.layerDenseOf (Adj m ρ c) (XP m ρ c) (w1 m c) (b1 m c)) (w2 m c) (b2 m c)) (w3 m c) (b3 m c) := by
  rw [KAgg5.agg5_out (V11 m ρ) c]
  funext r q
  unfold Gcn.layerDenseOf
  dsimp only [KAgg5.Aarr, KAgg5.Xarr, KAgg5.Barr]
  rw [ent5_0 m ρ c, ent5_1 m ρ c, r4 m ρ c, ent5_2_apply m ρ c q]
  rfl

/-- Region 6: the classifier over the third layer. -/
theorem r6 : Gcn.mat2 ((dat6 (F := Ideal) (V13 m ρ) c).arrAt 3 cfg6.N)
    = Gcn.outDenseOf (Adj m ρ c) (XP m ρ c) (w1 m c) (b1 m c) (w2 m c) (b2 m c) (w3 m c) (b3 m c) (wc m c) (bc m c) := by
  rw [KVal.fin6_out (V13 m ρ) c]
  funext r q
  unfold Gcn.outDenseOf
  rw [ent6_0 m ρ c, ent6_1 m ρ c, r5 m ρ c, ent6_2_apply m ρ c q]

/-- THE RESULT: with the index words in range, the kernel program's result array is the message-passing network. -/
theorem ker_out (hr : Gcn.InRange (fun j e => m ((c.tc : Thread nD τ).loc main_arg9) (ix2 j e))) :
    W15 m ρ c (Proc.devRef .tc main_v60)
      = fun i => Gcn.outMsg (Gcn.srcTab (fun j e => m ((c.tc : Thread nD τ).loc main_arg9) (ix2 j e))) (Gcn.dstTab (fun j e => m ((c.tc : Thread nD τ).loc main_arg9) (ix2 j e)))
          (Gcn.mat2 (m ((c.tc : Thread nD τ).loc main_arg0))) (w1 m c) (b1 m c) (w2 m c) (b2 m c) (w3 m c) (b3 m c) (wc m c) (bc m c) (i 0) (i 1) := by
  refine Gcn.eq_of_mat2 _ _ ?_
  funext v q
  rw [out60_apply m ρ c v q, W14_arr m ρ c 3, r6 m ρ c]
  dsimp only [Adj, XP]
  rw [adj_eq m ρ c hr, xpad_eq m ρ c]
  exact Gcn.outDense_eq_outMsg _ _ _ _ _ _ _ _ _ _ _ v q

end Cert.KernelIdeal.KOut

end
-- ==== Proof.RefSide.lean ====
/-
  The reference program's run and its stages read at an index, gathered under one import.
-/
import proofs.«143928_j37108517437617_1_alg».proof.Proof.RefRunP
import proofs.«143928_j37108517437617_1_alg».proof.Proof.RefReadP
-- ==== Proof.RefAStages.lean ====
/-
  The stages of one message-passing layer, read at an index over abstract operands.

  Every index table here has one column of 170000 words, and word `e` of the table reads, signed, as a node: the
  message's source or target. Under that hypothesis a gather reads the operand at the node (nothing is clamped), and an
  accumulating scatter adds update `e` into the node's entry (nothing is dropped). The degree is then the scatter of
  ones, and a layer's neighbour sum the scatter of the weighted gathered rows.
-/
import proofs.«143928_j37108517437617_1_alg».proof.Proof.Spec
import proofs.«143928_j37108517437617_1_alg».proof.Proof.Glue
import proofs.«143928_j37108517437617_1_alg».proof.Proof.LibScatterCols
import proofs.«143928_j37108517437617_1_alg».proof.Proof.LibGatherVec

noncomputable section

namespace Gcn.Stages

open scoped BigOperators
open Idealize.ShloMosaic Idealize.ShloMosaic.ValueIdx ScatterRows ScatterDrop GatherVec ScatterCols

/-- A word in range reads, signed, as the node it names. -/
theorem node_val (w : BitVec 32) (h0 : 0 ≤ w.toInt) (h1 : w.toInt < 10000) : ((Gcn.node w).val : Int) = w.toInt := by
  show ((min w.toInt.toNat 9999 : ℕ) : Int) = w.toInt
  omega

/-- A gather whose word for row `r` reads, signed, as the node `v` reads the operand at `v`. -/
theorem gRow_of_word {U : ℕ} (idx : IVec (Tbl U) 32) (r : Fin U) (v : Fin 10000)
    (h : (idx (ix2 r (0 : Fin 1))).toInt = (v.val : Int)) :
    gRow (R := 10000) (by decide) idx r = v := by
  apply Fin.ext
  show min (idx (ix2 r (0 : Fin 1))).toInt.toNat (10000 - 1) = v.val
  have := v.isLt
  rw [h]
  omega

/-- THE DEGREE: ones scattered by the target table into zeros count the messages into a node. -/
theorem deg_read (dd : ScatterDims (V1 10000) (Tbl 170000) (V1 170000))
    (h1 : dd.updateWindowDims = []) (h2 : dd.insertedWindowDims = [0]) (h3 : dd.scatterDimsToOperandDims = [0])
    (h4 : dd.indexVectorDim = 1) (d : Fin Ne → Fin Nn)
    (z : (V1 10000).Idx → EReal) (hz : ∀ i, z i = 0)
    (tbl : IVec (Tbl 170000) 32) (ht : ∀ e : Fin 170000, (tbl (ix2 e (0 : Fin 1))).toInt = ((d e).val : Int))
    (ones : (V1 170000).Idx → EReal) (ho : ∀ i, ones i = 1) (v : Fin 10000) :
    Ideal.hostScatterAdd dd z tbl ones (ix1 v) = Gcn.deg d v := by
  rw [scatterAdd_vec_drop dd h1 h2 h3 h4, hz, zero_add]
  unfold Gcn.deg
  refine Finset.sum_congr (Finset.filter_congr fun e _ => ?_) (fun e _ => ho _)
  rw [ht e]
  constructor
  · intro h
    exact Fin.ext (by exact_mod_cast h)
  · intro h
    rw [h]

/-- The inverse square root kept where the degree is positive, as the comparison and the choice spell it. -/
theorem dinv_read (g : EReal) :
    Scalar.select (Ideal.cmp .ogt g 0) (Ideal.rsqrt g) (0 : EReal) = if 0 < g then Ideal.rsqrt g else 0 := by
  unfold Scalar.select Ideal.cmp
  by_cases h : 0 < g <;> simp [h]

/-- THE NEIGHBOUR SUM: updates scattered by rows at the target table into zeros; entry `(v, c)` sums the updates of the
    messages into `v`. -/
theorem rows_sum {C : ℕ} (ds : ScatterDims (Opnd 10000 C) (Tbl 170000) (Upd 170000 C))
    (h1 : ds.updateWindowDims = [1]) (h2 : ds.insertedWindowDims = [0]) (h3 : ds.scatterDimsToOperandDims = [0])
    (h4 : ds.indexVectorDim = 1) (d : Fin Ne → Fin Nn)
    (z : (Opnd 10000 C).Idx → EReal) (hz : ∀ i, z i = 0)
    (tbl : IVec (Tbl 170000) 32) (ht : ∀ e : Fin 170000, (tbl (ix2 e (0 : Fin 1))).toInt = ((d e).val : Int))
    (upd : (Upd 170000 C).Idx → EReal) (v : Fin 10000) (c : Fin C) (f : Fin Ne → EReal)
    (hu : ∀ e : Fin 170000, upd (ix2 e c) = f e) :
    Ideal.hostScatterAdd ds z tbl upd (ix2 v c) = ∑ e ∈ Finset.univ.filter (fun e => d e = v), f e := by
  rw [scatterAdd_rows_drop ds h1 h2 h3 h4, hz, zero_add]
  refine Finset.sum_congr (Finset.filter_congr fun e _ => ?_) (fun e _ => hu e)
  rw [ht e]
  constructor
  · intro h
    exact Fin.ext (by exact_mod_cast h)
  · intro h
    rw [h]

end Gcn.Stages

end
-- ==== Proof.RefAWords.lean ====
/-
  The reference's message tables, word by word.

  The source vector is the edge list's first row followed by 0 … 9999, the target vector its second row followed by
  0 … 9999. When every word of the edge list is a node number, word `e` of either vector reads, signed, as the
  message's source or target node; the negative-index wrap keeps it; and the one-column tables built from the vectors
  hold the same words.
-/
import proofs.«143928_j37108517437617_1_alg».proof.Proof.RefSide
import proofs.«143928_j37108517437617_1_alg».proof.Proof.Glue
import proofs.«143928_j37108517437617_1_alg».proof.Proof.RefAStages

noncomputable section

namespace Cert.ReferenceIdeal.RefA

open scoped BigOperators
open Cert.ReferenceIdeal Cert.ReferenceIdeal.Gen Idealize.ShloMosaic Idealize.ShloMosaic.TcCoe Idealize.ShloMosaic.ValueIdx Idealize.SL.Sem
open Cert.ReferenceIdeal.ReadP

/-- The edge list's words by row and position. -/
abbrev eiOf (x9 : (⟨S2x160000, .i32⟩ : BufTy).Contents (Elt Ideal)) : Fin 2 → Fin 160000 → BitVec 32 :=
  fun j e => x9 (ix2 j e)

/-- A small natural number as a 32-bit word reads, signed, as itself. -/
theorem toInt_ofNat_small (k : ℕ) (hk : k < 10000) : (BitVec.ofNat 32 k).toInt = (k : Int) := by
  have h1 : (BitVec.ofNat 32 k).toNat = k := by rw [BitVec.toNat_ofNat]; omega
  rw [BitVec.toInt_eq_toNat_cond, h1]
  split <;> omega

theorem idx_row0 (e : Fin 160000) : idx_main_v0 (idx_main_v1 (ix1 e)) = ix2 (0 : Fin 2) e :=
  funext fun a => Fin.ext (by
    match a with
    | ⟨0, _⟩ => rfl
    | ⟨1, _⟩ => show e.val % 160000 = e.val; omega)

theorem idx_row1 (e : Fin 160000) : idx_main_v2 (idx_main_v3 (ix1 e)) = ix2 (1 : Fin 2) e :=
  funext fun a => Fin.ext (by
    match a with
    | ⟨0, _⟩ => rfl
    | ⟨1, _⟩ => show e.val % 160000 = e.val; omega)

/-- The joined vector in its first piece. -/
theorem join_left (x : S160000.Idx → BitVec 32) (y : S10000.Idx → BitVec 32) (e : Fin 170000) (h : e.val < 160000) :
    concatenate S170000 0 [⟨S160000, x⟩, ⟨S10000, y⟩] concatenates_S160000_S10000_S170000_d0 (ix1 e)
      = x (ix1 (⟨e.val, h⟩ : Fin 160000)) :=
  concatenate_pair_apply_left (0 : Fin 1) x y concatenates_S160000_S10000_S170000_d0 (ix1 e) rfl
    (ix1 (⟨e.val, h⟩ : Fin 160000)) (fun b => by match b with | ⟨0, _⟩ => rfl)

/-- The joined vector in its second piece. -/
theorem join_right (x : S160000.Idx → BitVec 32) (y : S10000.Idx → BitVec 32) (e : Fin 170000) (h : ¬ e.val < 160000) :
    concatenate S170000 0 [⟨S160000, x⟩, ⟨S10000, y⟩] concatenates_S160000_S10000_S170000_d0 (ix1 e)
      = y (ix1 (⟨e.val - 160000, by have := e.isLt; omega⟩ : Fin 10000)) :=
  concatenate_pair_apply_right (0 : Fin 1) x y concatenates_S160000_S10000_S170000_d0 (ix1 e) rfl rfl
    (ix1 (⟨e.val - 160000, by have := e.isLt; omega⟩ : Fin 10000))
    (fun b hb => by match b with | ⟨0, _⟩ => exact absurd rfl hb)
    (by show (e.val - 160000) + 160000 = e.val; omega)

/-- Word `e` of the source vector reads as message `e`'s source. -/
theorem src_word (x9 : (⟨S2x160000, .i32⟩ : BufTy).Contents (Elt Ideal)) (hr : Gcn.InRange (eiOf x9)) (e : Fin 170000) :
    (val_main_v5 (F := Ideal) x9 (ix1 e)).toInt = ((Gcn.srcTab (eiOf x9) e).val : Int) := by
  unfold val_main_v5 Gcn.srcTab
  by_cases h : e.val < 160000
  · rw [join_left _ _ e h, dif_pos h, val_main_v1_apply, val_main_v0_apply, idx_row0]
    exact (Gcn.Stages.node_val _ (hr 0 _).1 (hr 0 _).2).symm
  · rw [join_right _ _ e h, dif_neg h, val_main_v4_apply]
    exact toInt_ofNat_small _ (by have := e.isLt; show e.val - 160000 < 10000; omega)

/-- Word `e` of the target vector reads as message `e`'s target. -/
theorem dst_word (x9 : (⟨S2x160000, .i32⟩ : BufTy).Contents (Elt Ideal)) (hr : Gcn.InRange (eiOf x9)) (e : Fin 170000) :
    (val_main_v6 (F := Ideal) x9 (ix1 e)).toInt = ((Gcn.dstTab (eiOf x9) e).val : Int) := by
  unfold val_main_v6 Gcn.dstTab
  by_cases h : e.val < 160000
  · rw [join_left _ _ e h, dif_pos h, val_main_v3_apply, val_main_v2_apply, idx_row1]
    exact (Gcn.Stages.node_val _ (hr 1 _).1 (hr 1 _).2).symm
  · rw [join_right _ _ e h, dif_neg h, val_main_v4_apply]
    exact toInt_ofNat_small _ (by have := e.isLt; show e.val - 160000 < 10000; omega)

/-- A one-column table's index (e, 0) sits over the vector's entry e. -/
theorem col_idx (f : S170000x1.Idx → S170000.Idx) (hf : ∀ i a, (f i a).val = (i 0).val) (e : Fin 170000) :
    f (ix2 e (0 : Fin 1)) = ix1 e :=
  funext fun a => Fin.ext (by rw [hf]; match a with | ⟨0, _⟩ => rfl)

/-- The target column of the degree scatter. -/
theorem v10_word (x9 : (⟨S2x160000, .i32⟩ : BufTy).Contents (Elt Ideal)) (hr : Gcn.InRange (eiOf x9)) (e : Fin 170000) :
    (val_main_v10 (F := Ideal) x9 (ix2 e (0 : Fin 1))).toInt = ((Gcn.dstTab (eiOf x9) e).val : Int) := by
  rw [val_main_v10_apply, col_idx idx_main_v10 (fun i a => by match a with | ⟨0, _⟩ => rfl)]
  exact dst_word x9 hr e

/-- The target column of the layer's scatter. -/
theorem v42_word (x9 : (⟨S2x160000, .i32⟩ : BufTy).Contents (Elt Ideal)) (hr : Gcn.InRange (eiOf x9)) (e : Fin 170000) :
    (val_main_v42 (F := Ideal) x9 (ix2 e (0 : Fin 1))).toInt = ((Gcn.dstTab (eiOf x9) e).val : Int) := by
  rw [val_main_v42_apply, col_idx idx_main_v42 (fun i a => by match a with | ⟨0, _⟩ => rfl)]
  exact dst_word x9 hr e

/-- The wrapped source column of the weight's first gather. -/
theorem v21_word (x9 : (⟨S2x160000, .i32⟩ : BufTy).Contents (Elt Ideal)) (hr : Gcn.InRange (eiOf x9)) (e : Fin 170000) :
    (val_main_v21 (F := Ideal) x9 (ix2 e (0 : Fin 1))).toInt = ((Gcn.srcTab (eiOf x9) e).val : Int) := by
  have h0 : 0 ≤ (val_main_v5 (F := Ideal) x9 (ix1 e)).toInt := by rw [src_word x9 hr e]; exact Int.natCast_nonneg _
  rw [val_main_v21_apply, col_idx idx_main_v21 (fun i a => by match a with | ⟨0, _⟩ => rfl),
    val_main_v20_apply, val_main_v17_apply, val_main_v19_apply, val_main_v16_apply, val_main_c_apply,
    GatherVec.wrap_of_nonneg _ _ h0]
  exact src_word x9 hr e

/-- The wrapped target column of the weight's second gather. -/
theorem v28_word (x9 : (⟨S2x160000, .i32⟩ : BufTy).Contents (Elt Ideal)) (hr : Gcn.InRange (eiOf x9)) (e : Fin 170000) :
    (val_main_v28 (F := Ideal) x9 (ix2 e (0 : Fin 1))).toInt = ((Gcn.dstTab (eiOf x9) e).val : Int) := by
  have h0 : 0 ≤ (val_main_v6 (F := Ideal) x9 (ix1 e)).toInt := by rw [dst_word x9 hr e]; exact Int.natCast_nonneg _
  rw [val_main_v28_apply, col_idx idx_main_v28 (fun i a => by match a with | ⟨0, _⟩ => rfl),
    val_main_v27_apply, val_main_v24_apply, val_main_v26_apply, val_main_v23_apply, val_main_c_4_apply,
    GatherVec.wrap_of_nonneg _ _ h0]
  exact dst_word x9 hr e

/-- The wrapped source column of the layer's row gather. -/
theorem v36_word (x9 : (⟨S2x160000, .i32⟩ : BufTy).Contents (Elt Ideal)) (hr : Gcn.InRange (eiOf x9)) (e : Fin 170000) :
    (val_main_v36 (F := Ideal) x9 (ix2 e (0 : Fin 1))).toInt = ((Gcn.srcTab (eiOf x9) e).val : Int) := by
  have h0 : 0 ≤ (val_main_v5 (F := Ideal) x9 (ix1 e)).toInt := by rw [src_word x9 hr e]; exact Int.natCast_nonneg _
  rw [val_main_v36_apply, col_idx idx_main_v36 (fun i a => by match a with | ⟨0, _⟩ => rfl),
    val_main_v35_apply, val_main_v32_apply, val_main_v34_apply, val_main_v31_apply, val_main_c_6_apply,
    GatherVec.wrap_of_nonneg _ _ h0]
  exact src_word x9 hr e

end Cert.ReferenceIdeal.RefA

end
-- ==== Proof.RefALayer.lean ====
/-
  One message-passing layer as the host operations spell it, over abstract operands of any width.

  The transformed features are gathered by rows at the source column, multiplied by the weights spread along the rows,
  scattered by rows at the target column into zeros, added to the bias spread down the rows, and clamped below at zero.
  When the columns hold the messages' nodes, that is the layer by message passing.
-/
import proofs.«143928_j37108517437617_1_alg».proof.Proof.RefAStages

noncomputable section

namespace Gcn.Stages

open scoped BigOperators
open Idealize.ShloMosaic Idealize.ShloMosaic.ValueIdx ScatterRows ScatterDrop GatherVec ScatterCols

/-- THE LAYER. -/
theorem layer_read {C k : ℕ} (ds : ScatterDims (Opnd 10000 C) (Tbl 170000) (Upd 170000 C))
    (h1 : ds.updateWindowDims = [1]) (h2 : ds.insertedWindowDims = [0]) (h3 : ds.scatterDimsToOperandDims = [0])
    (h4 : ds.indexVectorDim = 1)
    (dg : GatherDims (Opnd 10000 C) (Tbl 170000) (Upd 170000 C))
    (g1 : dg.offsetDims = [1]) (g2 : dg.collapsedSliceDims = [0]) (g3 : dg.operandBatchingDims = [])
    (g5 : dg.startIndexMap = [0]) (g6 : dg.indexVectorDim = 1) (g7 : dg.sliceSizes = ![1, C])
    (s d : Fin Ne → Fin Nn)
    (z : FVec Ideal (Opnd 10000 C) .f32) (hz : ∀ i, z i = 0)
    (dtbl : IVec (Tbl 170000) 32) (hd : ∀ e : Fin 170000, (dtbl (ix2 e (0 : Fin 1))).toInt = ((d e).val : Int))
    (stbl : IVec (Tbl 170000) 32) (hs : ∀ e : Fin 170000, (stbl (ix2 e (0 : Fin 1))).toInt = ((s e).val : Int))
    (xw : FVec Ideal (Opnd 10000 C) .f32) (h : Fin Nn → Fin k → EReal) (w : Fin k → Fin C → EReal)
    (hxw : ∀ (r : Fin 10000) (c : Fin C), xw (ix2 r c) = Gcn.lin h w r c)
    (nr : FVec Ideal (Upd 170000 C) .f32) (hn : ∀ (e : Fin 170000) (c : Fin C), nr (ix2 e c) = Gcn.nrm s d e)
    (bias : FVec Ideal (Opnd 10000 C) .f32) (β : Fin C → EReal) (hb : ∀ (v : Fin 10000) (c : Fin C), bias (ix2 v c) = β c)
    (zero : FVec Ideal (Opnd 10000 C) .f32) (hzero : ∀ i, zero i = 0) :
    maximumf (addf (Host.scatterAdd (F := Ideal) ds z dtbl (mulf (Host.gather dg xw stbl) nr)) bias) zero
      = fun i => Gcn.layerMsg s d h w β (i 0) (i 1) := by
  refine Gcn.eq_of_mat2 _ _ ?_
  funext v c
  rw [Gcn.mat2_apply]
  have hu : ∀ e : Fin 170000, (mulf (F := Ideal) (Host.gather dg xw stbl) nr) (ix2 e c)
      = Gcn.lin h w (s e) c * Gcn.nrm s d e := by
    intro e
    show Host.gather dg xw stbl (ix2 e c) * nr (ix2 e c) = _
    rw [gather_rows_apply (by decide) dg g1 g2 g3 g5 g6 g7, gRow_of_word _ e _ (hs e), hxw, hn]
  show max (Ideal.hostScatterAdd ds z dtbl (mulf (F := Ideal) (Host.gather dg xw stbl) nr) (ix2 v c) + bias (ix2 v c))
      (zero (ix2 v c)) = _
  rw [rows_sum ds h1 h2 h3 h4 d z hz dtbl hd _ v c _ hu, hb, hzero]
  rfl

end Gcn.Stages

end
-- ==== Proof.RefANorm.lean ====
/-
  The reference's degree, its inverse square root and the message weights.

  Ones scattered by the target column into zeros give each node's degree; the comparison with zero and the choice keep
  the inverse square root where the degree is positive; the two gathers read it at a message's source and target, and
  their product is the message's weight. The later layers recompute the same vector from the same operations.
-/
import proofs.«143928_j37108517437617_1_alg».proof.Proof.RefSide
import proofs.«143928_j37108517437617_1_alg».proof.Proof.Glue
import proofs.«143928_j37108517437617_1_alg».proof.Proof.RefAStages
import proofs.«143928_j37108517437617_1_alg».proof.Proof.RefAWords
import proofs.«143928_j37108517437617_1_alg».proof.Proof.LibScaleSum

noncomputable section

namespace Cert.ReferenceIdeal.RefA

open scoped BigOperators
open Cert.ReferenceIdeal Cert.ReferenceIdeal.Gen Idealize.ShloMosaic Idealize.ShloMosaic.TcCoe Idealize.ShloMosaic.ValueIdx Idealize.SL.Sem
open Cert.ReferenceIdeal.ReadP

/-- The scattered ones are the degree. -/
theorem deg_v11 (x9 : (⟨S2x160000, .i32⟩ : BufTy).Contents (Elt Ideal)) (hr : Gcn.InRange (eiOf x9)) (v : Fin 10000) :
    val_main_v11 (F := Ideal) x9 (ix1 v) = Gcn.deg (Gcn.dstTab (eiOf x9)) v := by
  unfold val_main_v11
  rw [ScatterDrop.scatterAdd_ideal]
  exact Gcn.Stages.deg_read scatter_S10000_S170000x1_S170000_n_0_0_1 rfl rfl rfl rfl _ _
    (fun i => by rw [val_main_v9_apply, val_main_cst_0_apply]; exact Ideal.ofBits_zero_f32) _ (v10_word x9 hr) _
    (fun i => by rw [val_main_v8_apply, val_main_cst_apply]; exact Cert.ScaleSum.ofBits_one) v

/-- On the extended reals the float comparison is the order's. -/
theorem cmpf_ideal (p : CmpFPredicate) (x y : EReal) :
    FloatOps.cmpf (F := Ideal) (φ := .f32) p x y = Ideal.cmp p x y := rfl

/-- The kept inverse square root. -/
theorem dinv_v15 (x9 : (⟨S2x160000, .i32⟩ : BufTy).Contents (Elt Ideal)) (hr : Gcn.InRange (eiOf x9)) (v : Fin 10000) :
    val_main_v15 (F := Ideal) x9 (ix1 v) = Gcn.dinv (Gcn.dstTab (eiOf x9)) v := by
  rw [val_main_v15_apply, val_main_v13_apply, val_main_v14_apply, val_main_call0_v1_apply, val_main_call0_v0_apply,
    val_main_cst_2_apply, val_main_v12_apply, val_main_cst_1_apply, deg_v11 x9 hr v]
  rw [cmpf_ideal, Ideal.hostUnary_rsqrt_def, Ideal.ofBits_def, Ideal.ofBits_zero_f32]
  unfold Gcn.dinv
  exact Gcn.Stages.dinv_read _

/-- The message weights. -/
theorem nrm_v30 (x9 : (⟨S2x160000, .i32⟩ : BufTy).Contents (Elt Ideal)) (hr : Gcn.InRange (eiOf x9)) (e : Fin 170000) :
    val_main_v30 (F := Ideal) x9 (ix1 e) = Gcn.nrm (Gcn.srcTab (eiOf x9)) (Gcn.dstTab (eiOf x9)) e := by
  rw [val_main_v30_apply]
  unfold val_main_v22 val_main_v29
  rw [GatherVec.gather_vec_apply (by decide) gather_S10000_S170000x1_S170000_n_0_n_n_0_1_1 rfl rfl rfl rfl rfl rfl,
    GatherVec.gather_vec_apply (by decide) gather_S10000_S170000x1_S170000_n_0_n_n_0_1_1 rfl rfl rfl rfl rfl rfl,
    Gcn.Stages.gRow_of_word _ e _ (v21_word x9 hr e), Gcn.Stages.gRow_of_word _ e _ (v28_word x9 hr e),
    dinv_v15 x9 hr, dinv_v15 x9 hr]
  rfl

variable {F : FTy → Type} [FloatOps F]

/-- The second layer's weights are the first's: the same operations on the same words. -/
theorem v74_eq (x9 : (⟨S2x160000, .i32⟩ : BufTy).Contents (Elt F)) : val_main_v74 (F := F) x9 = val_main_v30 (F := F) x9 := rfl
/-- The third layer's weights are the first's. -/
theorem v118_eq (x9 : (⟨S2x160000, .i32⟩ : BufTy).Contents (Elt F)) : val_main_v118 (F := F) x9 = val_main_v30 (F := F) x9 := rfl
/-- The later layers' source columns are the first's. -/
theorem v80_eq (x9 : (⟨S2x160000, .i32⟩ : BufTy).Contents (Elt F)) : val_main_v80 (F := F) x9 = val_main_v36 (F := F) x9 := rfl
theorem v124_eq (x9 : (⟨S2x160000, .i32⟩ : BufTy).Contents (Elt F)) : val_main_v124 (F := F) x9 = val_main_v36 (F := F) x9 := rfl
/-- The later layers' target columns are the first's. -/
theorem v86_eq (x9 : (⟨S2x160000, .i32⟩ : BufTy).Contents (Elt F)) : val_main_v86 (F := F) x9 = val_main_v42 (F := F) x9 := rfl
theorem v130_eq (x9 : (⟨S2x160000, .i32⟩ : BufTy).Contents (Elt F)) : val_main_v130 (F := F) x9 = val_main_v42 (F := F) x9 := rfl

/-- The later layers' columns and weights, read as the first layer's. -/
theorem v86_word (x9 : (⟨S2x160000, .i32⟩ : BufTy).Contents (Elt Ideal)) (hr : Gcn.InRange (eiOf x9)) (e : Fin 170000) :
    (val_main_v86 (F := Ideal) x9 (ix2 e (0 : Fin 1))).toInt = ((Gcn.dstTab (eiOf x9) e).val : Int) := by
  rw [v86_eq]; exact v42_word x9 hr e
theorem v130_word (x9 : (⟨S2x160000, .i32⟩ : BufTy).Contents (Elt Ideal)) (hr : Gcn.InRange (eiOf x9)) (e : Fin 170000) :
    (val_main_v130 (F := Ideal) x9 (ix2 e (0 : Fin 1))).toInt = ((Gcn.dstTab (eiOf x9) e).val : Int) := by
  rw [v130_eq]; exact v42_word x9 hr e
theorem v80_word (x9 : (⟨S2x160000, .i32⟩ : BufTy).Contents (Elt Ideal)) (hr : Gcn.InRange (eiOf x9)) (e : Fin 170000) :
    (val_main_v80 (F := Ideal) x9 (ix2 e (0 : Fin 1))).toInt = ((Gcn.srcTab (eiOf x9) e).val : Int) := by
  rw [v80_eq]; exact v36_word x9 hr e
theorem v124_word (x9 : (⟨S2x160000, .i32⟩ : BufTy).Contents (Elt Ideal)) (hr : Gcn.InRange (eiOf x9)) (e : Fin 170000) :
    (val_main_v124 (F := Ideal) x9 (ix2 e (0 : Fin 1))).toInt = ((Gcn.srcTab (eiOf x9) e).val : Int) := by
  rw [v124_eq]; exact v36_word x9 hr e
theorem nrm_v74 (x9 : (⟨S2x160000, .i32⟩ : BufTy).Contents (Elt Ideal)) (hr : Gcn.InRange (eiOf x9)) (e : Fin 170000) :
    val_main_v74 (F := Ideal) x9 (ix1 e) = Gcn.nrm (Gcn.srcTab (eiOf x9)) (Gcn.dstTab (eiOf x9)) e := by
  rw [v74_eq]; exact nrm_v30 x9 hr e
theorem nrm_v118 (x9 : (⟨S2x160000, .i32⟩ : BufTy).Contents (Elt Ideal)) (hr : Gcn.InRange (eiOf x9)) (e : Fin 170000) :
    val_main_v118 (F := Ideal) x9 (ix1 e) = Gcn.nrm (Gcn.srcTab (eiOf x9)) (Gcn.dstTab (eiOf x9)) e := by
  rw [v118_eq]; exact nrm_v30 x9 hr e

end Cert.ReferenceIdeal.RefA

end
-- ==== Proof.RefAL1.lean ====
/-
  The reference's first layer: 128 features to 512.
-/
import proofs.«143928_j37108517437617_1_alg».proof.Proof.RefSide
import proofs.«143928_j37108517437617_1_alg».proof.Proof.Glue
import proofs.«143928_j37108517437617_1_alg».proof.Proof.RefALayer
import proofs.«143928_j37108517437617_1_alg».proof.Proof.RefAWords
import proofs.«143928_j37108517437617_1_alg».proof.Proof.RefANorm

noncomputable section

namespace Cert.ReferenceIdeal.RefA

open scoped BigOperators
open Cert.ReferenceIdeal Cert.ReferenceIdeal.Gen Idealize.ShloMosaic Idealize.ShloMosaic.TcCoe Idealize.ShloMosaic.ValueIdx Idealize.SL.Sem
open Cert.ReferenceIdeal.ReadP

/-- The feature transform at a row and a column. -/
theorem dot_v7 (x0 : (⟨S10000x128, .f32⟩ : BufTy).Contents (Elt Ideal)) (x1 : (⟨S128x512, .f32⟩ : BufTy).Contents (Elt Ideal)) (r : Fin 10000) (q : Fin 512) :
    val_main_v7 (F := Ideal) x0 x1 (ix2 r q) = Gcn.lin (Gcn.mat2 x0) (Gcn.mat2 x1) r q := by
  rw [val_main_v7_apply]
  unfold Gcn.lin
  refine Finset.sum_congr rfl fun κ _ => ?_
  have hl : lidx_main_v7 (ix2 r q) κ = ix2 r κ :=
    funext fun a => Fin.ext (by match a with | ⟨0, _⟩ => rfl | ⟨1, _⟩ => rfl)
  have hr' : ridx_main_v7 (ix2 r q) κ = ix2 κ q :=
    funext fun a => Fin.ext (by match a with | ⟨0, _⟩ => rfl | ⟨1, _⟩ => rfl)
  rw [hl, hr']
  rfl

/-- The layer's output is the layer by message passing. -/
theorem layer1 (x0 : (⟨S10000x128, .f32⟩ : BufTy).Contents (Elt Ideal)) (x1 : (⟨S128x512, .f32⟩ : BufTy).Contents (Elt Ideal)) (x2 : (⟨S512, .f32⟩ : BufTy).Contents (Elt Ideal)) (x9 : (⟨S2x160000, .i32⟩ : BufTy).Contents (Elt Ideal)) (hr : Gcn.InRange (eiOf x9)) :
    val_main_v47 (F := Ideal) x0 x1 x2 x9
      = fun i => Gcn.layerMsg (Gcn.srcTab (eiOf x9)) (Gcn.dstTab (eiOf x9)) (Gcn.mat2 x0) (Gcn.mat2 x1) (Gcn.vec1 x2) (i 0) (i 1) := by
  unfold val_main_v47 val_main_v46 val_main_v43 val_main_v40 val_main_v37
  exact Gcn.Stages.layer_read scatter_S10000x512_S170000x1_S170000x512_1_0_0_1 rfl rfl rfl rfl
    gather_S10000x512_S170000x1_S170000x512_1_0_n_n_0_1_1512 rfl rfl rfl rfl rfl rfl _ _
    _ (fun i => by rw [val_main_v41_apply, val_main_cst_8_apply]; exact Ideal.ofBits_zero_f32)
    _ (v42_word x9 hr) _ (v36_word x9 hr)
    _ _ _ (dot_v7 x0 x1)
    _ (fun e c => by
      have hi : idx_main_v38 (idx_main_v39 (ix2 e c)) = ix1 e :=
        funext fun a => Fin.ext (by match a with | ⟨0, _⟩ => rfl)
      rw [val_main_v39_apply, val_main_v38_apply, hi]
      exact nrm_v30 x9 hr e)
    _ (Gcn.vec1 x2) (fun v c => by
      have hi : idx_main_v44 (idx_main_v45 (ix2 v c)) = ix1 c :=
        funext fun a => Fin.ext (by match a with | ⟨0, _⟩ => rfl)
      rw [val_main_v45_apply, val_main_v44_apply, hi]
      rfl)
    _ (fun i => by rw [val_main_call1_v0_apply, val_main_call1_cst_apply]; exact Ideal.ofBits_zero_f32)

end Cert.ReferenceIdeal.RefA

end
-- ==== Proof.RefAL2.lean ====
/-
  The reference's second layer: 512 features to 256, from the first layer's output.
-/
import proofs.«143928_j37108517437617_1_alg».proof.Proof.RefSide
import proofs.«143928_j37108517437617_1_alg».proof.Proof.Glue
import proofs.«143928_j37108517437617_1_alg».proof.Proof.RefALayer
import proofs.«143928_j37108517437617_1_alg».proof.Proof.RefAWords
import proofs.«143928_j37108517437617_1_alg».proof.Proof.RefANorm

noncomputable section

namespace Cert.ReferenceIdeal.RefA

open scoped BigOperators
open Cert.ReferenceIdeal Cert.ReferenceIdeal.Gen Idealize.ShloMosaic Idealize.ShloMosaic.TcCoe Idealize.ShloMosaic.ValueIdx Idealize.SL.Sem
open Cert.ReferenceIdeal.ReadP

/-- The feature transform at a row and a column. -/
theorem dot_v51 (x0 : (⟨S10000x128, .f32⟩ : BufTy).Contents (Elt Ideal)) (x1 : (⟨S128x512, .f32⟩ : BufTy).Contents (Elt Ideal)) (x2 : (⟨S512, .f32⟩ : BufTy).Contents (Elt Ideal)) (x3 : (⟨S512x256, .f32⟩ : BufTy).Contents (Elt Ideal)) (x9 : (⟨S2x160000, .i32⟩ : BufTy).Contents (Elt Ideal)) (r : Fin 10000) (q : Fin 256) :
    val_main_v51 (F := Ideal) x0 x1 x2 x3 x9 (ix2 r q) = Gcn.lin (Gcn.mat2 (val_main_v47 (F := Ideal) x0 x1 x2 x9)) (Gcn.mat2 x3) r q := by
  rw [val_main_v51_apply]
  unfold Gcn.lin
  refine Finset.sum_congr rfl fun κ _ => ?_
  have hl : lidx_main_v51 (ix2 r q) κ = ix2 r κ :=
    funext fun a => Fin.ext (by match a with | ⟨0, _⟩ => rfl | ⟨1, _⟩ => rfl)
  have hr' : ridx_main_v51 (ix2 r q) κ = ix2 κ q :=
    funext fun a => Fin.ext (by match a with | ⟨0, _⟩ => rfl | ⟨1, _⟩ => rfl)
  rw [hl, hr']
  rfl

/-- The layer's output is the layer by message passing. -/
theorem layer2 (x0 : (⟨S10000x128, .f32⟩ : BufTy).Contents (Elt Ideal)) (x1 : (⟨S128x512, .f32⟩ : BufTy).Contents (Elt Ideal)) (x2 : (⟨S512, .f32⟩ : BufTy).Contents (Elt Ideal)) (x3 : (⟨S512x256, .f32⟩ : BufTy).Contents (Elt Ideal)) (x4 : (⟨S256, .f32⟩ : BufTy).Contents (Elt Ideal)) (x9 : (⟨S2x160000, .i32⟩ : BufTy).Contents (Elt Ideal)) (hr : Gcn.InRange (eiOf x9)) :
    val_main_v91 (F := Ideal) x0 x1 x2 x3 x4 x9
      = fun i => Gcn.layerMsg (Gcn.srcTab (eiOf x9)) (Gcn.dstTab (eiOf x9)) (Gcn.mat2 (val_main_v47 (F := Ideal) x0 x1 x2 x9)) (Gcn.mat2 x3) (Gcn.vec1 x4) (i 0) (i 1) := by
  unfold val_main_v91 val_main_v90 val_main_v87 val_main_v84 val_main_v81
  exact Gcn.Stages.layer_read scatter_S10000x256_S170000x1_S170000x256_1_0_0_1 rfl rfl rfl rfl
    gather_S10000x256_S170000x1_S170000x256_1_0_n_n_0_1_1256 rfl rfl rfl rfl rfl rfl _ _
    _ (fun i => by rw [val_main_v85_apply, val_main_cst_19_apply]; exact Ideal.ofBits_zero_f32)
    _ (v86_word x9 hr) _ (v80_word x9 hr)
    _ _ _ (dot_v51 x0 x1 x2 x3 x9)
    _ (fun e c => by
      have hi : idx_main_v82 (idx_main_v83 (ix2 e c)) = ix1 e :=
        funext fun a => Fin.ext (by match a with | ⟨0, _⟩ => rfl)
      rw [val_main_v83_apply, val_main_v82_apply, hi]
      exact nrm_v74 x9 hr e)
    _ (Gcn.vec1 x4) (fun v c => by
      have hi : idx_main_v88 (idx_main_v89 (ix2 v c)) = ix1 c :=
        funext fun a => Fin.ext (by match a with | ⟨0, _⟩ => rfl)
      rw [val_main_v89_apply, val_main_v88_apply, hi]
      rfl)
    _ (fun i => by rw [val_main_call3_v0_apply, val_main_call3_cst_apply]; exact Ideal.ofBits_zero_f32)

end Cert.ReferenceIdeal.RefA

end
-- ==== Proof.RefAL3.lean ====
/-
  The reference's third layer: 256 features to 64, from the second layer's output.
-/
import proofs.«143928_j37108517437617_1_alg».proof.Proof.RefSide
import proofs.«143928_j37108517437617_1_alg».proof.Proof.Glue
import proofs.«143928_j37108517437617_1_alg».proof.Proof.RefALayer
import proofs.«143928_j37108517437617_1_alg».proof.Proof.RefAWords
import proofs.«143928_j37108517437617_1_alg».proof.Proof.RefANorm

noncomputable section

namespace Cert.ReferenceIdeal.RefA

open scoped BigOperators
open Cert.ReferenceIdeal Cert.ReferenceIdeal.Gen Idealize.ShloMosaic Idealize.ShloMosaic.TcCoe Idealize.ShloMosaic.ValueIdx Idealize.SL.Sem
open Cert.ReferenceIdeal.ReadP

/-- The feature transform at a row and a column. -/
theorem dot_v95 (x0 : (⟨S10000x128, .f32⟩ : BufTy).Contents (Elt Ideal)) (x1 : (⟨S128x512, .f32⟩ : BufTy).Contents (Elt Ideal)) (x2 : (⟨S512, .f32⟩ : BufTy).Contents (Elt Ideal)) (x3 : (⟨S512x256, .f32⟩ : BufTy).Contents (Elt Ideal)) (x4 : (⟨S256, .f32⟩ : BufTy).Contents (Elt Ideal)) (x5 : (⟨S256x64, .f32⟩ : BufTy).Contents (Elt Ideal)) (x9 : (⟨S2x160000, .i32⟩ : BufTy).Contents (Elt Ideal)) (r : Fin 10000) (q : Fin 64) :
    val_main_v95 (F := Ideal) x0 x1 x2 x3 x4 x5 x9 (ix2 r q) = Gcn.lin (Gcn.mat2 (val_main_v91 (F := Ideal) x0 x1 x2 x3 x4 x9)) (Gcn.mat2 x5) r q := by
  rw [val_main_v95_apply]
  unfold Gcn.lin
  refine Finset.sum_congr rfl fun κ _ => ?_
  have hl : lidx_main_v95 (ix2 r q) κ = ix2 r κ :=
    funext fun a => Fin.ext (by match a with | ⟨0, _⟩ => rfl | ⟨1, _⟩ => rfl)
  have hr' : ridx_main_v95 (ix2 r q) κ = ix2 κ q :=
    funext fun a => Fin.ext (by match a with | ⟨0, _⟩ => rfl | ⟨1, _⟩ => rfl)
  rw [hl, hr']
  rfl

/-- The layer's output is the layer by message passing. -/
theorem layer3 (x0 : (⟨S10000x128, .f32⟩ : BufTy).Contents (Elt Ideal)) (x1 : (⟨S128x512, .f32⟩ : BufTy).Contents (Elt Ideal)) (x2 : (⟨S512, .f32⟩ : BufTy).Contents (Elt Ideal)) (x3 : (⟨S512x256, .f32⟩ : BufTy).Contents (Elt Ideal)) (x4 : (⟨S256, .f32⟩ : BufTy).Contents (Elt Ideal)) (x5 : (⟨S256x64, .f32⟩ : BufTy).Contents (Elt Ideal)) (x6 : (⟨S64, .f32⟩ : BufTy).Contents (Elt Ideal)) (x9 : (⟨S2x160000, .i32⟩ : BufTy).Contents (Elt Ideal)) (hr : Gcn.InRange (eiOf x9)) :
    val_main_v135 (F := Ideal) x0 x1 x2 x3 x4 x5 x6 x9
      = fun i => Gcn.layerMsg (Gcn.srcTab (eiOf x9)) (Gcn.dstTab (eiOf x9)) (Gcn.mat2 (val_main_v91 (F := Ideal) x0 x1 x2 x3 x4 x9)) (Gcn.mat2 x5) (Gcn.vec1 x6) (i 0) (i 1) := by
  unfold val_main_v135 val_main_v134 val_main_v131 val_main_v128 val_main_v125
  exact Gcn.Stages.layer_read scatter_S10000x64_S170000x1_S170000x64_1_0_0_1 rfl rfl rfl rfl
    gather_S10000x64_S170000x1_S170000x64_1_0_n_n_0_1_164 rfl rfl rfl rfl rfl rfl _ _
    _ (fun i => by rw [val_main_v129_apply, val_main_cst_30_apply]; exact Ideal.ofBits_zero_f32)
    _ (v130_word x9 hr) _ (v124_word x9 hr)
    _ _ _ (dot_v95 x0 x1 x2 x3 x4 x5 x9)
    _ (fun e c => by
      have hi : idx_main_v126 (idx_main_v127 (ix2 e c)) = ix1 e :=
        funext fun a => Fin.ext (by match a with | ⟨0, _⟩ => rfl)
      rw [val_main_v127_apply, val_main_v126_apply, hi]
      exact nrm_v118 x9 hr e)
    _ (Gcn.vec1 x6) (fun v c => by
      have hi : idx_main_v132 (idx_main_v133 (ix2 v c)) = ix1 c :=
        funext fun a => Fin.ext (by match a with | ⟨0, _⟩ => rfl)
      rw [val_main_v133_apply, val_main_v132_apply, hi]
      rfl)
    _ (fun i => by rw [val_main_call5_v0_apply, val_main_call5_cst_apply]; exact Ideal.ofBits_zero_f32)

end Cert.ReferenceIdeal.RefA

end
-- ==== Proof.RefAOut.lean ====
/-
  The reference's value: three layers by message passing and the classifier.

  The classifier contracts the third layer's output against its weights and adds its bias spread down the rows; each
  layer's output is the layer by message passing of the previous one, so the run's result is the specification's
  function of the arguments.
-/
import proofs.«143928_j37108517437617_1_alg».proof.Proof.RefSide
import proofs.«143928_j37108517437617_1_alg».proof.Proof.Glue
import proofs.«143928_j37108517437617_1_alg».proof.Proof.RefAWords
import proofs.«143928_j37108517437617_1_alg».proof.Proof.RefAL1
import proofs.«143928_j37108517437617_1_alg».proof.Proof.RefAL2
import proofs.«143928_j37108517437617_1_alg».proof.Proof.RefAL3

noncomputable section

namespace Cert.ReferenceIdeal.RefA

open scoped BigOperators
open Cert.ReferenceIdeal Cert.ReferenceIdeal.Gen Idealize.ShloMosaic Idealize.ShloMosaic.TcCoe Idealize.ShloMosaic.ValueIdx Idealize.SL.Sem
open Cert.ReferenceIdeal.ReadP

/-- The classifier's contraction at a row and a column. -/
theorem dot_v136 (x0 : (⟨S10000x128, .f32⟩ : BufTy).Contents (Elt Ideal)) (x1 : (⟨S128x512, .f32⟩ : BufTy).Contents (Elt Ideal)) (x2 : (⟨S512, .f32⟩ : BufTy).Contents (Elt Ideal)) (x3 : (⟨S512x256, .f32⟩ : BufTy).Contents (Elt Ideal)) (x4 : (⟨S256, .f32⟩ : BufTy).Contents (Elt Ideal)) (x5 : (⟨S256x64, .f32⟩ : BufTy).Contents (Elt Ideal)) (x6 : (⟨S64, .f32⟩ : BufTy).Contents (Elt Ideal)) (x7 : (⟨S64x3, .f32⟩ : BufTy).Contents (Elt Ideal)) (x9 : (⟨S2x160000, .i32⟩ : BufTy).Contents (Elt Ideal)) (r : Fin 10000) (q : Fin 3) :
    val_main_v136 (F := Ideal) x0 x1 x2 x3 x4 x5 x6 x7 x9 (ix2 r q)
      = Gcn.lin (Gcn.mat2 (val_main_v135 (F := Ideal) x0 x1 x2 x3 x4 x5 x6 x9)) (Gcn.mat2 x7) r q := by
  rw [val_main_v136_apply]
  unfold Gcn.lin
  refine Finset.sum_congr rfl fun κ _ => ?_
  have hl : lidx_main_v136 (ix2 r q) κ = ix2 r κ :=
    funext fun a => Fin.ext (by match a with | ⟨0, _⟩ => rfl | ⟨1, _⟩ => rfl)
  have hr' : ridx_main_v136 (ix2 r q) κ = ix2 κ q :=
    funext fun a => Fin.ext (by match a with | ⟨0, _⟩ => rfl | ⟨1, _⟩ => rfl)
  rw [hl, hr']
  rfl

/-- An array given by its coordinates reads back by its coordinates. -/
theorem mat2_fun {α : Type} {n0 n1 : ℕ} (f : Fin n0 → Fin n1 → α) :
    Gcn.mat2 (fun i : (⟨2, ![n0, n1]⟩ : Shape).Idx => f (i 0) (i 1)) = f := rfl

/-- THE REFERENCE'S VALUE as a function of the arguments. -/
theorem ref_val (x0 : (⟨S10000x128, .f32⟩ : BufTy).Contents (Elt Ideal)) (x1 : (⟨S128x512, .f32⟩ : BufTy).Contents (Elt Ideal)) (x2 : (⟨S512, .f32⟩ : BufTy).Contents (Elt Ideal)) (x3 : (⟨S512x256, .f32⟩ : BufTy).Contents (Elt Ideal)) (x4 : (⟨S256, .f32⟩ : BufTy).Contents (Elt Ideal)) (x5 : (⟨S256x64, .f32⟩ : BufTy).Contents (Elt Ideal)) (x6 : (⟨S64, .f32⟩ : BufTy).Contents (Elt Ideal)) (x7 : (⟨S64x3, .f32⟩ : BufTy).Contents (Elt Ideal)) (x8 : (⟨S3, .f32⟩ : BufTy).Contents (Elt Ideal)) (x9 : (⟨S2x160000, .i32⟩ : BufTy).Contents (Elt Ideal)) (hr : Gcn.InRange (eiOf x9)) :
    val_main_v139 (F := Ideal) x0 x1 x2 x3 x4 x5 x6 x7 x8 x9
      = fun i => Gcn.outMsg (Gcn.srcTab (eiOf x9)) (Gcn.dstTab (eiOf x9)) (Gcn.mat2 x0) (Gcn.mat2 x1) (Gcn.vec1 x2) (Gcn.mat2 x3) (Gcn.vec1 x4)
          (Gcn.mat2 x5) (Gcn.vec1 x6) (Gcn.mat2 x7) (Gcn.vec1 x8) (i 0) (i 1) := by
  refine Gcn.eq_of_mat2 _ _ ?_
  funext v q
  have hi : idx_main_v137 (idx_main_v138 (ix2 v q)) = ix1 q :=
    funext fun a => Fin.ext (by match a with | ⟨0, _⟩ => rfl)
  rw [Gcn.mat2_apply, val_main_v139_apply, val_main_v138_apply, val_main_v137_apply, hi, dot_v136,
    layer3 x0 x1 x2 x3 x4 x5 x6 x9 hr, mat2_fun, layer2 x0 x1 x2 x3 x4 x9 hr, mat2_fun, layer1 x0 x1 x2 x9 hr, mat2_fun]
  rfl

/-- THE REFERENCE'S RESULT on any memory whose edge words are node numbers. -/
theorem ref_out (m : (ℓ : Loc nD τ sig) → Buf (Elt Ideal) ℓ) (c : Dev nD)
    (hr : Gcn.InRange (fun j e => m ((c.tc : Thread nD τ).loc main_arg9) (ix2 j e))) :
    Cert.ReferenceIdeal.ValueP.res_main_v139 (F := Ideal) m c
      = fun i => Gcn.outMsg (Gcn.srcTab (fun j e => m ((c.tc : Thread nD τ).loc main_arg9) (ix2 j e)))
          (Gcn.dstTab (fun j e => m ((c.tc : Thread nD τ).loc main_arg9) (ix2 j e)))
          (Gcn.mat2 (m ((c.tc : Thread nD τ).loc main_arg0))) (Gcn.mat2 (m ((c.tc : Thread nD τ).loc main_arg1))) (Gcn.vec1 (m ((c.tc : Thread nD τ).loc main_arg2))) (Gcn.mat2 (m ((c.tc : Thread nD τ).loc main_arg3))) (Gcn.vec1 (m ((c.tc : Thread nD τ).loc main_arg4)))
          (Gcn.mat2 (m ((c.tc : Thread nD τ).loc main_arg5))) (Gcn.vec1 (m ((c.tc : Thread nD τ).loc main_arg6))) (Gcn.mat2 (m ((c.tc : Thread nD τ).loc main_arg7))) (Gcn.vec1 (m ((c.tc : Thread nD τ).loc main_arg8))) (i 0) (i 1) := by
  rw [val_main_v139_eq]
  exact ref_val _ _ _ _ _ _ _ _ _ _ hr

end Cert.ReferenceIdeal.RefA

end
-- ==== Proof.PreRange.lean ====
/-
  The precondition decoded at the index words: every word of the edge list is a node number, 0 ≤ w < 10000 read signed.

  The printed predicate is a conjunction of nine "every entry is finite" tests and the test "every word is ≥ 0 and < 10000",
  each an all-reduction of a vector of bits by `and`; its value being 1 gives the last conjunct at every index, and the
  two signed comparisons give the bounds on the word read as an integer.
-/
import proofs.«143928_j37108517437617_1_alg».proof.Defs
import proofs.«143928_j37108517437617_1_alg».proof.Proof.Gen.Pre_finite_inputs
import Idealize.ShloMosaic.Lib.ReduceAll
import Idealize.ShloMosaic.Lib.Affine
import Idealize.ShloMosaic.Lib.ValueIdx

set_option maxRecDepth 16384

noncomputable section

namespace Cert.Proof.PreRange

open Idealize.ShloMosaic Idealize.ShloMosaic.ValueIdx Cert.Pre_finite_inputs

instance : Subsingleton S_.Idx := ⟨fun a b => funext fun d => d.elim0⟩

theorem ofBool_eq_one (b : Bool) : BitVec.ofBool b = 1#1 ↔ b = true := by cases b <;> decide

/-- A word that is ≥ 0 and < 10000 by the signed comparisons reads, signed, as an integer in that range. -/
theorem word_range (w : BitVec 32) (h0 : IntOp.cmpi .sge w (0#32) = 1#1) (h1 : IntOp.cmpi .slt w (10000#32) = 1#1) :
    0 ≤ w.toInt ∧ w.toInt < 10000 := by
  unfold IntOp.cmpi at h0 h1
  rw [ofBool_eq_one] at h0 h1
  simp only [BitVec.slt, BitVec.sle, decide_eq_true_eq] at h0 h1
  have e0 : (0#32 : BitVec 32).toInt = 0 := by decide
  have e1 : (10000#32 : BitVec 32).toInt = 10000 := by decide
  rw [e0] at h0; rw [e1] at h1
  exact ⟨h0, h1⟩

variable [Cert.Pre_finite_inputs.Facts] {F : FTy → Type} [FloatOps F]

/-- THE PRECONDITION DECODED: where the predicate is all ones, every index word is a node number. -/
theorem range_of_fn (a0 : FVec F S10000x128 .f32) (a1 : FVec F S128x512 .f32) (a2 : FVec F S512 .f32) (a3 : FVec F S512x256 .f32)
    (a4 : FVec F S256 .f32) (a5 : FVec F S256x64 .f32) (a6 : FVec F S64 .f32) (a7 : FVec F S64x3 .f32) (a8 : FVec F S3 .f32)
    (a9 : IVec S2x160000 32) (h : fn (F := F) a0 a1 a2 a3 a4 a5 a6 a7 a8 a9 = fun _ => 1#1) (i : S2x160000.Idx) :
    0 ≤ (a9 i).toInt ∧ (a9 i).toInt < 10000 := by
  have e := congrFun h ix0
  simp only [fn, fn_part1, fn_part2, andi] at e
  rw [IntOp.andi_eq_one] at e
  have e3 := Host.reduce_andi_all _ _ _ _ _ e.2 i
  simp only [andi, cmpi, broadcastInDim, constantI] at e3
  rw [IntOp.andi_eq_one] at e3
  exact word_range (a9 i) e3.1 e3.2

end Cert.Proof.PreRange

end
-- ==== Proof.lean ====
/-
  Three graph-convolution layers and a linear classifier: a tiled kernel program against its message-passing reference.

  The kernel program builds, on the host, the dense normalised adjacency A (10240 × 10240, the node count padded) by an
  accumulating scatter of the message weights dinv(s)·dinv(d), and then runs seven tiled kernels: per layer a feature
  transform h·W by row blocks and an aggregation max(A·(h·W) + b, 0) accumulated over eight blocks of the contraction axis
  in a scratch buffer, and at the end the classifier h·W_c + b_c; the first 10000 rows are the result. The reference
  gathers the transformed rows at the messages' sources, scales them by the weights and sums them into the targets.

  On the extended reals the two agree whenever the index words are node numbers (0 ≤ w < 10000, which the precondition
  states): a weight is an inverse square root of a positive count or zero, hence non-negative, so a row of A against any
  column is the sum over the messages into the node of weight times the column at the source — whatever the column holds,
  an infinity included —; padding columns meet zero entries of A; the blocked accumulation is one sum regrouped; a change
  of float format is the identity. No finiteness of the float inputs is used.

  The frames: each program's run is followed segment by segment — host stretches and the seven kernel regions, the
  aggregation kernels' accumulator carried in the regions' invariant — to the contents of every buffer at the end.
-/
import proofs.«143928_j37108517437617_1_alg».proof.Defs
import proofs.«143928_j37108517437617_1_alg».proof.Proof.Gen.Kernel
import proofs.«143928_j37108517437617_1_alg».proof.Proof.Gen.KernelIdeal
import proofs.«143928_j37108517437617_1_alg».proof.Proof.Gen.ReferenceIdeal
import proofs.«143928_j37108517437617_1_alg».proof.Proof.Gen.Pre_finite_inputs
import proofs.«143928_j37108517437617_1_alg».proof.Proof.K.Args
import proofs.«143928_j37108517437617_1_alg».proof.Proof.KI.Args
import proofs.«143928_j37108517437617_1_alg».proof.Proof.KOut
import proofs.«143928_j37108517437617_1_alg».proof.Proof.RefAOut
import proofs.«143928_j37108517437617_1_alg».proof.Proof.PreRange
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel program as printed runs to its end and leaves its arguments as launched. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the message-passing network of the arguments in their result arrays. -/
theorem algebraic : Cert.algebraic_KernelIdeal_ReferenceIdeal := by
  intro m ρ m' ρ' hpre hagree
  have hr : ∀ c : Dev Cert.KernelIdeal.nD, Gcn.InRange (fun j e =>
      m ((c.tc : Thread Cert.KernelIdeal.nD Cert.KernelIdeal.τ).loc Cert.KernelIdeal.main_arg9) (ix2 j e)) :=
    fun c j e => Cert.Proof.PreRange.range_of_fn _ _ _ _ _ _ _ _ _ _ (hpre c) (ix2 j e)
  refine ⟨fun c => Cert.KernelIdeal.Fr.W15 m ρ c (Proc.devRef .tc Cert.KernelIdeal.main_v60), ?_, ?_⟩
  · exact (θ_run Cert.KernelIdeal.defs _ _).mono (fun r h c =>
      ⟨h c _ (Cert.KernelIdeal.Fr.mem_uc Cert.KernelIdeal.main_v60 (by decide)),
       (h c _ (Cert.KernelIdeal.Fr.mem_uc Cert.KernelIdeal.main_arg0 (by decide))).trans (Cert.KernelIdeal.Fr.W15_main_arg0 m ρ c),
       (h c _ (Cert.KernelIdeal.Fr.mem_uc Cert.KernelIdeal.main_arg1 (by decide))).trans (Cert.KernelIdeal.Fr.W15_main_arg1 m ρ c),
       (h c _ (Cert.KernelIdeal.Fr.mem_uc Cert.KernelIdeal.main_arg2 (by decide))).trans (Cert.KernelIdeal.Fr.W15_main_arg2 m ρ c),
       (h c _ (Cert.KernelIdeal.Fr.mem_uc Cert.KernelIdeal.main_arg3 (by decide))).trans (Cert.KernelIdeal.Fr.W15_main_arg3 m ρ c),
       (h c _ (Cert.KernelIdeal.Fr.mem_uc Cert.KernelIdeal.main_arg4 (by decide))).trans (Cert.KernelIdeal.Fr.W15_main_arg4 m ρ c),
       (h c _ (Cert.KernelIdeal.Fr.mem_uc Cert.KernelIdeal.main_arg5 (by decide))).trans (Cert.KernelIdeal.Fr.W15_main_arg5 m ρ c),
       (h c _ (Cert.KernelIdeal.Fr.mem_uc Cert.KernelIdeal.main_arg6 (by decide))).trans (Cert.KernelIdeal.Fr.W15_main_arg6 m ρ c),
       (h c _ (Cert.KernelIdeal.Fr.mem_uc Cert.KernelIdeal.main_arg7 (by decide))).trans (Cert.KernelIdeal.Fr.W15_main_arg7 m ρ c),
       (h c _ (Cert.KernelIdeal.Fr.mem_uc Cert.KernelIdeal.main_arg8 (by decide))).trans (Cert.KernelIdeal.Fr.W15_main_arg8 m ρ c),
       (h c _ (Cert.KernelIdeal.Fr.mem_uc Cert.KernelIdeal.main_arg9 (by decide))).trans (Cert.KernelIdeal.Fr.W15_main_arg9 m ρ c)⟩)
      (Cert.KernelIdeal.Fr.run_all (F := Ideal) m ρ)
  · refine (θ_run Cert.ReferenceIdeal.defs _ _).mono (fun _ h c => ⟨(h c).1.trans ?_, (h c).2⟩)
      (Cert.ReferenceIdeal.ValueP.run (F := Ideal) m' ρ')
    have hr' : Gcn.InRange (fun j e =>
        m' ((c.tc : Thread Cert.ReferenceIdeal.nD Cert.ReferenceIdeal.τ).loc Cert.ReferenceIdeal.main_arg9) (ix2 j e)) := by
      rw [(hagree c).2.2.2.2.2.2.2.2.2]; exact hr c
    rw [Cert.ReferenceIdeal.RefA.ref_out m' c hr']
    show _ = Cert.KernelIdeal.Fr.W15 m ρ c (Proc.devRef .tc Cert.KernelIdeal.main_v60)
    rw [Cert.KernelIdeal.KOut.ker_out m ρ c (hr c)]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
